-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S640000 : Shape := ⟨1, ![640000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg9 : FVec F S128 .f32) (main_arg10 : FVec F S128 .f32) (main_arg11 : FVec F S128 .f32) (main_arg12 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg6 : FVec F S128 .f32) (main_arg7 : FVec F S128x40 .f32) (main_arg8 : FVec F S40 .f32) (main_arg9 : FVec F S128 .f32) (main_arg10 : FVec F S128 .f32) (main_arg11 : FVec F S128 .f32) (main_arg12 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x40 .f32 := Host.absf main_arg7
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg8
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S640000 32) (main_arg2 : IVec S640000 32) (main_arg3 : FVec F S128x128 .f32) (main_arg4 : FVec F S128 .f32) (main_arg5 : FVec F S128x128 .f32) (main_arg6 : FVec F S128 .f32) (main_arg7 : FVec F S128x40 .f32) (main_arg8 : FVec F S40 .f32) (main_arg9 : FVec F S128 .f32) (main_arg10 : FVec F S128 .f32) (main_arg11 : FVec F S128 .f32) (main_arg12 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S640000 : Shape := ⟨1, ![640000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S100000 : Shape := ⟨1, ![100000]⟩
abbrev S740000 : Shape := ⟨1, ![740000]⟩
abbrev S_ : Shape := ⟨0, ![]⟩
abbrev S740000x1 : Shape := ⟨2, ![740000, 1]⟩
abbrev S5000x128 : Shape := ⟨2, ![5000, 128]⟩
abbrev S740000x128 : Shape := ⟨2, ![740000, 128]⟩
abbrev S1x128 : Shape := ⟨2, ![1, 128]⟩
abbrev S100000x40 : Shape := ⟨2, ![100000, 40]⟩
abbrev S5000x40 : Shape := ⟨2, ![5000, 40]⟩
abbrev S740000x40 : Shape := ⟨2, ![740000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 128
  | .vmem => 50
  | .smem => 0
  | _ => 0

abbrev bufTy : (tb : Table) → Fin (tcTables nBuf tb) → BufTy
  | .hbm, ⟨0, _⟩ => ⟨S100000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x40, .f32⟩
  | .hbm, ⟨8, _⟩ => ⟨S40, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S100000, .i32⟩
  | .hbm, ⟨14, _⟩ => ⟨S740000, .i32⟩
  | .hbm, ⟨15, _⟩ => ⟨S740000, .i32⟩
  | .hbm, ⟨16, _⟩ => ⟨S_, .f32⟩
  | .hbm, ⟨17, _⟩ => ⟨S740000, .f32⟩
  | .hbm, ⟨18, _⟩ => ⟨S_, .f32⟩
  | .hbm, ⟨19, _⟩ => ⟨S100000, .f32⟩
  | .hbm, ⟨20, _⟩ => ⟨S740000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S740000, .i32⟩
  | .hbm, ⟨28, _⟩ => ⟨S740000, .i1⟩
  | .hbm, ⟨29, _⟩ => ⟨S_, .i32⟩
  | .hbm, ⟨30, _⟩ => ⟨S740000, .i32⟩
  | .hbm, ⟨31, _⟩ => ⟨S740000, .i32⟩
  | .hbm, ⟨32, _⟩ => ⟨S740000, .i32⟩
  | .hbm, ⟨33, _⟩ => ⟨S740000x1, .i32⟩
  | .hbm, ⟨34, _⟩ => ⟨S740000, .f32⟩
  | .hbm, ⟨35, _⟩ => ⟨S_, .i32⟩
  | .hbm, ⟨36, _⟩ => ⟨S740000, .i32⟩
  | .hbm, ⟨37, _⟩ => ⟨S740000, .i1⟩
  | .hbm, ⟨38, _⟩ => ⟨S_, .i32⟩
  | .hbm, ⟨39, _⟩ => ⟨S740000, .i32⟩
  | .hbm, ⟨40, _⟩ => ⟨S740000, .i32⟩
  | .hbm, ⟨41, _⟩ => ⟨S740000, .i32⟩
  | .hbm, ⟨42, _⟩ => ⟨S740000x1, .i32⟩
  | .hbm, ⟨43, _⟩ => ⟨S740000, .f32⟩
  | .hbm, ⟨44, _⟩ => ⟨S740000, .f32⟩
  | .hbm, ⟨45, _⟩ => ⟨S100000x128, .f32⟩
  | .hbm, ⟨46, _⟩ => ⟨S_, .i32⟩
  | .hbm, ⟨47, _⟩ => ⟨S740000, .i32⟩
  | .hbm, ⟨48, _⟩ => ⟨S740000, .i1⟩
  | .hbm, ⟨49, _⟩ => ⟨S_, .i32⟩
  | .hbm, ⟨50, _⟩ => ⟨S740000, .i32⟩
  | .hbm, ⟨51, _⟩ => ⟨S740000, .i32⟩
  | .hbm, ⟨52, _⟩ => ⟨S740000, .i32⟩
  | .hbm, ⟨53, _⟩ => ⟨S740000x1, .i32⟩
  | .hbm, ⟨54, _⟩ => ⟨S740000x128, .f32⟩
  | .hbm, ⟨55, _⟩ => ⟨S740000x1, .f32⟩
  | .hbm, ⟨56, _⟩ => ⟨S740000x128, .f32⟩
  | .hbm, ⟨57, _⟩ => ⟨S740000x128, .f32⟩
  | .hbm, ⟨58, _⟩ => ⟨S_, .f32⟩
  | .hbm, ⟨59, _⟩ => ⟨S100000x128, .f32⟩
  | .hbm, ⟨60, _⟩ => ⟨S740000x1, .i32⟩
  | .hbm, ⟨61, _⟩ => ⟨S100000x128, .f32⟩
  | .hbm, ⟨62, _⟩ => ⟨S1x128, .f32⟩
  | .hbm, ⟨63, _⟩ => ⟨S100000x128, .f32⟩
  | .hbm, ⟨64, _⟩ => ⟨S1x128, .f32⟩
  | .hbm, ⟨65, _⟩ => ⟨S1x128, .f32⟩
  | .hbm, ⟨66, _⟩ => ⟨S_, .f32⟩
  | .hbm, ⟨67, _⟩ => ⟨S1x128, .f32⟩
  | .hbm, ⟨68, _⟩ => ⟨S1x128, .f32⟩
  | .hbm, ⟨69, _⟩ => ⟨S_, .f32⟩
  | .hbm, ⟨70, _⟩ => ⟨S1x128, .f32⟩
  | .hbm, ⟨71, _⟩ => ⟨S1x128, .f32⟩
  | .hbm, ⟨72, _⟩ => ⟨S1x128, .f32⟩
  | .hbm, ⟨73, _⟩ => ⟨S1x128, .f32⟩
  | .hbm, ⟨74, _⟩ => ⟨S1x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S_, .i32⟩
  | .hbm, ⟨79, _⟩ => ⟨S740000, .i32⟩
  | .hbm, ⟨80, _⟩ => ⟨S740000, .i1⟩
  | .hbm, ⟨81, _⟩ => ⟨S_, .i32⟩
  | .hbm, ⟨82, _⟩ => ⟨S740000, .i32⟩
  | .hbm, ⟨83, _⟩ => ⟨S740000, .i32⟩
  | .hbm, ⟨84, _⟩ => ⟨S740000, .i32⟩
  | .hbm, ⟨85, _⟩ => ⟨S740000x1, .i32⟩
  | .hbm, ⟨86, _⟩ => ⟨S740000x128, .f32⟩
  | .hbm, ⟨87, _⟩ => ⟨S740000x1, .f32⟩
  | .hbm, ⟨88, _⟩ => ⟨S740000x128, .f32⟩
  | .hbm, ⟨89, _⟩ => ⟨S740000x128, .f32⟩
  | .hbm, ⟨90, _⟩ => ⟨S_, .f32⟩
  | .hbm, ⟨91, _⟩ => ⟨S100000x128, .f32⟩
  | .hbm, ⟨92, _⟩ => ⟨S740000x1, .i32⟩
  | .hbm, ⟨93, _⟩ => ⟨S100000x128, .f32⟩
  | .hbm, ⟨94, _⟩ => ⟨S1x128, .f32⟩
  | .hbm, ⟨95, _⟩ => ⟨S100000x128, .f32⟩
  | .hbm, ⟨96, _⟩ => ⟨S1x128, .f32⟩
  | .hbm, ⟨97, _⟩ => ⟨S1x128, .f32⟩
  | .hbm, ⟨98, _⟩ => ⟨S_, .f32⟩
  | .hbm, ⟨99, _⟩ => ⟨S1x128, .f32⟩
  | .hbm, ⟨100, _⟩ => ⟨S1x128, .f32⟩
  | .hbm, ⟨101, _⟩ => ⟨S_, .f32⟩
  | .hbm, ⟨102, _⟩ => ⟨S1x128, .f32⟩
  | .hbm, ⟨103, _⟩ => ⟨S1x128, .f32⟩
  | .hbm, ⟨104, _⟩ => ⟨S1x128, .f32⟩
  | .hbm, ⟨105, _⟩ => ⟨S1x128, .f32⟩
  | .hbm, ⟨106, _⟩ => ⟨S1x128, .f32⟩
  | .hbm, ⟨107, _⟩ => ⟨S1x128, .f32⟩
  | .hbm, ⟨108, _⟩ => ⟨S100000x128, .f32⟩
  | .hbm, ⟨109, _⟩ => ⟨S100000x40, .f32⟩
  | .hbm, ⟨110, _⟩ => ⟨S_, .i32⟩
  | .hbm, ⟨111, _⟩ => ⟨S740000, .i32⟩
  | .hbm, ⟨112, _⟩ => ⟨S740000, .i1⟩
  | .hbm, ⟨113, _⟩ => ⟨S_, .i32⟩
  | .hbm, ⟨114, _⟩ => ⟨S740000, .i32⟩
  | .hbm, ⟨115, _⟩ => ⟨S740000, .i32⟩
  | .hbm, ⟨116, _⟩ => ⟨S740000, .i32⟩
  | .hbm, ⟨117, _⟩ => ⟨S740000x1, .i32⟩
  | .hbm, ⟨118, _⟩ => ⟨S740000x40, .f32⟩
  | .hbm, ⟨119, _⟩ => ⟨S740000x1, .f32⟩
  | .hbm, ⟨120, _⟩ => ⟨S740000x40, .f32⟩
  | .hbm, ⟨121, _⟩ => ⟨S740000x40, .f32⟩
  | .hbm, ⟨122, _⟩ => ⟨S_, .f32⟩
  | .hbm, ⟨123, _⟩ => ⟨S100000x40, .f32⟩
  | .hbm, ⟨124, _⟩ => ⟨S740000x1, .i32⟩
  | .hbm, ⟨125, _⟩ => ⟨S100000x40, .f32⟩
  | .hbm, ⟨126, _⟩ => ⟨S1x40, .f32⟩
  | .hbm, ⟨127, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S1x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S128x40, .f32⟩
  | .local _ .vmem, ⟨43, _⟩ => ⟨S5000x40, .f32⟩
  | .local _ .vmem, ⟨44, _⟩ => ⟨S5000x40, .f32⟩
  | .local _ .vmem, ⟨45, _⟩ => ⟨S5000x40, .f32⟩
  | .local _ .vmem, ⟨46, _⟩ => ⟨S5000x40, .f32⟩
  | .local _ .vmem, ⟨47, _⟩ => ⟨S1x40, .f32⟩
  | .local _ .vmem, ⟨48, _⟩ => ⟨S5000x40, .f32⟩
  | .local _ .vmem, ⟨49, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_1 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_c : Ref sig .tc := ⟨.hbm, 26, rfl⟩
abbrev main_v10 : Ref sig .tc := ⟨.hbm, 27, rfl⟩
abbrev main_v11 : Ref sig .tc := ⟨.hbm, 28, rfl⟩
abbrev main_c_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_c_6 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_7 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40_0 : Ref sig .tc := ⟨.hbm, 63, rfl⟩
abbrev main_v40_1 : Ref sig .tc := ⟨.hbm, 64, rfl⟩
abbrev main_v40_2 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_cst_9 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_c_11 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_12 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65_0 : Ref sig .tc := ⟨.hbm, 95, rfl⟩
abbrev main_v65_1 : Ref sig .tc := ⟨.hbm, 96, rfl⟩
abbrev main_v65_2 : Ref sig .tc := ⟨.hbm, 97, rfl⟩
abbrev main_cst_13 : Ref sig .tc := ⟨.hbm, 98, rfl⟩
abbrev main_v66 : Ref sig .tc := ⟨.hbm, 99, rfl⟩
abbrev main_v67 : Ref sig .tc := ⟨.hbm, 100, rfl⟩
abbrev main_cst_14 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_c_15 : Ref sig .tc := ⟨.hbm, 110, rfl⟩
abbrev main_v76 : Ref sig .tc := ⟨.hbm, 111, rfl⟩
abbrev main_v77 : Ref sig .tc := ⟨.hbm, 112, rfl⟩
abbrev main_c_16 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_cst_17 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg5_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg2_1 : Ref sig .tc := ⟨.vmem, 29, rfl⟩
abbrev cc4_stg3_0 : Ref sig .tc := ⟨.vmem, 30, rfl⟩
abbrev cc4_stg4_0 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg2_0 : Ref sig .tc := ⟨.vmem, 35, rfl⟩
abbrev cc5_stg3_0 : Ref sig .tc := ⟨.vmem, 36, rfl⟩
abbrev cc5_stg4_0 : Ref sig .tc := ⟨.vmem, 37, rfl⟩
abbrev cc5_stg5_0 : Ref sig .tc := ⟨.vmem, 38, rfl⟩
abbrev cc5_stg5_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg2_0 : Ref sig .tc := ⟨.vmem, 43, rfl⟩
abbrev cc6_stg2_1 : Ref sig .tc := ⟨.vmem, 44, rfl⟩
abbrev cc7_stg0_0 : Ref sig .tc := ⟨.vmem, 45, rfl⟩
abbrev cc7_stg0_1 : Ref sig .tc := ⟨.vmem, 46, rfl⟩
abbrev cc7_stg1_0 : Ref sig .tc := ⟨.vmem, 47, rfl⟩
abbrev cc7_stg2_0 : Ref sig .tc := ⟨.vmem, 48, rfl⟩
abbrev cc7_stg2_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem5_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem2_0 : DmaSem sig := 28
abbrev cc4_sem2_1 : DmaSem sig := 29
abbrev cc4_sem3_0 : DmaSem sig := 30
abbrev cc4_sem4_0 : DmaSem sig := 31
abbrev cc5_sem0_0 : DmaSem sig := 32
abbrev cc5_sem0_1 : DmaSem sig := 33
abbrev cc5_sem1_0 : DmaSem sig := 34
abbrev cc5_sem2_0 : DmaSem sig := 35
abbrev cc5_sem3_0 : DmaSem sig := 36
abbrev cc5_sem4_0 : DmaSem sig := 37
abbrev cc5_sem5_0 : DmaSem sig := 38
abbrev cc5_sem5_1 : DmaSem sig := 39
abbrev cc6_sem0_0 : DmaSem sig := 40
abbrev cc6_sem0_1 : DmaSem sig := 41
abbrev cc6_sem1_0 : DmaSem sig := 42
abbrev cc6_sem2_0 : DmaSem sig := 43
abbrev cc6_sem2_1 : DmaSem sig := 44
abbrev cc7_sem0_0 : DmaSem sig := 45
abbrev cc7_sem0_1 : DmaSem sig := 46
abbrev cc7_sem1_0 : DmaSem sig := 47
abbrev cc7_sem2_0 : DmaSem sig := 48
abbrev cc7_sem2_1 : DmaSem sig := 49

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x40 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x40 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x40 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x40 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x40 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

class Facts₀ : Prop where
  concatenates_S640000_S100000_S740000_d0 : Shape.Concatenates [S640000, S100000] S740000 0
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S740000x1_S740000x128_0_1 : S740000x1.BroadcastsInDim S740000x128 (![0, 1] : Fin 2 → Fin S740000x128.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S5000x128_S5000x128 : S5000x128.ShapeCasts S5000x128
  shapeCasts_S1x128_S1x128 : S1x128.ShapeCasts S1x128
  broadcasts_S1x128_S5000x128 : S1x128.Broadcasts S5000x128
  reduces_S5000x128_S128 : S5000x128.Reduces [0] S128
  bcast_S_S1x128 : S_.BroadcastsInDim S1x128 (![] : Fin 0 → Fin S1x128.rank)
  inb_S128x40_S128x40_0_0 : ∀ a, (![0, 0] : Fin 2 → Nat) a + S128x40.size a ≤ S128x40.size a
  h_S128x40 : 0 < S128x40.numel
  inb_S5000x40_S5000x40_0_0 : ∀ a, (![0, 0] : Fin 2 → Nat) a + S5000x40.size a ≤ S5000x40.size a
  h_S5000x40 : 0 < S5000x40.numel
  bcast_S740000x1_S740000x40_0_1 : S740000x1.BroadcastsInDim S740000x40 (![0, 1] : Fin 2 → Fin S740000x40.rank)
  bcast_S_S100000x40 : S_.BroadcastsInDim S100000x40 (![] : Fin 0 → Fin S100000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  dot_S5000x128_S128x128_S5000x128_1_0_0_1_n_n_wf : DotDims.WF S5000x128 S128x128 S5000x128 [1] [0] [0] [1] [] []
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1
  dot_S5000x128_S128x40_S5000x40_1_0_0_1_n_n_wf : DotDims.WF S5000x128 S128x40 S5000x40 [1] [0] [0] [1] [] []
  gather_S100000x40_S740000x1_S740000x40_1_0_n_n_0_1_140_wf : GatherDims.WF S100000x40 S740000x1 S740000x40 [1] [0] [] [0] [] 1 ![1, 40]
  scatter_S100000x40_S740000x1_S740000x40_1_0_0_1_wf : ScatterDims.WF S100000x40 S740000x1 S740000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S100000x128.size a
  hwx5_5 : ∀ i : grid5.Coords, EltTy.bits .f32 = 32 ∨ (Rect.block (s := S100000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x40.size a ≤ S128x40.size a
  hwx6_1 : ∀ i : grid6.Coords, EltTy.bits .f32 = 32 ∨ (Rect.block (s := S128x40) S128x40.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x40.size a ≤ S100000x40.size a
  hwx6_2 : ∀ i : grid6.Coords, EltTy.bits .f32 = 32 ∨ (Rect.block (s := S100000x40) S5000x40.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x40.size a ≤ S100000x40.size a
  hwx7_0 : ∀ i : grid7.Coords, EltTy.bits .f32 = 32 ∨ (Rect.block (s := S100000x40) S5000x40.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x40.size a ≤ S1x40.size a
  hwx7_1 : ∀ i : grid7.Coords, EltTy.bits .f32 = 32 ∨ (Rect.block (s := S1x40) S1x40.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x40.size a ≤ S100000x40.size a
  hwx7_2 : ∀ i : grid7.Coords, EltTy.bits .f32 = 32 ∨ (Rect.block (s := S100000x40) S5000x40.size (cc7_transform_2 i) (hinb7_2 i)).WholeWords (EltTy.packing .f32)

variable [Facts₀]

def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S100000x40_S740000x1_S740000x40_1_0_n_n_0_1_140 : GatherDims S100000x40 S740000x1 S740000x40 where
  offsetDims := [1]
  collapsedSliceDims := [0]
  operandBatchingDims := []
  startIndicesBatchingDims := []
  startIndexMap := [0]
  indexVectorDim := 1
  sliceSizes := ![1, 40]
  wf := gather_S100000x40_S740000x1_S740000x40_1_0_n_n_0_1_140_wf
def scatter_S100000x40_S740000x1_S740000x40_1_0_0_1 : ScatterDims S100000x40 S740000x1 S740000x40 where
  updateWindowDims := [1]
  insertedWindowDims := [0]
  scatterDimsToOperandDims := [0]
  indexVectorDim := 1
  wf := scatter_S100000x40_S740000x1_S740000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v38) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v40_0) S5000x128.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v40_1) S1x128.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40_2) S1x128.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v40_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v42) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v47) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v48) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v49) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v49) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v50) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v64) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v65_0) S5000x128.size cc4_transform_2 reads4_2 true false 2 stage4_2 sem4_2
    hrank4 hreads4_2 hinb4_2 nbuf4_2 (Memref.isWhole_whole _) hwx4_2 hstage4_2

abbrev win4_3 : Pipeline.Window sig grid4 :=
  Pipeline.Window.ofSpec (Memref.whole main_v65_1) S1x128.size cc4_transform_3 reads4_3 true true 1 stage4_3 sem4_3
    hrank4 hreads4_3 hinb4_3 nbuf4_3 (Memref.isWhole_whole _) hwx4_3 hstage4_3

abbrev win4_4 : Pipeline.Window sig grid4 :=
  Pipeline.Window.ofSpec (Memref.whole main_v65_2) S1x128.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v65_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v67) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v71) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v72) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v73) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v74) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v74) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg7) S128x40.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v75) S5000x40.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v88) S5000x40.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v89) S1x40.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v90) S5000x40.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S100000x128 : Shape := ⟨2, ![100000, 128]⟩
abbrev S640000 : Shape := ⟨1, ![640000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S100000 : Shape := ⟨1, ![100000]⟩
abbrev S740000 : Shape := ⟨1, ![740000]⟩
abbrev S_ : Shape := ⟨0, ![]⟩
abbrev S740000x1 : Shape := ⟨2, ![740000, 1]⟩
abbrev S740000x128 : Shape := ⟨2, ![740000, 128]⟩
abbrev S1x128 : Shape := ⟨2, ![1, 128]⟩
abbrev S100000x40 : Shape := ⟨2, ![100000, 40]⟩
abbrev S740000x40 : Shape := ⟨2, ![740000, 40]⟩
abbrev S1x40 : Shape := ⟨2, ![1, 40]⟩
abbrev S100000x1 : Shape := ⟨2, ![100000, 1]⟩

abbrev nBuf : Space → Nat
  | .hbm => 214
  | .vmem => 0
  | .smem => 0
  | _ => 0

abbrev hbmTy0_0 (i : Nat) : BufTy := match i % 128 with
  | 0 => ⟨S100000x128, .f32⟩
  | 1 => ⟨S640000, .i32⟩
  | 2 => ⟨S640000, .i32⟩
  | 3 => ⟨S128x128, .f32⟩
  | 4 => ⟨S128, .f32⟩
  | 5 => ⟨S128x128, .f32⟩
  | 6 => ⟨S128, .f32⟩
  | 7 => ⟨S128x40, .f32⟩
  | 8 => ⟨S40, .f32⟩
  | 9 => ⟨S128, .f32⟩
  | 10 => ⟨S128, .f32⟩
  | 11 => ⟨S128, .f32⟩
  | 12 => ⟨S128, .f32⟩
  | 13 => ⟨S100000, .i32⟩
  | 14 => ⟨S740000, .i32⟩
  | 15 => ⟨S740000, .i32⟩
  | 16 => ⟨S_, .f32⟩
  | 17 => ⟨S740000, .f32⟩
  | 18 => ⟨S_, .f32⟩
  | 19 => ⟨S100000, .f32⟩
  | 20 => ⟨S740000x1, .i32⟩
  | 21 => ⟨S100000, .f32⟩
  | 22 => ⟨S_, .f32⟩
  | 23 => ⟨S100000, .f32⟩
  | 24 => ⟨S100000, .f32⟩
  | 25 => ⟨S100000, .f32⟩
  | 26 => ⟨S_, .i32⟩
  | 27 => ⟨S740000, .i32⟩
  | 28 => ⟨S740000, .i1⟩
  | 29 => ⟨S_, .i32⟩
  | 30 => ⟨S740000, .i32⟩
  | 31 => ⟨S740000, .i32⟩
  | 32 => ⟨S740000, .i32⟩
  | 33 => ⟨S740000x1, .i32⟩
  | 34 => ⟨S740000, .f32⟩
  | 35 => ⟨S_, .i32⟩
  | 36 => ⟨S740000, .i32⟩
  | 37 => ⟨S740000, .i1⟩
  | 38 => ⟨S_, .i32⟩
  | 39 => ⟨S740000, .i32⟩
  | 40 => ⟨S740000, .i32⟩
  | 41 => ⟨S740000, .i32⟩
  | 42 => ⟨S740000x1, .i32⟩
  | 43 => ⟨S740000, .f32⟩
  | 44 => ⟨S740000, .f32⟩
  | 45 => ⟨S100000x128, .f32⟩
  | 46 => ⟨S_, .i32⟩
  | 47 => ⟨S740000, .i32⟩
  | 48 => ⟨S740000, .i1⟩
  | 49 => ⟨S_, .i32⟩
  | 50 => ⟨S740000, .i32⟩
  | 51 => ⟨S740000, .i32⟩
  | 52 => ⟨S740000, .i32⟩
  | 53 => ⟨S740000x1, .i32⟩
  | 54 => ⟨S740000x128, .f32⟩
  | 55 => ⟨S740000x1, .f32⟩
  | 56 => ⟨S740000x128, .f32⟩
  | 57 => ⟨S740000x128, .f32⟩
  | 58 => ⟨S_, .f32⟩
  | 59 => ⟨S100000x128, .f32⟩
  | 60 => ⟨S740000x1, .i32⟩
  | 61 => ⟨S100000x128, .f32⟩
  | 62 => ⟨S1x128, .f32⟩
  | 63 => ⟨S100000x128, .f32⟩
  | 64 => ⟨S100000x128, .f32⟩
  | 65 => ⟨S_, .f32⟩
  | 66 => ⟨S128, .f32⟩
  | 67 => ⟨S_, .f32⟩
  | 68 => ⟨S128, .f32⟩
  | 69 => ⟨S128, .f32⟩
  | 70 => ⟨S_, .i32⟩
  | 71 => ⟨S_, .f32⟩
  | 72 => ⟨S128, .f32⟩
  | 73 => ⟨S1x128, .f32⟩
  | 74 => ⟨S_, .f32⟩
  | 75 => ⟨S1x128, .f32⟩
  | 76 => ⟨S1x128, .f32⟩
  | 77 => ⟨S100000x128, .f32⟩
  | 78 => ⟨S100000x128, .f32⟩
  | 79 => ⟨S100000x128, .f32⟩
  | 80 => ⟨S_, .f32⟩
  | 81 => ⟨S_, .f32⟩
  | 82 => ⟨S_, .f32⟩
  | 83 => ⟨S_, .f32⟩
  | 84 => ⟨S128, .f32⟩
  | 85 => ⟨S128, .f32⟩
  | 86 => ⟨S128, .f32⟩
  | 87 => ⟨S_, .f32⟩
  | 88 => ⟨S_, .i1⟩
  | 89 => ⟨S_, .f32⟩
  | 90 => ⟨S_, .f32⟩
  | 91 => ⟨S128, .f32⟩
  | 92 => ⟨S128, .f32⟩
  | 93 => ⟨S1x128, .f32⟩
  | 94 => ⟨S100000x128, .f32⟩
  | 95 => ⟨S100000x128, .f32⟩
  | 96 => ⟨S_, .f32⟩
  | 97 => ⟨S128, .f32⟩
  | 98 => ⟨S128, .f32⟩
  | 99 => ⟨S128, .f32⟩
  | 100 => ⟨S1x128, .f32⟩
  | 101 => ⟨S100000x128, .f32⟩
  | 102 => ⟨S100000x128, .f32⟩
  | 103 => ⟨S1x128, .f32⟩
  | 104 => ⟨S100000x128, .f32⟩
  | 105 => ⟨S100000x128, .f32⟩
  | 106 => ⟨S1x128, .f32⟩
  | 107 => ⟨S100000x128, .f32⟩
  | 108 => ⟨S100000x128, .f32⟩
  | 109 => ⟨S_, .f32⟩
  | 110 => ⟨S100000x128, .f32⟩
  | 111 => ⟨S100000x128, .f32⟩
  | 112 => ⟨S100000x128, .f32⟩
  | 113 => ⟨S_, .i32⟩
  | 114 => ⟨S740000, .i32⟩
  | 115 => ⟨S740000, .i1⟩
  | 116 => ⟨S_, .i32⟩
  | 117 => ⟨S740000, .i32⟩
  | 118 => ⟨S740000, .i32⟩
  | 119 => ⟨S740000, .i32⟩
  | 120 => ⟨S740000x1, .i32⟩
  | 121 => ⟨S740000x128, .f32⟩
  | 122 => ⟨S740000x1, .f32⟩
  | 123 => ⟨S740000x128, .f32⟩
  | 124 => ⟨S740000x128, .f32⟩
  | 125 => ⟨S_, .f32⟩
  | 126 => ⟨S100000x128, .f32⟩
  | 127 => ⟨S740000x1, .i32⟩
  | _ => ⟨S100000x128, .f32⟩

abbrev hbmTy0_1 (i : Nat) : BufTy := match i % 128 with
  | 0 => ⟨S100000x128, .f32⟩
  | 1 => ⟨S1x128, .f32⟩
  | 2 => ⟨S100000x128, .f32⟩
  | 3 => ⟨S100000x128, .f32⟩
  | 4 => ⟨S_, .f32⟩
  | 5 => ⟨S128, .f32⟩
  | 6 => ⟨S_, .f32⟩
  | 7 => ⟨S128, .f32⟩
  | 8 => ⟨S128, .f32⟩
  | 9 => ⟨S_, .i32⟩
  | 10 => ⟨S_, .f32⟩
  | 11 => ⟨S128, .f32⟩
  | 12 => ⟨S1x128, .f32⟩
  | 13 => ⟨S_, .f32⟩
  | 14 => ⟨S1x128, .f32⟩
  | 15 => ⟨S1x128, .f32⟩
  | 16 => ⟨S100000x128, .f32⟩
  | 17 => ⟨S100000x128, .f32⟩
  | 18 => ⟨S100000x128, .f32⟩
  | 19 => ⟨S_, .f32⟩
  | 20 => ⟨S_, .f32⟩
  | 21 => ⟨S_, .f32⟩
  | 22 => ⟨S_, .f32⟩
  | 23 => ⟨S128, .f32⟩
  | 24 => ⟨S128, .f32⟩
  | 25 => ⟨S128, .f32⟩
  | 26 => ⟨S_, .f32⟩
  | 27 => ⟨S_, .i1⟩
  | 28 => ⟨S_, .f32⟩
  | 29 => ⟨S_, .f32⟩
  | 30 => ⟨S128, .f32⟩
  | 31 => ⟨S128, .f32⟩
  | 32 => ⟨S1x128, .f32⟩
  | 33 => ⟨S100000x128, .f32⟩
  | 34 => ⟨S100000x128, .f32⟩
  | 35 => ⟨S_, .f32⟩
  | 36 => ⟨S128, .f32⟩
  | 37 => ⟨S128, .f32⟩
  | 38 => ⟨S128, .f32⟩
  | 39 => ⟨S1x128, .f32⟩
  | 40 => ⟨S100000x128, .f32⟩
  | 41 => ⟨S100000x128, .f32⟩
  | 42 => ⟨S1x128, .f32⟩
  | 43 => ⟨S100000x128, .f32⟩
  | 44 => ⟨S100000x128, .f32⟩
  | 45 => ⟨S1x128, .f32⟩
  | 46 => ⟨S100000x128, .f32⟩
  | 47 => ⟨S100000x128, .f32⟩
  | 48 => ⟨S_, .f32⟩
  | 49 => ⟨S100000x128, .f32⟩
  | 50 => ⟨S100000x128, .f32⟩
  | 51 => ⟨S100000x40, .f32⟩
  | 52 => ⟨S_, .i32⟩
  | 53 => ⟨S740000, .i32⟩
  | 54 => ⟨S740000, .i1⟩
  | 55 => ⟨S_, .i32⟩
  | 56 => ⟨S740000, .i32⟩
  | 57 => ⟨S740000, .i32⟩
  | 58 => ⟨S740000, .i32⟩
  | 59 => ⟨S740000x1, .i32⟩
  | 60 => ⟨S740000x40, .f32⟩
  | 61 => ⟨S740000x1, .f32⟩
  | 62 => ⟨S740000x40, .f32⟩
  | 63 => ⟨S740000x40, .f32⟩
  | 64 => ⟨S_, .f32⟩
  | 65 => ⟨S100000x40, .f32⟩
  | 66 => ⟨S740000x1, .i32⟩
  | 67 => ⟨S100000x40, .f32⟩
  | 68 => ⟨S1x40, .f32⟩
  | 69 => ⟨S100000x40, .f32⟩
  | 70 => ⟨S100000x40, .f32⟩
  | 71 => ⟨S_, .f32⟩
  | 72 => ⟨S100000, .f32⟩
  | 73 => ⟨S_, .f32⟩
  | 74 => ⟨S100000, .f32⟩
  | 75 => ⟨S100000, .f32⟩
  | 76 => ⟨S100000x1, .f32⟩
  | 77 => ⟨S100000x40, .f32⟩
  | 78 => ⟨S100000x40, .f32⟩
  | 79 => ⟨S100000x40, .f32⟩
  | 80 => ⟨S_, .f32⟩
  | 81 => ⟨S100000, .f32⟩
  | 82 => ⟨S100000x1, .f32⟩
  | 83 => ⟨S100000x1, .f32⟩
  | 84 => ⟨S100000x40, .f32⟩
  | 85 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_1 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_c : Ref sig .tc := ⟨.hbm, 26, rfl⟩
abbrev main_v10 : Ref sig .tc := ⟨.hbm, 27, rfl⟩
abbrev main_v11 : Ref sig .tc := ⟨.hbm, 28, rfl⟩
abbrev main_c_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_c_6 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_7 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_8 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_c_10 : Ref sig .tc := ⟨.hbm, 70, rfl⟩
abbrev main_call0_cst : Ref sig .tc := ⟨.hbm, 71, rfl⟩
abbrev main_call0_v0 : Ref sig .tc := ⟨.hbm, 72, rfl⟩
abbrev main_call0_v1 : Ref sig .tc := ⟨.hbm, 73, rfl⟩
abbrev main_call0_cst_0 : Ref sig .tc := ⟨.hbm, 74, rfl⟩
abbrev main_call0_v2 : Ref sig .tc := ⟨.hbm, 75, rfl⟩
abbrev main_call0_v3 : Ref sig .tc := ⟨.hbm, 76, rfl⟩
abbrev main_call0_v4 : Ref sig .tc := ⟨.hbm, 77, rfl⟩
abbrev main_call0_v5 : Ref sig .tc := ⟨.hbm, 78, rfl⟩
abbrev main_call0_v6 : Ref sig .tc := ⟨.hbm, 79, rfl⟩
abbrev main_call0_v7 : Ref sig .tc := ⟨.hbm, 80, rfl⟩
abbrev main_call0_cst_1 : Ref sig .tc := ⟨.hbm, 81, rfl⟩
abbrev main_call0_v8 : Ref sig .tc := ⟨.hbm, 82, rfl⟩
abbrev main_call0_cst_2 : Ref sig .tc := ⟨.hbm, 83, rfl⟩
abbrev main_call0_v9 : Ref sig .tc := ⟨.hbm, 84, rfl⟩
abbrev main_call0_v10 : Ref sig .tc := ⟨.hbm, 85, rfl⟩
abbrev main_call0_v11 : Ref sig .tc := ⟨.hbm, 86, rfl⟩
abbrev main_call0_cst_3 : Ref sig .tc := ⟨.hbm, 87, rfl⟩
abbrev main_call0_v12 : Ref sig .tc := ⟨.hbm, 88, rfl⟩
abbrev main_call0_cst_4 : Ref sig .tc := ⟨.hbm, 89, rfl⟩
abbrev main_call0_call0_v0 : Ref sig .tc := ⟨.hbm, 90, rfl⟩
abbrev main_call0_call0_v1 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_cst_11 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_call1_cst : Ref sig .tc := ⟨.hbm, 109, rfl⟩
abbrev main_call1_v0 : Ref sig .tc := ⟨.hbm, 110, rfl⟩
abbrev main_v61 : Ref sig .tc := ⟨.hbm, 111, rfl⟩
abbrev main_v62 : Ref sig .tc := ⟨.hbm, 112, rfl⟩
abbrev main_c_12 : Ref sig .tc := ⟨.hbm, 113, rfl⟩
abbrev main_v63 : Ref sig .tc := ⟨.hbm, 114, rfl⟩
abbrev main_v64 : Ref sig .tc := ⟨.hbm, 115, rfl⟩
abbrev main_c_13 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_cst_14 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_cst_15 : Ref sig .tc := ⟨.hbm, 132, rfl⟩
abbrev main_v79 : Ref sig .tc := ⟨.hbm, 133, rfl⟩
abbrev main_cst_16 : Ref sig .tc := ⟨.hbm, 134, rfl⟩
abbrev main_v80 : Ref sig .tc := ⟨.hbm, 135, rfl⟩
abbrev main_v81 : Ref sig .tc := ⟨.hbm, 136, rfl⟩
abbrev main_c_17 : Ref sig .tc := ⟨.hbm, 137, rfl⟩
abbrev main_call2_cst : Ref sig .tc := ⟨.hbm, 138, rfl⟩
abbrev main_call2_v0 : Ref sig .tc := ⟨.hbm, 139, rfl⟩
abbrev main_call2_v1 : Ref sig .tc := ⟨.hbm, 140, rfl⟩
abbrev main_call2_cst_0 : Ref sig .tc := ⟨.hbm, 141, rfl⟩
abbrev main_call2_v2 : Ref sig .tc := ⟨.hbm, 142, rfl⟩
abbrev main_call2_v3 : Ref sig .tc := ⟨.hbm, 143, rfl⟩
abbrev main_call2_v4 : Ref sig .tc := ⟨.hbm, 144, rfl⟩
abbrev main_call2_v5 : Ref sig .tc := ⟨.hbm, 145, rfl⟩
abbrev main_call2_v6 : Ref sig .tc := ⟨.hbm, 146, rfl⟩
abbrev main_call2_v7 : Ref sig .tc := ⟨.hbm, 147, rfl⟩
abbrev main_call2_cst_1 : Ref sig .tc := ⟨.hbm, 148, rfl⟩
abbrev main_call2_v8 : Ref sig .tc := ⟨.hbm, 149, rfl⟩
abbrev main_call2_cst_2 : Ref sig .tc := ⟨.hbm, 150, rfl⟩
abbrev main_call2_v9 : Ref sig .tc := ⟨.hbm, 151, rfl⟩
abbrev main_call2_v10 : Ref sig .tc := ⟨.hbm, 152, rfl⟩
abbrev main_call2_v11 : Ref sig .tc := ⟨.hbm, 153, rfl⟩
abbrev main_call2_cst_3 : Ref sig .tc := ⟨.hbm, 154, rfl⟩
abbrev main_call2_v12 : Ref sig .tc := ⟨.hbm, 155, rfl⟩
abbrev main_call2_cst_4 : Ref sig .tc := ⟨.hbm, 156, rfl⟩
abbrev main_call2_call0_v0 : Ref sig .tc := ⟨.hbm, 157, rfl⟩
abbrev main_call2_call0_v1 : Ref sig .tc := ⟨.hbm, 158, rfl⟩
abbrev main_v82 : Ref sig .tc := ⟨.hbm, 159, rfl⟩
abbrev main_v83 : Ref sig .tc := ⟨.hbm, 160, rfl⟩
abbrev main_v84 : Ref sig .tc := ⟨.hbm, 161, rfl⟩
abbrev main_v85 : Ref sig .tc := ⟨.hbm, 162, rfl⟩
abbrev main_cst_18 : Ref sig .tc := ⟨.hbm, 163, rfl⟩
abbrev main_v86 : Ref sig .tc := ⟨.hbm, 164, rfl⟩
abbrev main_v87 : Ref sig .tc := ⟨.hbm, 165, rfl⟩
abbrev main_v88 : Ref sig .tc := ⟨.hbm, 166, rfl⟩
abbrev main_v89 : Ref sig .tc := ⟨.hbm, 167, rfl⟩
abbrev main_v90 : Ref sig .tc := ⟨.hbm, 168, rfl⟩
abbrev main_v91 : Ref sig .tc := ⟨.hbm, 169, rfl⟩
abbrev main_v92 : Ref sig .tc := ⟨.hbm, 170, rfl⟩
abbrev main_v93 : Ref sig .tc := ⟨.hbm, 171, rfl⟩
abbrev main_v94 : Ref sig .tc := ⟨.hbm, 172, rfl⟩
abbrev main_v95 : Ref sig .tc := ⟨.hbm, 173, rfl⟩
abbrev main_v96 : Ref sig .tc := ⟨.hbm, 174, rfl⟩
abbrev main_v97 : Ref sig .tc := ⟨.hbm, 175, rfl⟩
abbrev main_call3_cst : Ref sig .tc := ⟨.hbm, 176, rfl⟩
abbrev main_call3_v0 : Ref sig .tc := ⟨.hbm, 177, rfl⟩
abbrev main_v98 : Ref sig .tc := ⟨.hbm, 178, rfl⟩
abbrev main_v99 : Ref sig .tc := ⟨.hbm, 179, rfl⟩
abbrev main_c_19 : Ref sig .tc := ⟨.hbm, 180, rfl⟩
abbrev main_v100 : Ref sig .tc := ⟨.hbm, 181, rfl⟩
abbrev main_v101 : Ref sig .tc := ⟨.hbm, 182, rfl⟩
abbrev main_c_20 : Ref sig .tc := ⟨.hbm, 183, rfl⟩
abbrev main_v102 : Ref sig .tc := ⟨.hbm, 184, rfl⟩
abbrev main_v103 : Ref sig .tc := ⟨.hbm, 185, rfl⟩
abbrev main_v104 : Ref sig .tc := ⟨.hbm, 186, rfl⟩
abbrev main_v105 : Ref sig .tc := ⟨.hbm, 187, rfl⟩
abbrev main_v106 : Ref sig .tc := ⟨.hbm, 188, rfl⟩
abbrev main_v107 : Ref sig .tc := ⟨.hbm, 189, rfl⟩
abbrev main_v108 : Ref sig .tc := ⟨.hbm, 190, rfl⟩
abbrev main_v109 : Ref sig .tc := ⟨.hbm, 191, rfl⟩
abbrev main_cst_21 : Ref sig .tc := ⟨.hbm, 192, rfl⟩
abbrev main_v110 : Ref sig .tc := ⟨.hbm, 193, rfl⟩
abbrev main_v111 : Ref sig .tc := ⟨.hbm, 194, rfl⟩
abbrev main_v112 : Ref sig .tc := ⟨.hbm, 195, rfl⟩
abbrev main_v113 : Ref sig .tc := ⟨.hbm, 196, rfl⟩
abbrev main_v114 : Ref sig .tc := ⟨.hbm, 197, rfl⟩
abbrev main_v115 : Ref sig .tc := ⟨.hbm, 198, rfl⟩
abbrev main_call4_cst : Ref sig .tc := ⟨.hbm, 199, rfl⟩
abbrev main_call4_v0 : Ref sig .tc := ⟨.hbm, 200, rfl⟩
abbrev main_call4_cst_0 : Ref sig .tc := ⟨.hbm, 201, rfl⟩
abbrev main_call4_v1 : Ref sig .tc := ⟨.hbm, 202, rfl⟩
abbrev main_call4_v2 : Ref sig .tc := ⟨.hbm, 203, rfl⟩
abbrev main_call4_v3 : Ref sig .tc := ⟨.hbm, 204, rfl⟩
abbrev main_call4_v4 : Ref sig .tc := ⟨.hbm, 205, rfl⟩
abbrev main_call4_v5 : Ref sig .tc := ⟨.hbm, 206, rfl⟩
abbrev main_call4_v6 : Ref sig .tc := ⟨.hbm, 207, rfl⟩
abbrev main_call4_cst_1 : Ref sig .tc := ⟨.hbm, 208, rfl⟩
abbrev main_call4_v7 : Ref sig .tc := ⟨.hbm, 209, rfl⟩
abbrev main_call4_v8 : Ref sig .tc := ⟨.hbm, 210, rfl⟩
abbrev main_call4_v9 : Ref sig .tc := ⟨.hbm, 211, rfl⟩
abbrev main_call4_v10 : Ref sig .tc := ⟨.hbm, 212, rfl⟩
abbrev main_v116 : Ref sig .tc := ⟨.hbm, 213, rfl⟩

abbrev nD : Nat := 1
abbrev τ : Topo := Topo.v7x

variable {F : FTy → Type} [FloatOps F]

class Facts₀ : Prop where
  concatenates_S640000_S100000_S740000_d0 : Shape.Concatenates [S640000, S100000] S740000 0
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  bcast_S740000x1_S740000x128_0_1 : S740000x1.BroadcastsInDim S740000x128 (![0, 1] : Fin 2 → Fin S740000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S740000x1_S740000x40_0_1 : S740000x1.BroadcastsInDim S740000x40 (![0, 1] : Fin 2 → Fin S740000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  dot_S100000x128_S128x128_S100000x128_1_0_0_1_n_n_wf : DotDims.WF S100000x128 S128x128 S100000x128 [1] [0] [0] [1] [] []
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1
  dot_S100000x128_S128x40_S100000x40_1_0_0_1_n_n_wf : DotDims.WF S100000x128 S128x40 S100000x40 [1] [0] [0] [1] [] []
  gather_S100000x40_S740000x1_S740000x40_1_0_n_n_0_1_140_wf : GatherDims.WF S100000x40 S740000x1 S740000x40 [1] [0] [] [0] [] 1 ![1, 40]
  scatter_S100000x40_S740000x1_S740000x40_1_0_0_1_wf : ScatterDims.WF S100000x40 S740000x1 S740000x40 [1] [0] [0] 1

variable [Facts₀]

def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S740000x1_S740000x40_1_0_n_n_0_1_140 : GatherDims S100000x40 S740000x1 S740000x40 where
  offsetDims := [1]
  collapsedSliceDims := [0]
  operandBatchingDims := []
  startIndicesBatchingDims := []
  startIndexMap := [0]
  indexVectorDim := 1
  sliceSizes := ![1, 40]
  wf := gather_S100000x40_S740000x1_S740000x40_1_0_n_n_0_1_140_wf
def scatter_S100000x40_S740000x1_S740000x40_1_0_0_1 : ScatterDims S100000x40 S740000x1 S740000x40 where
  updateWindowDims := [1]
  insertedWindowDims := [0]
  scatterDimsToOperandDims := [0]
  indexVectorDim := 1
  wf := scatter_S100000x40_S740000x1_S740000x40_1_0_0_1_wf

class Facts : Prop extends Facts₀ where

variable [Facts]
-- ==== Proof.KerRun.lean ====
/-
  The kernel program's run with its result named.

  @main is fourteen segments: stretches of host operations and eight kernel launches.  The contents of every
  unscoped buffer at the boundary after the last segment are one function `W14 m ρ c` of the launch memory.
  Here the run is stated with the result buffer read at that function: every weakly fair execution of @main
  terminates, faults nowhere, leaves the result buffer at the last boundary's contents and the thirteen
  argument arrays as they were launched.
-/
import proofs.«104798_j89043261980674_1_alg».proof.Defs
import proofs.«104798_j89043261980674_1_alg».proof.Proof.Gen.KernelIdeal.Frame

set_option maxRecDepth 16384

noncomputable section

namespace Cert.Ker

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes
-- unfolding plain definitions in a metavariable's type
set_option backward.isDefEq.respectTransparency.types false in
/-- Every weakly fair execution of @main from `m` (all counters zero) terminates without a fault; in the final
    state the result buffer `main_v90` holds the last boundary's contents and every argument array is as
    launched.  The final thread state holds every unscoped buffer at `W14 m ρ c`; the result buffer is one of
    them, and each argument's buffer is read back through the boundaries to the launch memory. -/
theorem run : θ_run defs (onTc (τ := τ) (main (F := F))) ⟨m, fun _ => 0, ρ⟩ (fun r => ∀ c : Dev nD,
      r.2.mem ((c.tc : Thread nD τ).loc main_v90) = W14 m ρ c (Proc.devRef .tc main_v90)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v90 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c)⟩)

end Cert.Ker

end
-- ==== Proof.RefStages.lean ====
/-
  The reference, stage by stage, as pure functions of whole arrays: each definition is the composition of the host
  operations one line of the reference's model applies (the edge lists with self loops, the symmetric degree
  normalisation, a graph convolution's product / gather / scatter-add / bias, the batch statistics, the batch
  normalisation, the positive part, the row-wise log-softmax), spelt with the very operations the printed program
  uses, so that the program's run ends at `out` of its arguments.
-/
import proofs.«104798_j89043261980674_1_alg».proof.ReferenceIdeal
import proofs.«104798_j89043261980674_1_alg».proof.Proof.Gen.ReferenceIdeal

noncomputable section

namespace Cert.Ref

open Idealize.ShloMosaic Cert.ReferenceIdeal Cert.ReferenceIdeal.Gen

variable {F : FTy → Type} [FloatOps F]

set_option quotPrecheck false in
local notation "𝔽[" s "]" => (⟨s, .f32⟩ : BufTy).Contents (Elt F)
set_option quotPrecheck false in
local notation "𝕀[" s "]" => (⟨s, .i32⟩ : BufTy).Contents (Elt F)

/-- The source list followed by the self loops 0 … 99999. -/
def sIdx (a1 : 𝕀[S640000]) : 𝕀[S740000] :=
  concatenate S740000 0 [⟨S640000, a1⟩, ⟨S100000, iotaInDim S100000 32 0⟩] concatenates_S640000_S100000_S740000_d0

/-- The destination list followed by the self loops. -/
def tIdx (a2 : 𝕀[S640000]) : 𝕀[S740000] :=
  concatenate S740000 0 [⟨S640000, a2⟩, ⟨S100000, iotaInDim S100000 32 0⟩] concatenates_S640000_S100000_S740000_d0

/-- An index list as a column. -/
def col (v : 𝕀[S740000]) : 𝕀[S740000x1] := broadcastInDim S740000x1 ![0] bcast_S740000_S740000x1_0 v

/-- A negative index has the extent added (numpy's wrap), then the list is made a column. -/
def wrap (v : 𝕀[S740000]) : 𝕀[S740000x1] :=
  col (select (cmpi .slt v (broadcastInDim S740000 ![] bcast_S_S740000 (constantI S_ 32 0#32)))
    (addi v (broadcastInDim S740000 ![] bcast_S_S740000 (constantI S_ 32 100000#32))) v)

/-- The in-degree with self loops: ones scatter-added at the destinations. -/
def deg (t : 𝕀[S740000]) : 𝔽[S100000] :=
  Host.scatterAdd scatter_S100000_S740000x1_S740000_n_0_0_1
    (broadcastInDim S100000 ![] bcast_S_S100000 (constant S_ .f32 0x00000000#32)) (col t)
    (broadcastInDim S740000 ![] bcast_S_S740000 (constant S_ .f32 0x3F800000#32))

/-- deg^(-1/2), the degree floored at one. -/
def dinv (t : 𝕀[S740000]) : 𝔽[S100000] :=
  Host.rsqrt (maximumf (deg t) (broadcastInDim S100000 ![] bcast_S_S100000 (constant S_ .f32 0x3F800000#32)))

/-- The edge coefficient dinv[s] · dinv[t]. -/
def norm (s t : 𝕀[S740000]) : 𝔽[S740000] :=
  mulf (Host.gather gather_S100000_S740000x1_S740000_n_0_n_n_0_1_1 (dinv t) (wrap s))
    (Host.gather gather_S100000_S740000x1_S740000_n_0_n_n_0_1_1 (dinv t) (wrap t))

/-- The aggregation of a [100000,128] feature array: rows gathered at the sources, scaled by the edge coefficient,
    scatter-added at the destinations. -/
def agg128 (s t : 𝕀[S740000]) (h : 𝔽[S100000x128]) : 𝔽[S100000x128] :=
  Host.scatterAdd scatter_S100000x128_S740000x1_S740000x128_1_0_0_1
    (broadcastInDim S100000x128 ![] bcast_S_S100000x128 (constant S_ .f32 0x00000000#32)) (col t)
    (mulf (Host.gather gather_S100000x128_S740000x1_S740000x128_1_0_n_n_0_1_1128 h (wrap s))
      (broadcastInDim S740000x128 ![0, 1] bcast_S740000x1_S740000x128_0_1
        (broadcastInDim S740000x1 ![0] bcast_S740000_S740000x1_0 (norm s t))))

/-- The same aggregation of a [100000,40] array. -/
def agg40 (s t : 𝕀[S740000]) (h : 𝔽[S100000x40]) : 𝔽[S100000x40] :=
  Host.scatterAdd scatter_S100000x40_S740000x1_S740000x40_1_0_0_1
    (broadcastInDim S100000x40 ![] bcast_S_S100000x40 (constant S_ .f32 0x00000000#32)) (col t)
    (mulf (Host.gather gather_S100000x40_S740000x1_S740000x40_1_0_n_n_0_1_140 h (wrap s))
      (broadcastInDim S740000x40 ![0, 1] bcast_S740000x1_S740000x40_0_1
        (broadcastInDim S740000x1 ![0] bcast_S740000_S740000x1_0 (norm s t))))

/-- x · W for a [128,128] weight. -/
def dot128 (x : 𝔽[S100000x128]) (w : 𝔽[S128x128]) : 𝔽[S100000x128] :=
  Host.dotGeneral dot_S100000x128_S128x128_S100000x128_1_0_0_1_n_n none x w

/-- x · W for a [128,40] weight. -/
def dot40 (x : 𝔽[S100000x128]) (w : 𝔽[S128x40]) : 𝔽[S100000x40] :=
  Host.dotGeneral dot_S100000x128_S128x40_S100000x40_1_0_0_1_n_n none x w

/-- A length-128 vector as a row, repeated down the 100000 rows. -/
def rows128 (v : 𝔽[S128]) : 𝔽[S100000x128] :=
  broadcastInDim S100000x128 ![0, 1] bcast_S1x128_S100000x128_0_1 (broadcastInDim S1x128 ![1] bcast_S128_S1x128_1 v)

/-- A length-40 vector as a row, repeated down the 100000 rows. -/
def rows40 (v : 𝔽[S40]) : 𝔽[S100000x40] :=
  broadcastInDim S100000x40 ![0, 1] bcast_S1x40_S100000x40_0_1 (broadcastInDim S1x40 ![1] bcast_S40_S1x40_1 v)

/-- A graph convolution with 128 output features: aggregate x · W, add the bias. -/
def conv128 (s t : 𝕀[S740000]) (x : 𝔽[S100000x128]) (w : 𝔽[S128x128]) (b : 𝔽[S128]) : 𝔽[S100000x128] :=
  addf (agg128 s t (dot128 x w)) (rows128 b)

/-- A graph convolution with 40 output features. -/
def conv40 (s t : 𝕀[S740000]) (x : 𝔽[S100000x128]) (w : 𝔽[S128x40]) (b : 𝔽[S40]) : 𝔽[S100000x40] :=
  addf (agg40 s t (dot40 x w)) (rows40 b)

/-- The column means: column sums from zero, divided by 100000. -/
def mean (h : 𝔽[S100000x128]) : 𝔽[S128] :=
  Host.divf (Host.reduceAdd h (constant S_ .f32 0x00000000#32) reducesTo_S100000x128_S128_d0 h_S_)
    (broadcastInDim S128 ![] bcast_S_S128 (constant S_ .f32 0x47C35000#32))

/-- The divisor of the variance, 100000 minus the zero correction, as the model computes it. -/
def varDivisor : 𝔽[S_] :=
  subf (constant S_ .f32 0x47C35000#32) (sitofp .f32 (constantI S_ 32 0#32))

/-- The column variances as the model computes them: the mean of the squared deviations from the column mean
    (the mean taken again inside, as a [1,128] row), kept where the divisor is positive. -/
def var (h : 𝔽[S100000x128]) : 𝔽[S128] :=
  select (broadcastInDim S128 ![] bcast_S_S128 (cmpf .ogt (varDivisor (F := F)) (constant S_ .f32 0x00000000#32)))
    (Host.divf
      (Host.reduceAdd
        (mulf
          (subf h (broadcastInDim S100000x128 ![0, 1] bcast_S1x128_S100000x128_0_1
            (Host.divf
              (broadcastInDim S1x128 ![1] bcast_S128_S1x128_1
                (Host.reduceAdd h (constant S_ .f32 0x00000000#32) reducesTo_S100000x128_S128_d0 h_S_))
              (broadcastInDim S1x128 ![] bcast_S_S1x128 (constant S_ .f32 0x47C35000#32)))))
          (subf h (broadcastInDim S100000x128 ![0, 1] bcast_S1x128_S100000x128_0_1
            (Host.divf
              (broadcastInDim S1x128 ![1] bcast_S128_S1x128_1
                (Host.reduceAdd h (constant S_ .f32 0x00000000#32) reducesTo_S100000x128_S128_d0 h_S_))
              (broadcastInDim S1x128 ![] bcast_S_S1x128 (constant S_ .f32 0x47C35000#32))))))
        (constant S_ .f32 0x00000000#32) reducesTo_S100000x128_S128_d0 h_S_)
      (broadcastInDim S128 ![] bcast_S_S128 (varDivisor (F := F))))
    (broadcastInDim S128 ![] bcast_S_S128 (id (constant S_ .f32 0x7FC00000#32)))

/-- Batch normalisation with the statistics given: ((h − mean) · rsqrt(var + ε)) · g + be, ε the float nearest 1e-5. -/
def bnWith (h : 𝔽[S100000x128]) (mu vr g be : 𝔽[S128]) : 𝔽[S100000x128] :=
  addf
    (mulf
      (mulf (subf h (rows128 mu))
        (rows128 (Host.rsqrt (addf vr (broadcastInDim S128 ![] bcast_S_S128 (constant S_ .f32 0x3727C5AC#32))))))
      (rows128 g))
    (rows128 be)

/-- Batch normalisation over the node axis with the batch's own statistics. -/
def bn (h : 𝔽[S100000x128]) (g be : 𝔽[S128]) : 𝔽[S100000x128] := bnWith h (mean h) (var h) g be

/-- The positive part. -/
def relu (h : 𝔽[S100000x128]) : 𝔽[S100000x128] :=
  maximumf h (broadcastInDim S100000x128 ![] bcast_S_S100000x128 (constant S_ .f32 0x00000000#32))

/-- The row maxima of a [100000,40] array (a reduce from −∞, then the maximum with −∞ again). -/
def rowMax40 (h : 𝔽[S100000x40]) : 𝔽[S100000] :=
  maximumf (broadcastInDim S100000 ![] bcast_S_S100000 (constant S_ .f32 0xFF800000#32))
    (Host.reduce FloatOps.maximumf h (constant S_ .f32 0xFF800000#32) reducesTo_S100000x40_S100000_d1 h_S_)

/-- A length-100000 vector as a column, repeated along the 40 columns. -/
def cols40 (v : 𝔽[S100000]) : 𝔽[S100000x40] :=
  broadcastInDim S100000x40 ![0, 1] bcast_S100000x1_S100000x40_0_1 (broadcastInDim S100000x1 ![0] bcast_S100000_S100000x1_0 v)

/-- The rows shifted by their maxima. -/
def shifted40 (h : 𝔽[S100000x40]) : 𝔽[S100000x40] := subf h (cols40 (rowMax40 h))

/-- The row-wise log-softmax: z − log Σ exp z with z the shifted rows. -/
def logSoftmax (h : 𝔽[S100000x40]) : 𝔽[S100000x40] :=
  subf (shifted40 h)
    (broadcastInDim S100000x40 ![0, 1] bcast_S100000x1_S100000x40_0_1
      (Host.log (broadcastInDim S100000x1 ![0] bcast_S100000_S100000x1_0
        (Host.reduceAdd (Host.exp (shifted40 h)) (constant S_ .f32 0x00000000#32) reducesTo_S100000x40_S100000_d1 h_S_))))

/-- The whole model. -/
def out (x : 𝔽[S100000x128]) (a1 a2 : 𝕀[S640000]) (w1 : 𝔽[S128x128]) (b1 : 𝔽[S128]) (w2 : 𝔽[S128x128]) (b2 : 𝔽[S128])
    (w3 : 𝔽[S128x40]) (b3 : 𝔽[S40]) (g1 be1 g2 be2 : 𝔽[S128]) : 𝔽[S100000x40] :=
  logSoftmax (conv40 (sIdx a1) (tIdx a2)
    (relu (bn (conv128 (sIdx a1) (tIdx a2)
      (relu (bn (conv128 (sIdx a1) (tIdx a2) x w1 b1) g1 be1)) w2 b2) g2 be2)) w3 b3)

end Cert.Ref

end
-- ==== Proof.RefRun.lean ====
/-
  The run of the reference program.

  The program is a straight line of host operations once the outlined functions (the column variance with its
  selection, the positive part, the row-wise log-softmax) are read at their call sites over the buffers each call names.
  The line is cut into fourteen consecutive stretches, one per stage of the model (the edge lists, the edge coefficient,
  a convolution, the column mean, the column variance, the normalisation, the positive part, and so on); each stretch
  is read from arbitrary contents of the buffers it takes, and the readings are chained. The value left in the result
  buffer is the model's stage-by-stage composition of the argument arrays, and no argument buffer is written.
-/
import proofs.«104798_j89043261980674_1_alg».proof.ReferenceIdeal
import proofs.«104798_j89043261980674_1_alg».proof.Proof.Gen.ReferenceIdeal
import proofs.«104798_j89043261980674_1_alg».proof.Proof.RefStages
import Idealize.ShloMosaic.Lib.StableHlo.Run
import Idealize.ShloMosaic.PureOps.Ideal

noncomputable section

namespace Cert.Ref.Run

open Cert.ReferenceIdeal Cert.ReferenceIdeal.Gen Idealize.ShloMosaic Idealize.ShloMosaic.TcCoe Idealize.SL.Sem Idealize.ShloMosaic.StableHlo

variable {F : FTy → Type} [FloatOps F]

/-- Running two lists one after the other is running their concatenation. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- Operations 1 … 3 of the line. -/
abbrev blk0 : List (HloOp τ sig (Elt F)) :=
  [ StableHlo.nullary main_v0 (iotaInDim S100000 32 0),
    StableHlo.binary main_arg1 main_v0 main_v1 ((fun a b => concatenate S740000 0 [⟨S640000, a⟩, ⟨S100000, b⟩] concatenates_S640000_S100000_S740000_d0) : (⟨S640000, .i32⟩ : BufTy).Contents (Elt F) → (⟨S100000, .i32⟩ : BufTy).Contents (Elt F) → (⟨S740000, .i32⟩ : BufTy).Contents (Elt F)),
    StableHlo.binary main_arg2 main_v0 main_v2 ((fun a b => concatenate S740000 0 [⟨S640000, a⟩, ⟨S100000, b⟩] concatenates_S640000_S100000_S740000_d0) : (⟨S640000, .i32⟩ : BufTy).Contents (Elt F) → (⟨S100000, .i32⟩ : BufTy).Contents (Elt F) → (⟨S740000, .i32⟩ : BufTy).Contents (Elt F)) ]

/-- Operations 4 … 32 of the line. -/
abbrev blk1 : List (HloOp τ sig (Elt F)) :=
  [ StableHlo.nullary main_cst (constant S_ .f32 0x3F800000#32),
    StableHlo.unary main_cst main_v3 (broadcastInDim S740000 ![] bcast_S_S740000 : (⟨S_, .f32⟩ : BufTy).Contents (Elt F) → (⟨S740000, .f32⟩ : BufTy).Contents (Elt F)),
    StableHlo.nullary main_cst_0 (constant S_ .f32 0x00000000#32),
    StableHlo.unary main_cst_0 main_v4 (broadcastInDim S100000 ![] bcast_S_S100000 : (⟨S_, .f32⟩ : BufTy).Contents (Elt F) → (⟨S100000, .f32⟩ : BufTy).Contents (Elt F)),
    StableHlo.unary main_v2 main_v5 (broadcastInDim S740000x1 ![0] bcast_S740000_S740000x1_0 : (⟨S740000, .i32⟩ : BufTy).Contents (Elt F) → (⟨S740000x1, .i32⟩ : BufTy).Contents (Elt F)),
    StableHlo.ternary main_v4 main_v5 main_v3 main_v6 ((fun x i u => Host.scatterAdd scatter_S100000_S740000x1_S740000_n_0_0_1 x i u) : (⟨S100000, .f32⟩ : BufTy).Contents (Elt F) → (⟨S740000x1, .i32⟩ : BufTy).Contents (Elt F) → (⟨S740000, .f32⟩ : BufTy).Contents (Elt F) → (⟨S100000, .f32⟩ : BufTy).Contents (Elt F)),
    StableHlo.nullary main_cst_1 (constant S_ .f32 0x3F800000#32),
    StableHlo.unary main_cst_1 main_v7 (broadcastInDim S100000 ![] bcast_S_S100000 : (⟨S_, .f32⟩ : BufTy).Contents (Elt F) → (⟨S100000, .f32⟩ : BufTy).Contents (Elt F)),
    StableHlo.binary main_v6 main_v7 main_v8 (maximumf : (⟨S100000, .f32⟩ : BufTy).Contents (Elt F) → (⟨S100000, .f32⟩ : BufTy).Contents (Elt F) → (⟨S100000, .f32⟩ : BufTy).Contents (Elt F)),
    StableHlo.unary main_v8 main_v9 (Host.rsqrt : (⟨S100000, .f32⟩ : BufTy).Contents (Elt F) → (⟨S100000, .f32⟩ : BufTy).Contents (Elt F)),
    StableHlo.nullary main_c (constantI S_ 32 0#32),
    StableHlo.unary main_c main_v10 (broadcastInDim S740000 ![] bcast_S_S740000 : (⟨S_, .i32⟩ : BufTy).Contents (Elt F) → (⟨S740000, .i32⟩ : BufTy).Contents (Elt F)),
    StableHlo.binary main_v1 main_v10 main_v11 (cmpi .slt : (⟨S740000, .i32⟩ : BufTy).Contents (Elt F) → (⟨S740000, .i32⟩ : BufTy).Contents (Elt F) → (⟨S740000, .i1⟩ : BufTy).Contents (Elt F)),
    StableHlo.nullary main_c_2 (constantI S_ 32 100000#32),
    StableHlo.unary main_c_2 main_v12 (broadcastInDim S740000 ![] bcast_S_S740000 : (⟨S_, .i32⟩ : BufTy).Contents (Elt F) → (⟨S740000, .i32⟩ : BufTy).Contents (Elt F)),
    StableHlo.binary main_v1 main_v12 main_v13 (addi : (⟨S740000, .i32⟩ : BufTy).Contents (Elt F) → (⟨S740000, .i32⟩ : BufTy).Contents (Elt F) → (⟨S740000, .i32⟩ : BufTy).Contents (Elt F)),
    StableHlo.ternary main_v11 main_v13 main_v1 main_v14 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    StableHlo.unary main_v14 main_v15 (broadcastInDim S740000x1 ![0] bcast_S740000_S740000x1_0 : (⟨S740000, .i32⟩ : BufTy).Contents (Elt F) → (⟨S740000x1, .i32⟩ : BufTy).Contents (Elt F)),
    StableHlo.binary main_v9 main_v15 main_v16 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    StableHlo.nullary main_c_3 (constantI S_ 32 0#32),
    StableHlo.unary main_c_3 main_v17 (broadcastInDim S740000 ![] bcast_S_S740000 : (⟨S_, .i32⟩ : BufTy).Contents (Elt F) → (⟨S740000, .i32⟩ : BufTy).Contents (Elt F)),
    StableHlo.binary main_v2 main_v17 main_v18 (cmpi .slt : (⟨S740000, .i32⟩ : BufTy).Contents (Elt F) → (⟨S740000, .i32⟩ : BufTy).Contents (Elt F) → (⟨S740000, .i1⟩ : BufTy).Contents (Elt F)),
    StableHlo.nullary main_c_4 (constantI S_ 32 100000#32),
    StableHlo.unary main_c_4 main_v19 (broadcastInDim S740000 ![] bcast_S_S740000 : (⟨S_, .i32⟩ : BufTy).Contents (Elt F) → (⟨S740000, .i32⟩ : BufTy).Contents (Elt F)),
    StableHlo.binary main_v2 main_v19 main_v20 (addi : (⟨S740000, .i32⟩ : BufTy).Contents (Elt F) → (⟨S740000, .i32⟩ : BufTy).Contents (Elt F) → (⟨S740000, .i32⟩ : BufTy).Contents (Elt F)),
    StableHlo.ternary main_v18 main_v20 main_v2 main_v21 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    StableHlo.unary main_v21 main_v22 (broadcastInDim S740000x1 ![0] bcast_S740000_S740000x1_0 : (⟨S740000, .i32⟩ : BufTy).Contents (Elt F) → (⟨S740000x1, .i32⟩ : BufTy).Contents (Elt F)),
    StableHlo.binary main_v9 main_v22 main_v23 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    StableHlo.binary main_v16 main_v23 main_v24 (mulf : (⟨S740000, .f32⟩ : BufTy).Contents (Elt F) → (⟨S740000, .f32⟩ : BufTy).Contents (Elt F) → (⟨S740000, .f32⟩ : BufTy).Contents (Elt F)) ]

/-- Operations 33 … 52 of the line. -/
abbrev blk2 : List (HloOp τ sig (Elt F)) :=
  [ StableHlo.binary main_arg0 main_arg3 main_v25 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c_5 (constantI S_ 32 0#32),
    StableHlo.unary main_c_5 main_v26 (broadcastInDim S740000 ![] bcast_S_S740000 : (⟨S_, .i32⟩ : BufTy).Contents (Elt F) → (⟨S740000, .i32⟩ : BufTy).Contents (Elt F)),
    StableHlo.binary main_v1 main_v26 main_v27 (cmpi .slt : (⟨S740000, .i32⟩ : BufTy).Contents (Elt F) → (⟨S740000, .i32⟩ : BufTy).Contents (Elt F) → (⟨S740000, .i1⟩ : BufTy).Contents (Elt F)),
    StableHlo.nullary main_c_6 (constantI S_ 32 100000#32),
    StableHlo.unary main_c_6 main_v28 (broadcastInDim S740000 ![] bcast_S_S740000 : (⟨S_, .i32⟩ : BufTy).Contents (Elt F) → (⟨S740000, .i32⟩ : BufTy).Contents (Elt F)),
    StableHlo.binary main_v1 main_v28 main_v29 (addi : (⟨S740000, .i32⟩ : BufTy).Contents (Elt F) → (⟨S740000, .i32⟩ : BufTy).Contents (Elt F) → (⟨S740000, .i32⟩ : BufTy).Contents (Elt F)),
    StableHlo.ternary main_v27 main_v29 main_v1 main_v30 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    StableHlo.unary main_v30 main_v31 (broadcastInDim S740000x1 ![0] bcast_S740000_S740000x1_0 : (⟨S740000, .i32⟩ : BufTy).Contents (Elt F) → (⟨S740000x1, .i32⟩ : BufTy).Contents (Elt F)),
    StableHlo.binary main_v25 main_v31 main_v32 ((fun x i => Host.gather gather_S100000x128_S740000x1_S740000x128_1_0_n_n_0_1_1128 x i) : (⟨S100000x128, .f32⟩ : BufTy).Contents (Elt F) → (⟨S740000x1, .i32⟩ : BufTy).Contents (Elt F) → (⟨S740000x128, .f32⟩ : BufTy).Contents (Elt F)),
    StableHlo.unary main_v24 main_v33 (broadcastInDim S740000x1 ![0] bcast_S740000_S740000x1_0 : (⟨S740000, .f32⟩ : BufTy).Contents (Elt F) → (⟨S740000x1, .f32⟩ : BufTy).Contents (Elt F)),
    StableHlo.unary main_v33 main_v34 (broadcastInDim S740000x128 ![0, 1] bcast_S740000x1_S740000x128_0_1 : (⟨S740000x1, .f32⟩ : BufTy).Contents (Elt F) → (⟨S740000x128, .f32⟩ : BufTy).Contents (Elt F)),
    StableHlo.binary main_v32 main_v34 main_v35 (mulf : (⟨S740000x128, .f32⟩ : BufTy).Contents (Elt F) → (⟨S740000x128, .f32⟩ : BufTy).Contents (Elt F) → (⟨S740000x128, .f32⟩ : BufTy).Contents (Elt F)),
    StableHlo.nullary main_cst_7 (constant S_ .f32 0x00000000#32),
    StableHlo.unary main_cst_7 main_v36 (broadcastInDim S100000x128 ![] bcast_S_S100000x128 : (⟨S_, .f32⟩ : BufTy).Contents (Elt F) → (⟨S100000x128, .f32⟩ : BufTy).Contents (Elt F)),
    StableHlo.unary main_v2 main_v37 (broadcastInDim S740000x1 ![0] bcast_S740000_S740000x1_0 : (⟨S740000, .i32⟩ : BufTy).Contents (Elt F) → (⟨S740000x1, .i32⟩ : BufTy).Contents (Elt F)),
    StableHlo.ternary main_v36 main_v37 main_v35 main_v38 ((fun x i u => Host.scatterAdd scatter_S100000x128_S740000x1_S740000x128_1_0_0_1 x i u) : (⟨S100000x128, .f32⟩ : BufTy).Contents (Elt F) → (⟨S740000x1, .i32⟩ : BufTy).Contents (Elt F) → (⟨S740000x128, .f32⟩ : BufTy).Contents (Elt F) → (⟨S100000x128, .f32⟩ : BufTy).Contents (Elt F)),
    StableHlo.unary main_arg4 main_v39 (broadcastInDim S1x128 ![1] bcast_S128_S1x128_1 : (⟨S128, .f32⟩ : BufTy).Contents (Elt F) → (⟨S1x128, .f32⟩ : BufTy).Contents (Elt F)),
    StableHlo.unary main_v39 main_v40 (broadcastInDim S100000x128 ![0, 1] bcast_S1x128_S100000x128_0_1 : (⟨S1x128, .f32⟩ : BufTy).Contents (Elt F) → (⟨S100000x128, .f32⟩ : BufTy).Contents (Elt F)),
    StableHlo.binary main_v38 main_v40 main_v41 (addf : (⟨S100000x128, .f32⟩ : BufTy).Contents (Elt F) → (⟨S100000x128, .f32⟩ : BufTy).Contents (Elt F) → (⟨S100000x128, .f32⟩ : BufTy).Contents (Elt F)) ]

/-- Operations 53 … 57 of the line. -/
abbrev blk3 : List (HloOp τ sig (Elt F)) :=
  [ StableHlo.nullary main_cst_8 (constant S_ .f32 0x00000000#32),
    StableHlo.binary main_v41 main_cst_8 main_v42 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_9 (constant S_ .f32 0x47C35000#32),
    StableHlo.unary main_cst_9 main_v43 (broadcastInDim S128 ![] bcast_S_S128 : (⟨S_, .f32⟩ : BufTy).Contents (Elt F) → (⟨S128, .f32⟩ : BufTy).Contents (Elt F)),
    StableHlo.binary main_v42 main_v43 main_v44 (Host.divf : (⟨S128, .f32⟩ : BufTy).Contents (Elt F) → (⟨S128, .f32⟩ : BufTy).Contents (Elt F) → (⟨S128, .f32⟩ : BufTy).Contents (Elt F)) ]

/-- Operations 58 … 81 of the line. -/
abbrev blk4 : List (HloOp τ sig (Elt F)) :=
  [ StableHlo.nullary main_c_10 (constantI S_ 32 0#32),
    StableHlo.nullary main_call0_cst (constant S_ .f32 0x00000000#32),
    StableHlo.binary main_v41 main_call0_cst main_call0_v0 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.unary main_call0_v0 main_call0_v1 ((broadcastInDim S1x128 ![1] bcast_S128_S1x128_1) : (⟨S128, .f32⟩ : BufTy).Contents (Elt F) → (⟨S1x128, .f32⟩ : BufTy).Contents (Elt F)),
    StableHlo.nullary main_call0_cst_0 (constant S_ .f32 0x47C35000#32),
    StableHlo.unary main_call0_cst_0 main_call0_v2 ((broadcastInDim S1x128 ![] bcast_S_S1x128) : (⟨S_, .f32⟩ : BufTy).Contents (Elt F) → (⟨S1x128, .f32⟩ : BufTy).Contents (Elt F)),
    StableHlo.binary main_call0_v1 main_call0_v2 main_call0_v3 ((Host.divf) : (⟨S1x128, .f32⟩ : BufTy).Contents (Elt F) → (⟨S1x128, .f32⟩ : BufTy).Contents (Elt F) → (⟨S1x128, .f32⟩ : BufTy).Contents (Elt F)),
    StableHlo.unary main_call0_v3 main_call0_v4 ((broadcastInDim S100000x128 ![0, 1] bcast_S1x128_S100000x128_0_1) : (⟨S1x128, .f32⟩ : BufTy).Contents (Elt F) → (⟨S100000x128, .f32⟩ : BufTy).Contents (Elt F)),
    StableHlo.binary main_v41 main_call0_v4 main_call0_v5 ((subf) : (⟨S100000x128, .f32⟩ : BufTy).Contents (Elt F) → (⟨S100000x128, .f32⟩ : BufTy).Contents (Elt F) → (⟨S100000x128, .f32⟩ : BufTy).Contents (Elt F)),
    StableHlo.binary main_call0_v5 main_call0_v5 main_call0_v6 ((mulf) : (⟨S100000x128, .f32⟩ : BufTy).Contents (Elt F) → (⟨S100000x128, .f32⟩ : BufTy).Contents (Elt F) → (⟨S100000x128, .f32⟩ : BufTy).Contents (Elt F)),
    StableHlo.unary main_c_10 main_call0_v7 ((sitofp .f32) : (⟨S_, .i32⟩ : BufTy).Contents (Elt F) → (⟨S_, .f32⟩ : BufTy).Contents (Elt F)),
    StableHlo.nullary main_call0_cst_1 (constant S_ .f32 0x47C35000#32),
    StableHlo.binary main_call0_cst_1 main_call0_v7 main_call0_v8 ((subf) : (⟨S_, .f32⟩ : BufTy).Contents (Elt F) → (⟨S_, .f32⟩ : BufTy).Contents (Elt F) → (⟨S_, .f32⟩ : BufTy).Contents (Elt F)),
    StableHlo.nullary main_call0_cst_2 (constant S_ .f32 0x00000000#32),
    StableHlo.binary main_call0_v6 main_call0_cst_2 main_call0_v9 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.unary main_call0_v8 main_call0_v10 ((broadcastInDim S128 ![] bcast_S_S128) : (⟨S_, .f32⟩ : BufTy).Contents (Elt F) → (⟨S128, .f32⟩ : BufTy).Contents (Elt F)),
    StableHlo.binary main_call0_v9 main_call0_v10 main_call0_v11 ((Host.divf) : (⟨S128, .f32⟩ : BufTy).Contents (Elt F) → (⟨S128, .f32⟩ : BufTy).Contents (Elt F) → (⟨S128, .f32⟩ : BufTy).Contents (Elt F)),
    StableHlo.nullary main_call0_cst_3 (constant S_ .f32 0x00000000#32),
    StableHlo.binary main_call0_v8 main_call0_cst_3 main_call0_v12 ((cmpf .ogt) : (⟨S_, .f32⟩ : BufTy).Contents (Elt F) → (⟨S_, .f32⟩ : BufTy).Contents (Elt F) → (⟨S_, .i1⟩ : BufTy).Contents (Elt F)),
    StableHlo.nullary main_call0_cst_4 (constant S_ .f32 0x7FC00000#32),
    StableHlo.unary main_call0_cst_4 main_call0_call0_v0 ((id) : (⟨S_, .f32⟩ : BufTy).Contents (Elt F) → (⟨S_, .f32⟩ : BufTy).Contents (Elt F)),
    StableHlo.unary main_call0_call0_v0 main_call0_call0_v1 ((broadcastInDim S128 ![] bcast_S_S128) : (⟨S_, .f32⟩ : BufTy).Contents (Elt F) → (⟨S128, .f32⟩ : BufTy).Contents (Elt F)),
    StableHlo.ternary main_call0_v12 main_call0_v11 main_call0_call0_v1 main_v45 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)),
    StableHlo.unary main_v44 main_v46 (broadcastInDim S1x128 ![1] bcast_S128_S1x128_1 : (⟨S128, .f32⟩ : BufTy).Contents (Elt F) → (⟨S1x128, .f32⟩ : BufTy).Contents (Elt F)) ]

/-- Operations 82 … 96 of the line. -/
abbrev blk5 : List (HloOp τ sig (Elt F)) :=
  [ StableHlo.unary main_v46 main_v47 (broadcastInDim S100000x128 ![0, 1] bcast_S1x128_S100000x128_0_1 : (⟨S1x128, .f32⟩ : BufTy).Contents (Elt F) → (⟨S100000x128, .f32⟩ : BufTy).Contents (Elt F)),
    StableHlo.binary main_v41 main_v47 main_v48 (subf : (⟨S100000x128, .f32⟩ : BufTy).Contents (Elt F) → (⟨S100000x128, .f32⟩ : BufTy).Contents (Elt F) → (⟨S100000x128, .f32⟩ : BufTy).Contents (Elt F)),
    StableHlo.nullary main_cst_11 (constant S_ .f32 0x3727C5AC#32),
    StableHlo.unary main_cst_11 main_v49 (broadcastInDim S128 ![] bcast_S_S128 : (⟨S_, .f32⟩ : BufTy).Contents (Elt F) → (⟨S128, .f32⟩ : BufTy).Contents (Elt F)),
    StableHlo.binary main_v45 main_v49 main_v50 (addf : (⟨S128, .f32⟩ : BufTy).Contents (Elt F) → (⟨S128, .f32⟩ : BufTy).Contents (Elt F) → (⟨S128, .f32⟩ : BufTy).Contents (Elt F)),
    StableHlo.unary main_v50 main_v51 (Host.rsqrt : (⟨S128, .f32⟩ : BufTy).Contents (Elt F) → (⟨S128, .f32⟩ : BufTy).Contents (Elt F)),
    StableHlo.unary main_v51 main_v52 (broadcastInDim S1x128 ![1] bcast_S128_S1x128_1 : (⟨S128, .f32⟩ : BufTy).Contents (Elt F) → (⟨S1x128, .f32⟩ : BufTy).Contents (Elt F)),
    StableHlo.unary main_v52 main_v53 (broadcastInDim S100000x128 ![0, 1] bcast_S1x128_S100000x128_0_1 : (⟨S1x128, .f32⟩ : BufTy).Contents (Elt F) → (⟨S100000x128, .f32⟩ : BufTy).Contents (Elt F)),
    StableHlo.binary main_v48 main_v53 main_v54 (mulf : (⟨S100000x128, .f32⟩ : BufTy).Contents (Elt F) → (⟨S100000x128, .f32⟩ : BufTy).Contents (Elt F) → (⟨S100000x128, .f32⟩ : BufTy).Contents (Elt F)),
    StableHlo.unary main_arg9 main_v55 (broadcastInDim S1x128 ![1] bcast_S128_S1x128_1 : (⟨S128, .f32⟩ : BufTy).Contents (Elt F) → (⟨S1x128, .f32⟩ : BufTy).Contents (Elt F)),
    StableHlo.unary main_v55 main_v56 (broadcastInDim S100000x128 ![0, 1] bcast_S1x128_S100000x128_0_1 : (⟨S1x128, .f32⟩ : BufTy).Contents (Elt F) → (⟨S100000x128, .f32⟩ : BufTy).Contents (Elt F)),
    StableHlo.binary main_v54 main_v56 main_v57 (mulf : (⟨S100000x128, .f32⟩ : BufTy).Contents (Elt F) → (⟨S100000x128, .f32⟩ : BufTy).Contents (Elt F) → (⟨S100000x128, .f32⟩ : BufTy).Contents (Elt F)),
    StableHlo.unary main_arg10 main_v58 (broadcastInDim S1x128 ![1] bcast_S128_S1x128_1 : (⟨S128, .f32⟩ : BufTy).Contents (Elt F) → (⟨S1x128, .f32⟩ : BufTy).Contents (Elt F)),
    StableHlo.unary main_v58 main_v59 (broadcastInDim S100000x128 ![0, 1] bcast_S1x128_S100000x128_0_1 : (⟨S1x128, .f32⟩ : BufTy).Contents (Elt F) → (⟨S100000x128, .f32⟩ : BufTy).Contents (Elt F)),
    StableHlo.binary main_v57 main_v59 main_v60 (addf : (⟨S100000x128, .f32⟩ : BufTy).Contents (Elt F) → (⟨S100000x128, .f32⟩ : BufTy).Contents (Elt F) → (⟨S100000x128, .f32⟩ : BufTy).Contents (Elt F)) ]

/-- Operations 97 … 99 of the line. -/
abbrev blk6 : List (HloOp τ sig (Elt F)) :=
  [ StableHlo.nullary main_call1_cst (constant S_ .f32 0x00000000#32),
    StableHlo.unary main_call1_cst main_call1_v0 ((broadcastInDim S100000x128 ![] bcast_S_S100000x128) : (⟨S_, .f32⟩ : BufTy).Contents (Elt F) → (⟨S100000x128, .f32⟩ : BufTy).Contents (Elt F)),
    StableHlo.binary main_v60 main_call1_v0 main_v61 ((maximumf) : (⟨S100000x128, .f32⟩ : BufTy).Contents (Elt F) → (⟨S100000x128, .f32⟩ : BufTy).Contents (Elt F) → (⟨S100000x128, .f32⟩ : BufTy).Contents (Elt F)) ]

/-- Operations 100 … 119 of the line. -/
abbrev blk7 : List (HloOp τ sig (Elt F)) :=
  [ StableHlo.binary main_v61 main_arg5 main_v62 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c_12 (constantI S_ 32 0#32),
    StableHlo.unary main_c_12 main_v63 (broadcastInDim S740000 ![] bcast_S_S740000 : (⟨S_, .i32⟩ : BufTy).Contents (Elt F) → (⟨S740000, .i32⟩ : BufTy).Contents (Elt F)),
    StableHlo.binary main_v1 main_v63 main_v64 (cmpi .slt : (⟨S740000, .i32⟩ : BufTy).Contents (Elt F) → (⟨S740000, .i32⟩ : BufTy).Contents (Elt F) → (⟨S740000, .i1⟩ : BufTy).Contents (Elt F)),
    StableHlo.nullary main_c_13 (constantI S_ 32 100000#32),
    StableHlo.unary main_c_13 main_v65 (broadcastInDim S740000 ![] bcast_S_S740000 : (⟨S_, .i32⟩ : BufTy).Contents (Elt F) → (⟨S740000, .i32⟩ : BufTy).Contents (Elt F)),
    StableHlo.binary main_v1 main_v65 main_v66 (addi : (⟨S740000, .i32⟩ : BufTy).Contents (Elt F) → (⟨S740000, .i32⟩ : BufTy).Contents (Elt F) → (⟨S740000, .i32⟩ : BufTy).Contents (Elt F)),
    StableHlo.ternary main_v64 main_v66 main_v1 main_v67 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    StableHlo.unary main_v67 main_v68 (broadcastInDim S740000x1 ![0] bcast_S740000_S740000x1_0 : (⟨S740000, .i32⟩ : BufTy).Contents (Elt F) → (⟨S740000x1, .i32⟩ : BufTy).Contents (Elt F)),
    StableHlo.binary main_v62 main_v68 main_v69 ((fun x i => Host.gather gather_S100000x128_S740000x1_S740000x128_1_0_n_n_0_1_1128 x i) : (⟨S100000x128, .f32⟩ : BufTy).Contents (Elt F) → (⟨S740000x1, .i32⟩ : BufTy).Contents (Elt F) → (⟨S740000x128, .f32⟩ : BufTy).Contents (Elt F)),
    StableHlo.unary main_v24 main_v70 (broadcastInDim S740000x1 ![0] bcast_S740000_S740000x1_0 : (⟨S740000, .f32⟩ : BufTy).Contents (Elt F) → (⟨S740000x1, .f32⟩ : BufTy).Contents (Elt F)),
    StableHlo.unary main_v70 main_v71 (broadcastInDim S740000x128 ![0, 1] bcast_S740000x1_S740000x128_0_1 : (⟨S740000x1, .f32⟩ : BufTy).Contents (Elt F) → (⟨S740000x128, .f32⟩ : BufTy).Contents (Elt F)),
    StableHlo.binary main_v69 main_v71 main_v72 (mulf : (⟨S740000x128, .f32⟩ : BufTy).Contents (Elt F) → (⟨S740000x128, .f32⟩ : BufTy).Contents (Elt F) → (⟨S740000x128, .f32⟩ : BufTy).Contents (Elt F)),
    StableHlo.nullary main_cst_14 (constant S_ .f32 0x00000000#32),
    StableHlo.unary main_cst_14 main_v73 (broadcastInDim S100000x128 ![] bcast_S_S100000x128 : (⟨S_, .f32⟩ : BufTy).Contents (Elt F) → (⟨S100000x128, .f32⟩ : BufTy).Contents (Elt F)),
    StableHlo.unary main_v2 main_v74 (broadcastInDim S740000x1 ![0] bcast_S740000_S740000x1_0 : (⟨S740000, .i32⟩ : BufTy).Contents (Elt F) → (⟨S740000x1, .i32⟩ : BufTy).Contents (Elt F)),
    StableHlo.ternary main_v73 main_v74 main_v72 main_v75 ((fun x i u => Host.scatterAdd scatter_S100000x128_S740000x1_S740000x128_1_0_0_1 x i u) : (⟨S100000x128, .f32⟩ : BufTy).Contents (Elt F) → (⟨S740000x1, .i32⟩ : BufTy).Contents (Elt F) → (⟨S740000x128, .f32⟩ : BufTy).Contents (Elt F) → (⟨S100000x128, .f32⟩ : BufTy).Contents (Elt F)),
    StableHlo.unary main_arg6 main_v76 (broadcastInDim S1x128 ![1] bcast_S128_S1x128_1 : (⟨S128, .f32⟩ : BufTy).Contents (Elt F) → (⟨S1x128, .f32⟩ : BufTy).Contents (Elt F)),
    StableHlo.unary main_v76 main_v77 (broadcastInDim S100000x128 ![0, 1] bcast_S1x128_S100000x128_0_1 : (⟨S1x128, .f32⟩ : BufTy).Contents (Elt F) → (⟨S100000x128, .f32⟩ : BufTy).Contents (Elt F)),
    StableHlo.binary main_v75 main_v77 main_v78 (addf : (⟨S100000x128, .f32⟩ : BufTy).Contents (Elt F) → (⟨S100000x128, .f32⟩ : BufTy).Contents (Elt F) → (⟨S100000x128, .f32⟩ : BufTy).Contents (Elt F)) ]

/-- Operations 120 … 124 of the line. -/
abbrev blk8 : List (HloOp τ sig (Elt F)) :=
  [ StableHlo.nullary main_cst_15 (constant S_ .f32 0x00000000#32),
    StableHlo.binary main_v78 main_cst_15 main_v79 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_16 (constant S_ .f32 0x47C35000#32),
    StableHlo.unary main_cst_16 main_v80 (broadcastInDim S128 ![] bcast_S_S128 : (⟨S_, .f32⟩ : BufTy).Contents (Elt F) → (⟨S128, .f32⟩ : BufTy).Contents (Elt F)),
    StableHlo.binary main_v79 main_v80 main_v81 (Host.divf : (⟨S128, .f32⟩ : BufTy).Contents (Elt F) → (⟨S128, .f32⟩ : BufTy).Contents (Elt F) → (⟨S128, .f32⟩ : BufTy).Contents (Elt F)) ]

/-- Operations 125 … 147 of the line. -/
abbrev blk9 : List (HloOp τ sig (Elt F)) :=
  [ StableHlo.nullary main_c_17 (constantI S_ 32 0#32),
    StableHlo.nullary main_call2_cst (constant S_ .f32 0x00000000#32),
    StableHlo.binary main_v78 main_call2_cst main_call2_v0 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.unary main_call2_v0 main_call2_v1 ((broadcastInDim S1x128 ![1] bcast_S128_S1x128_1) : (⟨S128, .f32⟩ : BufTy).Contents (Elt F) → (⟨S1x128, .f32⟩ : BufTy).Contents (Elt F)),
    StableHlo.nullary main_call2_cst_0 (constant S_ .f32 0x47C35000#32),
    StableHlo.unary main_call2_cst_0 main_call2_v2 ((broadcastInDim S1x128 ![] bcast_S_S1x128) : (⟨S_, .f32⟩ : BufTy).Contents (Elt F) → (⟨S1x128, .f32⟩ : BufTy).Contents (Elt F)),
    StableHlo.binary main_call2_v1 main_call2_v2 main_call2_v3 ((Host.divf) : (⟨S1x128, .f32⟩ : BufTy).Contents (Elt F) → (⟨S1x128, .f32⟩ : BufTy).Contents (Elt F) → (⟨S1x128, .f32⟩ : BufTy).Contents (Elt F)),
    StableHlo.unary main_call2_v3 main_call2_v4 ((broadcastInDim S100000x128 ![0, 1] bcast_S1x128_S100000x128_0_1) : (⟨S1x128, .f32⟩ : BufTy).Contents (Elt F) → (⟨S100000x128, .f32⟩ : BufTy).Contents (Elt F)),
    StableHlo.binary main_v78 main_call2_v4 main_call2_v5 ((subf) : (⟨S100000x128, .f32⟩ : BufTy).Contents (Elt F) → (⟨S100000x128, .f32⟩ : BufTy).Contents (Elt F) → (⟨S100000x128, .f32⟩ : BufTy).Contents (Elt F)),
    StableHlo.binary main_call2_v5 main_call2_v5 main_call2_v6 ((mulf) : (⟨S100000x128, .f32⟩ : BufTy).Contents (Elt F) → (⟨S100000x128, .f32⟩ : BufTy).Contents (Elt F) → (⟨S100000x128, .f32⟩ : BufTy).Contents (Elt F)),
    StableHlo.unary main_c_17 main_call2_v7 ((sitofp .f32) : (⟨S_, .i32⟩ : BufTy).Contents (Elt F) → (⟨S_, .f32⟩ : BufTy).Contents (Elt F)),
    StableHlo.nullary main_call2_cst_1 (constant S_ .f32 0x47C35000#32),
    StableHlo.binary main_call2_cst_1 main_call2_v7 main_call2_v8 ((subf) : (⟨S_, .f32⟩ : BufTy).Contents (Elt F) → (⟨S_, .f32⟩ : BufTy).Contents (Elt F) → (⟨S_, .f32⟩ : BufTy).Contents (Elt F)),
    StableHlo.nullary main_call2_cst_2 (constant S_ .f32 0x00000000#32),
    StableHlo.binary main_call2_v6 main_call2_cst_2 main_call2_v9 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.unary main_call2_v8 main_call2_v10 ((broadcastInDim S128 ![] bcast_S_S128) : (⟨S_, .f32⟩ : BufTy).Contents (Elt F) → (⟨S128, .f32⟩ : BufTy).Contents (Elt F)),
    StableHlo.binary main_call2_v9 main_call2_v10 main_call2_v11 ((Host.divf) : (⟨S128, .f32⟩ : BufTy).Contents (Elt F) → (⟨S128, .f32⟩ : BufTy).Contents (Elt F) → (⟨S128, .f32⟩ : BufTy).Contents (Elt F)),
    StableHlo.nullary main_call2_cst_3 (constant S_ .f32 0x00000000#32),
    StableHlo.binary main_call2_v8 main_call2_cst_3 main_call2_v12 ((cmpf .ogt) : (⟨S_, .f32⟩ : BufTy).Contents (Elt F) → (⟨S_, .f32⟩ : BufTy).Contents (Elt F) → (⟨S_, .i1⟩ : BufTy).Contents (Elt F)),
    StableHlo.nullary main_call2_cst_4 (constant S_ .f32 0x7FC00000#32),
    StableHlo.unary main_call2_cst_4 main_call2_call0_v0 ((id) : (⟨S_, .f32⟩ : BufTy).Contents (Elt F) → (⟨S_, .f32⟩ : BufTy).Contents (Elt F)),
    StableHlo.unary main_call2_call0_v0 main_call2_call0_v1 ((broadcastInDim S128 ![] bcast_S_S128) : (⟨S_, .f32⟩ : BufTy).Contents (Elt F) → (⟨S128, .f32⟩ : BufTy).Contents (Elt F)),
    StableHlo.ternary main_call2_v12 main_call2_v11 main_call2_call0_v1 main_v82 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)) ]

/-- Operations 148 … 163 of the line. -/
abbrev blk10 : List (HloOp τ sig (Elt F)) :=
  [ StableHlo.unary main_v81 main_v83 (broadcastInDim S1x128 ![1] bcast_S128_S1x128_1 : (⟨S128, .f32⟩ : BufTy).Contents (Elt F) → (⟨S1x128, .f32⟩ : BufTy).Contents (Elt F)),
    StableHlo.unary main_v83 main_v84 (broadcastInDim S100000x128 ![0, 1] bcast_S1x128_S100000x128_0_1 : (⟨S1x128, .f32⟩ : BufTy).Contents (Elt F) → (⟨S100000x128, .f32⟩ : BufTy).Contents (Elt F)),
    StableHlo.binary main_v78 main_v84 main_v85 (subf : (⟨S100000x128, .f32⟩ : BufTy).Contents (Elt F) → (⟨S100000x128, .f32⟩ : BufTy).Contents (Elt F) → (⟨S100000x128, .f32⟩ : BufTy).Contents (Elt F)),
    StableHlo.nullary main_cst_18 (constant S_ .f32 0x3727C5AC#32),
    StableHlo.unary main_cst_18 main_v86 (broadcastInDim S128 ![] bcast_S_S128 : (⟨S_, .f32⟩ : BufTy).Contents (Elt F) → (⟨S128, .f32⟩ : BufTy).Contents (Elt F)),
    StableHlo.binary main_v82 main_v86 main_v87 (addf : (⟨S128, .f32⟩ : BufTy).Contents (Elt F) → (⟨S128, .f32⟩ : BufTy).Contents (Elt F) → (⟨S128, .f32⟩ : BufTy).Contents (Elt F)),
    StableHlo.unary main_v87 main_v88 (Host.rsqrt : (⟨S128, .f32⟩ : BufTy).Contents (Elt F) → (⟨S128, .f32⟩ : BufTy).Contents (Elt F)),
    StableHlo.unary main_v88 main_v89 (broadcastInDim S1x128 ![1] bcast_S128_S1x128_1 : (⟨S128, .f32⟩ : BufTy).Contents (Elt F) → (⟨S1x128, .f32⟩ : BufTy).Contents (Elt F)),
    StableHlo.unary main_v89 main_v90 (broadcastInDim S100000x128 ![0, 1] bcast_S1x128_S100000x128_0_1 : (⟨S1x128, .f32⟩ : BufTy).Contents (Elt F) → (⟨S100000x128, .f32⟩ : BufTy).Contents (Elt F)),
    StableHlo.binary main_v85 main_v90 main_v91 (mulf : (⟨S100000x128, .f32⟩ : BufTy).Contents (Elt F) → (⟨S100000x128, .f32⟩ : BufTy).Contents (Elt F) → (⟨S100000x128, .f32⟩ : BufTy).Contents (Elt F)),
    StableHlo.unary main_arg11 main_v92 (broadcastInDim S1x128 ![1] bcast_S128_S1x128_1 : (⟨S128, .f32⟩ : BufTy).Contents (Elt F) → (⟨S1x128, .f32⟩ : BufTy).Contents (Elt F)),
    StableHlo.unary main_v92 main_v93 (broadcastInDim S100000x128 ![0, 1] bcast_S1x128_S100000x128_0_1 : (⟨S1x128, .f32⟩ : BufTy).Contents (Elt F) → (⟨S100000x128, .f32⟩ : BufTy).Contents (Elt F)),
    StableHlo.binary main_v91 main_v93 main_v94 (mulf : (⟨S100000x128, .f32⟩ : BufTy).Contents (Elt F) → (⟨S100000x128, .f32⟩ : BufTy).Contents (Elt F) → (⟨S100000x128, .f32⟩ : BufTy).Contents (Elt F)),
    StableHlo.unary main_arg12 main_v95 (broadcastInDim S1x128 ![1] bcast_S128_S1x128_1 : (⟨S128, .f32⟩ : BufTy).Contents (Elt F) → (⟨S1x128, .f32⟩ : BufTy).Contents (Elt F)),
    StableHlo.unary main_v95 main_v96 (broadcastInDim S100000x128 ![0, 1] bcast_S1x128_S100000x128_0_1 : (⟨S1x128, .f32⟩ : BufTy).Contents (Elt F) → (⟨S100000x128, .f32⟩ : BufTy).Contents (Elt F)),
    StableHlo.binary main_v94 main_v96 main_v97 (addf : (⟨S100000x128, .f32⟩ : BufTy).Contents (Elt F) → (⟨S100000x128, .f32⟩ : BufTy).Contents (Elt F) → (⟨S100000x128, .f32⟩ : BufTy).Contents (Elt F)) ]

/-- Operations 164 … 166 of the line. -/
abbrev blk11 : List (HloOp τ sig (Elt F)) :=
  [ StableHlo.nullary main_call3_cst (constant S_ .f32 0x00000000#32),
    StableHlo.unary main_call3_cst main_call3_v0 ((broadcastInDim S100000x128 ![] bcast_S_S100000x128) : (⟨S_, .f32⟩ : BufTy).Contents (Elt F) → (⟨S100000x128, .f32⟩ : BufTy).Contents (Elt F)),
    StableHlo.binary main_v97 main_call3_v0 main_v98 ((maximumf) : (⟨S100000x128, .f32⟩ : BufTy).Contents (Elt F) → (⟨S100000x128, .f32⟩ : BufTy).Contents (Elt F) → (⟨S100000x128, .f32⟩ : BufTy).Contents (Elt F)) ]

/-- Operations 167 … 186 of the line. -/
abbrev blk12 : List (HloOp τ sig (Elt F)) :=
  [ StableHlo.binary main_v98 main_arg7 main_v99 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    StableHlo.nullary main_c_19 (constantI S_ 32 0#32),
    StableHlo.unary main_c_19 main_v100 (broadcastInDim S740000 ![] bcast_S_S740000 : (⟨S_, .i32⟩ : BufTy).Contents (Elt F) → (⟨S740000, .i32⟩ : BufTy).Contents (Elt F)),
    StableHlo.binary main_v1 main_v100 main_v101 (cmpi .slt : (⟨S740000, .i32⟩ : BufTy).Contents (Elt F) → (⟨S740000, .i32⟩ : BufTy).Contents (Elt F) → (⟨S740000, .i1⟩ : BufTy).Contents (Elt F)),
    StableHlo.nullary main_c_20 (constantI S_ 32 100000#32),
    StableHlo.unary main_c_20 main_v102 (broadcastInDim S740000 ![] bcast_S_S740000 : (⟨S_, .i32⟩ : BufTy).Contents (Elt F) → (⟨S740000, .i32⟩ : BufTy).Contents (Elt F)),
    StableHlo.binary main_v1 main_v102 main_v103 (addi : (⟨S740000, .i32⟩ : BufTy).Contents (Elt F) → (⟨S740000, .i32⟩ : BufTy).Contents (Elt F) → (⟨S740000, .i32⟩ : BufTy).Contents (Elt F)),
    StableHlo.ternary main_v101 main_v103 main_v1 main_v104 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    StableHlo.unary main_v104 main_v105 (broadcastInDim S740000x1 ![0] bcast_S740000_S740000x1_0 : (⟨S740000, .i32⟩ : BufTy).Contents (Elt F) → (⟨S740000x1, .i32⟩ : BufTy).Contents (Elt F)),
    StableHlo.binary main_v99 main_v105 main_v106 ((fun x i => Host.gather gather_S100000x40_S740000x1_S740000x40_1_0_n_n_0_1_140 x i) : (⟨S100000x40, .f32⟩ : BufTy).Contents (Elt F) → (⟨S740000x1, .i32⟩ : BufTy).Contents (Elt F) → (⟨S740000x40, .f32⟩ : BufTy).Contents (Elt F)),
    StableHlo.unary main_v24 main_v107 (broadcastInDim S740000x1 ![0] bcast_S740000_S740000x1_0 : (⟨S740000, .f32⟩ : BufTy).Contents (Elt F) → (⟨S740000x1, .f32⟩ : BufTy).Contents (Elt F)),
    StableHlo.unary main_v107 main_v108 (broadcastInDim S740000x40 ![0, 1] bcast_S740000x1_S740000x40_0_1 : (⟨S740000x1, .f32⟩ : BufTy).Contents (Elt F) → (⟨S740000x40, .f32⟩ : BufTy).Contents (Elt F)),
    StableHlo.binary main_v106 main_v108 main_v109 (mulf : (⟨S740000x40, .f32⟩ : BufTy).Contents (Elt F) → (⟨S740000x40, .f32⟩ : BufTy).Contents (Elt F) → (⟨S740000x40, .f32⟩ : BufTy).Contents (Elt F)),
    StableHlo.nullary main_cst_21 (constant S_ .f32 0x00000000#32),
    StableHlo.unary main_cst_21 main_v110 (broadcastInDim S100000x40 ![] bcast_S_S100000x40 : (⟨S_, .f32⟩ : BufTy).Contents (Elt F) → (⟨S100000x40, .f32⟩ : BufTy).Contents (Elt F)),
    StableHlo.unary main_v2 main_v111 (broadcastInDim S740000x1 ![0] bcast_S740000_S740000x1_0 : (⟨S740000, .i32⟩ : BufTy).Contents (Elt F) → (⟨S740000x1, .i32⟩ : BufTy).Contents (Elt F)),
    StableHlo.ternary main_v110 main_v111 main_v109 main_v112 ((fun x i u => Host.scatterAdd scatter_S100000x40_S740000x1_S740000x40_1_0_0_1 x i u) : (⟨S100000x40, .f32⟩ : BufTy).Contents (Elt F) → (⟨S740000x1, .i32⟩ : BufTy).Contents (Elt F) → (⟨S740000x40, .f32⟩ : BufTy).Contents (Elt F) → (⟨S100000x40, .f32⟩ : BufTy).Contents (Elt F)),
    StableHlo.unary main_arg8 main_v113 (broadcastInDim S1x40 ![1] bcast_S40_S1x40_1 : (⟨S40, .f32⟩ : BufTy).Contents (Elt F) → (⟨S1x40, .f32⟩ : BufTy).Contents (Elt F)),
    StableHlo.unary main_v113 main_v114 (broadcastInDim S100000x40 ![0, 1] bcast_S1x40_S100000x40_0_1 : (⟨S1x40, .f32⟩ : BufTy).Contents (Elt F) → (⟨S100000x40, .f32⟩ : BufTy).Contents (Elt F)),
    StableHlo.binary main_v112 main_v114 main_v115 (addf : (⟨S100000x40, .f32⟩ : BufTy).Contents (Elt F) → (⟨S100000x40, .f32⟩ : BufTy).Contents (Elt F) → (⟨S100000x40, .f32⟩ : BufTy).Contents (Elt F)) ]

/-- Operations 187 … 201 of the line. -/
abbrev blk13 : List (HloOp τ sig (Elt F)) :=
  [ StableHlo.nullary main_call4_cst (constant S_ .f32 0xFF800000#32),
    StableHlo.binary main_v115 main_call4_cst main_call4_v0 ((fun x v => Host.reduce FloatOps.maximumf x v reducesTo_S100000x40_S100000_d1 h_S_) : (⟨S100000x40, .f32⟩ : BufTy).Contents (Elt F) → (⟨S_, .f32⟩ : BufTy).Contents (Elt F) → (⟨S100000, .f32⟩ : BufTy).Contents (Elt F)),
    StableHlo.nullary main_call4_cst_0 (constant S_ .f32 0xFF800000#32),
    StableHlo.unary main_call4_cst_0 main_call4_v1 ((broadcastInDim S100000 ![] bcast_S_S100000) : (⟨S_, .f32⟩ : BufTy).Contents (Elt F) → (⟨S100000, .f32⟩ : BufTy).Contents (Elt F)),
    StableHlo.binary main_call4_v1 main_call4_v0 main_call4_v2 ((maximumf) : (⟨S100000, .f32⟩ : BufTy).Contents (Elt F) → (⟨S100000, .f32⟩ : BufTy).Contents (Elt F) → (⟨S100000, .f32⟩ : BufTy).Contents (Elt F)),
    StableHlo.unary main_call4_v2 main_call4_v3 ((broadcastInDim S100000x1 ![0] bcast_S100000_S100000x1_0) : (⟨S100000, .f32⟩ : BufTy).Contents (Elt F) → (⟨S100000x1, .f32⟩ : BufTy).Contents (Elt F)),
    StableHlo.unary main_call4_v3 main_call4_v4 ((broadcastInDim S100000x40 ![0, 1] bcast_S100000x1_S100000x40_0_1) : (⟨S100000x1, .f32⟩ : BufTy).Contents (Elt F) → (⟨S100000x40, .f32⟩ : BufTy).Contents (Elt F)),
    StableHlo.binary main_v115 main_call4_v4 main_call4_v5 ((subf) : (⟨S100000x40, .f32⟩ : BufTy).Contents (Elt F) → (⟨S100000x40, .f32⟩ : BufTy).Contents (Elt F) → (⟨S100000x40, .f32⟩ : BufTy).Contents (Elt F)),
    StableHlo.unary main_call4_v5 main_call4_v6 ((Host.exp) : (⟨S100000x40, .f32⟩ : BufTy).Contents (Elt F) → (⟨S100000x40, .f32⟩ : BufTy).Contents (Elt F)),
    StableHlo.nullary main_call4_cst_1 (constant S_ .f32 0x00000000#32),
    StableHlo.binary main_call4_v6 main_call4_cst_1 main_call4_v7 ((fun x v => Host.reduceAdd x v reducesTo_S100000x40_S100000_d1 h_S_) : (⟨S100000x40, .f32⟩ : BufTy).Contents (Elt F) → (⟨S_, .f32⟩ : BufTy).Contents (Elt F) → (⟨S100000, .f32⟩ : BufTy).Contents (Elt F)),
    StableHlo.unary main_call4_v7 main_call4_v8 ((broadcastInDim S100000x1 ![0] bcast_S100000_S100000x1_0) : (⟨S100000, .f32⟩ : BufTy).Contents (Elt F) → (⟨S100000x1, .f32⟩ : BufTy).Contents (Elt F)),
    StableHlo.unary main_call4_v8 main_call4_v9 ((Host.log) : (⟨S100000x1, .f32⟩ : BufTy).Contents (Elt F) → (⟨S100000x1, .f32⟩ : BufTy).Contents (Elt F)),
    StableHlo.unary main_call4_v9 main_call4_v10 ((broadcastInDim S100000x40 ![0, 1] bcast_S100000x1_S100000x40_0_1) : (⟨S100000x1, .f32⟩ : BufTy).Contents (Elt F) → (⟨S100000x40, .f32⟩ : BufTy).Contents (Elt F)),
    StableHlo.binary main_call4_v5 main_call4_v10 main_v116 ((subf) : (⟨S100000x40, .f32⟩ : BufTy).Contents (Elt F) → (⟨S100000x40, .f32⟩ : BufTy).Contents (Elt F) → (⟨S100000x40, .f32⟩ : BufTy).Contents (Elt F)) ]

/-- The operations of the program's first window. -/
def part0 : List (HloOp τ sig (Elt F)) := blk0 ++ (blk1 ++ (blk2 ++ (blk3 ++ blk4)))
/-- The operations of the program's second window. -/
def part1 : List (HloOp τ sig (Elt F)) := blk5 ++ (blk6 ++ (blk7 ++ (blk8 ++ (blk9 ++ (blk10 ++ blk11)))))
/-- The operations of the program's third window. -/
def part2 : List (HloOp τ sig (Elt F)) := blk12 ++ blk13

/-- The whole line. -/
abbrev ops : List (HloOp τ sig (Elt F)) := blk0 ++ (blk1 ++ (blk2 ++ (blk3 ++ (blk4 ++ (blk5 ++ (blk6 ++ (blk7 ++ (blk8 ++ (blk9 ++ (blk10 ++ (blk11 ++ (blk12 ++ blk13))))))))))))

theorem ops_parts : (ops : List (HloOp τ sig (Elt F))) = part0 ++ (part1 ++ part2) := by
  simp only [ops, part0, part1, part2, List.append_assoc]

set_option maxRecDepth 8192 in
set_option maxHeartbeats 4000000 in
/-- The window is that stretch of the line: the outlined functions unfolded at their calls, sequencing reassociated. -/
theorem main_part0_eq (c : Dev nD) : main_part0 (F := F) c = seq part0 := by
  simp only [main_part0, fn_var.body, fn_where.body, part0, blk0, blk1, blk2, blk3, blk4, List.cons_append, List.nil_append, seq, bind_assoc, pure_bind]
  rfl

set_option maxRecDepth 8192 in
set_option maxHeartbeats 4000000 in
/-- The window is that stretch of the line: the outlined functions unfolded at their calls, sequencing reassociated. -/
theorem main_part1_eq (c : Dev nD) : main_part1 (F := F) c = seq part1 := by
  simp only [main_part1, fn_relu.body, fn_var.body, fn_where.body, part1, blk5, blk6, blk7, blk8, blk9, blk10, blk11, List.cons_append, List.nil_append, seq, bind_assoc, pure_bind]
  rfl

-- the row maximum, the exponential and the logarithm are kept folded while the two spellings of the window are compared
attribute [local irreducible] Host.reduce Host.exp Host.log in
set_option maxRecDepth 8192 in
set_option maxHeartbeats 4000000 in
/-- The window is that stretch of the line: the outlined functions unfolded at their calls, sequencing reassociated. -/
theorem main_part2_eq (c : Dev nD) : main_part2 (F := F) c = seq part2 := by
  simp only [main_part2, fn_log_softmax.body, part2, blk12, blk13, List.cons_append, List.nil_append, seq, bind_assoc, pure_bind]
  rfl

set_option maxRecDepth 8192 in
theorem main_eq (c : Dev nD) : main (F := F) c = seq ops := by
  rw [ops_parts]
  simp only [seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem blk0_sub : (blk0 : List (HloOp τ sig (Elt F))).Forall fun op => op.bufs ⊆ tcRefs τ sig :=
  ⟨nullary_bufs_sub .., binary_bufs_sub .., binary_bufs_sub ..⟩
set_option maxRecDepth 8192 in
theorem blk1_sub : (blk1 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
set_option maxRecDepth 8192 in
theorem blk2_sub : (blk2 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩
set_option maxRecDepth 8192 in
theorem blk3_sub : (blk3 : List (HloOp τ sig (Elt F))).Forall fun op => op.bufs ⊆ tcRefs τ sig :=
  ⟨nullary_bufs_sub .., binary_bufs_sub .., nullary_bufs_sub .., unary_bufs_sub .., binary_bufs_sub ..⟩
set_option maxRecDepth 8192 in
theorem blk4_sub : (blk4 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub ..⟩
set_option maxRecDepth 8192 in
theorem blk5_sub : (blk5 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
set_option maxRecDepth 8192 in
theorem blk6_sub : (blk6 : List (HloOp τ sig (Elt F))).Forall fun op => op.bufs ⊆ tcRefs τ sig :=
  ⟨nullary_bufs_sub .., unary_bufs_sub .., binary_bufs_sub ..⟩
set_option maxRecDepth 8192 in
theorem blk7_sub : (blk7 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩
set_option maxRecDepth 8192 in
theorem blk8_sub : (blk8 : List (HloOp τ sig (Elt F))).Forall fun op => op.bufs ⊆ tcRefs τ sig :=
  ⟨nullary_bufs_sub .., binary_bufs_sub .., nullary_bufs_sub .., unary_bufs_sub .., binary_bufs_sub ..⟩
set_option maxRecDepth 8192 in
theorem blk9_sub : (blk9 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
set_option maxRecDepth 8192 in
theorem blk10_sub : (blk10 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
set_option maxRecDepth 8192 in
theorem blk11_sub : (blk11 : List (HloOp τ sig (Elt F))).Forall fun op => op.bufs ⊆ tcRefs τ sig :=
  ⟨nullary_bufs_sub .., unary_bufs_sub .., binary_bufs_sub ..⟩
set_option maxRecDepth 8192 in
theorem blk12_sub : (blk12 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩
set_option maxRecDepth 8192 in
theorem blk13_sub : (blk13 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩
theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h | h | h | h
    exacts [List.forall_iff_forall_mem.mp blk0_sub op h, List.forall_iff_forall_mem.mp blk1_sub op h, List.forall_iff_forall_mem.mp blk2_sub op h, List.forall_iff_forall_mem.mp blk3_sub op h, List.forall_iff_forall_mem.mp blk4_sub op h, List.forall_iff_forall_mem.mp blk5_sub op h, List.forall_iff_forall_mem.mp blk6_sub op h, List.forall_iff_forall_mem.mp blk7_sub op h, List.forall_iff_forall_mem.mp blk8_sub op h, List.forall_iff_forall_mem.mp blk9_sub op h, List.forall_iff_forall_mem.mp blk10_sub op h, List.forall_iff_forall_mem.mp blk11_sub op h, List.forall_iff_forall_mem.mp blk12_sub op h, List.forall_iff_forall_mem.mp blk13_sub op h]

/-! ## The stages' values, as functions of the contents the line starts from -/

/-- The source list with the self loops. -/
def eS (V0 : Valuation τ sig (Elt F)) : (⟨S740000, .i32⟩ : BufTy).Contents (Elt F) := Cert.Ref.sIdx (V0 (Proc.devRef .tc main_arg1))
/-- The destination list with the self loops. -/
def eT (V0 : Valuation τ sig (Elt F)) : (⟨S740000, .i32⟩ : BufTy).Contents (Elt F) := Cert.Ref.tIdx (V0 (Proc.devRef .tc main_arg2))
/-- The edge coefficients. -/
def eN (V0 : Valuation τ sig (Elt F)) : (⟨S740000, .f32⟩ : BufTy).Contents (Elt F) := Cert.Ref.norm (eS V0) (eT V0)
/-- The first convolution. -/
def hid1 (V0 : Valuation τ sig (Elt F)) : (⟨S100000x128, .f32⟩ : BufTy).Contents (Elt F) := Cert.Ref.conv128 (eS V0) (eT V0) (V0 (Proc.devRef .tc main_arg0)) (V0 (Proc.devRef .tc main_arg3)) (V0 (Proc.devRef .tc main_arg4))
/-- The first hidden layer. -/
def act1 (V0 : Valuation τ sig (Elt F)) : (⟨S100000x128, .f32⟩ : BufTy).Contents (Elt F) := Cert.Ref.relu (Cert.Ref.bn (hid1 V0) (V0 (Proc.devRef .tc main_arg9)) (V0 (Proc.devRef .tc main_arg10)))
/-- The second convolution. -/
def hid2 (V0 : Valuation τ sig (Elt F)) : (⟨S100000x128, .f32⟩ : BufTy).Contents (Elt F) := Cert.Ref.conv128 (eS V0) (eT V0) (act1 V0) (V0 (Proc.devRef .tc main_arg5)) (V0 (Proc.devRef .tc main_arg6))
/-- The second hidden layer. -/
def act2 (V0 : Valuation τ sig (Elt F)) : (⟨S100000x128, .f32⟩ : BufTy).Contents (Elt F) := Cert.Ref.relu (Cert.Ref.bn (hid2 V0) (V0 (Proc.devRef .tc main_arg11)) (V0 (Proc.devRef .tc main_arg12)))
/-- The third convolution. -/
def hid3 (V0 : Valuation τ sig (Elt F)) : (⟨S100000x40, .f32⟩ : BufTy).Contents (Elt F) := Cert.Ref.conv40 (eS V0) (eT V0) (act2 V0) (V0 (Proc.devRef .tc main_arg7)) (V0 (Proc.devRef .tc main_arg8))

/-- The last stage's value is the model of the argument arrays: the names above unfolded. -/
theorem out_fold (V0 : Valuation τ sig (Elt F)) :
    Cert.Ref.logSoftmax (hid3 V0) = Cert.Ref.out (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) := by
  simp only [Cert.Ref.out, hid3, act2, hid2, act1, hid1, eS, eT]

/-! ## The contents after each stretch -/

/-- The buffers' contents before the first stretch. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl
theorem val0_main_arg6 (V0 : Valuation τ sig (Elt F)) : val0 V0 (no_index (Proc.devRef .tc main_arg6)) = V0 (Proc.devRef .tc main_arg6) := rfl
theorem val0_main_arg7 (V0 : Valuation τ sig (Elt F)) : val0 V0 (no_index (Proc.devRef .tc main_arg7)) = V0 (Proc.devRef .tc main_arg7) := rfl
theorem val0_main_arg8 (V0 : Valuation τ sig (Elt F)) : val0 V0 (no_index (Proc.devRef .tc main_arg8)) = V0 (Proc.devRef .tc main_arg8) := rfl
theorem val0_main_arg9 (V0 : Valuation τ sig (Elt F)) : val0 V0 (no_index (Proc.devRef .tc main_arg9)) = V0 (Proc.devRef .tc main_arg9) := rfl
theorem val0_main_arg10 (V0 : Valuation τ sig (Elt F)) : val0 V0 (no_index (Proc.devRef .tc main_arg10)) = V0 (Proc.devRef .tc main_arg10) := rfl
theorem val0_main_arg11 (V0 : Valuation τ sig (Elt F)) : val0 V0 (no_index (Proc.devRef .tc main_arg11)) = V0 (Proc.devRef .tc main_arg11) := rfl
theorem val0_main_arg12 (V0 : Valuation τ sig (Elt F)) : val0 V0 (no_index (Proc.devRef .tc main_arg12)) = V0 (Proc.devRef .tc main_arg12) := rfl

/-- The buffers' contents after the first 1 stretch. -/
def val1 (V0 : Valuation τ sig (Elt F)) : Valuation τ sig (Elt F) := after blk0 (val0 V0)
/-- The buffers this stretch writes. -/
abbrev blk0_W : List (Ref sig .tc) := [main_v0, main_v1, main_v2]
set_option maxRecDepth 8192 in
theorem blk0_writes : (blk0 : List (HloOp τ sig (Elt F))).Forall fun op => op.writes ⊆ (blk0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer this stretch does not write keeps its contents through it. -/
theorem val1_keep (V0 : Valuation τ sig (Elt F)) (r : Ref sig .tc) (h : r ∉ blk0_W) :
    val1 V0 (Proc.devRef .tc r) = val0 V0 (Proc.devRef .tc r) :=
  after_of_writes_sub blk0 _ blk0_writes h
theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_arg1 (V0 : Valuation τ sig (Elt F)) : val1 V0 (no_index (Proc.devRef .tc main_arg1)) = V0 (Proc.devRef .tc main_arg1) :=
  (val1_keep V0 main_arg1 (by decide)).trans (val0_main_arg1 V0)
theorem val1_main_arg2 (V0 : Valuation τ sig (Elt F)) : val1 V0 (no_index (Proc.devRef .tc main_arg2)) = V0 (Proc.devRef .tc main_arg2) :=
  (val1_keep V0 main_arg2 (by decide)).trans (val0_main_arg2 V0)
theorem val1_main_arg3 (V0 : Valuation τ sig (Elt F)) : val1 V0 (no_index (Proc.devRef .tc main_arg3)) = V0 (Proc.devRef .tc main_arg3) :=
  (val1_keep V0 main_arg3 (by decide)).trans (val0_main_arg3 V0)
theorem val1_main_arg4 (V0 : Valuation τ sig (Elt F)) : val1 V0 (no_index (Proc.devRef .tc main_arg4)) = V0 (Proc.devRef .tc main_arg4) :=
  (val1_keep V0 main_arg4 (by decide)).trans (val0_main_arg4 V0)
theorem val1_main_arg5 (V0 : Valuation τ sig (Elt F)) : val1 V0 (no_index (Proc.devRef .tc main_arg5)) = V0 (Proc.devRef .tc main_arg5) :=
  (val1_keep V0 main_arg5 (by decide)).trans (val0_main_arg5 V0)
theorem val1_main_arg6 (V0 : Valuation τ sig (Elt F)) : val1 V0 (no_index (Proc.devRef .tc main_arg6)) = V0 (Proc.devRef .tc main_arg6) :=
  (val1_keep V0 main_arg6 (by decide)).trans (val0_main_arg6 V0)
theorem val1_main_arg7 (V0 : Valuation τ sig (Elt F)) : val1 V0 (no_index (Proc.devRef .tc main_arg7)) = V0 (Proc.devRef .tc main_arg7) :=
  (val1_keep V0 main_arg7 (by decide)).trans (val0_main_arg7 V0)
theorem val1_main_arg8 (V0 : Valuation τ sig (Elt F)) : val1 V0 (no_index (Proc.devRef .tc main_arg8)) = V0 (Proc.devRef .tc main_arg8) :=
  (val1_keep V0 main_arg8 (by decide)).trans (val0_main_arg8 V0)
theorem val1_main_arg9 (V0 : Valuation τ sig (Elt F)) : val1 V0 (no_index (Proc.devRef .tc main_arg9)) = V0 (Proc.devRef .tc main_arg9) :=
  (val1_keep V0 main_arg9 (by decide)).trans (val0_main_arg9 V0)
theorem val1_main_arg10 (V0 : Valuation τ sig (Elt F)) : val1 V0 (no_index (Proc.devRef .tc main_arg10)) = V0 (Proc.devRef .tc main_arg10) :=
  (val1_keep V0 main_arg10 (by decide)).trans (val0_main_arg10 V0)
theorem val1_main_arg11 (V0 : Valuation τ sig (Elt F)) : val1 V0 (no_index (Proc.devRef .tc main_arg11)) = V0 (Proc.devRef .tc main_arg11) :=
  (val1_keep V0 main_arg11 (by decide)).trans (val0_main_arg11 V0)
theorem val1_main_arg12 (V0 : Valuation τ sig (Elt F)) : val1 V0 (no_index (Proc.devRef .tc main_arg12)) = V0 (Proc.devRef .tc main_arg12) :=
  (val1_keep V0 main_arg12 (by decide)).trans (val0_main_arg12 V0)
set_option maxRecDepth 8192 in
theorem val1_main_v1 (V0 : Valuation τ sig (Elt F)) : val1 V0 (no_index (Proc.devRef .tc main_v1)) = eS V0 := by
  unfold val1
  simp only [blk0]
  after_results
  rfl
set_option maxRecDepth 8192 in
theorem val1_main_v2 (V0 : Valuation τ sig (Elt F)) : val1 V0 (no_index (Proc.devRef .tc main_v2)) = eT V0 := by
  unfold val1
  simp only [blk0]
  after_results
  rfl

/-- The buffers' contents after the first 2 stretches. -/
def val2 (V0 : Valuation τ sig (Elt F)) : Valuation τ sig (Elt F) := after blk1 (val1 V0)
/-- The buffers this stretch writes. -/
abbrev blk1_W : List (Ref sig .tc) := [main_cst, main_v3, main_cst_0, main_v4, main_v5, main_v6, main_cst_1, main_v7, main_v8, main_v9, main_c, main_v10, main_v11, main_c_2, main_v12, main_v13, main_v14, main_v15, main_v16, main_c_3, main_v17, main_v18, main_c_4, main_v19, main_v20, main_v21, main_v22, main_v23, main_v24]
set_option maxRecDepth 8192 in
theorem blk1_writes : (blk1 : List (HloOp τ sig (Elt F))).Forall fun op => op.writes ⊆ (blk1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer this stretch does not write keeps its contents through it. -/
theorem val2_keep (V0 : Valuation τ sig (Elt F)) (r : Ref sig .tc) (h : r ∉ blk1_W) :
    val2 V0 (Proc.devRef .tc r) = val1 V0 (Proc.devRef .tc r) :=
  after_of_writes_sub blk1 _ blk1_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_arg4 (V0 : Valuation τ sig (Elt F)) : val2 V0 (no_index (Proc.devRef .tc main_arg4)) = V0 (Proc.devRef .tc main_arg4) :=
  (val2_keep V0 main_arg4 (by decide)).trans (val1_main_arg4 V0)
theorem val2_main_arg5 (V0 : Valuation τ sig (Elt F)) : val2 V0 (no_index (Proc.devRef .tc main_arg5)) = V0 (Proc.devRef .tc main_arg5) :=
  (val2_keep V0 main_arg5 (by decide)).trans (val1_main_arg5 V0)
theorem val2_main_arg6 (V0 : Valuation τ sig (Elt F)) : val2 V0 (no_index (Proc.devRef .tc main_arg6)) = V0 (Proc.devRef .tc main_arg6) :=
  (val2_keep V0 main_arg6 (by decide)).trans (val1_main_arg6 V0)
theorem val2_main_arg7 (V0 : Valuation τ sig (Elt F)) : val2 V0 (no_index (Proc.devRef .tc main_arg7)) = V0 (Proc.devRef .tc main_arg7) :=
  (val2_keep V0 main_arg7 (by decide)).trans (val1_main_arg7 V0)
theorem val2_main_arg8 (V0 : Valuation τ sig (Elt F)) : val2 V0 (no_index (Proc.devRef .tc main_arg8)) = V0 (Proc.devRef .tc main_arg8) :=
  (val2_keep V0 main_arg8 (by decide)).trans (val1_main_arg8 V0)
theorem val2_main_arg9 (V0 : Valuation τ sig (Elt F)) : val2 V0 (no_index (Proc.devRef .tc main_arg9)) = V0 (Proc.devRef .tc main_arg9) :=
  (val2_keep V0 main_arg9 (by decide)).trans (val1_main_arg9 V0)
theorem val2_main_arg10 (V0 : Valuation τ sig (Elt F)) : val2 V0 (no_index (Proc.devRef .tc main_arg10)) = V0 (Proc.devRef .tc main_arg10) :=
  (val2_keep V0 main_arg10 (by decide)).trans (val1_main_arg10 V0)
theorem val2_main_arg11 (V0 : Valuation τ sig (Elt F)) : val2 V0 (no_index (Proc.devRef .tc main_arg11)) = V0 (Proc.devRef .tc main_arg11) :=
  (val2_keep V0 main_arg11 (by decide)).trans (val1_main_arg11 V0)
theorem val2_main_arg12 (V0 : Valuation τ sig (Elt F)) : val2 V0 (no_index (Proc.devRef .tc main_arg12)) = V0 (Proc.devRef .tc main_arg12) :=
  (val2_keep V0 main_arg12 (by decide)).trans (val1_main_arg12 V0)
theorem val2_main_v1 (V0 : Valuation τ sig (Elt F)) : val2 V0 (no_index (Proc.devRef .tc main_v1)) = eS V0 :=
  (val2_keep V0 main_v1 (by decide)).trans (val1_main_v1 V0)
theorem val2_main_v2 (V0 : Valuation τ sig (Elt F)) : val2 V0 (no_index (Proc.devRef .tc main_v2)) = eT V0 :=
  (val2_keep V0 main_v2 (by decide)).trans (val1_main_v2 V0)
set_option maxRecDepth 8192 in
set_option maxHeartbeats 2000000 in
theorem val2_main_v24 (V0 : Valuation τ sig (Elt F)) : val2 V0 (no_index (Proc.devRef .tc main_v24)) = eN V0 := by
  unfold val2
  simp only [blk1]
  after_results_simp
  simp only [val1_main_v2, val1_main_v1] <;> rfl

/-- The buffers' contents after the first 3 stretches. -/
def val3 (V0 : Valuation τ sig (Elt F)) : Valuation τ sig (Elt F) := after blk2 (val2 V0)
/-- The buffers this stretch writes. -/
abbrev blk2_W : List (Ref sig .tc) := [main_v25, main_c_5, main_v26, main_v27, main_c_6, main_v28, main_v29, main_v30, main_v31, main_v32, main_v33, main_v34, main_v35, main_cst_7, main_v36, main_v37, main_v38, main_v39, main_v40, main_v41]
set_option maxRecDepth 8192 in
theorem blk2_writes : (blk2 : List (HloOp τ sig (Elt F))).Forall fun op => op.writes ⊆ (blk2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer this stretch does not write keeps its contents through it. -/
theorem val3_keep (V0 : Valuation τ sig (Elt F)) (r : Ref sig .tc) (h : r ∉ blk2_W) :
    val3 V0 (Proc.devRef .tc r) = val2 V0 (Proc.devRef .tc r) :=
  after_of_writes_sub blk2 _ blk2_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_main_arg4 V0)
theorem val3_main_arg5 (V0 : Valuation τ sig (Elt F)) : val3 V0 (no_index (Proc.devRef .tc main_arg5)) = V0 (Proc.devRef .tc main_arg5) :=
  (val3_keep V0 main_arg5 (by decide)).trans (val2_main_arg5 V0)
theorem val3_main_arg6 (V0 : Valuation τ sig (Elt F)) : val3 V0 (no_index (Proc.devRef .tc main_arg6)) = V0 (Proc.devRef .tc main_arg6) :=
  (val3_keep V0 main_arg6 (by decide)).trans (val2_main_arg6 V0)
theorem val3_main_arg7 (V0 : Valuation τ sig (Elt F)) : val3 V0 (no_index (Proc.devRef .tc main_arg7)) = V0 (Proc.devRef .tc main_arg7) :=
  (val3_keep V0 main_arg7 (by decide)).trans (val2_main_arg7 V0)
theorem val3_main_arg8 (V0 : Valuation τ sig (Elt F)) : val3 V0 (no_index (Proc.devRef .tc main_arg8)) = V0 (Proc.devRef .tc main_arg8) :=
  (val3_keep V0 main_arg8 (by decide)).trans (val2_main_arg8 V0)
theorem val3_main_arg9 (V0 : Valuation τ sig (Elt F)) : val3 V0 (no_index (Proc.devRef .tc main_arg9)) = V0 (Proc.devRef .tc main_arg9) :=
  (val3_keep V0 main_arg9 (by decide)).trans (val2_main_arg9 V0)
theorem val3_main_arg10 (V0 : Valuation τ sig (Elt F)) : val3 V0 (no_index (Proc.devRef .tc main_arg10)) = V0 (Proc.devRef .tc main_arg10) :=
  (val3_keep V0 main_arg10 (by decide)).trans (val2_main_arg10 V0)
theorem val3_main_arg11 (V0 : Valuation τ sig (Elt F)) : val3 V0 (no_index (Proc.devRef .tc main_arg11)) = V0 (Proc.devRef .tc main_arg11) :=
  (val3_keep V0 main_arg11 (by decide)).trans (val2_main_arg11 V0)
theorem val3_main_arg12 (V0 : Valuation τ sig (Elt F)) : val3 V0 (no_index (Proc.devRef .tc main_arg12)) = V0 (Proc.devRef .tc main_arg12) :=
  (val3_keep V0 main_arg12 (by decide)).trans (val2_main_arg12 V0)
theorem val3_main_v1 (V0 : Valuation τ sig (Elt F)) : val3 V0 (no_index (Proc.devRef .tc main_v1)) = eS V0 :=
  (val3_keep V0 main_v1 (by decide)).trans (val2_main_v1 V0)
theorem val3_main_v2 (V0 : Valuation τ sig (Elt F)) : val3 V0 (no_index (Proc.devRef .tc main_v2)) = eT V0 :=
  (val3_keep V0 main_v2 (by decide)).trans (val2_main_v2 V0)
theorem val3_main_v24 (V0 : Valuation τ sig (Elt F)) : val3 V0 (no_index (Proc.devRef .tc main_v24)) = eN V0 :=
  (val3_keep V0 main_v24 (by decide)).trans (val2_main_v24 V0)
set_option maxRecDepth 8192 in
set_option maxHeartbeats 2000000 in
theorem val3_main_v41 (V0 : Valuation τ sig (Elt F)) : val3 V0 (no_index (Proc.devRef .tc main_v41)) = hid1 V0 := by
  unfold val3
  simp only [blk2]
  after_results_simp
  simp only [val2_main_arg4, val2_main_v24, val2_main_v1, val2_main_arg3, val2_main_arg0, val2_main_v2] <;> rfl

/-- The buffers' contents after the first 4 stretches. -/
def val4 (V0 : Valuation τ sig (Elt F)) : Valuation τ sig (Elt F) := after blk3 (val3 V0)
/-- The buffers this stretch writes. -/
abbrev blk3_W : List (Ref sig .tc) := [main_cst_8, main_v42, main_cst_9, main_v43, main_v44]
set_option maxRecDepth 8192 in
theorem blk3_writes : (blk3 : List (HloOp τ sig (Elt F))).Forall fun op => op.writes ⊆ (blk3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer this stretch does not write keeps its contents through it. -/
theorem val4_keep (V0 : Valuation τ sig (Elt F)) (r : Ref sig .tc) (h : r ∉ blk3_W) :
    val4 V0 (Proc.devRef .tc r) = val3 V0 (Proc.devRef .tc r) :=
  after_of_writes_sub blk3 _ blk3_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_arg3 (V0 : Valuation τ sig (Elt F)) : val4 V0 (no_index (Proc.devRef .tc main_arg3)) = V0 (Proc.devRef .tc main_arg3) :=
  (val4_keep V0 main_arg3 (by decide)).trans (val3_main_arg3 V0)
theorem val4_main_arg4 (V0 : Valuation τ sig (Elt F)) : val4 V0 (no_index (Proc.devRef .tc main_arg4)) = V0 (Proc.devRef .tc main_arg4) :=
  (val4_keep V0 main_arg4 (by decide)).trans (val3_main_arg4 V0)
theorem val4_main_arg5 (V0 : Valuation τ sig (Elt F)) : val4 V0 (no_index (Proc.devRef .tc main_arg5)) = V0 (Proc.devRef .tc main_arg5) :=
  (val4_keep V0 main_arg5 (by decide)).trans (val3_main_arg5 V0)
theorem val4_main_arg6 (V0 : Valuation τ sig (Elt F)) : val4 V0 (no_index (Proc.devRef .tc main_arg6)) = V0 (Proc.devRef .tc main_arg6) :=
  (val4_keep V0 main_arg6 (by decide)).trans (val3_main_arg6 V0)
theorem val4_main_arg7 (V0 : Valuation τ sig (Elt F)) : val4 V0 (no_index (Proc.devRef .tc main_arg7)) = V0 (Proc.devRef .tc main_arg7) :=
  (val4_keep V0 main_arg7 (by decide)).trans (val3_main_arg7 V0)
theorem val4_main_arg8 (V0 : Valuation τ sig (Elt F)) : val4 V0 (no_index (Proc.devRef .tc main_arg8)) = V0 (Proc.devRef .tc main_arg8) :=
  (val4_keep V0 main_arg8 (by decide)).trans (val3_main_arg8 V0)
theorem val4_main_arg9 (V0 : Valuation τ sig (Elt F)) : val4 V0 (no_index (Proc.devRef .tc main_arg9)) = V0 (Proc.devRef .tc main_arg9) :=
  (val4_keep V0 main_arg9 (by decide)).trans (val3_main_arg9 V0)
theorem val4_main_arg10 (V0 : Valuation τ sig (Elt F)) : val4 V0 (no_index (Proc.devRef .tc main_arg10)) = V0 (Proc.devRef .tc main_arg10) :=
  (val4_keep V0 main_arg10 (by decide)).trans (val3_main_arg10 V0)
theorem val4_main_arg11 (V0 : Valuation τ sig (Elt F)) : val4 V0 (no_index (Proc.devRef .tc main_arg11)) = V0 (Proc.devRef .tc main_arg11) :=
  (val4_keep V0 main_arg11 (by decide)).trans (val3_main_arg11 V0)
theorem val4_main_arg12 (V0 : Valuation τ sig (Elt F)) : val4 V0 (no_index (Proc.devRef .tc main_arg12)) = V0 (Proc.devRef .tc main_arg12) :=
  (val4_keep V0 main_arg12 (by decide)).trans (val3_main_arg12 V0)
theorem val4_main_v1 (V0 : Valuation τ sig (Elt F)) : val4 V0 (no_index (Proc.devRef .tc main_v1)) = eS V0 :=
  (val4_keep V0 main_v1 (by decide)).trans (val3_main_v1 V0)
theorem val4_main_v2 (V0 : Valuation τ sig (Elt F)) : val4 V0 (no_index (Proc.devRef .tc main_v2)) = eT V0 :=
  (val4_keep V0 main_v2 (by decide)).trans (val3_main_v2 V0)
theorem val4_main_v24 (V0 : Valuation τ sig (Elt F)) : val4 V0 (no_index (Proc.devRef .tc main_v24)) = eN V0 :=
  (val4_keep V0 main_v24 (by decide)).trans (val3_main_v24 V0)
theorem val4_main_v41 (V0 : Valuation τ sig (Elt F)) : val4 V0 (no_index (Proc.devRef .tc main_v41)) = hid1 V0 :=
  (val4_keep V0 main_v41 (by decide)).trans (val3_main_v41 V0)
set_option maxRecDepth 8192 in
theorem val4_main_v44 (V0 : Valuation τ sig (Elt F)) : val4 V0 (no_index (Proc.devRef .tc main_v44)) = Cert.Ref.mean (hid1 V0) := by
  unfold val4
  simp only [blk3]
  after_results_simp
  simp only [val3_main_v41] <;> rfl

/-- The buffers' contents after the first 5 stretches. -/
def val5 (V0 : Valuation τ sig (Elt F)) : Valuation τ sig (Elt F) := after blk4 (val4 V0)
/-- The buffers this stretch writes. -/
abbrev blk4_W : List (Ref sig .tc) := [main_c_10, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v45, main_v46]
set_option maxRecDepth 8192 in
theorem blk4_writes : (blk4 : List (HloOp τ sig (Elt F))).Forall fun op => op.writes ⊆ (blk4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer this stretch does not write keeps its contents through it. -/
theorem val5_keep (V0 : Valuation τ sig (Elt F)) (r : Ref sig .tc) (h : r ∉ blk4_W) :
    val5 V0 (Proc.devRef .tc r) = val4 V0 (Proc.devRef .tc r) :=
  after_of_writes_sub blk4 _ blk4_writes h
theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val5_main_arg1 (V0 : Valuation τ sig (Elt F)) : val5 V0 (no_index (Proc.devRef .tc main_arg1)) = V0 (Proc.devRef .tc main_arg1) :=
  (val5_keep V0 main_arg1 (by decide)).trans (val4_main_arg1 V0)
theorem val5_main_arg2 (V0 : Valuation τ sig (Elt F)) : val5 V0 (no_index (Proc.devRef .tc main_arg2)) = V0 (Proc.devRef .tc main_arg2) :=
  (val5_keep V0 main_arg2 (by decide)).trans (val4_main_arg2 V0)
theorem val5_main_arg3 (V0 : Valuation τ sig (Elt F)) : val5 V0 (no_index (Proc.devRef .tc main_arg3)) = V0 (Proc.devRef .tc main_arg3) :=
  (val5_keep V0 main_arg3 (by decide)).trans (val4_main_arg3 V0)
theorem val5_main_arg4 (V0 : Valuation τ sig (Elt F)) : val5 V0 (no_index (Proc.devRef .tc main_arg4)) = V0 (Proc.devRef .tc main_arg4) :=
  (val5_keep V0 main_arg4 (by decide)).trans (val4_main_arg4 V0)
theorem val5_main_arg5 (V0 : Valuation τ sig (Elt F)) : val5 V0 (no_index (Proc.devRef .tc main_arg5)) = V0 (Proc.devRef .tc main_arg5) :=
  (val5_keep V0 main_arg5 (by decide)).trans (val4_main_arg5 V0)
theorem val5_main_arg6 (V0 : Valuation τ sig (Elt F)) : val5 V0 (no_index (Proc.devRef .tc main_arg6)) = V0 (Proc.devRef .tc main_arg6) :=
  (val5_keep V0 main_arg6 (by decide)).trans (val4_main_arg6 V0)
theorem val5_main_arg7 (V0 : Valuation τ sig (Elt F)) : val5 V0 (no_index (Proc.devRef .tc main_arg7)) = V0 (Proc.devRef .tc main_arg7) :=
  (val5_keep V0 main_arg7 (by decide)).trans (val4_main_arg7 V0)
theorem val5_main_arg8 (V0 : Valuation τ sig (Elt F)) : val5 V0 (no_index (Proc.devRef .tc main_arg8)) = V0 (Proc.devRef .tc main_arg8) :=
  (val5_keep V0 main_arg8 (by decide)).trans (val4_main_arg8 V0)
theorem val5_main_arg9 (V0 : Valuation τ sig (Elt F)) : val5 V0 (no_index (Proc.devRef .tc main_arg9)) = V0 (Proc.devRef .tc main_arg9) :=
  (val5_keep V0 main_arg9 (by decide)).trans (val4_main_arg9 V0)
theorem val5_main_arg10 (V0 : Valuation τ sig (Elt F)) : val5 V0 (no_index (Proc.devRef .tc main_arg10)) = V0 (Proc.devRef .tc main_arg10) :=
  (val5_keep V0 main_arg10 (by decide)).trans (val4_main_arg10 V0)
theorem val5_main_arg11 (V0 : Valuation τ sig (Elt F)) : val5 V0 (no_index (Proc.devRef .tc main_arg11)) = V0 (Proc.devRef .tc main_arg11) :=
  (val5_keep V0 main_arg11 (by decide)).trans (val4_main_arg11 V0)
theorem val5_main_arg12 (V0 : Valuation τ sig (Elt F)) : val5 V0 (no_index (Proc.devRef .tc main_arg12)) = V0 (Proc.devRef .tc main_arg12) :=
  (val5_keep V0 main_arg12 (by decide)).trans (val4_main_arg12 V0)
theorem val5_main_v1 (V0 : Valuation τ sig (Elt F)) : val5 V0 (no_index (Proc.devRef .tc main_v1)) = eS V0 :=
  (val5_keep V0 main_v1 (by decide)).trans (val4_main_v1 V0)
theorem val5_main_v2 (V0 : Valuation τ sig (Elt F)) : val5 V0 (no_index (Proc.devRef .tc main_v2)) = eT V0 :=
  (val5_keep V0 main_v2 (by decide)).trans (val4_main_v2 V0)
theorem val5_main_v24 (V0 : Valuation τ sig (Elt F)) : val5 V0 (no_index (Proc.devRef .tc main_v24)) = eN V0 :=
  (val5_keep V0 main_v24 (by decide)).trans (val4_main_v24 V0)
theorem val5_main_v41 (V0 : Valuation τ sig (Elt F)) : val5 V0 (no_index (Proc.devRef .tc main_v41)) = hid1 V0 :=
  (val5_keep V0 main_v41 (by decide)).trans (val4_main_v41 V0)
set_option maxRecDepth 8192 in
set_option maxHeartbeats 2000000 in
theorem val5_main_v45 (V0 : Valuation τ sig (Elt F)) : val5 V0 (no_index (Proc.devRef .tc main_v45)) = Cert.Ref.var (hid1 V0) := by
  unfold val5
  simp only [blk4]
  after_results_simp
  simp only [val4_main_v41] <;> rfl
set_option maxRecDepth 8192 in
set_option maxHeartbeats 2000000 in
theorem val5_main_v46 (V0 : Valuation τ sig (Elt F)) : val5 V0 (no_index (Proc.devRef .tc main_v46)) = broadcastInDim S1x128 ![1] bcast_S128_S1x128_1 (Cert.Ref.mean (hid1 V0)) := by
  unfold val5
  simp only [blk4]
  after_results_simp
  simp only [val4_main_v44] <;> rfl

/-- The buffers' contents after the first 6 stretches. -/
def val6 (V0 : Valuation τ sig (Elt F)) : Valuation τ sig (Elt F) := after blk5 (val5 V0)
/-- The buffers this stretch writes. -/
abbrev blk5_W : List (Ref sig .tc) := [main_v47, main_v48, main_cst_11, main_v49, main_v50, main_v51, main_v52, main_v53, main_v54, main_v55, main_v56, main_v57, main_v58, main_v59, main_v60]
set_option maxRecDepth 8192 in
theorem blk5_writes : (blk5 : List (HloOp τ sig (Elt F))).Forall fun op => op.writes ⊆ (blk5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer this stretch does not write keeps its contents through it. -/
theorem val6_keep (V0 : Valuation τ sig (Elt F)) (r : Ref sig .tc) (h : r ∉ blk5_W) :
    val6 V0 (Proc.devRef .tc r) = val5 V0 (Proc.devRef .tc r) :=
  after_of_writes_sub blk5 _ blk5_writes h
theorem val6_main_arg0 (V0 : Valuation τ sig (Elt F)) : val6 V0 (no_index (Proc.devRef .tc main_arg0)) = V0 (Proc.devRef .tc main_arg0) :=
  (val6_keep V0 main_arg0 (by decide)).trans (val5_main_arg0 V0)
theorem val6_main_arg1 (V0 : Valuation τ sig (Elt F)) : val6 V0 (no_index (Proc.devRef .tc main_arg1)) = V0 (Proc.devRef .tc main_arg1) :=
  (val6_keep V0 main_arg1 (by decide)).trans (val5_main_arg1 V0)
theorem val6_main_arg2 (V0 : Valuation τ sig (Elt F)) : val6 V0 (no_index (Proc.devRef .tc main_arg2)) = V0 (Proc.devRef .tc main_arg2) :=
  (val6_keep V0 main_arg2 (by decide)).trans (val5_main_arg2 V0)
theorem val6_main_arg3 (V0 : Valuation τ sig (Elt F)) : val6 V0 (no_index (Proc.devRef .tc main_arg3)) = V0 (Proc.devRef .tc main_arg3) :=
  (val6_keep V0 main_arg3 (by decide)).trans (val5_main_arg3 V0)
theorem val6_main_arg4 (V0 : Valuation τ sig (Elt F)) : val6 V0 (no_index (Proc.devRef .tc main_arg4)) = V0 (Proc.devRef .tc main_arg4) :=
  (val6_keep V0 main_arg4 (by decide)).trans (val5_main_arg4 V0)
theorem val6_main_arg5 (V0 : Valuation τ sig (Elt F)) : val6 V0 (no_index (Proc.devRef .tc main_arg5)) = V0 (Proc.devRef .tc main_arg5) :=
  (val6_keep V0 main_arg5 (by decide)).trans (val5_main_arg5 V0)
theorem val6_main_arg6 (V0 : Valuation τ sig (Elt F)) : val6 V0 (no_index (Proc.devRef .tc main_arg6)) = V0 (Proc.devRef .tc main_arg6) :=
  (val6_keep V0 main_arg6 (by decide)).trans (val5_main_arg6 V0)
theorem val6_main_arg7 (V0 : Valuation τ sig (Elt F)) : val6 V0 (no_index (Proc.devRef .tc main_arg7)) = V0 (Proc.devRef .tc main_arg7) :=
  (val6_keep V0 main_arg7 (by decide)).trans (val5_main_arg7 V0)
theorem val6_main_arg8 (V0 : Valuation τ sig (Elt F)) : val6 V0 (no_index (Proc.devRef .tc main_arg8)) = V0 (Proc.devRef .tc main_arg8) :=
  (val6_keep V0 main_arg8 (by decide)).trans (val5_main_arg8 V0)
theorem val6_main_arg9 (V0 : Valuation τ sig (Elt F)) : val6 V0 (no_index (Proc.devRef .tc main_arg9)) = V0 (Proc.devRef .tc main_arg9) :=
  (val6_keep V0 main_arg9 (by decide)).trans (val5_main_arg9 V0)
theorem val6_main_arg10 (V0 : Valuation τ sig (Elt F)) : val6 V0 (no_index (Proc.devRef .tc main_arg10)) = V0 (Proc.devRef .tc main_arg10) :=
  (val6_keep V0 main_arg10 (by decide)).trans (val5_main_arg10 V0)
theorem val6_main_arg11 (V0 : Valuation τ sig (Elt F)) : val6 V0 (no_index (Proc.devRef .tc main_arg11)) = V0 (Proc.devRef .tc main_arg11) :=
  (val6_keep V0 main_arg11 (by decide)).trans (val5_main_arg11 V0)
theorem val6_main_arg12 (V0 : Valuation τ sig (Elt F)) : val6 V0 (no_index (Proc.devRef .tc main_arg12)) = V0 (Proc.devRef .tc main_arg12) :=
  (val6_keep V0 main_arg12 (by decide)).trans (val5_main_arg12 V0)
theorem val6_main_v1 (V0 : Valuation τ sig (Elt F)) : val6 V0 (no_index (Proc.devRef .tc main_v1)) = eS V0 :=
  (val6_keep V0 main_v1 (by decide)).trans (val5_main_v1 V0)
theorem val6_main_v2 (V0 : Valuation τ sig (Elt F)) : val6 V0 (no_index (Proc.devRef .tc main_v2)) = eT V0 :=
  (val6_keep V0 main_v2 (by decide)).trans (val5_main_v2 V0)
theorem val6_main_v24 (V0 : Valuation τ sig (Elt F)) : val6 V0 (no_index (Proc.devRef .tc main_v24)) = eN V0 :=
  (val6_keep V0 main_v24 (by decide)).trans (val5_main_v24 V0)
set_option maxRecDepth 8192 in
set_option maxHeartbeats 1500000 in
theorem val6_main_v60 (V0 : Valuation τ sig (Elt F)) : val6 V0 (no_index (Proc.devRef .tc main_v60)) = Cert.Ref.bn (hid1 V0) (V0 (Proc.devRef .tc main_arg9)) (V0 (Proc.devRef .tc main_arg10)) := by
  unfold val6
  simp only [blk5]
  after_results_simp
  simp only [val5_main_arg10, val5_main_arg9, val5_main_v45, val5_main_v46, val5_main_v41] <;> rfl

/-- The buffers' contents after the first 7 stretches. -/
def val7 (V0 : Valuation τ sig (Elt F)) : Valuation τ sig (Elt F) := after blk6 (val6 V0)
/-- The buffers this stretch writes. -/
abbrev blk6_W : List (Ref sig .tc) := [main_call1_cst, main_call1_v0, main_v61]
set_option maxRecDepth 8192 in
theorem blk6_writes : (blk6 : List (HloOp τ sig (Elt F))).Forall fun op => op.writes ⊆ (blk6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer this stretch does not write keeps its contents through it. -/
theorem val7_keep (V0 : Valuation τ sig (Elt F)) (r : Ref sig .tc) (h : r ∉ blk6_W) :
    val7 V0 (Proc.devRef .tc r) = val6 V0 (Proc.devRef .tc r) :=
  after_of_writes_sub blk6 _ blk6_writes h
theorem val7_main_arg0 (V0 : Valuation τ sig (Elt F)) : val7 V0 (no_index (Proc.devRef .tc main_arg0)) = V0 (Proc.devRef .tc main_arg0) :=
  (val7_keep V0 main_arg0 (by decide)).trans (val6_main_arg0 V0)
theorem val7_main_arg1 (V0 : Valuation τ sig (Elt F)) : val7 V0 (no_index (Proc.devRef .tc main_arg1)) = V0 (Proc.devRef .tc main_arg1) :=
  (val7_keep V0 main_arg1 (by decide)).trans (val6_main_arg1 V0)
theorem val7_main_arg2 (V0 : Valuation τ sig (Elt F)) : val7 V0 (no_index (Proc.devRef .tc main_arg2)) = V0 (Proc.devRef .tc main_arg2) :=
  (val7_keep V0 main_arg2 (by decide)).trans (val6_main_arg2 V0)
theorem val7_main_arg3 (V0 : Valuation τ sig (Elt F)) : val7 V0 (no_index (Proc.devRef .tc main_arg3)) = V0 (Proc.devRef .tc main_arg3) :=
  (val7_keep V0 main_arg3 (by decide)).trans (val6_main_arg3 V0)
theorem val7_main_arg4 (V0 : Valuation τ sig (Elt F)) : val7 V0 (no_index (Proc.devRef .tc main_arg4)) = V0 (Proc.devRef .tc main_arg4) :=
  (val7_keep V0 main_arg4 (by decide)).trans (val6_main_arg4 V0)
theorem val7_main_arg5 (V0 : Valuation τ sig (Elt F)) : val7 V0 (no_index (Proc.devRef .tc main_arg5)) = V0 (Proc.devRef .tc main_arg5) :=
  (val7_keep V0 main_arg5 (by decide)).trans (val6_main_arg5 V0)
theorem val7_main_arg6 (V0 : Valuation τ sig (Elt F)) : val7 V0 (no_index (Proc.devRef .tc main_arg6)) = V0 (Proc.devRef .tc main_arg6) :=
  (val7_keep V0 main_arg6 (by decide)).trans (val6_main_arg6 V0)
theorem val7_main_arg7 (V0 : Valuation τ sig (Elt F)) : val7 V0 (no_index (Proc.devRef .tc main_arg7)) = V0 (Proc.devRef .tc main_arg7) :=
  (val7_keep V0 main_arg7 (by decide)).trans (val6_main_arg7 V0)
theorem val7_main_arg8 (V0 : Valuation τ sig (Elt F)) : val7 V0 (no_index (Proc.devRef .tc main_arg8)) = V0 (Proc.devRef .tc main_arg8) :=
  (val7_keep V0 main_arg8 (by decide)).trans (val6_main_arg8 V0)
theorem val7_main_arg9 (V0 : Valuation τ sig (Elt F)) : val7 V0 (no_index (Proc.devRef .tc main_arg9)) = V0 (Proc.devRef .tc main_arg9) :=
  (val7_keep V0 main_arg9 (by decide)).trans (val6_main_arg9 V0)
theorem val7_main_arg10 (V0 : Valuation τ sig (Elt F)) : val7 V0 (no_index (Proc.devRef .tc main_arg10)) = V0 (Proc.devRef .tc main_arg10) :=
  (val7_keep V0 main_arg10 (by decide)).trans (val6_main_arg10 V0)
theorem val7_main_arg11 (V0 : Valuation τ sig (Elt F)) : val7 V0 (no_index (Proc.devRef .tc main_arg11)) = V0 (Proc.devRef .tc main_arg11) :=
  (val7_keep V0 main_arg11 (by decide)).trans (val6_main_arg11 V0)
theorem val7_main_arg12 (V0 : Valuation τ sig (Elt F)) : val7 V0 (no_index (Proc.devRef .tc main_arg12)) = V0 (Proc.devRef .tc main_arg12) :=
  (val7_keep V0 main_arg12 (by decide)).trans (val6_main_arg12 V0)
theorem val7_main_v1 (V0 : Valuation τ sig (Elt F)) : val7 V0 (no_index (Proc.devRef .tc main_v1)) = eS V0 :=
  (val7_keep V0 main_v1 (by decide)).trans (val6_main_v1 V0)
theorem val7_main_v2 (V0 : Valuation τ sig (Elt F)) : val7 V0 (no_index (Proc.devRef .tc main_v2)) = eT V0 :=
  (val7_keep V0 main_v2 (by decide)).trans (val6_main_v2 V0)
theorem val7_main_v24 (V0 : Valuation τ sig (Elt F)) : val7 V0 (no_index (Proc.devRef .tc main_v24)) = eN V0 :=
  (val7_keep V0 main_v24 (by decide)).trans (val6_main_v24 V0)
set_option maxRecDepth 8192 in
theorem val7_main_v61 (V0 : Valuation τ sig (Elt F)) : val7 V0 (no_index (Proc.devRef .tc main_v61)) = act1 V0 := by
  unfold val7
  simp only [blk6]
  after_results_simp
  simp only [val6_main_v60] <;> rfl

/-- The buffers' contents after the first 8 stretches. -/
def val8 (V0 : Valuation τ sig (Elt F)) : Valuation τ sig (Elt F) := after blk7 (val7 V0)
/-- The buffers this stretch writes. -/
abbrev blk7_W : List (Ref sig .tc) := [main_v62, main_c_12, main_v63, main_v64, main_c_13, main_v65, main_v66, main_v67, main_v68, main_v69, main_v70, main_v71, main_v72, main_cst_14, main_v73, main_v74, main_v75, main_v76, main_v77, main_v78]
set_option maxRecDepth 8192 in
theorem blk7_writes : (blk7 : List (HloOp τ sig (Elt F))).Forall fun op => op.writes ⊆ (blk7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer this stretch does not write keeps its contents through it. -/
theorem val8_keep (V0 : Valuation τ sig (Elt F)) (r : Ref sig .tc) (h : r ∉ blk7_W) :
    val8 V0 (Proc.devRef .tc r) = val7 V0 (Proc.devRef .tc r) :=
  after_of_writes_sub blk7 _ blk7_writes h
theorem val8_main_arg0 (V0 : Valuation τ sig (Elt F)) : val8 V0 (no_index (Proc.devRef .tc main_arg0)) = V0 (Proc.devRef .tc main_arg0) :=
  (val8_keep V0 main_arg0 (by decide)).trans (val7_main_arg0 V0)
theorem val8_main_arg1 (V0 : Valuation τ sig (Elt F)) : val8 V0 (no_index (Proc.devRef .tc main_arg1)) = V0 (Proc.devRef .tc main_arg1) :=
  (val8_keep V0 main_arg1 (by decide)).trans (val7_main_arg1 V0)
theorem val8_main_arg2 (V0 : Valuation τ sig (Elt F)) : val8 V0 (no_index (Proc.devRef .tc main_arg2)) = V0 (Proc.devRef .tc main_arg2) :=
  (val8_keep V0 main_arg2 (by decide)).trans (val7_main_arg2 V0)
theorem val8_main_arg3 (V0 : Valuation τ sig (Elt F)) : val8 V0 (no_index (Proc.devRef .tc main_arg3)) = V0 (Proc.devRef .tc main_arg3) :=
  (val8_keep V0 main_arg3 (by decide)).trans (val7_main_arg3 V0)
theorem val8_main_arg4 (V0 : Valuation τ sig (Elt F)) : val8 V0 (no_index (Proc.devRef .tc main_arg4)) = V0 (Proc.devRef .tc main_arg4) :=
  (val8_keep V0 main_arg4 (by decide)).trans (val7_main_arg4 V0)
theorem val8_main_arg5 (V0 : Valuation τ sig (Elt F)) : val8 V0 (no_index (Proc.devRef .tc main_arg5)) = V0 (Proc.devRef .tc main_arg5) :=
  (val8_keep V0 main_arg5 (by decide)).trans (val7_main_arg5 V0)
theorem val8_main_arg6 (V0 : Valuation τ sig (Elt F)) : val8 V0 (no_index (Proc.devRef .tc main_arg6)) = V0 (Proc.devRef .tc main_arg6) :=
  (val8_keep V0 main_arg6 (by decide)).trans (val7_main_arg6 V0)
theorem val8_main_arg7 (V0 : Valuation τ sig (Elt F)) : val8 V0 (no_index (Proc.devRef .tc main_arg7)) = V0 (Proc.devRef .tc main_arg7) :=
  (val8_keep V0 main_arg7 (by decide)).trans (val7_main_arg7 V0)
theorem val8_main_arg8 (V0 : Valuation τ sig (Elt F)) : val8 V0 (no_index (Proc.devRef .tc main_arg8)) = V0 (Proc.devRef .tc main_arg8) :=
  (val8_keep V0 main_arg8 (by decide)).trans (val7_main_arg8 V0)
theorem val8_main_arg9 (V0 : Valuation τ sig (Elt F)) : val8 V0 (no_index (Proc.devRef .tc main_arg9)) = V0 (Proc.devRef .tc main_arg9) :=
  (val8_keep V0 main_arg9 (by decide)).trans (val7_main_arg9 V0)
theorem val8_main_arg10 (V0 : Valuation τ sig (Elt F)) : val8 V0 (no_index (Proc.devRef .tc main_arg10)) = V0 (Proc.devRef .tc main_arg10) :=
  (val8_keep V0 main_arg10 (by decide)).trans (val7_main_arg10 V0)
theorem val8_main_arg11 (V0 : Valuation τ sig (Elt F)) : val8 V0 (no_index (Proc.devRef .tc main_arg11)) = V0 (Proc.devRef .tc main_arg11) :=
  (val8_keep V0 main_arg11 (by decide)).trans (val7_main_arg11 V0)
theorem val8_main_arg12 (V0 : Valuation τ sig (Elt F)) : val8 V0 (no_index (Proc.devRef .tc main_arg12)) = V0 (Proc.devRef .tc main_arg12) :=
  (val8_keep V0 main_arg12 (by decide)).trans (val7_main_arg12 V0)
theorem val8_main_v1 (V0 : Valuation τ sig (Elt F)) : val8 V0 (no_index (Proc.devRef .tc main_v1)) = eS V0 :=
  (val8_keep V0 main_v1 (by decide)).trans (val7_main_v1 V0)
theorem val8_main_v2 (V0 : Valuation τ sig (Elt F)) : val8 V0 (no_index (Proc.devRef .tc main_v2)) = eT V0 :=
  (val8_keep V0 main_v2 (by decide)).trans (val7_main_v2 V0)
theorem val8_main_v24 (V0 : Valuation τ sig (Elt F)) : val8 V0 (no_index (Proc.devRef .tc main_v24)) = eN V0 :=
  (val8_keep V0 main_v24 (by decide)).trans (val7_main_v24 V0)
set_option maxRecDepth 8192 in
set_option maxHeartbeats 2000000 in
theorem val8_main_v78 (V0 : Valuation τ sig (Elt F)) : val8 V0 (no_index (Proc.devRef .tc main_v78)) = hid2 V0 := by
  unfold val8
  simp only [blk7]
  after_results_simp
  simp only [val7_main_arg6, val7_main_v24, val7_main_v1, val7_main_arg5, val7_main_v61, val7_main_v2] <;> rfl

/-- The buffers' contents after the first 9 stretches. -/
def val9 (V0 : Valuation τ sig (Elt F)) : Valuation τ sig (Elt F) := after blk8 (val8 V0)
/-- The buffers this stretch writes. -/
abbrev blk8_W : List (Ref sig .tc) := [main_cst_15, main_v79, main_cst_16, main_v80, main_v81]
set_option maxRecDepth 8192 in
theorem blk8_writes : (blk8 : List (HloOp τ sig (Elt F))).Forall fun op => op.writes ⊆ (blk8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer this stretch does not write keeps its contents through it. -/
theorem val9_keep (V0 : Valuation τ sig (Elt F)) (r : Ref sig .tc) (h : r ∉ blk8_W) :
    val9 V0 (Proc.devRef .tc r) = val8 V0 (Proc.devRef .tc r) :=
  after_of_writes_sub blk8 _ blk8_writes h
theorem val9_main_arg0 (V0 : Valuation τ sig (Elt F)) : val9 V0 (no_index (Proc.devRef .tc main_arg0)) = V0 (Proc.devRef .tc main_arg0) :=
  (val9_keep V0 main_arg0 (by decide)).trans (val8_main_arg0 V0)
theorem val9_main_arg1 (V0 : Valuation τ sig (Elt F)) : val9 V0 (no_index (Proc.devRef .tc main_arg1)) = V0 (Proc.devRef .tc main_arg1) :=
  (val9_keep V0 main_arg1 (by decide)).trans (val8_main_arg1 V0)
theorem val9_main_arg2 (V0 : Valuation τ sig (Elt F)) : val9 V0 (no_index (Proc.devRef .tc main_arg2)) = V0 (Proc.devRef .tc main_arg2) :=
  (val9_keep V0 main_arg2 (by decide)).trans (val8_main_arg2 V0)
theorem val9_main_arg3 (V0 : Valuation τ sig (Elt F)) : val9 V0 (no_index (Proc.devRef .tc main_arg3)) = V0 (Proc.devRef .tc main_arg3) :=
  (val9_keep V0 main_arg3 (by decide)).trans (val8_main_arg3 V0)
theorem val9_main_arg4 (V0 : Valuation τ sig (Elt F)) : val9 V0 (no_index (Proc.devRef .tc main_arg4)) = V0 (Proc.devRef .tc main_arg4) :=
  (val9_keep V0 main_arg4 (by decide)).trans (val8_main_arg4 V0)
theorem val9_main_arg5 (V0 : Valuation τ sig (Elt F)) : val9 V0 (no_index (Proc.devRef .tc main_arg5)) = V0 (Proc.devRef .tc main_arg5) :=
  (val9_keep V0 main_arg5 (by decide)).trans (val8_main_arg5 V0)
theorem val9_main_arg6 (V0 : Valuation τ sig (Elt F)) : val9 V0 (no_index (Proc.devRef .tc main_arg6)) = V0 (Proc.devRef .tc main_arg6) :=
  (val9_keep V0 main_arg6 (by decide)).trans (val8_main_arg6 V0)
theorem val9_main_arg7 (V0 : Valuation τ sig (Elt F)) : val9 V0 (no_index (Proc.devRef .tc main_arg7)) = V0 (Proc.devRef .tc main_arg7) :=
  (val9_keep V0 main_arg7 (by decide)).trans (val8_main_arg7 V0)
theorem val9_main_arg8 (V0 : Valuation τ sig (Elt F)) : val9 V0 (no_index (Proc.devRef .tc main_arg8)) = V0 (Proc.devRef .tc main_arg8) :=
  (val9_keep V0 main_arg8 (by decide)).trans (val8_main_arg8 V0)
theorem val9_main_arg9 (V0 : Valuation τ sig (Elt F)) : val9 V0 (no_index (Proc.devRef .tc main_arg9)) = V0 (Proc.devRef .tc main_arg9) :=
  (val9_keep V0 main_arg9 (by decide)).trans (val8_main_arg9 V0)
theorem val9_main_arg10 (V0 : Valuation τ sig (Elt F)) : val9 V0 (no_index (Proc.devRef .tc main_arg10)) = V0 (Proc.devRef .tc main_arg10) :=
  (val9_keep V0 main_arg10 (by decide)).trans (val8_main_arg10 V0)
theorem val9_main_arg11 (V0 : Valuation τ sig (Elt F)) : val9 V0 (no_index (Proc.devRef .tc main_arg11)) = V0 (Proc.devRef .tc main_arg11) :=
  (val9_keep V0 main_arg11 (by decide)).trans (val8_main_arg11 V0)
theorem val9_main_arg12 (V0 : Valuation τ sig (Elt F)) : val9 V0 (no_index (Proc.devRef .tc main_arg12)) = V0 (Proc.devRef .tc main_arg12) :=
  (val9_keep V0 main_arg12 (by decide)).trans (val8_main_arg12 V0)
theorem val9_main_v1 (V0 : Valuation τ sig (Elt F)) : val9 V0 (no_index (Proc.devRef .tc main_v1)) = eS V0 :=
  (val9_keep V0 main_v1 (by decide)).trans (val8_main_v1 V0)
theorem val9_main_v2 (V0 : Valuation τ sig (Elt F)) : val9 V0 (no_index (Proc.devRef .tc main_v2)) = eT V0 :=
  (val9_keep V0 main_v2 (by decide)).trans (val8_main_v2 V0)
theorem val9_main_v24 (V0 : Valuation τ sig (Elt F)) : val9 V0 (no_index (Proc.devRef .tc main_v24)) = eN V0 :=
  (val9_keep V0 main_v24 (by decide)).trans (val8_main_v24 V0)
theorem val9_main_v78 (V0 : Valuation τ sig (Elt F)) : val9 V0 (no_index (Proc.devRef .tc main_v78)) = hid2 V0 :=
  (val9_keep V0 main_v78 (by decide)).trans (val8_main_v78 V0)
set_option maxRecDepth 8192 in
theorem val9_main_v81 (V0 : Valuation τ sig (Elt F)) : val9 V0 (no_index (Proc.devRef .tc main_v81)) = Cert.Ref.mean (hid2 V0) := by
  unfold val9
  simp only [blk8]
  after_results_simp
  simp only [val8_main_v78] <;> rfl

/-- The buffers' contents after the first 10 stretches. -/
def val10 (V0 : Valuation τ sig (Elt F)) : Valuation τ sig (Elt F) := after blk9 (val9 V0)
/-- The buffers this stretch writes. -/
abbrev blk9_W : List (Ref sig .tc) := [main_c_17, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v82]
set_option maxRecDepth 8192 in
theorem blk9_writes : (blk9 : List (HloOp τ sig (Elt F))).Forall fun op => op.writes ⊆ (blk9_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer this stretch does not write keeps its contents through it. -/
theorem val10_keep (V0 : Valuation τ sig (Elt F)) (r : Ref sig .tc) (h : r ∉ blk9_W) :
    val10 V0 (Proc.devRef .tc r) = val9 V0 (Proc.devRef .tc r) :=
  after_of_writes_sub blk9 _ blk9_writes h
theorem val10_main_arg0 (V0 : Valuation τ sig (Elt F)) : val10 V0 (no_index (Proc.devRef .tc main_arg0)) = V0 (Proc.devRef .tc main_arg0) :=
  (val10_keep V0 main_arg0 (by decide)).trans (val9_main_arg0 V0)
theorem val10_main_arg1 (V0 : Valuation τ sig (Elt F)) : val10 V0 (no_index (Proc.devRef .tc main_arg1)) = V0 (Proc.devRef .tc main_arg1) :=
  (val10_keep V0 main_arg1 (by decide)).trans (val9_main_arg1 V0)
theorem val10_main_arg2 (V0 : Valuation τ sig (Elt F)) : val10 V0 (no_index (Proc.devRef .tc main_arg2)) = V0 (Proc.devRef .tc main_arg2) :=
  (val10_keep V0 main_arg2 (by decide)).trans (val9_main_arg2 V0)
theorem val10_main_arg3 (V0 : Valuation τ sig (Elt F)) : val10 V0 (no_index (Proc.devRef .tc main_arg3)) = V0 (Proc.devRef .tc main_arg3) :=
  (val10_keep V0 main_arg3 (by decide)).trans (val9_main_arg3 V0)
theorem val10_main_arg4 (V0 : Valuation τ sig (Elt F)) : val10 V0 (no_index (Proc.devRef .tc main_arg4)) = V0 (Proc.devRef .tc main_arg4) :=
  (val10_keep V0 main_arg4 (by decide)).trans (val9_main_arg4 V0)
theorem val10_main_arg5 (V0 : Valuation τ sig (Elt F)) : val10 V0 (no_index (Proc.devRef .tc main_arg5)) = V0 (Proc.devRef .tc main_arg5) :=
  (val10_keep V0 main_arg5 (by decide)).trans (val9_main_arg5 V0)
theorem val10_main_arg6 (V0 : Valuation τ sig (Elt F)) : val10 V0 (no_index (Proc.devRef .tc main_arg6)) = V0 (Proc.devRef .tc main_arg6) :=
  (val10_keep V0 main_arg6 (by decide)).trans (val9_main_arg6 V0)
theorem val10_main_arg7 (V0 : Valuation τ sig (Elt F)) : val10 V0 (no_index (Proc.devRef .tc main_arg7)) = V0 (Proc.devRef .tc main_arg7) :=
  (val10_keep V0 main_arg7 (by decide)).trans (val9_main_arg7 V0)
theorem val10_main_arg8 (V0 : Valuation τ sig (Elt F)) : val10 V0 (no_index (Proc.devRef .tc main_arg8)) = V0 (Proc.devRef .tc main_arg8) :=
  (val10_keep V0 main_arg8 (by decide)).trans (val9_main_arg8 V0)
theorem val10_main_arg9 (V0 : Valuation τ sig (Elt F)) : val10 V0 (no_index (Proc.devRef .tc main_arg9)) = V0 (Proc.devRef .tc main_arg9) :=
  (val10_keep V0 main_arg9 (by decide)).trans (val9_main_arg9 V0)
theorem val10_main_arg10 (V0 : Valuation τ sig (Elt F)) : val10 V0 (no_index (Proc.devRef .tc main_arg10)) = V0 (Proc.devRef .tc main_arg10) :=
  (val10_keep V0 main_arg10 (by decide)).trans (val9_main_arg10 V0)
theorem val10_main_arg11 (V0 : Valuation τ sig (Elt F)) : val10 V0 (no_index (Proc.devRef .tc main_arg11)) = V0 (Proc.devRef .tc main_arg11) :=
  (val10_keep V0 main_arg11 (by decide)).trans (val9_main_arg11 V0)
theorem val10_main_arg12 (V0 : Valuation τ sig (Elt F)) : val10 V0 (no_index (Proc.devRef .tc main_arg12)) = V0 (Proc.devRef .tc main_arg12) :=
  (val10_keep V0 main_arg12 (by decide)).trans (val9_main_arg12 V0)
theorem val10_main_v1 (V0 : Valuation τ sig (Elt F)) : val10 V0 (no_index (Proc.devRef .tc main_v1)) = eS V0 :=
  (val10_keep V0 main_v1 (by decide)).trans (val9_main_v1 V0)
theorem val10_main_v2 (V0 : Valuation τ sig (Elt F)) : val10 V0 (no_index (Proc.devRef .tc main_v2)) = eT V0 :=
  (val10_keep V0 main_v2 (by decide)).trans (val9_main_v2 V0)
theorem val10_main_v24 (V0 : Valuation τ sig (Elt F)) : val10 V0 (no_index (Proc.devRef .tc main_v24)) = eN V0 :=
  (val10_keep V0 main_v24 (by decide)).trans (val9_main_v24 V0)
theorem val10_main_v78 (V0 : Valuation τ sig (Elt F)) : val10 V0 (no_index (Proc.devRef .tc main_v78)) = hid2 V0 :=
  (val10_keep V0 main_v78 (by decide)).trans (val9_main_v78 V0)
theorem val10_main_v81 (V0 : Valuation τ sig (Elt F)) : val10 V0 (no_index (Proc.devRef .tc main_v81)) = Cert.Ref.mean (hid2 V0) :=
  (val10_keep V0 main_v81 (by decide)).trans (val9_main_v81 V0)
set_option maxRecDepth 8192 in
set_option maxHeartbeats 2000000 in
theorem val10_main_v82 (V0 : Valuation τ sig (Elt F)) : val10 V0 (no_index (Proc.devRef .tc main_v82)) = Cert.Ref.var (hid2 V0) := by
  unfold val10
  simp only [blk9]
  after_results_simp
  simp only [val9_main_v78] <;> rfl

/-- The buffers' contents after the first 11 stretches. -/
def val11 (V0 : Valuation τ sig (Elt F)) : Valuation τ sig (Elt F) := after blk10 (val10 V0)
/-- The buffers this stretch writes. -/
abbrev blk10_W : List (Ref sig .tc) := [main_v83, main_v84, main_v85, main_cst_18, main_v86, main_v87, main_v88, main_v89, main_v90, main_v91, main_v92, main_v93, main_v94, main_v95, main_v96, main_v97]
set_option maxRecDepth 8192 in
theorem blk10_writes : (blk10 : List (HloOp τ sig (Elt F))).Forall fun op => op.writes ⊆ (blk10_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer this stretch does not write keeps its contents through it. -/
theorem val11_keep (V0 : Valuation τ sig (Elt F)) (r : Ref sig .tc) (h : r ∉ blk10_W) :
    val11 V0 (Proc.devRef .tc r) = val10 V0 (Proc.devRef .tc r) :=
  after_of_writes_sub blk10 _ blk10_writes h
theorem val11_main_arg0 (V0 : Valuation τ sig (Elt F)) : val11 V0 (no_index (Proc.devRef .tc main_arg0)) = V0 (Proc.devRef .tc main_arg0) :=
  (val11_keep V0 main_arg0 (by decide)).trans (val10_main_arg0 V0)
theorem val11_main_arg1 (V0 : Valuation τ sig (Elt F)) : val11 V0 (no_index (Proc.devRef .tc main_arg1)) = V0 (Proc.devRef .tc main_arg1) :=
  (val11_keep V0 main_arg1 (by decide)).trans (val10_main_arg1 V0)
theorem val11_main_arg2 (V0 : Valuation τ sig (Elt F)) : val11 V0 (no_index (Proc.devRef .tc main_arg2)) = V0 (Proc.devRef .tc main_arg2) :=
  (val11_keep V0 main_arg2 (by decide)).trans (val10_main_arg2 V0)
theorem val11_main_arg3 (V0 : Valuation τ sig (Elt F)) : val11 V0 (no_index (Proc.devRef .tc main_arg3)) = V0 (Proc.devRef .tc main_arg3) :=
  (val11_keep V0 main_arg3 (by decide)).trans (val10_main_arg3 V0)
theorem val11_main_arg4 (V0 : Valuation τ sig (Elt F)) : val11 V0 (no_index (Proc.devRef .tc main_arg4)) = V0 (Proc.devRef .tc main_arg4) :=
  (val11_keep V0 main_arg4 (by decide)).trans (val10_main_arg4 V0)
theorem val11_main_arg5 (V0 : Valuation τ sig (Elt F)) : val11 V0 (no_index (Proc.devRef .tc main_arg5)) = V0 (Proc.devRef .tc main_arg5) :=
  (val11_keep V0 main_arg5 (by decide)).trans (val10_main_arg5 V0)
theorem val11_main_arg6 (V0 : Valuation τ sig (Elt F)) : val11 V0 (no_index (Proc.devRef .tc main_arg6)) = V0 (Proc.devRef .tc main_arg6) :=
  (val11_keep V0 main_arg6 (by decide)).trans (val10_main_arg6 V0)
theorem val11_main_arg7 (V0 : Valuation τ sig (Elt F)) : val11 V0 (no_index (Proc.devRef .tc main_arg7)) = V0 (Proc.devRef .tc main_arg7) :=
  (val11_keep V0 main_arg7 (by decide)).trans (val10_main_arg7 V0)
theorem val11_main_arg8 (V0 : Valuation τ sig (Elt F)) : val11 V0 (no_index (Proc.devRef .tc main_arg8)) = V0 (Proc.devRef .tc main_arg8) :=
  (val11_keep V0 main_arg8 (by decide)).trans (val10_main_arg8 V0)
theorem val11_main_arg9 (V0 : Valuation τ sig (Elt F)) : val11 V0 (no_index (Proc.devRef .tc main_arg9)) = V0 (Proc.devRef .tc main_arg9) :=
  (val11_keep V0 main_arg9 (by decide)).trans (val10_main_arg9 V0)
theorem val11_main_arg10 (V0 : Valuation τ sig (Elt F)) : val11 V0 (no_index (Proc.devRef .tc main_arg10)) = V0 (Proc.devRef .tc main_arg10) :=
  (val11_keep V0 main_arg10 (by decide)).trans (val10_main_arg10 V0)
theorem val11_main_arg11 (V0 : Valuation τ sig (Elt F)) : val11 V0 (no_index (Proc.devRef .tc main_arg11)) = V0 (Proc.devRef .tc main_arg11) :=
  (val11_keep V0 main_arg11 (by decide)).trans (val10_main_arg11 V0)
theorem val11_main_arg12 (V0 : Valuation τ sig (Elt F)) : val11 V0 (no_index (Proc.devRef .tc main_arg12)) = V0 (Proc.devRef .tc main_arg12) :=
  (val11_keep V0 main_arg12 (by decide)).trans (val10_main_arg12 V0)
theorem val11_main_v1 (V0 : Valuation τ sig (Elt F)) : val11 V0 (no_index (Proc.devRef .tc main_v1)) = eS V0 :=
  (val11_keep V0 main_v1 (by decide)).trans (val10_main_v1 V0)
theorem val11_main_v2 (V0 : Valuation τ sig (Elt F)) : val11 V0 (no_index (Proc.devRef .tc main_v2)) = eT V0 :=
  (val11_keep V0 main_v2 (by decide)).trans (val10_main_v2 V0)
theorem val11_main_v24 (V0 : Valuation τ sig (Elt F)) : val11 V0 (no_index (Proc.devRef .tc main_v24)) = eN V0 :=
  (val11_keep V0 main_v24 (by decide)).trans (val10_main_v24 V0)
set_option maxRecDepth 8192 in
set_option maxHeartbeats 1600000 in
theorem val11_main_v97 (V0 : Valuation τ sig (Elt F)) : val11 V0 (no_index (Proc.devRef .tc main_v97)) = Cert.Ref.bn (hid2 V0) (V0 (Proc.devRef .tc main_arg11)) (V0 (Proc.devRef .tc main_arg12)) := by
  unfold val11
  simp only [blk10]
  after_results_simp
  simp only [val10_main_arg12, val10_main_arg11, val10_main_v82, val10_main_v81, val10_main_v78] <;> rfl

/-- The buffers' contents after the first 12 stretches. -/
def val12 (V0 : Valuation τ sig (Elt F)) : Valuation τ sig (Elt F) := after blk11 (val11 V0)
/-- The buffers this stretch writes. -/
abbrev blk11_W : List (Ref sig .tc) := [main_call3_cst, main_call3_v0, main_v98]
set_option maxRecDepth 8192 in
theorem blk11_writes : (blk11 : List (HloOp τ sig (Elt F))).Forall fun op => op.writes ⊆ (blk11_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer this stretch does not write keeps its contents through it. -/
theorem val12_keep (V0 : Valuation τ sig (Elt F)) (r : Ref sig .tc) (h : r ∉ blk11_W) :
    val12 V0 (Proc.devRef .tc r) = val11 V0 (Proc.devRef .tc r) :=
  after_of_writes_sub blk11 _ blk11_writes h
theorem val12_main_arg0 (V0 : Valuation τ sig (Elt F)) : val12 V0 (no_index (Proc.devRef .tc main_arg0)) = V0 (Proc.devRef .tc main_arg0) :=
  (val12_keep V0 main_arg0 (by decide)).trans (val11_main_arg0 V0)
theorem val12_main_arg1 (V0 : Valuation τ sig (Elt F)) : val12 V0 (no_index (Proc.devRef .tc main_arg1)) = V0 (Proc.devRef .tc main_arg1) :=
  (val12_keep V0 main_arg1 (by decide)).trans (val11_main_arg1 V0)
theorem val12_main_arg2 (V0 : Valuation τ sig (Elt F)) : val12 V0 (no_index (Proc.devRef .tc main_arg2)) = V0 (Proc.devRef .tc main_arg2) :=
  (val12_keep V0 main_arg2 (by decide)).trans (val11_main_arg2 V0)
theorem val12_main_arg3 (V0 : Valuation τ sig (Elt F)) : val12 V0 (no_index (Proc.devRef .tc main_arg3)) = V0 (Proc.devRef .tc main_arg3) :=
  (val12_keep V0 main_arg3 (by decide)).trans (val11_main_arg3 V0)
theorem val12_main_arg4 (V0 : Valuation τ sig (Elt F)) : val12 V0 (no_index (Proc.devRef .tc main_arg4)) = V0 (Proc.devRef .tc main_arg4) :=
  (val12_keep V0 main_arg4 (by decide)).trans (val11_main_arg4 V0)
theorem val12_main_arg5 (V0 : Valuation τ sig (Elt F)) : val12 V0 (no_index (Proc.devRef .tc main_arg5)) = V0 (Proc.devRef .tc main_arg5) :=
  (val12_keep V0 main_arg5 (by decide)).trans (val11_main_arg5 V0)
theorem val12_main_arg6 (V0 : Valuation τ sig (Elt F)) : val12 V0 (no_index (Proc.devRef .tc main_arg6)) = V0 (Proc.devRef .tc main_arg6) :=
  (val12_keep V0 main_arg6 (by decide)).trans (val11_main_arg6 V0)
theorem val12_main_arg7 (V0 : Valuation τ sig (Elt F)) : val12 V0 (no_index (Proc.devRef .tc main_arg7)) = V0 (Proc.devRef .tc main_arg7) :=
  (val12_keep V0 main_arg7 (by decide)).trans (val11_main_arg7 V0)
theorem val12_main_arg8 (V0 : Valuation τ sig (Elt F)) : val12 V0 (no_index (Proc.devRef .tc main_arg8)) = V0 (Proc.devRef .tc main_arg8) :=
  (val12_keep V0 main_arg8 (by decide)).trans (val11_main_arg8 V0)
theorem val12_main_arg9 (V0 : Valuation τ sig (Elt F)) : val12 V0 (no_index (Proc.devRef .tc main_arg9)) = V0 (Proc.devRef .tc main_arg9) :=
  (val12_keep V0 main_arg9 (by decide)).trans (val11_main_arg9 V0)
theorem val12_main_arg10 (V0 : Valuation τ sig (Elt F)) : val12 V0 (no_index (Proc.devRef .tc main_arg10)) = V0 (Proc.devRef .tc main_arg10) :=
  (val12_keep V0 main_arg10 (by decide)).trans (val11_main_arg10 V0)
theorem val12_main_arg11 (V0 : Valuation τ sig (Elt F)) : val12 V0 (no_index (Proc.devRef .tc main_arg11)) = V0 (Proc.devRef .tc main_arg11) :=
  (val12_keep V0 main_arg11 (by decide)).trans (val11_main_arg11 V0)
theorem val12_main_arg12 (V0 : Valuation τ sig (Elt F)) : val12 V0 (no_index (Proc.devRef .tc main_arg12)) = V0 (Proc.devRef .tc main_arg12) :=
  (val12_keep V0 main_arg12 (by decide)).trans (val11_main_arg12 V0)
theorem val12_main_v1 (V0 : Valuation τ sig (Elt F)) : val12 V0 (no_index (Proc.devRef .tc main_v1)) = eS V0 :=
  (val12_keep V0 main_v1 (by decide)).trans (val11_main_v1 V0)
theorem val12_main_v2 (V0 : Valuation τ sig (Elt F)) : val12 V0 (no_index (Proc.devRef .tc main_v2)) = eT V0 :=
  (val12_keep V0 main_v2 (by decide)).trans (val11_main_v2 V0)
theorem val12_main_v24 (V0 : Valuation τ sig (Elt F)) : val12 V0 (no_index (Proc.devRef .tc main_v24)) = eN V0 :=
  (val12_keep V0 main_v24 (by decide)).trans (val11_main_v24 V0)
set_option maxRecDepth 8192 in
theorem val12_main_v98 (V0 : Valuation τ sig (Elt F)) : val12 V0 (no_index (Proc.devRef .tc main_v98)) = act2 V0 := by
  unfold val12
  simp only [blk11]
  after_results_simp
  simp only [val11_main_v97] <;> rfl

/-- The buffers' contents after the first 13 stretches. -/
def val13 (V0 : Valuation τ sig (Elt F)) : Valuation τ sig (Elt F) := after blk12 (val12 V0)
/-- The buffers this stretch writes. -/
abbrev blk12_W : List (Ref sig .tc) := [main_v99, main_c_19, main_v100, main_v101, main_c_20, main_v102, main_v103, main_v104, main_v105, main_v106, main_v107, main_v108, main_v109, main_cst_21, main_v110, main_v111, main_v112, main_v113, main_v114, main_v115]
set_option maxRecDepth 8192 in
theorem blk12_writes : (blk12 : List (HloOp τ sig (Elt F))).Forall fun op => op.writes ⊆ (blk12_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer this stretch does not write keeps its contents through it. -/
theorem val13_keep (V0 : Valuation τ sig (Elt F)) (r : Ref sig .tc) (h : r ∉ blk12_W) :
    val13 V0 (Proc.devRef .tc r) = val12 V0 (Proc.devRef .tc r) :=
  after_of_writes_sub blk12 _ blk12_writes h
theorem val13_main_arg0 (V0 : Valuation τ sig (Elt F)) : val13 V0 (no_index (Proc.devRef .tc main_arg0)) = V0 (Proc.devRef .tc main_arg0) :=
  (val13_keep V0 main_arg0 (by decide)).trans (val12_main_arg0 V0)
theorem val13_main_arg1 (V0 : Valuation τ sig (Elt F)) : val13 V0 (no_index (Proc.devRef .tc main_arg1)) = V0 (Proc.devRef .tc main_arg1) :=
  (val13_keep V0 main_arg1 (by decide)).trans (val12_main_arg1 V0)
theorem val13_main_arg2 (V0 : Valuation τ sig (Elt F)) : val13 V0 (no_index (Proc.devRef .tc main_arg2)) = V0 (Proc.devRef .tc main_arg2) :=
  (val13_keep V0 main_arg2 (by decide)).trans (val12_main_arg2 V0)
theorem val13_main_arg3 (V0 : Valuation τ sig (Elt F)) : val13 V0 (no_index (Proc.devRef .tc main_arg3)) = V0 (Proc.devRef .tc main_arg3) :=
  (val13_keep V0 main_arg3 (by decide)).trans (val12_main_arg3 V0)
theorem val13_main_arg4 (V0 : Valuation τ sig (Elt F)) : val13 V0 (no_index (Proc.devRef .tc main_arg4)) = V0 (Proc.devRef .tc main_arg4) :=
  (val13_keep V0 main_arg4 (by decide)).trans (val12_main_arg4 V0)
theorem val13_main_arg5 (V0 : Valuation τ sig (Elt F)) : val13 V0 (no_index (Proc.devRef .tc main_arg5)) = V0 (Proc.devRef .tc main_arg5) :=
  (val13_keep V0 main_arg5 (by decide)).trans (val12_main_arg5 V0)
theorem val13_main_arg6 (V0 : Valuation τ sig (Elt F)) : val13 V0 (no_index (Proc.devRef .tc main_arg6)) = V0 (Proc.devRef .tc main_arg6) :=
  (val13_keep V0 main_arg6 (by decide)).trans (val12_main_arg6 V0)
theorem val13_main_arg7 (V0 : Valuation τ sig (Elt F)) : val13 V0 (no_index (Proc.devRef .tc main_arg7)) = V0 (Proc.devRef .tc main_arg7) :=
  (val13_keep V0 main_arg7 (by decide)).trans (val12_main_arg7 V0)
theorem val13_main_arg8 (V0 : Valuation τ sig (Elt F)) : val13 V0 (no_index (Proc.devRef .tc main_arg8)) = V0 (Proc.devRef .tc main_arg8) :=
  (val13_keep V0 main_arg8 (by decide)).trans (val12_main_arg8 V0)
theorem val13_main_arg9 (V0 : Valuation τ sig (Elt F)) : val13 V0 (no_index (Proc.devRef .tc main_arg9)) = V0 (Proc.devRef .tc main_arg9) :=
  (val13_keep V0 main_arg9 (by decide)).trans (val12_main_arg9 V0)
theorem val13_main_arg10 (V0 : Valuation τ sig (Elt F)) : val13 V0 (no_index (Proc.devRef .tc main_arg10)) = V0 (Proc.devRef .tc main_arg10) :=
  (val13_keep V0 main_arg10 (by decide)).trans (val12_main_arg10 V0)
theorem val13_main_arg11 (V0 : Valuation τ sig (Elt F)) : val13 V0 (no_index (Proc.devRef .tc main_arg11)) = V0 (Proc.devRef .tc main_arg11) :=
  (val13_keep V0 main_arg11 (by decide)).trans (val12_main_arg11 V0)
theorem val13_main_arg12 (V0 : Valuation τ sig (Elt F)) : val13 V0 (no_index (Proc.devRef .tc main_arg12)) = V0 (Proc.devRef .tc main_arg12) :=
  (val13_keep V0 main_arg12 (by decide)).trans (val12_main_arg12 V0)
set_option maxRecDepth 8192 in
set_option maxHeartbeats 2000000 in
theorem val13_main_v115 (V0 : Valuation τ sig (Elt F)) : val13 V0 (no_index (Proc.devRef .tc main_v115)) = hid3 V0 := by
  unfold val13
  simp only [blk12]
  after_results_simp
  simp only [val12_main_arg8, val12_main_v24, val12_main_v1, val12_main_arg7, val12_main_v98, val12_main_v2] <;> rfl

/-- The buffers' contents after the first 14 stretches. -/
def val14 (V0 : Valuation τ sig (Elt F)) : Valuation τ sig (Elt F) := after blk13 (val13 V0)
/-- The buffers this stretch writes. -/
abbrev blk13_W : List (Ref sig .tc) := [main_call4_cst, main_call4_v0, main_call4_cst_0, main_call4_v1, main_call4_v2, main_call4_v3, main_call4_v4, main_call4_v5, main_call4_v6, main_call4_cst_1, main_call4_v7, main_call4_v8, main_call4_v9, main_call4_v10, main_v116]
set_option maxRecDepth 8192 in
theorem blk13_writes : (blk13 : List (HloOp τ sig (Elt F))).Forall fun op => op.writes ⊆ (blk13_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer this stretch does not write keeps its contents through it. -/
theorem val14_keep (V0 : Valuation τ sig (Elt F)) (r : Ref sig .tc) (h : r ∉ blk13_W) :
    val14 V0 (Proc.devRef .tc r) = val13 V0 (Proc.devRef .tc r) :=
  after_of_writes_sub blk13 _ blk13_writes h
theorem val14_main_arg0 (V0 : Valuation τ sig (Elt F)) : val14 V0 (no_index (Proc.devRef .tc main_arg0)) = V0 (Proc.devRef .tc main_arg0) :=
  (val14_keep V0 main_arg0 (by decide)).trans (val13_main_arg0 V0)
theorem val14_main_arg1 (V0 : Valuation τ sig (Elt F)) : val14 V0 (no_index (Proc.devRef .tc main_arg1)) = V0 (Proc.devRef .tc main_arg1) :=
  (val14_keep V0 main_arg1 (by decide)).trans (val13_main_arg1 V0)
theorem val14_main_arg2 (V0 : Valuation τ sig (Elt F)) : val14 V0 (no_index (Proc.devRef .tc main_arg2)) = V0 (Proc.devRef .tc main_arg2) :=
  (val14_keep V0 main_arg2 (by decide)).trans (val13_main_arg2 V0)
theorem val14_main_arg3 (V0 : Valuation τ sig (Elt F)) : val14 V0 (no_index (Proc.devRef .tc main_arg3)) = V0 (Proc.devRef .tc main_arg3) :=
  (val14_keep V0 main_arg3 (by decide)).trans (val13_main_arg3 V0)
theorem val14_main_arg4 (V0 : Valuation τ sig (Elt F)) : val14 V0 (no_index (Proc.devRef .tc main_arg4)) = V0 (Proc.devRef .tc main_arg4) :=
  (val14_keep V0 main_arg4 (by decide)).trans (val13_main_arg4 V0)
theorem val14_main_arg5 (V0 : Valuation τ sig (Elt F)) : val14 V0 (no_index (Proc.devRef .tc main_arg5)) = V0 (Proc.devRef .tc main_arg5) :=
  (val14_keep V0 main_arg5 (by decide)).trans (val13_main_arg5 V0)
theorem val14_main_arg6 (V0 : Valuation τ sig (Elt F)) : val14 V0 (no_index (Proc.devRef .tc main_arg6)) = V0 (Proc.devRef .tc main_arg6) :=
  (val14_keep V0 main_arg6 (by decide)).trans (val13_main_arg6 V0)
theorem val14_main_arg7 (V0 : Valuation τ sig (Elt F)) : val14 V0 (no_index (Proc.devRef .tc main_arg7)) = V0 (Proc.devRef .tc main_arg7) :=
  (val14_keep V0 main_arg7 (by decide)).trans (val13_main_arg7 V0)
theorem val14_main_arg8 (V0 : Valuation τ sig (Elt F)) : val14 V0 (no_index (Proc.devRef .tc main_arg8)) = V0 (Proc.devRef .tc main_arg8) :=
  (val14_keep V0 main_arg8 (by decide)).trans (val13_main_arg8 V0)
theorem val14_main_arg9 (V0 : Valuation τ sig (Elt F)) : val14 V0 (no_index (Proc.devRef .tc main_arg9)) = V0 (Proc.devRef .tc main_arg9) :=
  (val14_keep V0 main_arg9 (by decide)).trans (val13_main_arg9 V0)
theorem val14_main_arg10 (V0 : Valuation τ sig (Elt F)) : val14 V0 (no_index (Proc.devRef .tc main_arg10)) = V0 (Proc.devRef .tc main_arg10) :=
  (val14_keep V0 main_arg10 (by decide)).trans (val13_main_arg10 V0)
theorem val14_main_arg11 (V0 : Valuation τ sig (Elt F)) : val14 V0 (no_index (Proc.devRef .tc main_arg11)) = V0 (Proc.devRef .tc main_arg11) :=
  (val14_keep V0 main_arg11 (by decide)).trans (val13_main_arg11 V0)
theorem val14_main_arg12 (V0 : Valuation τ sig (Elt F)) : val14 V0 (no_index (Proc.devRef .tc main_arg12)) = V0 (Proc.devRef .tc main_arg12) :=
  (val14_keep V0 main_arg12 (by decide)).trans (val13_main_arg12 V0)
set_option maxRecDepth 8192 in
set_option maxHeartbeats 1500000 in
theorem val14_main_v116 (V0 : Valuation τ sig (Elt F)) : val14 V0 (no_index (Proc.devRef .tc main_v116)) = Cert.Ref.logSoftmax (hid3 V0) := by
  unfold val14
  simp only [blk13]
  after_results_simp
  simp only [val13_main_v115] <;> rfl

theorem after_ops (V0 : Valuation τ sig (Elt F)) : after ops V0 = val14 V0 := by
  simp only [ops, after_app]
  rfl

/-- On every device, for any float values, from any memory with zero counters: every weakly fair execution of the
    program terminates with the result buffer at the model of the argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v116) = Cert.Ref.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v116).trans (by simp only [after_ops]; exact (val14_main_v116 (launchContents m c)).trans (out_fold (launchContents m c))),
      (h c main_arg0).trans (by simp only [after_ops]; exact val14_main_arg0 (launchContents m c)),
      (h c main_arg1).trans (by simp only [after_ops]; exact val14_main_arg1 (launchContents m c)),
      (h c main_arg2).trans (by simp only [after_ops]; exact val14_main_arg2 (launchContents m c)),
      (h c main_arg3).trans (by simp only [after_ops]; exact val14_main_arg3 (launchContents m c)),
      (h c main_arg4).trans (by simp only [after_ops]; exact val14_main_arg4 (launchContents m c)),
      (h c main_arg5).trans (by simp only [after_ops]; exact val14_main_arg5 (launchContents m c)),
      (h c main_arg6).trans (by simp only [after_ops]; exact val14_main_arg6 (launchContents m c)),
      (h c main_arg7).trans (by simp only [after_ops]; exact val14_main_arg7 (launchContents m c)),
      (h c main_arg8).trans (by simp only [after_ops]; exact val14_main_arg8 (launchContents m c)),
      (h c main_arg9).trans (by simp only [after_ops]; exact val14_main_arg9 (launchContents m c)),
      (h c main_arg10).trans (by simp only [after_ops]; exact val14_main_arg10 (launchContents m c)),
      (h c main_arg11).trans (by simp only [after_ops]; exact val14_main_arg11 (launchContents m c)),
      (h c main_arg12).trans (by simp only [after_ops]; exact val14_main_arg12 (launchContents m c))⟩)
    (run_seq scopedRefs_eq scopedSems_eq defs main (fun _ => ops) main_eq (fun _ => ops_sub) m ρ)

end Cert.Ref.Run

namespace Cert.Ref

open Idealize.ShloMosaic Idealize.SL.Sem

/-- The reference program at the ideal values, from any memory with zero counters: every weakly fair execution
    terminates, the result buffer holds the model of the argument arrays, and the argument buffers are unchanged. -/
theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v116) = Cert.Ref.out (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)) :=
  Cert.Ref.Run.run (F := Ideal) m ρ

end Cert.Ref

end
-- ==== Proof.KerGlue.lean ====
/-
  The kernel program's host glue as pure functions of whole arrays, in the spelling of the program's own host
  operations: the edge lists with the self loops appended, an index list as a column with negative entries
  wrapped, the in-degrees (ones scatter-added at the destinations), their inverse square roots with the degree
  floored at one, the coefficient of every edge, the gather / scale / scatter-add aggregation of a feature array
  (with the coefficients computed from the lists, or given), a vector laid out as one row, and the rows of column
  means and column variances made of the column sums and sums of squares over the 100000 nodes.
-/
import proofs.«104798_j89043261980674_1_alg».proof.KernelIdeal
import proofs.«104798_j89043261980674_1_alg».proof.Proof.Gen.KernelIdeal

noncomputable section

namespace Cert.Ker

open Idealize.ShloMosaic
open Cert.KernelIdeal Cert.KernelIdeal.Gen

variable {F : FTy → Type} [FloatOps F]

set_option quotPrecheck false in
local notation "𝔽[" s "]" => (⟨s, .f32⟩ : BufTy).Contents (Elt F)
set_option quotPrecheck false in
local notation "𝕀[" s "]" => (⟨s, .i32⟩ : BufTy).Contents (Elt F)

/-! ## The host glue as pure functions -/

/-- The source list followed by the self loops 0 … 99999. -/
def sIdx (a1 : 𝕀[S640000]) : 𝕀[S740000] :=
  concatenate S740000 0 [⟨S640000, a1⟩, ⟨S100000, iotaInDim S100000 32 0⟩] concatenates_S640000_S100000_S740000_d0

/-- The destination list followed by the self loops. -/
def tIdx (a2 : 𝕀[S640000]) : 𝕀[S740000] :=
  concatenate S740000 0 [⟨S640000, a2⟩, ⟨S100000, iotaInDim S100000 32 0⟩] concatenates_S640000_S100000_S740000_d0

/-- An index list as a column. -/
def col (v : 𝕀[S740000]) : 𝕀[S740000x1] := broadcastInDim S740000x1 ![0] bcast_S740000_S740000x1_0 v

/-- A negative index has the extent added, then the list is made a column. -/
def wrap (v : 𝕀[S740000]) : 𝕀[S740000x1] :=
  col (select (cmpi .slt v (broadcastInDim S740000 ![] bcast_S_S740000 (constantI S_ 32 0#32)))
    (addi v (broadcastInDim S740000 ![] bcast_S_S740000 (constantI S_ 32 100000#32))) v)

/-- The in-degree with self loops: ones scatter-added at the destinations. -/
def deg (t : 𝕀[S740000]) : 𝔽[S100000] :=
  Host.scatterAdd scatter_S100000_S740000x1_S740000_n_0_0_1
    (broadcastInDim S100000 ![] bcast_S_S100000 (constant S_ .f32 0x00000000#32)) (col t)
    (broadcastInDim S740000 ![] bcast_S_S740000 (constant S_ .f32 0x3F800000#32))

/-- The inverse square root of the degree, the degree floored at one. -/
def dinv (t : 𝕀[S740000]) : 𝔽[S100000] :=
  Host.rsqrt (maximumf (deg t) (broadcastInDim S100000 ![] bcast_S_S100000 (constant S_ .f32 0x3F800000#32)))

/-- The edge coefficient: the product of the two end points' inverse square root degrees. -/
def norm (s t : 𝕀[S740000]) : 𝔽[S740000] :=
  mulf (Host.gather gather_S100000_S740000x1_S740000_n_0_n_n_0_1_1 (dinv t) (wrap s))
    (Host.gather gather_S100000_S740000x1_S740000_n_0_n_n_0_1_1 (dinv t) (wrap t))

/-- The aggregation of a [100000,128] feature array: rows gathered at the sources, scaled by the edge coefficient,
    scatter-added at the destinations. -/
def agg128 (s t : 𝕀[S740000]) (h : 𝔽[S100000x128]) : 𝔽[S100000x128] :=
  Host.scatterAdd scatter_S100000x128_S740000x1_S740000x128_1_0_0_1
    (broadcastInDim S100000x128 ![] bcast_S_S100000x128 (constant S_ .f32 0x00000000#32)) (col t)
    (mulf (Host.gather gather_S100000x128_S740000x1_S740000x128_1_0_n_n_0_1_1128 h (wrap s))
      (broadcastInDim S740000x128 ![0, 1] bcast_S740000x1_S740000x128_0_1
        (broadcastInDim S740000x1 ![0] bcast_S740000_S740000x1_0 (norm s t))))

/-- The same aggregation of a [100000,40] array. -/
def agg40 (s t : 𝕀[S740000]) (h : 𝔽[S100000x40]) : 𝔽[S100000x40] :=
  Host.scatterAdd scatter_S100000x40_S740000x1_S740000x40_1_0_0_1
    (broadcastInDim S100000x40 ![] bcast_S_S100000x40 (constant S_ .f32 0x00000000#32)) (col t)
    (mulf (Host.gather gather_S100000x40_S740000x1_S740000x40_1_0_n_n_0_1_140 h (wrap s))
      (broadcastInDim S740000x40 ![0, 1] bcast_S740000x1_S740000x40_0_1
        (broadcastInDim S740000x1 ![0] bcast_S740000_S740000x1_0 (norm s t))))

/-- The aggregation of a [100000,128] array with the edge coefficients given as a list. -/
def aggWith128 (s t : 𝕀[S740000]) (nrm : 𝔽[S740000]) (h : 𝔽[S100000x128]) : 𝔽[S100000x128] :=
  Host.scatterAdd scatter_S100000x128_S740000x1_S740000x128_1_0_0_1
    (broadcastInDim S100000x128 ![] bcast_S_S100000x128 (constant S_ .f32 0x00000000#32)) (col t)
    (mulf (Host.gather gather_S100000x128_S740000x1_S740000x128_1_0_n_n_0_1_1128 h (wrap s))
      (broadcastInDim S740000x128 ![0, 1] bcast_S740000x1_S740000x128_0_1
        (broadcastInDim S740000x1 ![0] bcast_S740000_S740000x1_0 nrm)))

/-- The aggregation of a [100000,40] array with the edge coefficients given as a list. -/
def aggWith40 (s t : 𝕀[S740000]) (nrm : 𝔽[S740000]) (h : 𝔽[S100000x40]) : 𝔽[S100000x40] :=
  Host.scatterAdd scatter_S100000x40_S740000x1_S740000x40_1_0_0_1
    (broadcastInDim S100000x40 ![] bcast_S_S100000x40 (constant S_ .f32 0x00000000#32)) (col t)
    (mulf (Host.gather gather_S100000x40_S740000x1_S740000x40_1_0_n_n_0_1_140 h (wrap s))
      (broadcastInDim S740000x40 ![0, 1] bcast_S740000x1_S740000x40_0_1
        (broadcastInDim S740000x1 ![0] bcast_S740000_S740000x1_0 nrm)))

/-- With the coefficients computed from the two lists, that is the aggregation. -/
theorem aggWith128_norm (s t : 𝕀[S740000]) (h : 𝔽[S100000x128]) : aggWith128 s t (norm s t) h = agg128 s t h := rfl
theorem aggWith40_norm (s t : 𝕀[S740000]) (h : 𝔽[S100000x40]) : aggWith40 s t (norm s t) h = agg40 s t h := rfl

/-- A length-128 vector laid out as one row. -/
def reshapeRow128 (v : 𝔽[S128]) : 𝔽[S1x128] := shapeCast S1x128 v shapeCasts_S128_S1x128

/-- A length-40 vector laid out as one row. -/
def reshapeRow40 (v : 𝔽[S40]) : 𝔽[S1x40] := shapeCast S1x40 v shapeCasts_S40_S1x40

/-- The row of column means: the row of column sums divided by 100000. -/
def meanRow (s : 𝔽[S1x128]) : 𝔽[S1x128] :=
  Host.divf s (broadcastInDim S1x128 ![] bcast_S_S1x128 (constant S_ .f32 0x47C35000#32))

/-- The row of column variances: the sums of squares divided by 100000, less the squared means. -/
def varRow (sq mean : 𝔽[S1x128]) : 𝔽[S1x128] :=
  subf (Host.divf sq (broadcastInDim S1x128 ![] bcast_S_S1x128 (constant S_ .f32 0x47C35000#32))) (mulf mean mean)

end Cert.Ker

end
-- ==== Proof.KerChain.lean ====
/-
  The contents of the kernel program's buffers along its run, segment by segment.

  @main alternates stretches of host operations with eight kernel launches.  The stretches compute the shared
  graph glue — the edge lists with the self loops appended, the in-degrees, the symmetric normalisation
  coefficient of every edge, and, before each bias stage, the gather / scale / scatter-add aggregation of the
  product the preceding launch left — and the small rows the launches read: a bias or an affine vector laid out
  as one row, the column mean (the column sum over 100000) and the column variance (the mean of squares minus
  the squared mean).

  The glue is named, as pure functions of whole arrays, in the module this one imports.  Here each stretch is
  read at a buffer it writes, for ANY contents it starts from, and at the buffers it leaves alone.  Then the
  contents at the fourteen segment boundaries are chained: what every launch finds in each of its operand
  arrays, as a function of the launch memory and of the arrays the earlier launches wrote, and what the result
  buffer holds at the end.
-/
import proofs.«104798_j89043261980674_1_alg».proof.Proof.Gen.KernelIdeal.Frame
import proofs.«104798_j89043261980674_1_alg».proof.Proof.KerGlue

set_option maxRecDepth 16384

noncomputable section

namespace Cert.Ker

open Idealize.ShloMosaic Idealize.ShloMosaic.TcCoe
open Cert.KernelIdeal Cert.KernelIdeal.Gen

variable {F : FTy → Type} [FloatOps F]

/-! ## Each stretch of host operations read at a buffer, from any contents -/

section Stretches

variable (V : Valuation τ sig (Elt F))

/-- The first stretch leaves the source list with the self loops in its buffer, -/
theorem host0_s : StableHlo.after hostOps0 V (Proc.devRef .tc main_v1) = sIdx (V (Proc.devRef .tc main_arg1)) := by
  after_results <;> rfl
/-- the destination list with the self loops, -/
theorem host0_t : StableHlo.after hostOps0 V (Proc.devRef .tc main_v2) = tIdx (V (Proc.devRef .tc main_arg2)) := by
  after_results <;> rfl
/-- and the edge coefficients. -/
theorem host0_norm : StableHlo.after hostOps0 V (Proc.devRef .tc main_v24)
    = norm (sIdx (V (Proc.devRef .tc main_arg1))) (tIdx (V (Proc.devRef .tc main_arg2))) := by
  after_results_simp <;> rfl

/-- The second stretch aggregates the first product with the lists and coefficients it finds, -/
theorem host1_agg : StableHlo.after hostOps1 V (Proc.devRef .tc main_v38)
    = aggWith128 (V (Proc.devRef .tc main_v1)) (V (Proc.devRef .tc main_v2)) (V (Proc.devRef .tc main_v24)) (V (Proc.devRef .tc main_v25)) := by
  after_results_simp <;> rfl
/-- and lays the first bias out as a row. -/
theorem host1_b : StableHlo.after hostOps1 V (Proc.devRef .tc main_v39) = reshapeRow128 (V (Proc.devRef .tc main_arg4)) := by
  after_results <;> rfl

/-- The third stretch: the mean row, -/
theorem host2_mean : StableHlo.after hostOps2 V (Proc.devRef .tc main_v42) = meanRow (V (Proc.devRef .tc main_v40_1)) := by
  after_results <;> rfl
/-- the variance row, -/
theorem host2_var : StableHlo.after hostOps2 V (Proc.devRef .tc main_v46)
    = varRow (V (Proc.devRef .tc main_v40_2)) (meanRow (V (Proc.devRef .tc main_v40_1))) := by
  after_results <;> rfl
/-- the scale vector as a row, -/
theorem host2_g : StableHlo.after hostOps2 V (Proc.devRef .tc main_v47) = reshapeRow128 (V (Proc.devRef .tc main_arg9)) := by
  after_results <;> rfl
/-- the shift vector as a row. -/
theorem host2_be : StableHlo.after hostOps2 V (Proc.devRef .tc main_v48) = reshapeRow128 (V (Proc.devRef .tc main_arg10)) := by
  after_results <;> rfl

/-- The fourth stretch aggregates the second product, -/
theorem host4_agg : StableHlo.after hostOps4 V (Proc.devRef .tc main_v63)
    = aggWith128 (V (Proc.devRef .tc main_v1)) (V (Proc.devRef .tc main_v2)) (V (Proc.devRef .tc main_v24)) (V (Proc.devRef .tc main_v50)) := by
  after_results_simp <;> rfl
/-- and lays the second bias out as a row. -/
theorem host4_b : StableHlo.after hostOps4 V (Proc.devRef .tc main_v64) = reshapeRow128 (V (Proc.devRef .tc main_arg6)) := by
  after_results <;> rfl

/-- The fifth stretch: the mean row, -/
theorem host5_mean : StableHlo.after hostOps5 V (Proc.devRef .tc main_v67) = meanRow (V (Proc.devRef .tc main_v65_1)) := by
  after_results <;> rfl
/-- the variance row, -/
theorem host5_var : StableHlo.after hostOps5 V (Proc.devRef .tc main_v71)
    = varRow (V (Proc.devRef .tc main_v65_2)) (meanRow (V (Proc.devRef .tc main_v65_1))) := by
  after_results <;> rfl
/-- the scale vector as a row, -/
theorem host5_g : StableHlo.after hostOps5 V (Proc.devRef .tc main_v72) = reshapeRow128 (V (Proc.devRef .tc main_arg11)) := by
  after_results <;> rfl
/-- the shift vector as a row. -/
theorem host5_be : StableHlo.after hostOps5 V (Proc.devRef .tc main_v73) = reshapeRow128 (V (Proc.devRef .tc main_arg12)) := by
  after_results <;> rfl

/-- The last stretch aggregates the third product, forty columns wide, -/
theorem host7_agg : StableHlo.after hostOps7 V (Proc.devRef .tc main_v88)
    = aggWith40 (V (Proc.devRef .tc main_v1)) (V (Proc.devRef .tc main_v2)) (V (Proc.devRef .tc main_v24)) (V (Proc.devRef .tc main_v75)) := by
  after_results_simp <;> rfl
/-- and lays the last bias out as a row. -/
theorem host7_b : StableHlo.after hostOps7 V (Proc.devRef .tc main_v89) = reshapeRow40 (V (Proc.devRef .tc main_arg8)) := by
  after_results <;> rfl

/-! ### What a stretch leaves alone: a buffer none of its operations writes keeps its contents -/

theorem host0_keep_arg0 : StableHlo.after hostOps0 V (Proc.devRef .tc main_arg0) = V (Proc.devRef .tc main_arg0) := by
  after_results
theorem host0_keep_arg3 : StableHlo.after hostOps0 V (Proc.devRef .tc main_arg3) = V (Proc.devRef .tc main_arg3) := by
  after_results
theorem host0_keep_arg4 : StableHlo.after hostOps0 V (Proc.devRef .tc main_arg4) = V (Proc.devRef .tc main_arg4) := by
  after_results
theorem host0_keep_arg5 : StableHlo.after hostOps0 V (Proc.devRef .tc main_arg5) = V (Proc.devRef .tc main_arg5) := by
  after_results
theorem host0_keep_arg6 : StableHlo.after hostOps0 V (Proc.devRef .tc main_arg6) = V (Proc.devRef .tc main_arg6) := by
  after_results
theorem host0_keep_arg7 : StableHlo.after hostOps0 V (Proc.devRef .tc main_arg7) = V (Proc.devRef .tc main_arg7) := by
  after_results
theorem host0_keep_arg8 : StableHlo.after hostOps0 V (Proc.devRef .tc main_arg8) = V (Proc.devRef .tc main_arg8) := by
  after_results
theorem host0_keep_arg9 : StableHlo.after hostOps0 V (Proc.devRef .tc main_arg9) = V (Proc.devRef .tc main_arg9) := by
  after_results
theorem host0_keep_arg10 : StableHlo.after hostOps0 V (Proc.devRef .tc main_arg10) = V (Proc.devRef .tc main_arg10) := by
  after_results
theorem host0_keep_arg11 : StableHlo.after hostOps0 V (Proc.devRef .tc main_arg11) = V (Proc.devRef .tc main_arg11) := by
  after_results
theorem host0_keep_arg12 : StableHlo.after hostOps0 V (Proc.devRef .tc main_arg12) = V (Proc.devRef .tc main_arg12) := by
  after_results
theorem host1_keep_arg5 : StableHlo.after hostOps1 V (Proc.devRef .tc main_arg5) = V (Proc.devRef .tc main_arg5) := by
  after_results
theorem host1_keep_arg6 : StableHlo.after hostOps1 V (Proc.devRef .tc main_arg6) = V (Proc.devRef .tc main_arg6) := by
  after_results
theorem host1_keep_arg7 : StableHlo.after hostOps1 V (Proc.devRef .tc main_arg7) = V (Proc.devRef .tc main_arg7) := by
  after_results
theorem host1_keep_arg8 : StableHlo.after hostOps1 V (Proc.devRef .tc main_arg8) = V (Proc.devRef .tc main_arg8) := by
  after_results
theorem host1_keep_arg9 : StableHlo.after hostOps1 V (Proc.devRef .tc main_arg9) = V (Proc.devRef .tc main_arg9) := by
  after_results
theorem host1_keep_arg10 : StableHlo.after hostOps1 V (Proc.devRef .tc main_arg10) = V (Proc.devRef .tc main_arg10) := by
  after_results
theorem host1_keep_arg11 : StableHlo.after hostOps1 V (Proc.devRef .tc main_arg11) = V (Proc.devRef .tc main_arg11) := by
  after_results
theorem host1_keep_arg12 : StableHlo.after hostOps1 V (Proc.devRef .tc main_arg12) = V (Proc.devRef .tc main_arg12) := by
  after_results
theorem host1_keep_v1 : StableHlo.after hostOps1 V (Proc.devRef .tc main_v1) = V (Proc.devRef .tc main_v1) := by
  after_results
theorem host1_keep_v2 : StableHlo.after hostOps1 V (Proc.devRef .tc main_v2) = V (Proc.devRef .tc main_v2) := by
  after_results
theorem host1_keep_v24 : StableHlo.after hostOps1 V (Proc.devRef .tc main_v24) = V (Proc.devRef .tc main_v24) := by
  after_results
theorem host2_keep_arg5 : StableHlo.after hostOps2 V (Proc.devRef .tc main_arg5) = V (Proc.devRef .tc main_arg5) := by
  after_results
theorem host2_keep_arg6 : StableHlo.after hostOps2 V (Proc.devRef .tc main_arg6) = V (Proc.devRef .tc main_arg6) := by
  after_results
theorem host2_keep_arg7 : StableHlo.after hostOps2 V (Proc.devRef .tc main_arg7) = V (Proc.devRef .tc main_arg7) := by
  after_results
theorem host2_keep_arg8 : StableHlo.after hostOps2 V (Proc.devRef .tc main_arg8) = V (Proc.devRef .tc main_arg8) := by
  after_results
theorem host2_keep_arg11 : StableHlo.after hostOps2 V (Proc.devRef .tc main_arg11) = V (Proc.devRef .tc main_arg11) := by
  after_results
theorem host2_keep_arg12 : StableHlo.after hostOps2 V (Proc.devRef .tc main_arg12) = V (Proc.devRef .tc main_arg12) := by
  after_results
theorem host2_keep_v1 : StableHlo.after hostOps2 V (Proc.devRef .tc main_v1) = V (Proc.devRef .tc main_v1) := by
  after_results
theorem host2_keep_v2 : StableHlo.after hostOps2 V (Proc.devRef .tc main_v2) = V (Proc.devRef .tc main_v2) := by
  after_results
theorem host2_keep_v24 : StableHlo.after hostOps2 V (Proc.devRef .tc main_v24) = V (Proc.devRef .tc main_v24) := by
  after_results
theorem host2_keep_v40_0 : StableHlo.after hostOps2 V (Proc.devRef .tc main_v40_0) = V (Proc.devRef .tc main_v40_0) := by
  after_results
theorem host4_keep_arg7 : StableHlo.after hostOps4 V (Proc.devRef .tc main_arg7) = V (Proc.devRef .tc main_arg7) := by
  after_results
theorem host4_keep_arg8 : StableHlo.after hostOps4 V (Proc.devRef .tc main_arg8) = V (Proc.devRef .tc main_arg8) := by
  after_results
theorem host4_keep_arg11 : StableHlo.after hostOps4 V (Proc.devRef .tc main_arg11) = V (Proc.devRef .tc main_arg11) := by
  after_results
theorem host4_keep_arg12 : StableHlo.after hostOps4 V (Proc.devRef .tc main_arg12) = V (Proc.devRef .tc main_arg12) := by
  after_results
theorem host4_keep_v1 : StableHlo.after hostOps4 V (Proc.devRef .tc main_v1) = V (Proc.devRef .tc main_v1) := by
  after_results
theorem host4_keep_v2 : StableHlo.after hostOps4 V (Proc.devRef .tc main_v2) = V (Proc.devRef .tc main_v2) := by
  after_results
theorem host4_keep_v24 : StableHlo.after hostOps4 V (Proc.devRef .tc main_v24) = V (Proc.devRef .tc main_v24) := by
  after_results
theorem host5_keep_arg7 : StableHlo.after hostOps5 V (Proc.devRef .tc main_arg7) = V (Proc.devRef .tc main_arg7) := by
  after_results
theorem host5_keep_arg8 : StableHlo.after hostOps5 V (Proc.devRef .tc main_arg8) = V (Proc.devRef .tc main_arg8) := by
  after_results
theorem host5_keep_v1 : StableHlo.after hostOps5 V (Proc.devRef .tc main_v1) = V (Proc.devRef .tc main_v1) := by
  after_results
theorem host5_keep_v2 : StableHlo.after hostOps5 V (Proc.devRef .tc main_v2) = V (Proc.devRef .tc main_v2) := by
  after_results
theorem host5_keep_v24 : StableHlo.after hostOps5 V (Proc.devRef .tc main_v24) = V (Proc.devRef .tc main_v24) := by
  after_results
theorem host5_keep_v65_0 : StableHlo.after hostOps5 V (Proc.devRef .tc main_v65_0) = V (Proc.devRef .tc main_v65_0) := by
  after_results

end Stretches

/-! ## The contents at the segment boundaries -/

section Chain

variable (m : (ℓ : Loc nD τ sig) → Buf (Elt F) ℓ) (ρ : Dev nD → PrngReg) (c : Dev nD)

/-! ### The argument arrays, the two edge lists and the edge coefficients, boundary by boundary: a launch that
    does not own the buffer leaves it as it found it, and so does a stretch that does not write it -/

theorem W1_arg0 : W1 m ρ c (Proc.devRef .tc main_arg0) = (m ((c : Thread nD τ).loc main_arg0)) :=
  host0_keep_arg0 (W0 m ρ c)
theorem W1_arg3 : W1 m ρ c (Proc.devRef .tc main_arg3) = (m ((c : Thread nD τ).loc main_arg3)) :=
  host0_keep_arg3 (W0 m ρ c)
theorem W1_arg4 : W1 m ρ c (Proc.devRef .tc main_arg4) = (m ((c : Thread nD τ).loc main_arg4)) :=
  host0_keep_arg4 (W0 m ρ c)
theorem W1_arg9 : W1 m ρ c (Proc.devRef .tc main_arg9) = (m ((c : Thread nD τ).loc main_arg9)) :=
  host0_keep_arg9 (W0 m ρ c)
theorem W1_arg10 : W1 m ρ c (Proc.devRef .tc main_arg10) = (m ((c : Thread nD τ).loc main_arg10)) :=
  host0_keep_arg10 (W0 m ρ c)
theorem W1_arg5 : W1 m ρ c (Proc.devRef .tc main_arg5) = (m ((c : Thread nD τ).loc main_arg5)) :=
  host0_keep_arg5 (W0 m ρ c)
theorem W1_arg6 : W1 m ρ c (Proc.devRef .tc main_arg6) = (m ((c : Thread nD τ).loc main_arg6)) :=
  host0_keep_arg6 (W0 m ρ c)
theorem W1_arg11 : W1 m ρ c (Proc.devRef .tc main_arg11) = (m ((c : Thread nD τ).loc main_arg11)) :=
  host0_keep_arg11 (W0 m ρ c)
theorem W1_arg12 : W1 m ρ c (Proc.devRef .tc main_arg12) = (m ((c : Thread nD τ).loc main_arg12)) :=
  host0_keep_arg12 (W0 m ρ c)
theorem W1_arg7 : W1 m ρ c (Proc.devRef .tc main_arg7) = (m ((c : Thread nD τ).loc main_arg7)) :=
  host0_keep_arg7 (W0 m ρ c)
theorem W1_arg8 : W1 m ρ c (Proc.devRef .tc main_arg8) = (m ((c : Thread nD τ).loc main_arg8)) :=
  host0_keep_arg8 (W0 m ρ c)
theorem W1_s : W1 m ρ c (Proc.devRef .tc main_v1) = (sIdx (m ((c : Thread nD τ).loc main_arg1))) :=
  host0_s (W0 m ρ c)
theorem W1_t : W1 m ρ c (Proc.devRef .tc main_v2) = (tIdx (m ((c : Thread nD τ).loc main_arg2))) :=
  host0_t (W0 m ρ c)
theorem W1_norm : W1 m ρ c (Proc.devRef .tc main_v24) = (norm (sIdx (m ((c : Thread nD τ).loc main_arg1))) (tIdx (m ((c : Thread nD τ).loc main_arg2)))) :=
  host0_norm (W0 m ρ c)
theorem W2_arg4 : W2 m ρ c (Proc.devRef .tc main_arg4) = (m ((c : Thread nD τ).loc main_arg4)) :=
  (W2_of_ne m ρ c main_arg4 (by decide)).trans (W1_arg4 m ρ c)
theorem W2_arg9 : W2 m ρ c (Proc.devRef .tc main_arg9) = (m ((c : Thread nD τ).loc main_arg9)) :=
  (W2_of_ne m ρ c main_arg9 (by decide)).trans (W1_arg9 m ρ c)
theorem W3_arg9 : W3 m ρ c (Proc.devRef .tc main_arg9) = (m ((c : Thread nD τ).loc main_arg9)) :=
  (host1_keep_arg9 (W2 m ρ c)).trans (W2_arg9 m ρ c)
theorem W4_arg9 : W4 m ρ c (Proc.devRef .tc main_arg9) = (m ((c : Thread nD τ).loc main_arg9)) :=
  (W4_of_ne m ρ c main_arg9 (by decide)).trans (W3_arg9 m ρ c)
theorem W2_arg10 : W2 m ρ c (Proc.devRef .tc main_arg10) = (m ((c : Thread nD τ).loc main_arg10)) :=
  (W2_of_ne m ρ c main_arg10 (by decide)).trans (W1_arg10 m ρ c)
theorem W3_arg10 : W3 m ρ c (Proc.devRef .tc main_arg10) = (m ((c : Thread nD τ).loc main_arg10)) :=
  (host1_keep_arg10 (W2 m ρ c)).trans (W2_arg10 m ρ c)
theorem W4_arg10 : W4 m ρ c (Proc.devRef .tc main_arg10) = (m ((c : Thread nD τ).loc main_arg10)) :=
  (W4_of_ne m ρ c main_arg10 (by decide)).trans (W3_arg10 m ρ c)
theorem W2_arg5 : W2 m ρ c (Proc.devRef .tc main_arg5) = (m ((c : Thread nD τ).loc main_arg5)) :=
  (W2_of_ne m ρ c main_arg5 (by decide)).trans (W1_arg5 m ρ c)
theorem W3_arg5 : W3 m ρ c (Proc.devRef .tc main_arg5) = (m ((c : Thread nD τ).loc main_arg5)) :=
  (host1_keep_arg5 (W2 m ρ c)).trans (W2_arg5 m ρ c)
theorem W4_arg5 : W4 m ρ c (Proc.devRef .tc main_arg5) = (m ((c : Thread nD τ).loc main_arg5)) :=
  (W4_of_ne m ρ c main_arg5 (by decide)).trans (W3_arg5 m ρ c)
theorem W5_arg5 : W5 m ρ c (Proc.devRef .tc main_arg5) = (m ((c : Thread nD τ).loc main_arg5)) :=
  (host2_keep_arg5 (W4 m ρ c)).trans (W4_arg5 m ρ c)
theorem W6_arg5 : W6 m ρ c (Proc.devRef .tc main_arg5) = (m ((c : Thread nD τ).loc main_arg5)) :=
  (W6_of_ne m ρ c main_arg5 (by decide)).trans (W5_arg5 m ρ c)
theorem W2_arg6 : W2 m ρ c (Proc.devRef .tc main_arg6) = (m ((c : Thread nD τ).loc main_arg6)) :=
  (W2_of_ne m ρ c main_arg6 (by decide)).trans (W1_arg6 m ρ c)
theorem W3_arg6 : W3 m ρ c (Proc.devRef .tc main_arg6) = (m ((c : Thread nD τ).loc main_arg6)) :=
  (host1_keep_arg6 (W2 m ρ c)).trans (W2_arg6 m ρ c)
theorem W4_arg6 : W4 m ρ c (Proc.devRef .tc main_arg6) = (m ((c : Thread nD τ).loc main_arg6)) :=
  (W4_of_ne m ρ c main_arg6 (by decide)).trans (W3_arg6 m ρ c)
theorem W5_arg6 : W5 m ρ c (Proc.devRef .tc main_arg6) = (m ((c : Thread nD τ).loc main_arg6)) :=
  (host2_keep_arg6 (W4 m ρ c)).trans (W4_arg6 m ρ c)
theorem W6_arg6 : W6 m ρ c (Proc.devRef .tc main_arg6) = (m ((c : Thread nD τ).loc main_arg6)) :=
  (W6_of_ne m ρ c main_arg6 (by decide)).trans (W5_arg6 m ρ c)
theorem W7_arg6 : W7 m ρ c (Proc.devRef .tc main_arg6) = (m ((c : Thread nD τ).loc main_arg6)) :=
  (W7_of_ne m ρ c main_arg6 (by decide)).trans (W6_arg6 m ρ c)
theorem W2_arg11 : W2 m ρ c (Proc.devRef .tc main_arg11) = (m ((c : Thread nD τ).loc main_arg11)) :=
  (W2_of_ne m ρ c main_arg11 (by decide)).trans (W1_arg11 m ρ c)
theorem W3_arg11 : W3 m ρ c (Proc.devRef .tc main_arg11) = (m ((c : Thread nD τ).loc main_arg11)) :=
  (host1_keep_arg11 (W2 m ρ c)).trans (W2_arg11 m ρ c)
theorem W4_arg11 : W4 m ρ c (Proc.devRef .tc main_arg11) = (m ((c : Thread nD τ).loc main_arg11)) :=
  (W4_of_ne m ρ c main_arg11 (by decide)).trans (W3_arg11 m ρ c)
theorem W5_arg11 : W5 m ρ c (Proc.devRef .tc main_arg11) = (m ((c : Thread nD τ).loc main_arg11)) :=
  (host2_keep_arg11 (W4 m ρ c)).trans (W4_arg11 m ρ c)
theorem W6_arg11 : W6 m ρ c (Proc.devRef .tc main_arg11) = (m ((c : Thread nD τ).loc main_arg11)) :=
  (W6_of_ne m ρ c main_arg11 (by decide)).trans (W5_arg11 m ρ c)
theorem W7_arg11 : W7 m ρ c (Proc.devRef .tc main_arg11) = (m ((c : Thread nD τ).loc main_arg11)) :=
  (W7_of_ne m ρ c main_arg11 (by decide)).trans (W6_arg11 m ρ c)
theorem W8_arg11 : W8 m ρ c (Proc.devRef .tc main_arg11) = (m ((c : Thread nD τ).loc main_arg11)) :=
  (host4_keep_arg11 (W7 m ρ c)).trans (W7_arg11 m ρ c)
theorem W9_arg11 : W9 m ρ c (Proc.devRef .tc main_arg11) = (m ((c : Thread nD τ).loc main_arg11)) :=
  (W9_of_ne m ρ c main_arg11 (by decide)).trans (W8_arg11 m ρ c)
theorem W2_arg12 : W2 m ρ c (Proc.devRef .tc main_arg12) = (m ((c : Thread nD τ).loc main_arg12)) :=
  (W2_of_ne m ρ c main_arg12 (by decide)).trans (W1_arg12 m ρ c)
theorem W3_arg12 : W3 m ρ c (Proc.devRef .tc main_arg12) = (m ((c : Thread nD τ).loc main_arg12)) :=
  (host1_keep_arg12 (W2 m ρ c)).trans (W2_arg12 m ρ c)
theorem W4_arg12 : W4 m ρ c (Proc.devRef .tc main_arg12) = (m ((c : Thread nD τ).loc main_arg12)) :=
  (W4_of_ne m ρ c main_arg12 (by decide)).trans (W3_arg12 m ρ c)
theorem W5_arg12 : W5 m ρ c (Proc.devRef .tc main_arg12) = (m ((c : Thread nD τ).loc main_arg12)) :=
  (host2_keep_arg12 (W4 m ρ c)).trans (W4_arg12 m ρ c)
theorem W6_arg12 : W6 m ρ c (Proc.devRef .tc main_arg12) = (m ((c : Thread nD τ).loc main_arg12)) :=
  (W6_of_ne m ρ c main_arg12 (by decide)).trans (W5_arg12 m ρ c)
theorem W7_arg12 : W7 m ρ c (Proc.devRef .tc main_arg12) = (m ((c : Thread nD τ).loc main_arg12)) :=
  (W7_of_ne m ρ c main_arg12 (by decide)).trans (W6_arg12 m ρ c)
theorem W8_arg12 : W8 m ρ c (Proc.devRef .tc main_arg12) = (m ((c : Thread nD τ).loc main_arg12)) :=
  (host4_keep_arg12 (W7 m ρ c)).trans (W7_arg12 m ρ c)
theorem W9_arg12 : W9 m ρ c (Proc.devRef .tc main_arg12) = (m ((c : Thread nD τ).loc main_arg12)) :=
  (W9_of_ne m ρ c main_arg12 (by decide)).trans (W8_arg12 m ρ c)
theorem W2_arg7 : W2 m ρ c (Proc.devRef .tc main_arg7) = (m ((c : Thread nD τ).loc main_arg7)) :=
  (W2_of_ne m ρ c main_arg7 (by decide)).trans (W1_arg7 m ρ c)
theorem W3_arg7 : W3 m ρ c (Proc.devRef .tc main_arg7) = (m ((c : Thread nD τ).loc main_arg7)) :=
  (host1_keep_arg7 (W2 m ρ c)).trans (W2_arg7 m ρ c)
theorem W4_arg7 : W4 m ρ c (Proc.devRef .tc main_arg7) = (m ((c : Thread nD τ).loc main_arg7)) :=
  (W4_of_ne m ρ c main_arg7 (by decide)).trans (W3_arg7 m ρ c)
theorem W5_arg7 : W5 m ρ c (Proc.devRef .tc main_arg7) = (m ((c : Thread nD τ).loc main_arg7)) :=
  (host2_keep_arg7 (W4 m ρ c)).trans (W4_arg7 m ρ c)
theorem W6_arg7 : W6 m ρ c (Proc.devRef .tc main_arg7) = (m ((c : Thread nD τ).loc main_arg7)) :=
  (W6_of_ne m ρ c main_arg7 (by decide)).trans (W5_arg7 m ρ c)
theorem W7_arg7 : W7 m ρ c (Proc.devRef .tc main_arg7) = (m ((c : Thread nD τ).loc main_arg7)) :=
  (W7_of_ne m ρ c main_arg7 (by decide)).trans (W6_arg7 m ρ c)
theorem W8_arg7 : W8 m ρ c (Proc.devRef .tc main_arg7) = (m ((c : Thread nD τ).loc main_arg7)) :=
  (host4_keep_arg7 (W7 m ρ c)).trans (W7_arg7 m ρ c)
theorem W9_arg7 : W9 m ρ c (Proc.devRef .tc main_arg7) = (m ((c : Thread nD τ).loc main_arg7)) :=
  (W9_of_ne m ρ c main_arg7 (by decide)).trans (W8_arg7 m ρ c)
theorem W10_arg7 : W10 m ρ c (Proc.devRef .tc main_arg7) = (m ((c : Thread nD τ).loc main_arg7)) :=
  (host5_keep_arg7 (W9 m ρ c)).trans (W9_arg7 m ρ c)
theorem W11_arg7 : W11 m ρ c (Proc.devRef .tc main_arg7) = (m ((c : Thread nD τ).loc main_arg7)) :=
  (W11_of_ne m ρ c main_arg7 (by decide)).trans (W10_arg7 m ρ c)
theorem W2_arg8 : W2 m ρ c (Proc.devRef .tc main_arg8) = (m ((c : Thread nD τ).loc main_arg8)) :=
  (W2_of_ne m ρ c main_arg8 (by decide)).trans (W1_arg8 m ρ c)
theorem W3_arg8 : W3 m ρ c (Proc.devRef .tc main_arg8) = (m ((c : Thread nD τ).loc main_arg8)) :=
  (host1_keep_arg8 (W2 m ρ c)).trans (W2_arg8 m ρ c)
theorem W4_arg8 : W4 m ρ c (Proc.devRef .tc main_arg8) = (m ((c : Thread nD τ).loc main_arg8)) :=
  (W4_of_ne m ρ c main_arg8 (by decide)).trans (W3_arg8 m ρ c)
theorem W5_arg8 : W5 m ρ c (Proc.devRef .tc main_arg8) = (m ((c : Thread nD τ).loc main_arg8)) :=
  (host2_keep_arg8 (W4 m ρ c)).trans (W4_arg8 m ρ c)
theorem W6_arg8 : W6 m ρ c (Proc.devRef .tc main_arg8) = (m ((c : Thread nD τ).loc main_arg8)) :=
  (W6_of_ne m ρ c main_arg8 (by decide)).trans (W5_arg8 m ρ c)
theorem W7_arg8 : W7 m ρ c (Proc.devRef .tc main_arg8) = (m ((c : Thread nD τ).loc main_arg8)) :=
  (W7_of_ne m ρ c main_arg8 (by decide)).trans (W6_arg8 m ρ c)
theorem W8_arg8 : W8 m ρ c (Proc.devRef .tc main_arg8) = (m ((c : Thread nD τ).loc main_arg8)) :=
  (host4_keep_arg8 (W7 m ρ c)).trans (W7_arg8 m ρ c)
theorem W9_arg8 : W9 m ρ c (Proc.devRef .tc main_arg8) = (m ((c : Thread nD τ).loc main_arg8)) :=
  (W9_of_ne m ρ c main_arg8 (by decide)).trans (W8_arg8 m ρ c)
theorem W10_arg8 : W10 m ρ c (Proc.devRef .tc main_arg8) = (m ((c : Thread nD τ).loc main_arg8)) :=
  (host5_keep_arg8 (W9 m ρ c)).trans (W9_arg8 m ρ c)
theorem W11_arg8 : W11 m ρ c (Proc.devRef .tc main_arg8) = (m ((c : Thread nD τ).loc main_arg8)) :=
  (W11_of_ne m ρ c main_arg8 (by decide)).trans (W10_arg8 m ρ c)
theorem W12_arg8 : W12 m ρ c (Proc.devRef .tc main_arg8) = (m ((c : Thread nD τ).loc main_arg8)) :=
  (W12_of_ne m ρ c main_arg8 (by decide)).trans (W11_arg8 m ρ c)
theorem W2_s : W2 m ρ c (Proc.devRef .tc main_v1) = (sIdx (m ((c : Thread nD τ).loc main_arg1))) :=
  (W2_of_ne m ρ c main_v1 (by decide)).trans (W1_s m ρ c)
theorem W3_s : W3 m ρ c (Proc.devRef .tc main_v1) = (sIdx (m ((c : Thread nD τ).loc main_arg1))) :=
  (host1_keep_v1 (W2 m ρ c)).trans (W2_s m ρ c)
theorem W4_s : W4 m ρ c (Proc.devRef .tc main_v1) = (sIdx (m ((c : Thread nD τ).loc main_arg1))) :=
  (W4_of_ne m ρ c main_v1 (by decide)).trans (W3_s m ρ c)
theorem W5_s : W5 m ρ c (Proc.devRef .tc main_v1) = (sIdx (m ((c : Thread nD τ).loc main_arg1))) :=
  (host2_keep_v1 (W4 m ρ c)).trans (W4_s m ρ c)
theorem W6_s : W6 m ρ c (Proc.devRef .tc main_v1) = (sIdx (m ((c : Thread nD τ).loc main_arg1))) :=
  (W6_of_ne m ρ c main_v1 (by decide)).trans (W5_s m ρ c)
theorem W7_s : W7 m ρ c (Proc.devRef .tc main_v1) = (sIdx (m ((c : Thread nD τ).loc main_arg1))) :=
  (W7_of_ne m ρ c main_v1 (by decide)).trans (W6_s m ρ c)
theorem W8_s : W8 m ρ c (Proc.devRef .tc main_v1) = (sIdx (m ((c : Thread nD τ).loc main_arg1))) :=
  (host4_keep_v1 (W7 m ρ c)).trans (W7_s m ρ c)
theorem W9_s : W9 m ρ c (Proc.devRef .tc main_v1) = (sIdx (m ((c : Thread nD τ).loc main_arg1))) :=
  (W9_of_ne m ρ c main_v1 (by decide)).trans (W8_s m ρ c)
theorem W10_s : W10 m ρ c (Proc.devRef .tc main_v1) = (sIdx (m ((c : Thread nD τ).loc main_arg1))) :=
  (host5_keep_v1 (W9 m ρ c)).trans (W9_s m ρ c)
theorem W11_s : W11 m ρ c (Proc.devRef .tc main_v1) = (sIdx (m ((c : Thread nD τ).loc main_arg1))) :=
  (W11_of_ne m ρ c main_v1 (by decide)).trans (W10_s m ρ c)
theorem W12_s : W12 m ρ c (Proc.devRef .tc main_v1) = (sIdx (m ((c : Thread nD τ).loc main_arg1))) :=
  (W12_of_ne m ρ c main_v1 (by decide)).trans (W11_s m ρ c)
theorem W2_t : W2 m ρ c (Proc.devRef .tc main_v2) = (tIdx (m ((c : Thread nD τ).loc main_arg2))) :=
  (W2_of_ne m ρ c main_v2 (by decide)).trans (W1_t m ρ c)
theorem W3_t : W3 m ρ c (Proc.devRef .tc main_v2) = (tIdx (m ((c : Thread nD τ).loc main_arg2))) :=
  (host1_keep_v2 (W2 m ρ c)).trans (W2_t m ρ c)
theorem W4_t : W4 m ρ c (Proc.devRef .tc main_v2) = (tIdx (m ((c : Thread nD τ).loc main_arg2))) :=
  (W4_of_ne m ρ c main_v2 (by decide)).trans (W3_t m ρ c)
theorem W5_t : W5 m ρ c (Proc.devRef .tc main_v2) = (tIdx (m ((c : Thread nD τ).loc main_arg2))) :=
  (host2_keep_v2 (W4 m ρ c)).trans (W4_t m ρ c)
theorem W6_t : W6 m ρ c (Proc.devRef .tc main_v2) = (tIdx (m ((c : Thread nD τ).loc main_arg2))) :=
  (W6_of_ne m ρ c main_v2 (by decide)).trans (W5_t m ρ c)
theorem W7_t : W7 m ρ c (Proc.devRef .tc main_v2) = (tIdx (m ((c : Thread nD τ).loc main_arg2))) :=
  (W7_of_ne m ρ c main_v2 (by decide)).trans (W6_t m ρ c)
theorem W8_t : W8 m ρ c (Proc.devRef .tc main_v2) = (tIdx (m ((c : Thread nD τ).loc main_arg2))) :=
  (host4_keep_v2 (W7 m ρ c)).trans (W7_t m ρ c)
theorem W9_t : W9 m ρ c (Proc.devRef .tc main_v2) = (tIdx (m ((c : Thread nD τ).loc main_arg2))) :=
  (W9_of_ne m ρ c main_v2 (by decide)).trans (W8_t m ρ c)
theorem W10_t : W10 m ρ c (Proc.devRef .tc main_v2) = (tIdx (m ((c : Thread nD τ).loc main_arg2))) :=
  (host5_keep_v2 (W9 m ρ c)).trans (W9_t m ρ c)
theorem W11_t : W11 m ρ c (Proc.devRef .tc main_v2) = (tIdx (m ((c : Thread nD τ).loc main_arg2))) :=
  (W11_of_ne m ρ c main_v2 (by decide)).trans (W10_t m ρ c)
theorem W12_t : W12 m ρ c (Proc.devRef .tc main_v2) = (tIdx (m ((c : Thread nD τ).loc main_arg2))) :=
  (W12_of_ne m ρ c main_v2 (by decide)).trans (W11_t m ρ c)
theorem W2_norm : W2 m ρ c (Proc.devRef .tc main_v24) = (norm (sIdx (m ((c : Thread nD τ).loc main_arg1))) (tIdx (m ((c : Thread nD τ).loc main_arg2)))) :=
  (W2_of_ne m ρ c main_v24 (by decide)).trans (W1_norm m ρ c)
theorem W3_norm : W3 m ρ c (Proc.devRef .tc main_v24) = (norm (sIdx (m ((c : Thread nD τ).loc main_arg1))) (tIdx (m ((c : Thread nD τ).loc main_arg2)))) :=
  (host1_keep_v24 (W2 m ρ c)).trans (W2_norm m ρ c)
theorem W4_norm : W4 m ρ c (Proc.devRef .tc main_v24) = (norm (sIdx (m ((c : Thread nD τ).loc main_arg1))) (tIdx (m ((c : Thread nD τ).loc main_arg2)))) :=
  (W4_of_ne m ρ c main_v24 (by decide)).trans (W3_norm m ρ c)
theorem W5_norm : W5 m ρ c (Proc.devRef .tc main_v24) = (norm (sIdx (m ((c : Thread nD τ).loc main_arg1))) (tIdx (m ((c : Thread nD τ).loc main_arg2)))) :=
  (host2_keep_v24 (W4 m ρ c)).trans (W4_norm m ρ c)
theorem W6_norm : W6 m ρ c (Proc.devRef .tc main_v24) = (norm (sIdx (m ((c : Thread nD τ).loc main_arg1))) (tIdx (m ((c : Thread nD τ).loc main_arg2)))) :=
  (W6_of_ne m ρ c main_v24 (by decide)).trans (W5_norm m ρ c)
theorem W7_norm : W7 m ρ c (Proc.devRef .tc main_v24) = (norm (sIdx (m ((c : Thread nD τ).loc main_arg1))) (tIdx (m ((c : Thread nD τ).loc main_arg2)))) :=
  (W7_of_ne m ρ c main_v24 (by decide)).trans (W6_norm m ρ c)
theorem W8_norm : W8 m ρ c (Proc.devRef .tc main_v24) = (norm (sIdx (m ((c : Thread nD τ).loc main_arg1))) (tIdx (m ((c : Thread nD τ).loc main_arg2)))) :=
  (host4_keep_v24 (W7 m ρ c)).trans (W7_norm m ρ c)
theorem W9_norm : W9 m ρ c (Proc.devRef .tc main_v24) = (norm (sIdx (m ((c : Thread nD τ).loc main_arg1))) (tIdx (m ((c : Thread nD τ).loc main_arg2)))) :=
  (W9_of_ne m ρ c main_v24 (by decide)).trans (W8_norm m ρ c)
theorem W10_norm : W10 m ρ c (Proc.devRef .tc main_v24) = (norm (sIdx (m ((c : Thread nD τ).loc main_arg1))) (tIdx (m ((c : Thread nD τ).loc main_arg2)))) :=
  (host5_keep_v24 (W9 m ρ c)).trans (W9_norm m ρ c)
theorem W11_norm : W11 m ρ c (Proc.devRef .tc main_v24) = (norm (sIdx (m ((c : Thread nD τ).loc main_arg1))) (tIdx (m ((c : Thread nD τ).loc main_arg2)))) :=
  (W11_of_ne m ρ c main_v24 (by decide)).trans (W10_norm m ρ c)
theorem W12_norm : W12 m ρ c (Proc.devRef .tc main_v24) = (norm (sIdx (m ((c : Thread nD τ).loc main_arg1))) (tIdx (m ((c : Thread nD τ).loc main_arg2)))) :=
  (W12_of_ne m ρ c main_v24 (by decide)).trans (W11_norm m ρ c)

/-! ### The arrays the launches wrote, at the boundary after each -/

theorem W2_out : W2 m ρ c (Proc.devRef .tc main_v25) = (dat0 (V1 m ρ) c).arrAt 2 cfg0.N := W2_arr m ρ c 2
theorem W4_out : W4 m ρ c (Proc.devRef .tc main_v40_0) = (dat1 (V3 m ρ) c).arrAt 2 cfg1.N := W4_arr m ρ c 2
theorem W4_sum : W4 m ρ c (Proc.devRef .tc main_v40_1) = (dat1 (V3 m ρ) c).arrAt 3 cfg1.N := W4_arr m ρ c 3
theorem W4_sumSq : W4 m ρ c (Proc.devRef .tc main_v40_2) = (dat1 (V3 m ρ) c).arrAt 4 cfg1.N := W4_arr m ρ c 4
theorem W6_out : W6 m ρ c (Proc.devRef .tc main_v49) = (dat2 (V5 m ρ) c).arrAt 5 cfg2.N := W6_arr m ρ c 5
theorem W7_out : W7 m ρ c (Proc.devRef .tc main_v50) = (dat3 (V6 m ρ) c).arrAt 2 cfg3.N := W7_arr m ρ c 2
theorem W9_out : W9 m ρ c (Proc.devRef .tc main_v65_0) = (dat4 (V8 m ρ) c).arrAt 2 cfg4.N := W9_arr m ρ c 2
theorem W9_sum : W9 m ρ c (Proc.devRef .tc main_v65_1) = (dat4 (V8 m ρ) c).arrAt 3 cfg4.N := W9_arr m ρ c 3
theorem W9_sumSq : W9 m ρ c (Proc.devRef .tc main_v65_2) = (dat4 (V8 m ρ) c).arrAt 4 cfg4.N := W9_arr m ρ c 4
theorem W11_out : W11 m ρ c (Proc.devRef .tc main_v74) = (dat5 (V10 m ρ) c).arrAt 5 cfg5.N := W11_arr m ρ c 5
theorem W12_out : W12 m ρ c (Proc.devRef .tc main_v75) = (dat6 (V11 m ρ) c).arrAt 2 cfg6.N := W12_arr m ρ c 2

/-! ### What each launch finds in its operand arrays -/

/-- The first product reads the node features and the first weight as launched. -/
theorem entry0_x : V1 m ρ c (Pipeline.arrRef spec0 0) = m ((c : Thread nD τ).loc main_arg0) := W1_arg0 m ρ c
theorem entry0_w : V1 m ρ c (Pipeline.arrRef spec0 1) = m ((c : Thread nD τ).loc main_arg3) := W1_arg3 m ρ c

/-- The first bias stage reads the aggregation of the first product and the first bias as a row. -/
theorem entry1_x : V3 m ρ c (Pipeline.arrRef spec1 0)
    = agg128 (sIdx (m ((c : Thread nD τ).loc main_arg1))) (tIdx (m ((c : Thread nD τ).loc main_arg2))) ((dat0 (V1 m ρ) c).arrAt 2 cfg0.N) := by
  show StableHlo.after hostOps1 (W2 m ρ c) (Proc.devRef .tc main_v38) = _
  rw [host1_agg, W2_s, W2_t, W2_norm, W2_out]
  rfl
theorem entry1_b : V3 m ρ c (Pipeline.arrRef spec1 1) = reshapeRow128 (m ((c : Thread nD τ).loc main_arg4)) :=
  (host1_b (W2 m ρ c)).trans (congrArg reshapeRow128 (W2_arg4 m ρ c))

/-- The first normalisation reads what the bias stage wrote, the mean and variance rows made of its column
    sums, and the first scale and shift as rows. -/
theorem entry2_x : V5 m ρ c (Pipeline.arrRef spec2 0) = (dat1 (V3 m ρ) c).arrAt 2 cfg1.N :=
  (host2_keep_v40_0 (W4 m ρ c)).trans (W4_out m ρ c)
theorem entry2_mean : V5 m ρ c (Pipeline.arrRef spec2 1) = meanRow ((dat1 (V3 m ρ) c).arrAt 3 cfg1.N) :=
  (host2_mean (W4 m ρ c)).trans (congrArg meanRow (W4_sum m ρ c))
theorem entry2_var : V5 m ρ c (Pipeline.arrRef spec2 2)
    = varRow ((dat1 (V3 m ρ) c).arrAt 4 cfg1.N) (meanRow ((dat1 (V3 m ρ) c).arrAt 3 cfg1.N)) := by
  show StableHlo.after hostOps2 (W4 m ρ c) (Proc.devRef .tc main_v46) = _
  rw [host2_var, W4_sum, W4_sumSq]
theorem entry2_g : V5 m ρ c (Pipeline.arrRef spec2 3) = reshapeRow128 (m ((c : Thread nD τ).loc main_arg9)) :=
  (host2_g (W4 m ρ c)).trans (congrArg reshapeRow128 (W4_arg9 m ρ c))
theorem entry2_be : V5 m ρ c (Pipeline.arrRef spec2 4) = reshapeRow128 (m ((c : Thread nD τ).loc main_arg10)) :=
  (host2_be (W4 m ρ c)).trans (congrArg reshapeRow128 (W4_arg10 m ρ c))

/-- The second product reads the first normalised layer and the second weight as launched. -/
theorem entry3_x : V6 m ρ c (Pipeline.arrRef spec3 0) = (dat2 (V5 m ρ) c).arrAt 5 cfg2.N := W6_out m ρ c
theorem entry3_w : V6 m ρ c (Pipeline.arrRef spec3 1) = m ((c : Thread nD τ).loc main_arg5) := W6_arg5 m ρ c

/-- The second bias stage reads the aggregation of the second product and the second bias as a row. -/
theorem entry4_x : V8 m ρ c (Pipeline.arrRef spec4 0)
    = agg128 (sIdx (m ((c : Thread nD τ).loc main_arg1))) (tIdx (m ((c : Thread nD τ).loc main_arg2))) ((dat3 (V6 m ρ) c).arrAt 2 cfg3.N) := by
  show StableHlo.after hostOps4 (W7 m ρ c) (Proc.devRef .tc main_v63) = _
  rw [host4_agg, W7_s, W7_t, W7_norm, W7_out]
  rfl
theorem entry4_b : V8 m ρ c (Pipeline.arrRef spec4 1) = reshapeRow128 (m ((c : Thread nD τ).loc main_arg6)) :=
  (host4_b (W7 m ρ c)).trans (congrArg reshapeRow128 (W7_arg6 m ρ c))

/-- The second normalisation, as the first. -/
theorem entry5_x : V10 m ρ c (Pipeline.arrRef spec5 0) = (dat4 (V8 m ρ) c).arrAt 2 cfg4.N :=
  (host5_keep_v65_0 (W9 m ρ c)).trans (W9_out m ρ c)
theorem entry5_mean : V10 m ρ c (Pipeline.arrRef spec5 1) = meanRow ((dat4 (V8 m ρ) c).arrAt 3 cfg4.N) :=
  (host5_mean (W9 m ρ c)).trans (congrArg meanRow (W9_sum m ρ c))
theorem entry5_var : V10 m ρ c (Pipeline.arrRef spec5 2)
    = varRow ((dat4 (V8 m ρ) c).arrAt 4 cfg4.N) (meanRow ((dat4 (V8 m ρ) c).arrAt 3 cfg4.N)) := by
  show StableHlo.after hostOps5 (W9 m ρ c) (Proc.devRef .tc main_v71) = _
  rw [host5_var, W9_sum, W9_sumSq]
theorem entry5_g : V10 m ρ c (Pipeline.arrRef spec5 3) = reshapeRow128 (m ((c : Thread nD τ).loc main_arg11)) :=
  (host5_g (W9 m ρ c)).trans (congrArg reshapeRow128 (W9_arg11 m ρ c))
theorem entry5_be : V10 m ρ c (Pipeline.arrRef spec5 4) = reshapeRow128 (m ((c : Thread nD τ).loc main_arg12)) :=
  (host5_be (W9 m ρ c)).trans (congrArg reshapeRow128 (W9_arg12 m ρ c))

/-- The third product reads the second normalised layer and the third weight as launched. -/
theorem entry6_x : V11 m ρ c (Pipeline.arrRef spec6 0) = (dat5 (V10 m ρ) c).arrAt 5 cfg5.N := W11_out m ρ c
theorem entry6_w : V11 m ρ c (Pipeline.arrRef spec6 1) = m ((c : Thread nD τ).loc main_arg7) := W11_arg7 m ρ c

/-- The last stage reads the aggregation of the third product and the last bias as a row. -/
theorem entry7_x : V13 m ρ c (Pipeline.arrRef spec7 0)
    = agg40 (sIdx (m ((c : Thread nD τ).loc main_arg1))) (tIdx (m ((c : Thread nD τ).loc main_arg2))) ((dat6 (V11 m ρ) c).arrAt 2 cfg6.N) := by
  show StableHlo.after hostOps7 (W12 m ρ c) (Proc.devRef .tc main_v88) = _
  rw [host7_agg, W12_s, W12_t, W12_norm, W12_out]
  rfl
theorem entry7_b : V13 m ρ c (Pipeline.arrRef spec7 1) = reshapeRow40 (m ((c : Thread nD τ).loc main_arg8)) :=
  (host7_b (W12 m ρ c)).trans (congrArg reshapeRow40 (W12_arg8 m ρ c))

/-- The result buffer ends at what the last launch wrote. -/
theorem result : W14 m ρ c (Proc.devRef .tc main_v90) = (dat7 (V13 m ρ) c).arrAt 2 cfg7.N := W14_arr m ρ c 2

end Chain

end Cert.Ker

end
-- ==== Proof.Spec.lean ====
/-
  The model's layers as functions of whole arrays of extended reals, entry by entry: a matrix product, a row added to
  every row, column sums and sums of squares, the batch statistics formed from them, the batch normalisation followed
  by the positive part. These are the common meaning of the vector unit's spelling (block by block) and of the host's
  spelling (whole arrays) of each layer.
-/
import Idealize.ShloMosaic.PureOps.Ideal
import Idealize.ShloMosaic.Lib.ValueIdx

noncomputable section

open Idealize.ShloMosaic Idealize.ShloMosaic.ValueIdx
open scoped BigOperators

namespace Cert.Spec

/-- An [a, b] array of extended reals. -/
abbrev Mat (a b : ℕ) := (⟨2, ![a, b]⟩ : Shape).Idx → EReal

variable {n k c : ℕ}

/-- The matrix product: entry (p, q) is Σ_j x(p, j) · w(j, q). -/
def mm (x : Mat n k) (w : Mat k c) : Mat n c := fun i => ∑ j : Fin k, x (ix2 (i 0) j) * w (ix2 j (i 1))

/-- A [1, c] row added to every row. -/
def addRow (h : Mat n c) (b : Mat 1 c) : Mat n c := fun i => h i + b (ix2 (0 : Fin 1) (i 1))

/-- The column sums, as a [1, c] row. -/
def colSum (h : Mat n c) : Mat 1 c := fun i => ∑ p : Fin n, h (ix2 p (i 1))

/-- The column sums of squares, as a [1, c] row. -/
def colSumSq (h : Mat n c) : Mat 1 c := fun i => ∑ p : Fin n, h (ix2 p (i 1)) * h (ix2 p (i 1))

/-- A row divided by a scalar. -/
def rowDiv (s : Mat 1 c) (d : EReal) : Mat 1 c := fun i => Ideal.div (s i) d

/-- The variance from the two moments: E[x²] − E[x]². -/
def varOfMoments (sq mean : Mat 1 c) (d : EReal) : Mat 1 c := fun i => Ideal.div (sq i) d - mean i * mean i

/-- The variance as the mean of squared deviations from the mean. -/
def varOfDeviations (h : Mat n c) (d : EReal) : Mat 1 c := fun i =>
  Ideal.div (∑ p : Fin n, (h (ix2 p (i 1)) - Ideal.div (∑ r : Fin n, h (ix2 r (i 1))) d)
    * (h (ix2 p (i 1)) - Ideal.div (∑ r : Fin n, h (ix2 r (i 1))) d)) d

/-- Batch normalisation with given statistics, then the positive part:
    max (((h − mean) · rsqrt (var + ε)) · g + be) 0, the statistics and the affine parameters [1, c] rows. -/
def bnRelu (h : Mat n c) (mean var g be : Mat 1 c) (eps : EReal) : Mat n c := fun i =>
  max (((h i - mean (ix2 (0 : Fin 1) (i 1))) * Ideal.rsqrt (var (ix2 (0 : Fin 1) (i 1)) + eps))
    * g (ix2 (0 : Fin 1) (i 1)) + be (ix2 (0 : Fin 1) (i 1))) 0

/-- Every entry is a real number. -/
def IsReal {ι : Type*} (v : ι → EReal) : Prop := ∀ i, ∃ r : ℝ, v i = (r : EReal)

end Cert.Spec

end
-- ==== Proof.SpecRows.lean ====
/-
  A length-c vector viewed as a [1, c] row.
-/
import proofs.«104798_j89043261980674_1_alg».proof.Proof.Spec

noncomputable section

open Idealize.ShloMosaic Idealize.ShloMosaic.ValueIdx

namespace Cert.Spec

/-- The [1, c] row whose entry (0, q) is the vector's entry q. -/
def rowOf {c : ℕ} (v : (⟨1, ![c]⟩ : Shape).Idx → EReal) : Mat 1 c := fun i => v (ix1 (i 1))

theorem rowOf_real {c : ℕ} (v : (⟨1, ![c]⟩ : Shape).Idx → EReal) (hv : IsReal v) : IsReal (rowOf v) := fun _ => hv _

end Cert.Spec

end
-- ==== Proof.Consts.lean ====
/-
  The float literals the two programs spell, as the extended reals their bit patterns denote.
-/
import Idealize.ShloMosaic.PureOps.Ideal

noncomputable section

namespace Cert.Consts

open Idealize.ShloMosaic

/-- The word of 100000.0 denotes the real 100000. -/
theorem ofBits_1e5 : Ideal.ofBits .f32 0x47C35000#32 = ((100000 : ℝ) : EReal) := by
  simp [Ideal.ofBits, Ideal.ieee, -EReal.coe_mul]; norm_num

/-- The word of 1.0 denotes 1. -/
theorem ofBits_one : Ideal.ofBits .f32 0x3F800000#32 = 1 := by
  simp [Ideal.ofBits, Ideal.ieee, -EReal.coe_mul]; norm_num

/-- The word of +0.0 denotes 0. -/
theorem ofBits_zero : Ideal.ofBits .f32 0x00000000#32 = 0 := by
  simp [Ideal.ofBits, Ideal.ieee]

/-- The float nearest 1e-5 denotes a positive real. -/
theorem ofBits_eps : ∃ e : ℝ, 0 < e ∧ Ideal.ofBits .f32 0x3727C5AC#32 = (e : EReal) := by
  refine ⟨(10995116 : ℝ) / 2 ^ 40, by positivity, ?_⟩
  simp [Ideal.ofBits, Ideal.ieee, -EReal.coe_mul]; norm_num

/-- The word of −∞ denotes the bottom element. -/
theorem ofBits_neg_inf : Ideal.ofBits .f32 0xFF800000#32 = ⊥ := by
  simp [Ideal.ofBits, Ideal.ieee]

end Cert.Consts

end
-- ==== Proof.LibEdgeReads.lean ====
/-
  HOST LAYOUT OPERATIONS OF A PER-ROW COMPUTATION, READ AT AN INDEX, over arbitrary extents (nothing here mentions a
  program):

  * an `[a]` vector made an `[a, 1]` column by `broadcast_in_dim` along axis 0 reads, at `(e, u)`, the vector at `e`;
  * an `[a, 1]` column broadcast to `[a, b]` by `broadcast_in_dim` along axes 0 and 1 reads, at `(e, c)`, the column at
    `(e, 0)`;
  * column `k` of an `[a, b]` matrix, sliced out as `[a, 1]` and cast to `[a]`, reads, at `e`, the matrix at `(e, k)`;
  * the host's float sum over the second axis of an `[n, 3]` matrix reads, at `e`, the initial value plus the three
    entries of row `e`, added left to right.
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.Lib.EdgeReads

open Idealize.ShloMosaic Idealize.ShloMosaic.ValueIdx

variable {α : Type}

/-- A vector made a column: at `(e, u)` the vector at `e`. -/
theorem column_of_vector_apply {a : ℕ} (x : (⟨1, ![a]⟩ : Shape).Idx → α)
    (h : (⟨1, ![a]⟩ : Shape).BroadcastsInDim ⟨2, ![a, 1]⟩ ![0]) (e : Fin a) (u : Fin 1) :
    broadcastInDim ⟨2, ![a, 1]⟩ ![0] h x (ix2 e u) = x (ix1 e) :=
  broadcastInDim_apply _ h x _ _ fun d => by
    match d with
    | ⟨0, _⟩ =>
      show e.val = if a = 1 then 0 else e.val
      split
      · have := e.isLt; omega
      · rfl

/-- A column broadcast along the rows: at `(e, c)` the column at `(e, 0)`. -/
theorem column_broadcast_apply {a b : ℕ} (x : (⟨2, ![a, 1]⟩ : Shape).Idx → α)
    (h : (⟨2, ![a, 1]⟩ : Shape).BroadcastsInDim ⟨2, ![a, b]⟩ ![0, 1]) (e : Fin a) (c : Fin b) :
    broadcastInDim ⟨2, ![a, b]⟩ ![0, 1] h x (ix2 e c) = x (ix2 e (0 : Fin 1)) :=
  broadcastInDim_apply _ h x _ _ fun d => by
    match d with
    | ⟨0, _⟩ =>
      show e.val = if a = 1 then 0 else e.val
      split
      · have := e.isLt; omega
      · rfl
    | ⟨1, _⟩ =>
      show (0 : ℕ) = if (1 : ℕ) = 1 then 0 else c.val
      rw [if_pos rfl]

/-- Column `k` of a matrix as a vector: at `e` the matrix at `(e, k)`. -/
theorem column_slice_apply {a b : ℕ} (k : ℕ) (hk : k < b) (X : (⟨2, ![a, b]⟩ : Shape).Idx → α)
    (hs : (⟨2, ![a, b]⟩ : Shape).Slices ![0, k] ⟨2, ![a, 1]⟩)
    (hc : (⟨2, ![a, 1]⟩ : Shape).ShapeCasts ⟨1, ![a]⟩) (e : Fin a) :
    shapeCast ⟨1, ![a]⟩ (extractStridedSlice ⟨2, ![a, 1]⟩ ![0, k] X hs) hc (ix1 e) = X (ix2 e ⟨k, hk⟩) := by
  refine (shapeCast_apply _ hc (ix1 e) (ix2 e (0 : Fin 1)) ?_).trans ?_
  · rw [Shape.rowMajor_val_two, Shape.rowMajor_val_one]
    show e.val * 1 + 0 = e.val
    omega
  · refine extractStridedSlice_apply _ X hs _ _ fun d => ?_
    match d with
    | ⟨0, _⟩ => show e.val = 0 + e.val; omega
    | ⟨1, _⟩ => show k = k + 0; omega

/-- The host's sum of each row of an `[n, 3]` matrix: at `e` the initial value plus the row's three entries. -/
theorem hostReduceAdd_rows3_apply {n : ℕ} {u : Shape} (x : FVec Ideal ⟨2, ![n, 3]⟩ .f32) (init : u.Idx → Ideal .f32)
    (h' : (⟨2, ![n, 3]⟩ : Shape).ReducesTo [1] ⟨1, ![n]⟩) (h : (⟨2, ![n, 3]⟩ : Shape).Reduces [1] ⟨1, ![n]⟩)
    (hu : 0 < u.numel) (e : Fin n) :
    Host.reduceAdd x init h' hu (ix1 e)
      = init (Shape.Idx.first hu) + (x (ix2 e 0) + x (ix2 e 1) + x (ix2 e 2)) := by
  rw [hostReduceAdd_apply, Ideal.hostReduceAdd_single h' h]
  have hl : ∀ k : Fin 3, h.lift (ix1 e) k = ix2 e k := fun k => by
    funext d; refine Fin.ext ?_
    match d with
    | ⟨0, _⟩ => rfl
    | ⟨1, _⟩ => rfl
  show init (Shape.Idx.first hu) + ∑ k : Fin 3, x (h.lift (ix1 e) k) = _
  rw [Fin.sum_univ_three, hl 0, hl 1, hl 2]

end Cert.Lib.EdgeReads

end
-- ==== Proof.LibColumnReshape.lean ====
/-
  Two re-layings of small-rank arrays read at an index, over arbitrary extents: an `[a]` vector reshaped to an
  `[a, 1]` column, and the transpose of an `[a, b]` array.
-/
import Idealize.ShloMosaic.Lib.Pipeline.Value
import Idealize.ShloMosaic.Lib.ValueIdx

noncomputable section

namespace Cert.Lib.ColumnReshape

open Idealize.ShloMosaic Idealize.ShloMosaic.ValueIdx

/-- An `[a]` vector reshaped to an `[a, 1]` column reads, at `(o, 0)`, the vector at `o`: the same row-major position. -/
theorem reshape_col_apply {α : Type} {a : ℕ} (x : (⟨1, ![a]⟩ : Shape).Idx → α)
    (h : (⟨1, ![a]⟩ : Shape).ShapeCasts ⟨2, ![a, 1]⟩) (o : Fin a) :
    shapeCast ⟨2, ![a, 1]⟩ x h (ix2 o (0 : Fin 1)) = x (ix1 o) :=
  shapeCast_apply x h _ (ix1 o) (by
    rw [Shape.rowMajor_val_one, Shape.rowMajor_val_two]
    show o.val = o.val * 1 + 0
    omega)

/-- The transpose of an `[a, b]` array reads, at `(p, q)`, the array at `(q, p)`. -/
theorem transpose_ab_apply {α : Type} {a b : ℕ} (x : (⟨2, ![a, b]⟩ : Shape).Idx → α)
    (h : (⟨2, ![a, b]⟩ : Shape).Transposes [1, 0] ⟨2, ![b, a]⟩) (p : Fin b) (q : Fin a) :
    transpose ⟨2, ![b, a]⟩ [1, 0] x h (ix2 p q) = x (ix2 q p) :=
  transpose_apply [1, 0] x h (ix2 p q) (ix2 q p) fun bx => match bx with
    | ⟨0, _⟩ => rfl
    | ⟨1, _⟩ => rfl

end Cert.Lib.ColumnReshape

end
-- ==== Proof.LibPadReads.lean ====
/-
  Small re-layings read at an entry, over arbitrary extents: an array padded at the END of its leading axis (rows appended
  to a matrix, entries appended to a vector; no padding in front, none between the entries) reads the original inside the
  original's extent, whatever the padding value; a vector laid out as a one-row array reads the vector; the leading
  columns of a two-axis array, sliced out from offset zero, read the array.
-/
import Idealize.ShloMosaic.Lib.Pipeline.Value
import Idealize.ShloMosaic.Lib.ValueIdx

noncomputable section

namespace Cert.Lib.PadReads

open Idealize.ShloMosaic Idealize.ShloMosaic.ValueIdx

/-- An `[a, b]` matrix with `hi` rows appended (to `[t, b]`) reads, at row `p < a`, the matrix at row `p`. -/
theorem pad_tail_rows_apply {α : Type} {a b t hi : ℕ} (x : (⟨2, ![a, b]⟩ : Shape).Idx → α) {u : Shape} (v : u.Idx → α)
    (h : (⟨2, ![a, b]⟩ : Shape).Pads ![0, 0] ![hi, 0] ![0, 0] ⟨2, ![t, b]⟩) (hu : 0 < u.numel) (p : Fin a) (q : Fin b)
    (hp : p.val < t) :
    pad ⟨2, ![t, b]⟩ ![0, 0] ![hi, 0] ![0, 0] x v h hu (ix2 (⟨p.val, hp⟩ : Fin t) q) = x (ix2 p q) := by
  unfold pad
  rw [dif_pos (fun ax => by
    match ax with
    | ⟨0, _⟩ => exact ⟨Nat.zero_le _, Nat.mod_one _, by show (p.val - 0) / (0 + 1) < a; have := p.isLt; simpa using this⟩
    | ⟨1, _⟩ => exact ⟨Nat.zero_le _, Nat.mod_one _, by show (q.val - 0) / (0 + 1) < b; have := q.isLt; simpa using this⟩)]
  refine congrArg x (funext fun ax => Fin.ext ?_)
  match ax with
  | ⟨0, _⟩ => show (p.val - 0) / (0 + 1) = p.val; simp
  | ⟨1, _⟩ => show (q.val - 0) / (0 + 1) = q.val; simp

/-- An `[a]` vector with `hi` entries appended (to `[t]`) reads, at `p < a`, the vector at `p`. -/
theorem pad_tail_vec_apply {α : Type} {a t hi : ℕ} (x : (⟨1, ![a]⟩ : Shape).Idx → α) {u : Shape} (v : u.Idx → α)
    (h : (⟨1, ![a]⟩ : Shape).Pads ![0] ![hi] ![0] ⟨1, ![t]⟩) (hu : 0 < u.numel) (p : Fin a) (hp : p.val < t) :
    pad ⟨1, ![t]⟩ ![0] ![hi] ![0] x v h hu (ix1 (⟨p.val, hp⟩ : Fin t)) = x (ix1 p) := by
  unfold pad
  rw [dif_pos (fun ax => by
    match ax with
    | ⟨0, _⟩ => exact ⟨Nat.zero_le _, Nat.mod_one _, by show (p.val - 0) / (0 + 1) < a; have := p.isLt; simpa using this⟩)]
  refine congrArg x (funext fun ax => Fin.ext ?_)
  match ax with
  | ⟨0, _⟩ => show (p.val - 0) / (0 + 1) = p.val; simp

/-- A `[b]` vector laid out as a `[1, b]` row reads, at `(0, q)`, the vector at `q`: the same row-major position. -/
theorem reshape_row_apply {α : Type} {b : ℕ} (x : (⟨1, ![b]⟩ : Shape).Idx → α)
    (h : (⟨1, ![b]⟩ : Shape).ShapeCasts ⟨2, ![1, b]⟩) (q : Fin b) :
    shapeCast ⟨2, ![1, b]⟩ x h (ix2 (0 : Fin 1) q) = x (ix1 q) :=
  shapeCast_apply x h _ (ix1 q) (by
    rw [Shape.rowMajor_val_one, Shape.rowMajor_val_two]
    show q.val = 0 * b + q.val
    omega)

/-- The leading `b'` columns of an `[a, b]` array, sliced out from offset zero, read the array. -/
theorem slice_lead_cols_apply {α : Type} {a b b' : ℕ} (Y : (⟨2, ![a, b]⟩ : Shape).Idx → α)
    (h : (⟨2, ![a, b]⟩ : Shape).Slices ![0, 0] ⟨2, ![a, b']⟩) (n : Fin a) (j : Fin b') (hj : j.val < b) :
    extractStridedSlice ⟨2, ![a, b']⟩ ![0, 0] Y h (ix2 n j) = Y (ix2 n (⟨j.val, hj⟩ : Fin b)) := by
  refine extractStridedSlice_apply ![0, 0] Y h _ (ix2 n (⟨j.val, hj⟩ : Fin b)) fun ax => ?_
  match ax with
  | ⟨0, _⟩ => show n.val = 0 + n.val; omega
  | ⟨1, _⟩ => show j.val = 0 + j.val; omega

end Cert.Lib.PadReads

end
-- ==== Proof.LibReshapeBroadcast.lean ====
/-
  A reshape that adds a unit axis is the broadcast that adds it, over arbitrary extents and any element type; and a
  scalar splat read at an index.

  * A scalar splat to any shape reads the scalar's value at every index.
  * A vector of length a laid out as an [a, 1] column by a reshape is the same array as the vector made a column by
    a broadcast along axis 0: both read the vector at e at the index (e, 0).
  * A vector of length b laid out as a [1, b] row by a reshape is the same array as the vector made a row by a
    broadcast along axis 1: both read the vector at q at the index (0, q).
-/
import Idealize.ShloMosaic.Lib.Pipeline.Value
import Idealize.ShloMosaic.Lib.ValueIdx
import proofs.«104798_j89043261980674_1_alg».proof.Proof.LibEdgeReads
import proofs.«104798_j89043261980674_1_alg».proof.Proof.LibColumnReshape
import proofs.«104798_j89043261980674_1_alg».proof.Proof.LibPadReads

noncomputable section

namespace Cert.Lib.ReshapeBroadcast

open Idealize.ShloMosaic Idealize.ShloMosaic.ValueIdx

/-- A float scalar constant broadcast to any shape reads, everywhere, the extended real its word encodes. -/
theorem splat_apply {t : Shape} (h : (⟨0, ![]⟩ : Shape).BroadcastsInDim t ![]) (w : BitVec (FTy.bits .f32)) (j : t.Idx) :
    broadcastInDim t ![] h (constant (F := Ideal) ⟨0, ![]⟩ .f32 w) j = Ideal.ofBits .f32 w :=
  (broadcastInDim_apply (s := ⟨0, ![]⟩) ![] h _ j (fun a => a.elim0) (fun a => a.elim0)).trans rfl

/-- A vector made a row by a broadcast along axis 1: at (u, q) the vector at q. -/
theorem row_of_vector_apply {α : Type} {b : ℕ} (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) :=
  broadcastInDim_apply _ h x _ _ fun d => by
    match d with
    | ⟨0, _⟩ =>
      show q.val = if b = 1 then 0 else q.val
      split
      · have := q.isLt; omega
      · rfl

/-- The reshape of a vector to a column and its broadcast to a column are one array. -/
theorem reshape_col_eq_broadcast {α : Type} {a : ℕ} (x : (⟨1, ![a]⟩ : Shape).Idx → α)
    (hs : (⟨1, ![a]⟩ : Shape).ShapeCasts ⟨2, ![a, 1]⟩) (hb : (⟨1, ![a]⟩ : Shape).BroadcastsInDim ⟨2, ![a, 1]⟩ ![0]) :
    shapeCast ⟨2, ![a, 1]⟩ x hs = broadcastInDim ⟨2, ![a, 1]⟩ ![0] hb x := by
  funext j
  obtain ⟨e, u, rfl⟩ : ∃ (e : Fin a) (u : Fin 1), j = ix2 e u := ⟨j 0, j 1, eq_ix2 j⟩
  obtain rfl : u = 0 := Subsingleton.elim _ _
  rw [Cert.Lib.ColumnReshape.reshape_col_apply, Cert.Lib.EdgeReads.column_of_vector_apply]

/-- The reshape of a vector to a row and its broadcast to a row are one array. -/
theorem reshape_row_eq_broadcast {α : Type} {b : ℕ} (x : (⟨1, ![b]⟩ : Shape).Idx → α)
    (hs : (⟨1, ![b]⟩ : Shape).ShapeCasts ⟨2, ![1, b]⟩) (hb : (⟨1, ![b]⟩ : Shape).BroadcastsInDim ⟨2, ![1, b]⟩ ![1]) :
    shapeCast ⟨2, ![1, b]⟩ x hs = broadcastInDim ⟨2, ![1, b]⟩ ![1] hb x := by
  funext j
  obtain ⟨u, q, rfl⟩ : ∃ (u : Fin 1) (q : Fin b), j = ix2 u q := ⟨j 0, j 1, eq_ix2 j⟩
  obtain rfl : u = 0 := Subsingleton.elim _ _
  rw [Cert.Lib.PadReads.reshape_row_apply, row_of_vector_apply]

end Cert.Lib.ReshapeBroadcast

end
-- ==== Proof.KerReads.lean ====
/-
  The kernel program's host glue against the reference's, and the small rows its launches read.

  The two programs spell the graph glue with the same host operations over dimension records of their own; the
  records are equal, so each glue function of one program is the other's: the edge lists with the self loops, an
  index list as a column, the wrapped index column, the in-degrees, their inverse square roots, the edge
  coefficients, and the two aggregations. The rows a launch reads are then read entry by entry at the extended
  reals: a vector laid out as one row is the row of its entries, the row of column means is the row of column sums
  divided by 100000, and the row of column variances is the mean of squares less the squared mean.
-/
import proofs.«104798_j89043261980674_1_alg».proof.Proof.KerGlue
import proofs.«104798_j89043261980674_1_alg».proof.Proof.RefStages
import proofs.«104798_j89043261980674_1_alg».proof.Proof.Spec
import proofs.«104798_j89043261980674_1_alg».proof.Proof.SpecRows
import proofs.«104798_j89043261980674_1_alg».proof.Proof.Consts
import proofs.«104798_j89043261980674_1_alg».proof.Proof.LibReshapeBroadcast
import proofs.«104798_j89043261980674_1_alg».proof.Proof.LibPadReads
import Idealize.ShloMosaic.Lib.IdealHost
import Idealize.ShloMosaic.Lib.ValueIdx

noncomputable section

namespace Cert.Ker

open Idealize.ShloMosaic Idealize.ShloMosaic.ValueIdx

/-! ## The two programs' dimension records are the same records -/

section Glue

variable {F : FTy → Type} [FloatOps F]

theorem scat1_rec_eq : Cert.KernelIdeal.scatter_S100000_S740000x1_S740000_n_0_0_1 = Cert.ReferenceIdeal.scatter_S100000_S740000x1_S740000_n_0_0_1 := rfl
theorem gath1_rec_eq : Cert.KernelIdeal.gather_S100000_S740000x1_S740000_n_0_n_n_0_1_1 = Cert.ReferenceIdeal.gather_S100000_S740000x1_S740000_n_0_n_n_0_1_1 := rfl
theorem gath128_rec_eq : Cert.KernelIdeal.gather_S100000x128_S740000x1_S740000x128_1_0_n_n_0_1_1128 = Cert.ReferenceIdeal.gather_S100000x128_S740000x1_S740000x128_1_0_n_n_0_1_1128 := rfl
theorem scat128_rec_eq : Cert.KernelIdeal.scatter_S100000x128_S740000x1_S740000x128_1_0_0_1 = Cert.ReferenceIdeal.scatter_S100000x128_S740000x1_S740000x128_1_0_0_1 := rfl
theorem gath40_rec_eq : Cert.KernelIdeal.gather_S100000x40_S740000x1_S740000x40_1_0_n_n_0_1_140 = Cert.ReferenceIdeal.gather_S100000x40_S740000x1_S740000x40_1_0_n_n_0_1_140 := rfl
theorem scat40_rec_eq : Cert.KernelIdeal.scatter_S100000x40_S740000x1_S740000x40_1_0_0_1 = Cert.ReferenceIdeal.scatter_S100000x40_S740000x1_S740000x40_1_0_0_1 := rfl

/-! ## The glue of the two programs, definition by definition -/

/-- The source list with the self loops is the same list in both spellings. -/
theorem sIdx_eq (a : (⟨Cert.KernelIdeal.S640000, .i32⟩ : BufTy).Contents (Elt F)) : Cert.Ker.sIdx a = Cert.Ref.sIdx a := rfl

/-- The destination list with the self loops, likewise. -/
theorem tIdx_eq (a : (⟨Cert.KernelIdeal.S640000, .i32⟩ : BufTy).Contents (Elt F)) : Cert.Ker.tIdx a = Cert.Ref.tIdx a := rfl

/-- An index list as a column. -/
theorem col_eq (v : (⟨Cert.KernelIdeal.S740000, .i32⟩ : BufTy).Contents (Elt F)) : Cert.Ker.col v = Cert.Ref.col v := rfl

/-- The wrapped index column. -/
theorem wrap_eq (v : (⟨Cert.KernelIdeal.S740000, .i32⟩ : BufTy).Contents (Elt F)) : Cert.Ker.wrap v = Cert.Ref.wrap v := by
  unfold Cert.Ker.wrap Cert.Ref.wrap
  rw [col_eq]

/-- The in-degrees. -/
theorem deg_eq (t : (⟨Cert.KernelIdeal.S740000, .i32⟩ : BufTy).Contents (Elt F)) : Cert.Ker.deg t = Cert.Ref.deg t := by
  unfold Cert.Ker.deg Cert.Ref.deg
  rw [col_eq, scat1_rec_eq]

/-- The inverse square roots of the floored degrees. -/
theorem dinv_eq (t : (⟨Cert.KernelIdeal.S740000, .i32⟩ : BufTy).Contents (Elt F)) : Cert.Ker.dinv t = Cert.Ref.dinv t := by
  unfold Cert.Ker.dinv Cert.Ref.dinv
  rw [deg_eq]

/-- The edge coefficients. -/
theorem norm_eq (s t : (⟨Cert.KernelIdeal.S740000, .i32⟩ : BufTy).Contents (Elt F)) : Cert.Ker.norm s t = Cert.Ref.norm s t := by
  unfold Cert.Ker.norm Cert.Ref.norm
  rw [dinv_eq, wrap_eq, wrap_eq, gath1_rec_eq]

/-- The aggregation of a [100000,128] array. -/
theorem agg128_eq (s t : (⟨Cert.KernelIdeal.S740000, .i32⟩ : BufTy).Contents (Elt F)) (h : (⟨Cert.KernelIdeal.S100000x128, .f32⟩ : BufTy).Contents (Elt F)) : Cert.Ker.agg128 s t h = Cert.Ref.agg128 s t h := by
  unfold Cert.Ker.agg128 Cert.Ref.agg128
  rw [norm_eq, wrap_eq, col_eq, gath128_rec_eq, scat128_rec_eq]

/-- The aggregation of a [100000,40] array. -/
theorem agg40_eq (s t : (⟨Cert.KernelIdeal.S740000, .i32⟩ : BufTy).Contents (Elt F)) (h : (⟨Cert.KernelIdeal.S100000x40, .f32⟩ : BufTy).Contents (Elt F)) : Cert.Ker.agg40 s t h = Cert.Ref.agg40 s t h := by
  unfold Cert.Ker.agg40 Cert.Ref.agg40
  rw [norm_eq, wrap_eq, col_eq, gath40_rec_eq, scat40_rec_eq]

end Glue

/-! ## The small rows the launches read, entry by entry -/

/-- A length-128 vector laid out as one row is the row of its entries. -/
theorem reshapeRow128_eq (v : FVec Ideal Cert.KernelIdeal.S128 .f32) : Cert.Ker.reshapeRow128 (F := Ideal) v = Cert.Spec.rowOf v := by
  funext j
  obtain ⟨u, q, rfl⟩ : ∃ (u : Fin 1) (q : Fin 128), j = ix2 u q := ⟨j 0, j 1, eq_ix2 j⟩
  obtain rfl : u = 0 := Subsingleton.elim _ _
  unfold Cert.Ker.reshapeRow128
  exact Cert.Lib.PadReads.reshape_row_apply v _ q

/-- A length-40 vector laid out as one row is the row of its entries. -/
theorem reshapeRow40_eq (v : FVec Ideal Cert.KernelIdeal.S40 .f32) : Cert.Ker.reshapeRow40 (F := Ideal) v = Cert.Spec.rowOf v := by
  funext j
  obtain ⟨u, q, rfl⟩ : ∃ (u : Fin 1) (q : Fin 40), j = ix2 u q := ⟨j 0, j 1, eq_ix2 j⟩
  obtain rfl : u = 0 := Subsingleton.elim _ _
  unfold Cert.Ker.reshapeRow40
  exact Cert.Lib.PadReads.reshape_row_apply v _ q

/-- The row of column means is the row of column sums divided by 100000. -/
theorem meanRow_eq (S : FVec Ideal Cert.KernelIdeal.S1x128 .f32) :
    Cert.Ker.meanRow (F := Ideal) S = Cert.Spec.rowDiv S ((100000 : ℝ) : EReal) := by
  funext j
  unfold Cert.Ker.meanRow Cert.Spec.rowDiv
  rw [hostDivf_apply, Cert.Lib.ReshapeBroadcast.splat_apply, Cert.Consts.ofBits_1e5]

/-- The row of column variances is the mean of squares less the squared mean. -/
theorem varRow_eq (Q M : FVec Ideal Cert.KernelIdeal.S1x128 .f32) :
    Cert.Ker.varRow (F := Ideal) Q M = Cert.Spec.varOfMoments Q M ((100000 : ℝ) : EReal) := by
  funext j
  unfold Cert.Ker.varRow Cert.Spec.varOfMoments
  show Host.divf Q _ j - M j * M j = _
  rw [hostDivf_apply, Cert.Lib.ReshapeBroadcast.splat_apply, Cert.Consts.ofBits_1e5]

end Cert.Ker

end
-- ==== Proof.LibPlainDot.lean ====
/-
  A plain matrix product read at an index.

  For the dimension numbers of an `M x K` by `K x N` product (contract the left operand's columns with the right
  operand's rows, no batch axis) the contraction index is one coordinate `k < K`, the left operand is read at
  `(row, k)` and the right at `(k, column)`. So at the ideal instance both the matrix unit's product into a zero
  accumulator and the host's `dot_general` are, at output index `(r, c)`, the sum over `k` of `l (r, k) * r (k, c)`.
-/
import Idealize.ShloMosaic.PureOps.Ideal.Laws
import Idealize.ShloMosaic.Lib.ValueIdx

noncomputable section

namespace Cert.Lib.PlainDot

open Idealize.ShloMosaic Idealize.ShloMosaic.ValueIdx

variable (M K N : ℕ)

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction sum of a plain product, over the contracted coordinate. -/
theorem sum_plain {α : Type*} [AddCommMonoid α] (f : (⟨2, ![M, K]⟩ : Shape).Idx → (⟨2, ![K, N]⟩ : Shape).Idx → α)
    (i : (⟨2, ![M, N]⟩ : Shape).Idx) :
    ∑ q : (DotDims.plain M K N).contr.Idx, f ((DotDims.plain M K N).lhsIdx i q) ((DotDims.plain M K N).rhsIdx i q)
      = ∑ k : Fin K, f (ix2 (i 0) k) (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs0 M K N _ _
      | ⟨1, _⟩ => exact ((DotDims.plain M K N).lhsIdx_val_of_single (cl := 1) rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single (cr := 0) rfl i _).trans hk
      | ⟨1, _⟩ => exact rhs1 M K N _ _)
  rw [el, er]
  rfl

/-- The matrix unit's product into a zero accumulator, at an index. -/
theorem matmul_zero_apply {φ₁ φ₂ : FTy} (prec : Option ContractPrecision)
    (l : FVec Ideal ⟨2, ![M, K]⟩ φ₁) (r : FVec Ideal ⟨2, ![K, N]⟩ φ₂) (i : (⟨2, ![M, N]⟩ : Shape).Idx) :
    FloatOps.matmul (DotDims.plain M K N) prec l r (constant ⟨2, ![M, N]⟩ .f32 0x00000000#32) i
      = ∑ k : Fin K, l (ix2 (i 0) k) * r (ix2 k (i 1)) := by
  rw [Ideal.matmul_constant_zero_apply]
  exact sum_plain M K N (fun a b => l a * r b) i

/-- The host's `dot_general`, at an index. -/
theorem dotGeneral_apply {φ₁ φ₂ : FTy} (prec : Option ContractPrecision) (sched : HostSchedule)
    (l : FVec Ideal ⟨2, ![M, K]⟩ φ₁) (r : FVec Ideal ⟨2, ![K, N]⟩ φ₂) (i : (⟨2, ![M, N]⟩ : Shape).Idx) :
    FloatOps.dotGeneral (DotDims.plain M K N) prec sched l r i
      = ∑ k : Fin K, l (ix2 (i 0) k) * r (ix2 k (i 1)) := by
  rw [Ideal.dotGeneral_apply]
  exact sum_plain M K N (fun a b => l a * r b) i

end Cert.Lib.PlainDot

end
-- ==== Proof.RegMm0.lean ====
/-
  The first layer's matrix product, as a whole array.

  The grid has twenty points; point t multiplies rows 5000·t … 5000·t + 4999 of the [100000, 128] left operand by the
  whole [128, 128] weight and writes the same rows of the result. An entry of a product depends on one row of the left
  operand only, so the entry (p, q) of the block's product is the entry (5000·t + p, q) of the whole product
  Σ_k x(5000·t + p, k) · w(k, q); rounding the operands to a narrower format changes nothing at the ideal values. The
  twenty row blocks tile the result, so after the last point the result array is the whole product.
-/
import proofs.«104798_j89043261980674_1_alg».proof.Proof.Gen.KernelIdeal.Frame
import proofs.«104798_j89043261980674_1_alg».proof.Proof.Spec
import proofs.«104798_j89043261980674_1_alg».proof.Proof.LibPlainDot
import Idealize.ShloMosaic.Lib.Pipeline.Value
import Idealize.ShloMosaic.Lib.ValueIdx

noncomputable section

namespace Cert.KernelIdeal.Reg0

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

/-- The zero offsets of a whole-block access. -/
theorem zero_offsets : (![0, 0] : Fin 2 → Nat) = fun _ => 0 := funext fun a => by fin_cases a <;> rfl

/-- The body's product at entry (p, q), for a block whose row p is row `row p` of X and a right operand that is W:
    the whole product's entry (row p, q). -/
theorem product_apply (x0 : Vec Ideal S5000x128 .f32) (x1 : Vec Ideal S128x128 .f32)
    (X : Cert.Spec.Mat 100000 128) (W : Cert.Spec.Mat 128 128) (row : Fin 5000 → Fin 100000)
    (hx : ∀ p k, x0 (ix2 p k) = X (ix2 (row p) k)) (hw : ∀ k q, x1 (ix2 k q) = W (ix2 k q)) (p : Fin 5000) (q : Fin 128) :
    k0_pay1 x0 x1 (ix2 p q) = Cert.Spec.mm X W (ix2 (row p) q) := by
  unfold k0_pay1
  refine (Cert.Lib.PlainDot.matmul_zero_apply 5000 128 128 none _ _ (ix2 p q)).trans ?_
  refine Finset.sum_congr rfl fun k _ => ?_
  exact congrArg₂ (· * ·) (hx p k) (hw k q)

/-- Where each window's block sits at point t: the row blocks of the left operand and of the result move with t, the
    weight stays. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem point_lt (t : Fin cfg0.N) : t.val < 20 := lt_of_lt_of_eq t.isLt N_0

/-- Row p of block t is row 5000·t + p of the array. -/
def row (t : Fin cfg0.N) (p : Fin 5000) : Fin 100000 :=
  ⟨5000 * t.val + p.val, by have := point_lt t; have := p.isLt; omega⟩

/-- The left operand's block at point t, entry (p, k): the array's entry (5000·t + p, k). -/
theorem left_block_apply (c : Dev nD) (t : Fin cfg0.N) (p : Fin 5000) (k : Fin 128) :
    (iblk0 V c 0 t : Vec Ideal S5000x128 .f32) (ix2 p k)
      = (V c (Pipeline.arrRef spec0 0) : Cert.Spec.Mat 100000 128) (ix2 (row t p) k) := by
  obtain ⟨e0, e1, -⟩ := block_indices t
  unfold iblk0
  rw [View.read_apply]
  show (V c (Pipeline.arrRef spec0 0) : Cert.Spec.Mat 100000 128) _ = (V c (Pipeline.arrRef spec0 0) : Cert.Spec.Mat 100000 128) _
  congr 1
  funext a
  apply Fin.ext
  match a with
  | ⟨0, _⟩ => show win0_0.index t 0 * 5000 + 1 * p.val = 5000 * t.val + p.val; rw [e0]; omega
  | ⟨1, _⟩ => show win0_0.index t 1 * 128 + 1 * k.val = k.val; rw [e1]; omega

/-- The weight's block at any point is the whole weight. -/
theorem right_block_apply (c : Dev nD) (t : Fin cfg0.N) (k : Fin 128) (q : Fin 128) :
    (iblk0 V c 1 t : Vec Ideal S128x128 .f32) (ix2 k q)
      = (V c (Pipeline.arrRef spec0 1) : Cert.Spec.Mat 128 128) (ix2 k q) := by
  obtain ⟨-, -, e2, e3, -⟩ := block_indices t
  unfold iblk0
  rw [View.read_apply]
  show (V c (Pipeline.arrRef spec0 1) : Cert.Spec.Mat 128 128) _ = (V c (Pipeline.arrRef spec0 1) : Cert.Spec.Mat 128 128) _
  congr 1
  funext a
  apply Fin.ext
  match a with
  | ⟨0, _⟩ => show win0_1.index t 0 * 128 + 1 * k.val = k.val; rw [e2]; omega
  | ⟨1, _⟩ => show win0_1.index t 1 * 128 + 1 * q.val = q.val; rw [e3]; omega

/-- What point t writes back is block t of the whole product. -/
theorem flushed_eq (c : Dev nD) (t : Fin cfg0.N) :
    (dat0 (F := Ideal) V c).flushed 2 t = ((cfg0.win 2).blk t).view.read (Elt Ideal)
      (Cert.Spec.mm (V c (Pipeline.arrRef spec0 0)) (V c (Pipeline.arrRef spec0 1))) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x128) zero_offsets]
  obtain ⟨-, -, -, -, e4, e5⟩ := block_indices t
  funext j
  obtain ⟨p, q, rfl⟩ : ∃ (p : Fin 5000) (q : Fin 128), j = ix2 p q := ⟨j 0, j 1, eq_ix2 j⟩
  rw [View.read_apply]
  show k0_pay1 (iblk0 V c 0 t) (iblk0 V c 1 t) (ix2 p q)
    = Cert.Spec.mm (n := 100000) (k := 128) (c := 128) (V c (Pipeline.arrRef spec0 0)) (V c (Pipeline.arrRef spec0 1)) _
  refine (product_apply (iblk0 V c 0 t) (iblk0 V c 1 t) _ _ (row t) (left_block_apply V c t)
    (right_block_apply V c t) p q).trans ?_
  congr 1
  funext a
  apply Fin.ext
  match a with
  | ⟨0, _⟩ => show 5000 * t.val + p.val = win0_2.index t 0 * 5000 + 1 * p.val; rw [e4]; omega
  | ⟨1, _⟩ => show q.val = win0_2.index t 1 * 128 + 1 * q.val; rw [e5]; omega

/-- An entry of the result array is in point t's block iff each coordinate is in the block's range on its axis. -/
theorem mem_block (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v25).slice (win0_2.rect t)).set ↔ _
  rw [View.set_slice_whole, Rect.mem_set_unit]
  exact Iff.rfl

/-- After the region the result array is the whole product of the two operand arrays as the region found them. -/
theorem final (c : Dev nD) : (dat0 (F := Ideal) V c).arrAt 2 cfg0.N
    = Cert.Spec.mm (V c (Pipeline.arrRef spec0 0)) (V c (Pipeline.arrRef spec0 1)) :=
  (dat0 V c).arrAt_eq_of_cover 2 _ (fun t _ => flushed_eq V c t) (fun i => by
    have hi0 : (i 0).val < 100000 := (i 0).isLt
    have hi1 : (i 1).val < 128 := (i 1).isLt
    have hN : cfg0.N = 20 := N_0
    obtain ⟨-, -, -, -, e4, e5⟩ := block_indices ⟨(i 0).val / 5000, by rw [hN]; omega⟩
    refine ⟨⟨(i 0).val / 5000, by rw [hN]; omega⟩, flush0_2 _, ?_⟩
    rw [mem_block]
    intro a
    match a with
    | ⟨0, _⟩ =>
      show win0_2.index ⟨(i 0).val / 5000, _⟩ 0 * 5000 ≤ (i 0).val
        ∧ (i 0).val < win0_2.index ⟨(i 0).val / 5000, _⟩ 0 * 5000 + 5000
      rw [e4]
      show (i 0).val / 5000 * 5000 ≤ (i 0).val ∧ (i 0).val < (i 0).val / 5000 * 5000 + 5000
      omega
    | ⟨1, _⟩ =>
      show win0_2.index ⟨(i 0).val / 5000, _⟩ 1 * 128 ≤ (i 1).val
        ∧ (i 1).val < win0_2.index ⟨(i 0).val / 5000, _⟩ 1 * 128 + 128
      rw [e5]
      omega)

end Cert.KernelIdeal.Reg0

end
-- ==== Proof.RegMm3.lean ====
/-
  The second layer's matrix product, as a whole array.

  As in the first layer: point t of the twenty multiplies rows 5000·t … 5000·t + 4999 of the [100000, 128] left operand
  (passed through a reshaping to its own shape, which is the identity) by the whole [128, 128] weight and writes the
  same rows of the result; a row of a product depends on the same row of the left operand only, rounding to a narrower
  format is the identity at the ideal values, and the twenty row blocks tile the result. So the result array is the
  whole product Σ_k x(r, k) · w(k, q).
-/
import proofs.«104798_j89043261980674_1_alg».proof.Proof.Gen.KernelIdeal.Frame
import proofs.«104798_j89043261980674_1_alg».proof.Proof.Spec
import proofs.«104798_j89043261980674_1_alg».proof.Proof.LibPlainDot
import Idealize.ShloMosaic.Lib.Pipeline.Value
import Idealize.ShloMosaic.Lib.ValueIdx

noncomputable section

namespace Cert.KernelIdeal.Reg3

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

/-- The zero offsets of a whole-block access. -/
theorem zero_offsets : (![0, 0] : Fin 2 → Nat) = fun _ => 0 := funext fun a => by fin_cases a <;> rfl

/-- The body's product at entry (p, q), for a block whose row p is row `row p` of X and a right operand that is W:
    the whole product's entry (row p, q). -/
theorem product_apply (x0 : Vec Ideal S5000x128 .f32) (x1 : Vec Ideal S128x128 .f32)
    (X : Cert.Spec.Mat 100000 128) (W : Cert.Spec.Mat 128 128) (row : Fin 5000 → Fin 100000)
    (hx : ∀ p k, x0 (ix2 p k) = X (ix2 (row p) k)) (hw : ∀ k q, x1 (ix2 k q) = W (ix2 k q)) (p : Fin 5000) (q : Fin 128) :
    k3_pay1 x0 x1 (ix2 p q) = Cert.Spec.mm X W (ix2 (row p) q) := by
  unfold k3_pay1
  refine (Cert.Lib.PlainDot.matmul_zero_apply 5000 128 128 none _ _ (ix2 p q)).trans ?_
  refine Finset.sum_congr rfl fun k _ => ?_
  show shapeCast S5000x128 x0 shapeCasts_S5000x128_S5000x128 (ix2 p k) * x1 (ix2 k q) = X (ix2 (row p) k) * W (ix2 k q)
  rw [shapeCast_self]
  exact congrArg₂ (· * ·) (hx p k) (hw k q)

/-- Where each window's block sits at point t: the row blocks of the left operand and of the result move with t, the
    weight stays. -/
theorem block_indices : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

theorem point_lt (t : Fin cfg3.N) : t.val < 20 := lt_of_lt_of_eq t.isLt N_3

/-- Row p of block t is row 5000·t + p of the array. -/
def row (t : Fin cfg3.N) (p : Fin 5000) : Fin 100000 :=
  ⟨5000 * t.val + p.val, by have := point_lt t; have := p.isLt; omega⟩

/-- The left operand's block at point t, entry (p, k): the array's entry (5000·t + p, k). -/
theorem left_block_apply (c : Dev nD) (t : Fin cfg3.N) (p : Fin 5000) (k : Fin 128) :
    (iblk3 V c 0 t : Vec Ideal S5000x128 .f32) (ix2 p k)
      = (V c (Pipeline.arrRef spec3 0) : Cert.Spec.Mat 100000 128) (ix2 (row t p) k) := by
  obtain ⟨e0, e1, -⟩ := block_indices t
  unfold iblk3
  rw [View.read_apply]
  show (V c (Pipeline.arrRef spec3 0) : Cert.Spec.Mat 100000 128) _ = (V c (Pipeline.arrRef spec3 0) : Cert.Spec.Mat 100000 128) _
  congr 1
  funext a
  apply Fin.ext
  match a with
  | ⟨0, _⟩ => show win3_0.index t 0 * 5000 + 1 * p.val = 5000 * t.val + p.val; rw [e0]; omega
  | ⟨1, _⟩ => show win3_0.index t 1 * 128 + 1 * k.val = k.val; rw [e1]; omega

/-- The weight's block at any point is the whole weight. -/
theorem right_block_apply (c : Dev nD) (t : Fin cfg3.N) (k : Fin 128) (q : Fin 128) :
    (iblk3 V c 1 t : Vec Ideal S128x128 .f32) (ix2 k q)
      = (V c (Pipeline.arrRef spec3 1) : Cert.Spec.Mat 128 128) (ix2 k q) := by
  obtain ⟨-, -, e2, e3, -⟩ := block_indices t
  unfold iblk3
  rw [View.read_apply]
  show (V c (Pipeline.arrRef spec3 1) : Cert.Spec.Mat 128 128) _ = (V c (Pipeline.arrRef spec3 1) : Cert.Spec.Mat 128 128) _
  congr 1
  funext a
  apply Fin.ext
  match a with
  | ⟨0, _⟩ => show win3_1.index t 0 * 128 + 1 * k.val = k.val; rw [e2]; omega
  | ⟨1, _⟩ => show win3_1.index t 1 * 128 + 1 * q.val = q.val; rw [e3]; omega

/-- What point t writes back is block t of the whole product. -/
theorem flushed_eq (c : Dev nD) (t : Fin cfg3.N) :
    (dat3 (F := Ideal) V c).flushed 2 t = ((cfg3.win 2).blk t).view.read (Elt Ideal)
      (Cert.Spec.mm (V c (Pipeline.arrRef spec3 0)) (V c (Pipeline.arrRef spec3 1))) := by
  show (cfg3.win 2).cut (grid3.coords t) ((dat3 V c).after 2 t) = _
  rw [after3_2]
  unfold out3_2
  rw [View.canon_unit_zero zero_offsets]
  simp only [View.ld_unit_zero (S := S5000x128) zero_offsets, View.ld_unit_zero (S := S128x128) zero_offsets]
  obtain ⟨-, -, -, -, e4, e5⟩ := block_indices t
  funext j
  obtain ⟨p, q, rfl⟩ : ∃ (p : Fin 5000) (q : Fin 128), j = ix2 p q := ⟨j 0, j 1, eq_ix2 j⟩
  rw [View.read_apply]
  show k3_pay1 (iblk3 V c 0 t) (iblk3 V c 1 t) (ix2 p q)
    = Cert.Spec.mm (n := 100000) (k := 128) (c := 128) (V c (Pipeline.arrRef spec3 0)) (V c (Pipeline.arrRef spec3 1)) _
  refine (product_apply (iblk3 V c 0 t) (iblk3 V c 1 t) _ _ (row t) (left_block_apply V c t)
    (right_block_apply V c t) p q).trans ?_
  congr 1
  funext a
  apply Fin.ext
  match a with
  | ⟨0, _⟩ => show 5000 * t.val + p.val = win3_2.index t 0 * 5000 + 1 * p.val; rw [e4]; omega
  | ⟨1, _⟩ => show q.val = win3_2.index t 1 * 128 + 1 * q.val; rw [e5]; omega

/-- An entry of the result array is in point t's block iff each coordinate is in the block's range on its axis. -/
theorem mem_block (t : Fin cfg3.N) (i : S100000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v50).slice (win3_2.rect t)).set ↔ _
  rw [View.set_slice_whole, Rect.mem_set_unit]
  exact Iff.rfl

/-- After the region the result array is the whole product of the two operand arrays as the region found them. -/
theorem final (c : Dev nD) : (dat3 (F := Ideal) V c).arrAt 2 cfg3.N
    = Cert.Spec.mm (V c (Pipeline.arrRef spec3 0)) (V c (Pipeline.arrRef spec3 1)) :=
  (dat3 V c).arrAt_eq_of_cover 2 _ (fun t _ => flushed_eq V c t) (fun i => by
    have hi0 : (i 0).val < 100000 := (i 0).isLt
    have hi1 : (i 1).val < 128 := (i 1).isLt
    have hN : cfg3.N = 20 := N_3
    obtain ⟨-, -, -, -, e4, e5⟩ := block_indices ⟨(i 0).val / 5000, by rw [hN]; omega⟩
    refine ⟨⟨(i 0).val / 5000, by rw [hN]; omega⟩, flush3_2 _, ?_⟩
    rw [mem_block]
    intro a
    match a with
    | ⟨0, _⟩ =>
      show win3_2.index ⟨(i 0).val / 5000, _⟩ 0 * 5000 ≤ (i 0).val
        ∧ (i 0).val < win3_2.index ⟨(i 0).val / 5000, _⟩ 0 * 5000 + 5000
      rw [e4]
      show (i 0).val / 5000 * 5000 ≤ (i 0).val ∧ (i 0).val < (i 0).val / 5000 * 5000 + 5000
      omega
    | ⟨1, _⟩ =>
      show win3_2.index ⟨(i 0).val / 5000, _⟩ 1 * 128 ≤ (i 1).val
        ∧ (i 1).val < win3_2.index ⟨(i 0).val / 5000, _⟩ 1 * 128 + 128
      rw [e5]
      omega)

end Cert.KernelIdeal.Reg3

end
-- ==== Proof.RegMm6.lean ====
/-
  The last layer's matrix product, as a whole array.

  Point t of the twenty multiplies rows 5000·t … 5000·t + 4999 of the [100000, 128] left operand (passed through a
  reshaping to its own shape, which is the identity) by the whole [128, 40] weight and writes the same rows of the
  [100000, 40] result; a row of a product depends on the same row of the left operand only, rounding to a narrower
  format is the identity at the ideal values, and the twenty row blocks tile the result. So the result array is the
  whole product Σ_k x(r, k) · w(k, q).
-/
import proofs.«104798_j89043261980674_1_alg».proof.Proof.Gen.KernelIdeal.Frame
import proofs.«104798_j89043261980674_1_alg».proof.Proof.Spec
import proofs.«104798_j89043261980674_1_alg».proof.Proof.LibPlainDot
import Idealize.ShloMosaic.Lib.Pipeline.Value
import Idealize.ShloMosaic.Lib.ValueIdx

noncomputable section

namespace Cert.KernelIdeal.Reg6

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

/-- The zero offsets of a whole-block access. -/
theorem zero_offsets : (![0, 0] : Fin 2 → Nat) = fun _ => 0 := funext fun a => by fin_cases a <;> rfl

/-- The body's product at entry (p, q), for a block whose row p is row `row p` of X and a right operand that is W:
    the whole product's entry (row p, q). -/
theorem product_apply (x0 : Vec Ideal S5000x128 .f32) (x1 : Vec Ideal S128x40 .f32)
    (X : Cert.Spec.Mat 100000 128) (W : Cert.Spec.Mat 128 40) (row : Fin 5000 → Fin 100000)
    (hx : ∀ p k, x0 (ix2 p k) = X (ix2 (row p) k)) (hw : ∀ k q, x1 (ix2 k q) = W (ix2 k q)) (p : Fin 5000) (q : Fin 40) :
    k6_pay1 x0 x1 (ix2 p q) = Cert.Spec.mm X W (ix2 (row p) q) := by
  unfold k6_pay1
  refine (Cert.Lib.PlainDot.matmul_zero_apply 5000 128 40 none _ _ (ix2 p q)).trans ?_
  refine Finset.sum_congr rfl fun k _ => ?_
  show shapeCast S5000x128 x0 shapeCasts_S5000x128_S5000x128 (ix2 p k) * x1 (ix2 k q) = X (ix2 (row p) k) * W (ix2 k q)
  rw [shapeCast_self]
  exact congrArg₂ (· * ·) (hx p k) (hw k q)

/-- Where each window's block sits at point t: the row blocks of the left operand and of the result move with t, the
    weight stays. -/
theorem block_indices : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

theorem point_lt (t : Fin cfg6.N) : t.val < 20 := lt_of_lt_of_eq t.isLt N_6

/-- Row p of block t is row 5000·t + p of the array. -/
def row (t : Fin cfg6.N) (p : Fin 5000) : Fin 100000 :=
  ⟨5000 * t.val + p.val, by have := point_lt t; have := p.isLt; omega⟩

/-- The left operand's block at point t, entry (p, k): the array's entry (5000·t + p, k). -/
theorem left_block_apply (c : Dev nD) (t : Fin cfg6.N) (p : Fin 5000) (k : Fin 128) :
    (iblk6 V c 0 t : Vec Ideal S5000x128 .f32) (ix2 p k)
      = (V c (Pipeline.arrRef spec6 0) : Cert.Spec.Mat 100000 128) (ix2 (row t p) k) := by
  obtain ⟨e0, e1, -⟩ := block_indices t
  unfold iblk6
  rw [View.read_apply]
  show (V c (Pipeline.arrRef spec6 0) : Cert.Spec.Mat 100000 128) _ = (V c (Pipeline.arrRef spec6 0) : Cert.Spec.Mat 100000 128) _
  congr 1
  funext a
  apply Fin.ext
  match a with
  | ⟨0, _⟩ => show win6_0.index t 0 * 5000 + 1 * p.val = 5000 * t.val + p.val; rw [e0]; omega
  | ⟨1, _⟩ => show win6_0.index t 1 * 128 + 1 * k.val = k.val; rw [e1]; omega

/-- The weight's block at any point is the whole weight. -/
theorem right_block_apply (c : Dev nD) (t : Fin cfg6.N) (k : Fin 128) (q : Fin 40) :
    (iblk6 V c 1 t : Vec Ideal S128x40 .f32) (ix2 k q)
      = (V c (Pipeline.arrRef spec6 1) : Cert.Spec.Mat 128 40) (ix2 k q) := by
  obtain ⟨-, -, e2, e3, -⟩ := block_indices t
  unfold iblk6
  rw [View.read_apply]
  show (V c (Pipeline.arrRef spec6 1) : Cert.Spec.Mat 128 40) _ = (V c (Pipeline.arrRef spec6 1) : Cert.Spec.Mat 128 40) _
  congr 1
  funext a
  apply Fin.ext
  match a with
  | ⟨0, _⟩ => show win6_1.index t 0 * 128 + 1 * k.val = k.val; rw [e2]; omega
  | ⟨1, _⟩ => show win6_1.index t 1 * 40 + 1 * q.val = q.val; rw [e3]; omega

/-- What point t writes back is block t of the whole product. -/
theorem flushed_eq (c : Dev nD) (t : Fin cfg6.N) :
    (dat6 (F := Ideal) V c).flushed 2 t = ((cfg6.win 2).blk t).view.read (Elt Ideal)
      (Cert.Spec.mm (V c (Pipeline.arrRef spec6 0)) (V c (Pipeline.arrRef spec6 1))) := by
  show (cfg6.win 2).cut (grid6.coords t) ((dat6 V c).after 2 t) = _
  rw [after6_2]
  unfold out6_2
  rw [View.canon_unit_zero zero_offsets]
  simp only [View.ld_unit_zero (S := S5000x128) zero_offsets, View.ld_unit_zero (S := S128x40) zero_offsets]
  obtain ⟨-, -, -, -, e4, e5⟩ := block_indices t
  funext j
  obtain ⟨p, q, rfl⟩ : ∃ (p : Fin 5000) (q : Fin 40), j = ix2 p q := ⟨j 0, j 1, eq_ix2 j⟩
  rw [View.read_apply]
  show k6_pay1 (iblk6 V c 0 t) (iblk6 V c 1 t) (ix2 p q)
    = Cert.Spec.mm (n := 100000) (k := 128) (c := 40) (V c (Pipeline.arrRef spec6 0)) (V c (Pipeline.arrRef spec6 1)) _
  refine (product_apply (iblk6 V c 0 t) (iblk6 V c 1 t) _ _ (row t) (left_block_apply V c t)
    (right_block_apply V c t) p q).trans ?_
  congr 1
  funext a
  apply Fin.ext
  match a with
  | ⟨0, _⟩ => show 5000 * t.val + p.val = win6_2.index t 0 * 5000 + 1 * p.val; rw [e4]; omega
  | ⟨1, _⟩ => show q.val = win6_2.index t 1 * 40 + 1 * q.val; rw [e5]; omega

/-- An entry of the result array is in point t's block iff each coordinate is in the block's range on its axis. -/
theorem mem_block (t : Fin cfg6.N) (i : S100000x40.Idx) :
    i ∈ ((cfg6.win 2).blk t).view.set ↔ ∀ a : Fin 2, win6_2.index t a * S5000x40.size a ≤ (i a).val
      ∧ (i a).val < win6_2.index t a * S5000x40.size a + S5000x40.size a := by
  show i ∈ ((View.whole main_v75).slice (win6_2.rect t)).set ↔ _
  rw [View.set_slice_whole, Rect.mem_set_unit]
  exact Iff.rfl

/-- After the region the result array is the whole product of the two operand arrays as the region found them. -/
theorem final (c : Dev nD) : (dat6 (F := Ideal) V c).arrAt 2 cfg6.N
    = Cert.Spec.mm (V c (Pipeline.arrRef spec6 0)) (V c (Pipeline.arrRef spec6 1)) :=
  (dat6 V c).arrAt_eq_of_cover 2 _ (fun t _ => flushed_eq V c t) (fun i => by
    have hi0 : (i 0).val < 100000 := (i 0).isLt
    have hi1 : (i 1).val < 40 := (i 1).isLt
    have hN : cfg6.N = 20 := N_6
    obtain ⟨-, -, -, -, e4, e5⟩ := block_indices ⟨(i 0).val / 5000, by rw [hN]; omega⟩
    refine ⟨⟨(i 0).val / 5000, by rw [hN]; omega⟩, flush6_2 _, ?_⟩
    rw [mem_block]
    intro a
    match a with
    | ⟨0, _⟩ =>
      show win6_2.index ⟨(i 0).val / 5000, _⟩ 0 * 5000 ≤ (i 0).val
        ∧ (i 0).val < win6_2.index ⟨(i 0).val / 5000, _⟩ 0 * 5000 + 5000
      rw [e4]
      show (i 0).val / 5000 * 5000 ≤ (i 0).val ∧ (i 0).val < (i 0).val / 5000 * 5000 + 5000
      omega
    | ⟨1, _⟩ =>
      show win6_2.index ⟨(i 0).val / 5000, _⟩ 1 * 40 ≤ (i 1).val
        ∧ (i 1).val < win6_2.index ⟨(i 0).val / 5000, _⟩ 1 * 40 + 40
      rw [e5]
      omega)

end Cert.KernelIdeal.Reg6

end
-- ==== Proof.RegBn2.lean ====
/-
  The first layer's batch normalisation and positive part, as a whole array.

  The grid has twenty points; point t reads rows 5000·t … 5000·t + 4999 of the [100000, 128] input and the four
  [1, 128] rows (mean, variance, scale, shift), and writes the same rows of the result. The body is entry by entry:
  entry (p, q) of the block becomes max (((h − mean_q) · rsqrt (var_q + ε)) · g_q + be_q) 0, each row spread down the
  block's rows, so it depends only on the block's own entry and on column q of the rows. The twenty row blocks tile
  the result, so after the last point the result array is that function of the input array entry by entry.
-/
import proofs.«104798_j89043261980674_1_alg».proof.Proof.Gen.KernelIdeal.Frame
import proofs.«104798_j89043261980674_1_alg».proof.Proof.Spec
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Reg2

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The zero offsets of a whole-block access. -/
theorem zero_offsets : (![0, 0] : Fin 2 → Nat) = fun _ => 0 := funext fun a => by fin_cases a <;> rfl

/-- The body at entry (p, q) of a block: the normalisation of the block's entry with the four rows read at column q,
    then the positive part. Stated for a block whose entry (p, q) is the array's entry (r, q) and rows that are the
    given [1, 128] arrays. -/
theorem body_apply (v0 : Vec Ideal S1x128 .f32) (v5 : Vec Ideal S5000x128 .f32) (v7 v13 v17 : Vec Ideal S1x128 .f32)
    (X : Cert.Spec.Mat 100000 128) (M Vr G B : Cert.Spec.Mat 1 128) (r : Fin 100000) (p : Fin 5000) (q : Fin 128)
    (hx : v5 (ix2 p q) = X (ix2 r q)) (hm : v7 (ix2 (0 : Fin 1) q) = M (ix2 (0 : Fin 1) q))
    (hv : v0 (ix2 (0 : Fin 1) q) = Vr (ix2 (0 : Fin 1) q)) (hg : v13 (ix2 (0 : Fin 1) q) = G (ix2 (0 : Fin 1) q))
    (hb : v17 (ix2 (0 : Fin 1) q) = B (ix2 (0 : Fin 1) q)) :
    k2_pay1 v0 v5 v7 v13 v17 (ix2 p q)
      = Cert.Spec.bnRelu X M Vr G B (Ideal.ofBits .f32 0x3727C5AC#32) (ix2 r q) := by
  unfold k2_pay1
  simp only [maximumf_apply, addf_apply, mulf_apply, subf_apply, broadcast_apply, shapeCast_self, broadcastTo_1b_ab_apply]
  show max (((v5 (ix2 p q) - v7 (ix2 (0 : Fin 1) q))
        * Ideal.rsqrt (v0 (ix2 (0 : Fin 1) q) + Ideal.ofBits .f32 0x3727C5AC#32))
      * v13 (ix2 (0 : Fin 1) q) + v17 (ix2 (0 : Fin 1) q)) (Ideal.ofBits .f32 0x00000000#32) = _
  rw [hx, hm, hv, hg, hb, Ideal.ofBits_zero_f32]
  rfl

/-- Where each window's block sits at point t: the row blocks of the input and of the result move with t, the four
    rows stay. -/
theorem block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem point_lt (t : Fin cfg2.N) : t.val < 20 := lt_of_lt_of_eq t.isLt N_2

/-- Row p of block t is row 5000·t + p of the array. -/
def row (t : Fin cfg2.N) (p : Fin 5000) : Fin 100000 :=
  ⟨5000 * t.val + p.val, by have := point_lt t; have := p.isLt; omega⟩

/-- The input's block at point t, entry (p, q): the array's entry (5000·t + p, q). -/
theorem input_block_apply (c : Dev nD) (t : Fin cfg2.N) (p : Fin 5000) (q : Fin 128) :
    (iblk2 V c 0 t : Vec Ideal S5000x128 .f32) (ix2 p q)
      = (V c (Pipeline.arrRef spec2 0) : Cert.Spec.Mat 100000 128) (ix2 (row t p) q) := by
  obtain ⟨e0, e1, -⟩ := block_indices t
  unfold iblk2
  rw [View.read_apply]
  show (V c (Pipeline.arrRef spec2 0) : Cert.Spec.Mat 100000 128) _ = (V c (Pipeline.arrRef spec2 0) : Cert.Spec.Mat 100000 128) _
  congr 1
  funext a
  apply Fin.ext
  match a with
  | ⟨0, _⟩ => show win2_0.index t 0 * 5000 + 1 * p.val = 5000 * t.val + p.val; rw [e0]; omega
  | ⟨1, _⟩ => show win2_0.index t 1 * 128 + 1 * q.val = q.val; rw [e1]; omega

/-- The mean row's block at any point is the whole [1, 128] row. -/
theorem mean_block_apply (c : Dev nD) (t : Fin cfg2.N) (q : Fin 128) :
    (iblk2 V c 1 t : Vec Ideal S1x128 .f32) (ix2 (0 : Fin 1) q)
      = (V c (Pipeline.arrRef spec2 1) : Cert.Spec.Mat 1 128) (ix2 (0 : Fin 1) q) := by
  have e0 : win2_1.index t 0 = 0 := (block_indices t).2.2.1
  have e1 : win2_1.index t 1 = 0 := (block_indices t).2.2.2.1
  unfold iblk2
  rw [View.read_apply]
  show (V c (Pipeline.arrRef spec2 1) : Cert.Spec.Mat 1 128) _ = (V c (Pipeline.arrRef spec2 1) : Cert.Spec.Mat 1 128) _
  congr 1
  funext a
  apply Fin.ext
  match a with
  | ⟨0, _⟩ => show win2_1.index t 0 * 1 + 1 * ((0 : Fin 1) : ℕ) = ((0 : Fin 1) : ℕ); rw [e0]; rfl
  | ⟨1, _⟩ => show win2_1.index t 1 * 128 + 1 * q.val = q.val; rw [e1]; omega

/-- The variance row's block at any point is the whole [1, 128] row. -/
theorem var_block_apply (c : Dev nD) (t : Fin cfg2.N) (q : Fin 128) :
    (iblk2 V c 2 t : Vec Ideal S1x128 .f32) (ix2 (0 : Fin 1) q)
      = (V c (Pipeline.arrRef spec2 2) : Cert.Spec.Mat 1 128) (ix2 (0 : Fin 1) q) := by
  have e0 : win2_2.index t 0 = 0 := (block_indices t).2.2.2.2.1
  have e1 : win2_2.index t 1 = 0 := (block_indices t).2.2.2.2.2.1
  unfold iblk2
  rw [View.read_apply]
  show (V c (Pipeline.arrRef spec2 2) : Cert.Spec.Mat 1 128) _ = (V c (Pipeline.arrRef spec2 2) : Cert.Spec.Mat 1 128) _
  congr 1
  funext a
  apply Fin.ext
  match a with
  | ⟨0, _⟩ => show win2_2.index t 0 * 1 + 1 * ((0 : Fin 1) : ℕ) = ((0 : Fin 1) : ℕ); rw [e0]; rfl
  | ⟨1, _⟩ => show win2_2.index t 1 * 128 + 1 * q.val = q.val; rw [e1]; omega

/-- The scale row's block at any point is the whole [1, 128] row. -/
theorem scale_block_apply (c : Dev nD) (t : Fin cfg2.N) (q : Fin 128) :
    (iblk2 V c 3 t : Vec Ideal S1x128 .f32) (ix2 (0 : Fin 1) q)
      = (V c (Pipeline.arrRef spec2 3) : Cert.Spec.Mat 1 128) (ix2 (0 : Fin 1) q) := by
  have e0 : win2_3.index t 0 = 0 := (block_indices t).2.2.2.2.2.2.1
  have e1 : win2_3.index t 1 = 0 := (block_indices t).2.2.2.2.2.2.2.1
  unfold iblk2
  rw [View.read_apply]
  show (V c (Pipeline.arrRef spec2 3) : Cert.Spec.Mat 1 128) _ = (V c (Pipeline.arrRef spec2 3) : Cert.Spec.Mat 1 128) _
  congr 1
  funext a
  apply Fin.ext
  match a with
  | ⟨0, _⟩ => show win2_3.index t 0 * 1 + 1 * ((0 : Fin 1) : ℕ) = ((0 : Fin 1) : ℕ); rw [e0]; rfl
  | ⟨1, _⟩ => show win2_3.index t 1 * 128 + 1 * q.val = q.val; rw [e1]; omega

/-- The shift row's block at any point is the whole [1, 128] row. -/
theorem shift_block_apply (c : Dev nD) (t : Fin cfg2.N) (q : Fin 128) :
    (iblk2 V c 4 t : Vec Ideal S1x128 .f32) (ix2 (0 : Fin 1) q)
      = (V c (Pipeline.arrRef spec2 4) : Cert.Spec.Mat 1 128) (ix2 (0 : Fin 1) q) := by
  have e0 : win2_4.index t 0 = 0 := (block_indices t).2.2.2.2.2.2.2.2.1
  have e1 : win2_4.index t 1 = 0 := (block_indices t).2.2.2.2.2.2.2.2.2.1
  unfold iblk2
  rw [View.read_apply]
  show (V c (Pipeline.arrRef spec2 4) : Cert.Spec.Mat 1 128) _ = (V c (Pipeline.arrRef spec2 4) : Cert.Spec.Mat 1 128) _
  congr 1
  funext a
  apply Fin.ext
  match a with
  | ⟨0, _⟩ => show win2_4.index t 0 * 1 + 1 * ((0 : Fin 1) : ℕ) = ((0 : Fin 1) : ℕ); rw [e0]; rfl
  | ⟨1, _⟩ => show win2_4.index t 1 * 128 + 1 * q.val = q.val; rw [e1]; omega

/-- What the body leaves in the result's buffer at point t: the body's function of the five blocks at t. -/
theorem after_eq (c : Dev nD) (t : Fin cfg2.N) :
    (dat2 (F := Ideal) V c).after 5 t
      = k2_pay1 (iblk2 V c 2 t) (iblk2 V c 0 t) (iblk2 V c 1 t) (iblk2 V c 3 t) (iblk2 V c 4 t) := by
  rw [after2_5]
  unfold out2_5
  rw [View.canon_unit_zero zero_offsets]
  simp only [View.ld_unit_zero (S := S5000x128) zero_offsets, View.ld_unit_zero (S := S1x128) zero_offsets]

/-- Entry (p, q) of what the body leaves at point t: the normalised entry (5000·t + p, q) of the array. -/
theorem after_apply (c : Dev nD) (t : Fin cfg2.N) (p : Fin 5000) (q : Fin 128) :
    k2_pay1 (iblk2 V c 2 t) (iblk2 V c 0 t) (iblk2 V c 1 t) (iblk2 V c 3 t) (iblk2 V c 4 t) (ix2 p q)
      = Cert.Spec.bnRelu (n := 100000) (c := 128) (V c (Pipeline.arrRef spec2 0)) (V c (Pipeline.arrRef spec2 1))
          (V c (Pipeline.arrRef spec2 2)) (V c (Pipeline.arrRef spec2 3)) (V c (Pipeline.arrRef spec2 4))
          (Ideal.ofBits .f32 0x3727C5AC#32) (ix2 (row t p) q) :=
  body_apply (iblk2 V c 2 t) (iblk2 V c 0 t) (iblk2 V c 1 t) (iblk2 V c 3 t) (iblk2 V c 4 t)
    (V c (Pipeline.arrRef spec2 0)) (V c (Pipeline.arrRef spec2 1)) (V c (Pipeline.arrRef spec2 2))
    (V c (Pipeline.arrRef spec2 3)) (V c (Pipeline.arrRef spec2 4)) (row t p) p q
    (input_block_apply V c t p q) (mean_block_apply V c t q) (var_block_apply V c t q)
    (scale_block_apply V c t q) (shift_block_apply V c t q)

/-- Entry (p, q) of the result's block at point t sits at (5000·t + p, q) in the array. -/
theorem result_block_emb (t : Fin cfg2.N) (p : Fin 5000) (q : Fin 128) :
    ((cfg2.win 5).blk t).view.emb (ix2 p q) = (ix2 (row t p) q : S100000x128.Idx) := by
  have e10 : win2_5.index t 0 = t.val := (block_indices t).2.2.2.2.2.2.2.2.2.2.1
  have e11 : win2_5.index t 1 = 0 := (block_indices t).2.2.2.2.2.2.2.2.2.2.2
  funext a
  apply Fin.ext
  match a with
  | ⟨0, _⟩ => show win2_5.index t 0 * 5000 + 1 * p.val = 5000 * t.val + p.val; rw [e10]; omega
  | ⟨1, _⟩ => show win2_5.index t 1 * 128 + 1 * q.val = q.val; rw [e11]; omega

/-- What point t writes back is block t of the normalised array. -/
theorem flushed_eq (c : Dev nD) (t : Fin cfg2.N) :
    (dat2 (F := Ideal) V c).flushed 5 t = ((cfg2.win 5).blk t).view.read (Elt Ideal)
      (Cert.Spec.bnRelu (V c (Pipeline.arrRef spec2 0)) (V c (Pipeline.arrRef spec2 1)) (V c (Pipeline.arrRef spec2 2))
        (V c (Pipeline.arrRef spec2 3)) (V c (Pipeline.arrRef spec2 4)) (Ideal.ofBits .f32 0x3727C5AC#32)) := by
  show (cfg2.win 5).cut (grid2.coords t) ((dat2 V c).after 5 t) = _
  rw [after_eq]
  funext j
  obtain ⟨p, q, rfl⟩ : ∃ (p : Fin 5000) (q : Fin 128), j = ix2 p q := ⟨j 0, j 1, eq_ix2 j⟩
  rw [View.read_apply]
  show k2_pay1 (iblk2 V c 2 t) (iblk2 V c 0 t) (iblk2 V c 1 t) (iblk2 V c 3 t) (iblk2 V c 4 t) (ix2 p q)
    = Cert.Spec.bnRelu (n := 100000) (c := 128) (V c (Pipeline.arrRef spec2 0)) (V c (Pipeline.arrRef spec2 1))
        (V c (Pipeline.arrRef spec2 2)) (V c (Pipeline.arrRef spec2 3)) (V c (Pipeline.arrRef spec2 4))
        (Ideal.ofBits .f32 0x3727C5AC#32) (((cfg2.win 5).blk t).view.emb (ix2 p q))
  rw [result_block_emb t p q]
  exact after_apply V c t p q

/-- An entry of the result array is in point t's block iff each coordinate is in the block's range on its axis. -/
theorem mem_block (t : Fin cfg2.N) (i : S100000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v49).slice (win2_5.rect t)).set ↔ _
  rw [View.set_slice_whole, Rect.mem_set_unit]
  exact Iff.rfl

/-- After the region the result array is the batch normalisation and positive part of the input array with the four
    rows as the region found them. -/
theorem final (c : Dev nD) : (dat2 (F := Ideal) V c).arrAt 5 cfg2.N
    = Cert.Spec.bnRelu (V c (Pipeline.arrRef spec2 0)) (V c (Pipeline.arrRef spec2 1)) (V c (Pipeline.arrRef spec2 2))
        (V c (Pipeline.arrRef spec2 3)) (V c (Pipeline.arrRef spec2 4)) (Ideal.ofBits .f32 0x3727C5AC#32) :=
  (dat2 V c).arrAt_eq_of_cover 5 _ (fun t _ => flushed_eq V c t) (fun i => by
    have hi0 : (i 0).val < 100000 := (i 0).isLt
    have hi1 : (i 1).val < 128 := (i 1).isLt
    have hN : cfg2.N = 20 := N_2
    have e10 := (block_indices ⟨(i 0).val / 5000, by rw [hN]; omega⟩).2.2.2.2.2.2.2.2.2.2.1
    have e11 := (block_indices ⟨(i 0).val / 5000, by rw [hN]; omega⟩).2.2.2.2.2.2.2.2.2.2.2
    refine ⟨⟨(i 0).val / 5000, by rw [hN]; omega⟩, flush2_5 _, ?_⟩
    rw [mem_block]
    intro a
    match a with
    | ⟨0, _⟩ =>
      show win2_5.index ⟨(i 0).val / 5000, _⟩ 0 * 5000 ≤ (i 0).val
        ∧ (i 0).val < win2_5.index ⟨(i 0).val / 5000, _⟩ 0 * 5000 + 5000
      rw [e10]
      show (i 0).val / 5000 * 5000 ≤ (i 0).val ∧ (i 0).val < (i 0).val / 5000 * 5000 + 5000
      omega
    | ⟨1, _⟩ =>
      show win2_5.index ⟨(i 0).val / 5000, _⟩ 1 * 128 ≤ (i 1).val
        ∧ (i 1).val < win2_5.index ⟨(i 0).val / 5000, _⟩ 1 * 128 + 128
      rw [e11]
      omega)

end Cert.KernelIdeal.Reg2

end
-- ==== Proof.RegBn5.lean ====
/-
  The second layer's batch normalisation and positive part, as a whole array.

  The grid has twenty points; point t reads rows 5000·t … 5000·t + 4999 of the [100000, 128] input and the four
  [1, 128] rows (mean, variance, scale, shift), and writes the same rows of the result. The body is entry by entry:
  entry (p, q) of the block becomes max (((h − mean_q) · rsqrt (var_q + ε)) · g_q + be_q) 0, each row spread down the
  block's rows, so it depends only on the block's own entry and on column q of the rows. The twenty row blocks tile
  the result, so after the last point the result array is that function of the input array entry by entry.
-/
import proofs.«104798_j89043261980674_1_alg».proof.Proof.Gen.KernelIdeal.Frame
import proofs.«104798_j89043261980674_1_alg».proof.Proof.Spec
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Reg5

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The zero offsets of a whole-block access. -/
theorem zero_offsets : (![0, 0] : Fin 2 → Nat) = fun _ => 0 := funext fun a => by fin_cases a <;> rfl

/-- The body at entry (p, q) of a block: the normalisation of the block's entry with the four rows read at column q,
    then the positive part. Stated for a block whose entry (p, q) is the array's entry (r, q) and rows that are the
    given [1, 128] arrays. -/
theorem body_apply (v0 : Vec Ideal S1x128 .f32) (v5 : Vec Ideal S5000x128 .f32) (v7 v13 v17 : Vec Ideal S1x128 .f32)
    (X : Cert.Spec.Mat 100000 128) (M Vr G B : Cert.Spec.Mat 1 128) (r : Fin 100000) (p : Fin 5000) (q : Fin 128)
    (hx : v5 (ix2 p q) = X (ix2 r q)) (hm : v7 (ix2 (0 : Fin 1) q) = M (ix2 (0 : Fin 1) q))
    (hv : v0 (ix2 (0 : Fin 1) q) = Vr (ix2 (0 : Fin 1) q)) (hg : v13 (ix2 (0 : Fin 1) q) = G (ix2 (0 : Fin 1) q))
    (hb : v17 (ix2 (0 : Fin 1) q) = B (ix2 (0 : Fin 1) q)) :
    k5_pay1 v0 v5 v7 v13 v17 (ix2 p q)
      = Cert.Spec.bnRelu X M Vr G B (Ideal.ofBits .f32 0x3727C5AC#32) (ix2 r q) := by
  unfold k5_pay1
  simp only [maximumf_apply, addf_apply, mulf_apply, subf_apply, broadcast_apply, shapeCast_self, broadcastTo_1b_ab_apply]
  show max (((v5 (ix2 p q) - v7 (ix2 (0 : Fin 1) q))
        * Ideal.rsqrt (v0 (ix2 (0 : Fin 1) q) + Ideal.ofBits .f32 0x3727C5AC#32))
      * v13 (ix2 (0 : Fin 1) q) + v17 (ix2 (0 : Fin 1) q)) (Ideal.ofBits .f32 0x00000000#32) = _
  rw [hx, hm, hv, hg, hb, Ideal.ofBits_zero_f32]
  rfl

/-- Where each window's block sits at point t: the row blocks of the input and of the result move with t, the four
    rows stay. -/
theorem block_indices : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

theorem point_lt (t : Fin cfg5.N) : t.val < 20 := lt_of_lt_of_eq t.isLt N_5

/-- Row p of block t is row 5000·t + p of the array. -/
def row (t : Fin cfg5.N) (p : Fin 5000) : Fin 100000 :=
  ⟨5000 * t.val + p.val, by have := point_lt t; have := p.isLt; omega⟩

/-- The input's block at point t, entry (p, q): the array's entry (5000·t + p, q). -/
theorem input_block_apply (c : Dev nD) (t : Fin cfg5.N) (p : Fin 5000) (q : Fin 128) :
    (iblk5 V c 0 t : Vec Ideal S5000x128 .f32) (ix2 p q)
      = (V c (Pipeline.arrRef spec5 0) : Cert.Spec.Mat 100000 128) (ix2 (row t p) q) := by
  obtain ⟨e0, e1, -⟩ := block_indices t
  unfold iblk5
  rw [View.read_apply]
  show (V c (Pipeline.arrRef spec5 0) : Cert.Spec.Mat 100000 128) _ = (V c (Pipeline.arrRef spec5 0) : Cert.Spec.Mat 100000 128) _
  congr 1
  funext a
  apply Fin.ext
  match a with
  | ⟨0, _⟩ => show win5_0.index t 0 * 5000 + 1 * p.val = 5000 * t.val + p.val; rw [e0]; omega
  | ⟨1, _⟩ => show win5_0.index t 1 * 128 + 1 * q.val = q.val; rw [e1]; omega

/-- The mean row's block at any point is the whole [1, 128] row. -/
theorem mean_block_apply (c : Dev nD) (t : Fin cfg5.N) (q : Fin 128) :
    (iblk5 V c 1 t : Vec Ideal S1x128 .f32) (ix2 (0 : Fin 1) q)
      = (V c (Pipeline.arrRef spec5 1) : Cert.Spec.Mat 1 128) (ix2 (0 : Fin 1) q) := by
  have e0 : win5_1.index t 0 = 0 := (block_indices t).2.2.1
  have e1 : win5_1.index t 1 = 0 := (block_indices t).2.2.2.1
  unfold iblk5
  rw [View.read_apply]
  show (V c (Pipeline.arrRef spec5 1) : Cert.Spec.Mat 1 128) _ = (V c (Pipeline.arrRef spec5 1) : Cert.Spec.Mat 1 128) _
  congr 1
  funext a
  apply Fin.ext
  match a with
  | ⟨0, _⟩ => show win5_1.index t 0 * 1 + 1 * ((0 : Fin 1) : ℕ) = ((0 : Fin 1) : ℕ); rw [e0]; rfl
  | ⟨1, _⟩ => show win5_1.index t 1 * 128 + 1 * q.val = q.val; rw [e1]; omega

/-- The variance row's block at any point is the whole [1, 128] row. -/
theorem var_block_apply (c : Dev nD) (t : Fin cfg5.N) (q : Fin 128) :
    (iblk5 V c 2 t : Vec Ideal S1x128 .f32) (ix2 (0 : Fin 1) q)
      = (V c (Pipeline.arrRef spec5 2) : Cert.Spec.Mat 1 128) (ix2 (0 : Fin 1) q) := by
  have e0 : win5_2.index t 0 = 0 := (block_indices t).2.2.2.2.1
  have e1 : win5_2.index t 1 = 0 := (block_indices t).2.2.2.2.2.1
  unfold iblk5
  rw [View.read_apply]
  show (V c (Pipeline.arrRef spec5 2) : Cert.Spec.Mat 1 128) _ = (V c (Pipeline.arrRef spec5 2) : Cert.Spec.Mat 1 128) _
  congr 1
  funext a
  apply Fin.ext
  match a with
  | ⟨0, _⟩ => show win5_2.index t 0 * 1 + 1 * ((0 : Fin 1) : ℕ) = ((0 : Fin 1) : ℕ); rw [e0]; rfl
  | ⟨1, _⟩ => show win5_2.index t 1 * 128 + 1 * q.val = q.val; rw [e1]; omega

/-- The scale row's block at any point is the whole [1, 128] row. -/
theorem scale_block_apply (c : Dev nD) (t : Fin cfg5.N) (q : Fin 128) :
    (iblk5 V c 3 t : Vec Ideal S1x128 .f32) (ix2 (0 : Fin 1) q)
      = (V c (Pipeline.arrRef spec5 3) : Cert.Spec.Mat 1 128) (ix2 (0 : Fin 1) q) := by
  have e0 : win5_3.index t 0 = 0 := (block_indices t).2.2.2.2.2.2.1
  have e1 : win5_3.index t 1 = 0 := (block_indices t).2.2.2.2.2.2.2.1
  unfold iblk5
  rw [View.read_apply]
  show (V c (Pipeline.arrRef spec5 3) : Cert.Spec.Mat 1 128) _ = (V c (Pipeline.arrRef spec5 3) : Cert.Spec.Mat 1 128) _
  congr 1
  funext a
  apply Fin.ext
  match a with
  | ⟨0, _⟩ => show win5_3.index t 0 * 1 + 1 * ((0 : Fin 1) : ℕ) = ((0 : Fin 1) : ℕ); rw [e0]; rfl
  | ⟨1, _⟩ => show win5_3.index t 1 * 128 + 1 * q.val = q.val; rw [e1]; omega

/-- The shift row's block at any point is the whole [1, 128] row. -/
theorem shift_block_apply (c : Dev nD) (t : Fin cfg5.N) (q : Fin 128) :
    (iblk5 V c 4 t : Vec Ideal S1x128 .f32) (ix2 (0 : Fin 1) q)
      = (V c (Pipeline.arrRef spec5 4) : Cert.Spec.Mat 1 128) (ix2 (0 : Fin 1) q) := by
  have e0 : win5_4.index t 0 = 0 := (block_indices t).2.2.2.2.2.2.2.2.1
  have e1 : win5_4.index t 1 = 0 := (block_indices t).2.2.2.2.2.2.2.2.2.1
  unfold iblk5
  rw [View.read_apply]
  show (V c (Pipeline.arrRef spec5 4) : Cert.Spec.Mat 1 128) _ = (V c (Pipeline.arrRef spec5 4) : Cert.Spec.Mat 1 128) _
  congr 1
  funext a
  apply Fin.ext
  match a with
  | ⟨0, _⟩ => show win5_4.index t 0 * 1 + 1 * ((0 : Fin 1) : ℕ) = ((0 : Fin 1) : ℕ); rw [e0]; rfl
  | ⟨1, _⟩ => show win5_4.index t 1 * 128 + 1 * q.val = q.val; rw [e1]; omega

/-- What the body leaves in the result's buffer at point t: the body's function of the five blocks at t. -/
theorem after_eq (c : Dev nD) (t : Fin cfg5.N) :
    (dat5 (F := Ideal) V c).after 5 t
      = k5_pay1 (iblk5 V c 2 t) (iblk5 V c 0 t) (iblk5 V c 1 t) (iblk5 V c 3 t) (iblk5 V c 4 t) := by
  rw [after5_5]
  unfold out5_5
  rw [View.canon_unit_zero zero_offsets]
  simp only [View.ld_unit_zero (S := S5000x128) zero_offsets, View.ld_unit_zero (S := S1x128) zero_offsets]

/-- Entry (p, q) of what the body leaves at point t: the normalised entry (5000·t + p, q) of the array. -/
theorem after_apply (c : Dev nD) (t : Fin cfg5.N) (p : Fin 5000) (q : Fin 128) :
    k5_pay1 (iblk5 V c 2 t) (iblk5 V c 0 t) (iblk5 V c 1 t) (iblk5 V c 3 t) (iblk5 V c 4 t) (ix2 p q)
      = Cert.Spec.bnRelu (n := 100000) (c := 128) (V c (Pipeline.arrRef spec5 0)) (V c (Pipeline.arrRef spec5 1))
          (V c (Pipeline.arrRef spec5 2)) (V c (Pipeline.arrRef spec5 3)) (V c (Pipeline.arrRef spec5 4))
          (Ideal.ofBits .f32 0x3727C5AC#32) (ix2 (row t p) q) :=
  body_apply (iblk5 V c 2 t) (iblk5 V c 0 t) (iblk5 V c 1 t) (iblk5 V c 3 t) (iblk5 V c 4 t)
    (V c (Pipeline.arrRef spec5 0)) (V c (Pipeline.arrRef spec5 1)) (V c (Pipeline.arrRef spec5 2))
    (V c (Pipeline.arrRef spec5 3)) (V c (Pipeline.arrRef spec5 4)) (row t p) p q
    (input_block_apply V c t p q) (mean_block_apply V c t q) (var_block_apply V c t q)
    (scale_block_apply V c t q) (shift_block_apply V c t q)

/-- Entry (p, q) of the result's block at point t sits at (5000·t + p, q) in the array. -/
theorem result_block_emb (t : Fin cfg5.N) (p : Fin 5000) (q : Fin 128) :
    ((cfg5.win 5).blk t).view.emb (ix2 p q) = (ix2 (row t p) q : S100000x128.Idx) := by
  have e10 : win5_5.index t 0 = t.val := (block_indices t).2.2.2.2.2.2.2.2.2.2.1
  have e11 : win5_5.index t 1 = 0 := (block_indices t).2.2.2.2.2.2.2.2.2.2.2
  funext a
  apply Fin.ext
  match a with
  | ⟨0, _⟩ => show win5_5.index t 0 * 5000 + 1 * p.val = 5000 * t.val + p.val; rw [e10]; omega
  | ⟨1, _⟩ => show win5_5.index t 1 * 128 + 1 * q.val = q.val; rw [e11]; omega

/-- What point t writes back is block t of the normalised array. -/
theorem flushed_eq (c : Dev nD) (t : Fin cfg5.N) :
    (dat5 (F := Ideal) V c).flushed 5 t = ((cfg5.win 5).blk t).view.read (Elt Ideal)
      (Cert.Spec.bnRelu (V c (Pipeline.arrRef spec5 0)) (V c (Pipeline.arrRef spec5 1)) (V c (Pipeline.arrRef spec5 2))
        (V c (Pipeline.arrRef spec5 3)) (V c (Pipeline.arrRef spec5 4)) (Ideal.ofBits .f32 0x3727C5AC#32)) := by
  show (cfg5.win 5).cut (grid5.coords t) ((dat5 V c).after 5 t) = _
  rw [after_eq]
  funext j
  obtain ⟨p, q, rfl⟩ : ∃ (p : Fin 5000) (q : Fin 128), j = ix2 p q := ⟨j 0, j 1, eq_ix2 j⟩
  rw [View.read_apply]
  show k5_pay1 (iblk5 V c 2 t) (iblk5 V c 0 t) (iblk5 V c 1 t) (iblk5 V c 3 t) (iblk5 V c 4 t) (ix2 p q)
    = Cert.Spec.bnRelu (n := 100000) (c := 128) (V c (Pipeline.arrRef spec5 0)) (V c (Pipeline.arrRef spec5 1))
        (V c (Pipeline.arrRef spec5 2)) (V c (Pipeline.arrRef spec5 3)) (V c (Pipeline.arrRef spec5 4))
        (Ideal.ofBits .f32 0x3727C5AC#32) (((cfg5.win 5).blk t).view.emb (ix2 p q))
  rw [result_block_emb t p q]
  exact after_apply V c t p q

/-- An entry of the result array is in point t's block iff each coordinate is in the block's range on its axis. -/
theorem mem_block (t : Fin cfg5.N) (i : S100000x128.Idx) :
    i ∈ ((cfg5.win 5).blk t).view.set ↔ ∀ a : Fin 2, win5_5.index t a * S5000x128.size a ≤ (i a).val
      ∧ (i a).val < win5_5.index t a * S5000x128.size a + S5000x128.size a := by
  show i ∈ ((View.whole main_v74).slice (win5_5.rect t)).set ↔ _
  rw [View.set_slice_whole, Rect.mem_set_unit]
  exact Iff.rfl

/-- After the region the result array is the batch normalisation and positive part of the input array with the four
    rows as the region found them. -/
theorem final (c : Dev nD) : (dat5 (F := Ideal) V c).arrAt 5 cfg5.N
    = Cert.Spec.bnRelu (V c (Pipeline.arrRef spec5 0)) (V c (Pipeline.arrRef spec5 1)) (V c (Pipeline.arrRef spec5 2))
        (V c (Pipeline.arrRef spec5 3)) (V c (Pipeline.arrRef spec5 4)) (Ideal.ofBits .f32 0x3727C5AC#32) :=
  (dat5 V c).arrAt_eq_of_cover 5 _ (fun t _ => flushed_eq V c t) (fun i => by
    have hi0 : (i 0).val < 100000 := (i 0).isLt
    have hi1 : (i 1).val < 128 := (i 1).isLt
    have hN : cfg5.N = 20 := N_5
    have e10 := (block_indices ⟨(i 0).val / 5000, by rw [hN]; omega⟩).2.2.2.2.2.2.2.2.2.2.1
    have e11 := (block_indices ⟨(i 0).val / 5000, by rw [hN]; omega⟩).2.2.2.2.2.2.2.2.2.2.2
    refine ⟨⟨(i 0).val / 5000, by rw [hN]; omega⟩, flush5_5 _, ?_⟩
    rw [mem_block]
    intro a
    match a with
    | ⟨0, _⟩ =>
      show win5_5.index ⟨(i 0).val / 5000, _⟩ 0 * 5000 ≤ (i 0).val
        ∧ (i 0).val < win5_5.index ⟨(i 0).val / 5000, _⟩ 0 * 5000 + 5000
      rw [e10]
      show (i 0).val / 5000 * 5000 ≤ (i 0).val ∧ (i 0).val < (i 0).val / 5000 * 5000 + 5000
      omega
    | ⟨1, _⟩ =>
      show win5_5.index ⟨(i 0).val / 5000, _⟩ 1 * 128 ≤ (i 1).val
        ∧ (i 1).val < win5_5.index ⟨(i 0).val / 5000, _⟩ 1 * 128 + 128
      rw [e11]
      omega)

end Cert.KernelIdeal.Reg5

end
-- ==== Proof.RegStats1.lean ====
/-
  The bias-and-statistics stage after the first matrix product, as whole arrays of extended reals.

  The stage walks the 100000 rows of its input X in 20 blocks of 5000 rows. At each block it adds the bias row B to
  every row and writes the block of X + B back. It also keeps two [1,128] rows, set to zero at the first block, to
  which it adds at each block the block's column sums and the column sums of the block's squares; these two rows are
  written back once, after the last block. Over the extended reals addition is commutative and associative without
  exception and 0 + x = x, so the twenty partial sums added in block order are the sum over all 100000 rows: the three
  arrays end holding X + B, its column sums, and the column sums of its squares.
-/
import proofs.«104798_j89043261980674_1_alg».proof.Proof.Gen.KernelIdeal.Frame
import proofs.«104798_j89043261980674_1_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)
open Idealize.ShloMosaic.ValueIdx
open scoped BigOperators

namespace Cert.KernelIdeal.Reg1

open Cert.KernelIdeal Cert.KernelIdeal.Gen

/-! ## What each case of the body leaves in the three outputs' buffers -/

section Pieces
variable {F : FTy → Type} [FloatOps F]

/-- Zero offsets on both axes. -/
theorem hz : (![0, 0] : Fin 2 → Nat) = fun _ => 0 := funext fun a => by fin_cases a <;> rfl

/-- At a later block the first output's buffer is left holding the block plus the bias row. -/
theorem out_B_2 (c : Dev nD) (i : grid1.Coords) (a1 : Memref sig .tc .vmem S5000x128 .f32) (h1 : a1.IsWhole)
    (a2 : Memref sig .tc .vmem S1x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : ¬cond1_0 i) (x0 : Vec F S5000x128 .f32) (x1 : Vec F S1x128 .f32) (xo3 xo4 : Vec F S1x128 .f32) :
    out1_B_2 c i a1 h1 a2 h2 a3 h3 a4 h4 a5 h5 hc x0 x1 xo3 xo4 = k1_pay3 x0 x1 := by
  unfold out1_B_2
  rw [View.read_writes_eq_canon _ _ _ (cover1_B_2 c i a1 h1 a2 h2 a3 h3 a4 h4 a5 h5 hc x0 x1 xo3 xo4)]
  unfold kernelRun1_B
  dsimp only
  rw [View.canon_unit_zero hz]
  simp only [View.readAt_eq_ld, h1.read_unread, h2.read_unread, View.ld_unit_zero (S := S5000x128) hz,
    View.ld_unit_zero (S := S1x128) hz]

/-- At a later block the second output's buffer, which held the row `xo3`, is left holding `xo3` plus the biased block's
    column sums. -/
theorem out_B_3 (c : Dev nD) (i : grid1.Coords) (a1 : Memref sig .tc .vmem S5000x128 .f32) (h1 : a1.IsWhole)
    (a2 : Memref sig .tc .vmem S1x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : ¬cond1_0 i) (x0 : Vec F S5000x128 .f32) (x1 : Vec F S1x128 .f32) (xo3 xo4 : Vec F S1x128 .f32) :
    out1_B_3 c i a1 h1 a2 h2 a3 h3 a4 h4 a5 h5 hc x0 x1 xo3 xo4 = k1_pay4 x0 x1 xo3 := by
  unfold out1_B_3
  rw [View.read_writes_eq_canon _ _ _ (cover1_B_3 c i a1 h1 a2 h2 a3 h3 a4 h4 a5 h5 hc x0 x1 xo3 xo4)]
  unfold kernelRun1_B
  dsimp only
  rw [View.canon_unit_zero hz]
  simp only [View.readAt_eq_ld, h1.read_unread, h2.read_unread, h4.read_unread, View.ld_unit_zero (S := S5000x128) hz,
    View.ld_unit_zero (S := S1x128) hz]

/-- At a later block the third output's buffer, which held `xo4`, is left holding `xo4` plus the column sums of the biased
    block's squares. -/
theorem out_B_4 (c : Dev nD) (i : grid1.Coords) (a1 : Memref sig .tc .vmem S5000x128 .f32) (h1 : a1.IsWhole)
    (a2 : Memref sig .tc .vmem S1x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : ¬cond1_0 i) (x0 : Vec F S5000x128 .f32) (x1 : Vec F S1x128 .f32) (xo3 xo4 : Vec F S1x128 .f32) :
    out1_B_4 c i a1 h1 a2 h2 a3 h3 a4 h4 a5 h5 hc x0 x1 xo3 xo4 = k1_pay5 x0 x1 xo4 := by
  unfold out1_B_4
  rw [View.read_writes_eq_canon _ _ _ (cover1_B_4 c i a1 h1 a2 h2 a3 h3 a4 h4 a5 h5 hc x0 x1 xo3 xo4)]
  unfold kernelRun1_B
  dsimp only
  rw [View.canon_unit_zero hz]
  simp only [View.readAt_eq_ld, h1.read_unread, h2.read_unread, h5.read_unread, View.ld_unit_zero (S := S5000x128) hz,
    View.ld_unit_zero (S := S1x128) hz]

/-- At the first block the first output's buffer is left holding the block plus the bias row. -/
theorem out_A_2 (c : Dev nD) (i : grid1.Coords) (a1 : Memref sig .tc .vmem S5000x128 .f32) (h1 : a1.IsWhole)
    (a2 : Memref sig .tc .vmem S1x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : cond1_0 i) (x0 : Vec F S5000x128 .f32) (x1 : Vec F S1x128 .f32) :
    out1_A_2 c i a1 h1 a2 h2 a3 h3 a4 h4 a5 h5 hc x0 x1 = k1_pay3 x0 x1 := by
  unfold out1_A_2
  rw [View.read_writes_eq_canon _ _ _ (cover1_A_2 c i a1 h1 a2 h2 a3 h3 a4 h4 a5 h5 hc x0 x1)]
  unfold kernelRun1_A
  dsimp only
  rw [View.canon_unit_zero hz]
  simp only [View.readAt_eq_ld, h1.read_unread, h2.read_unread, View.ld_unit_zero (S := S5000x128) hz,
    View.ld_unit_zero (S := S1x128) hz]

/-- At the first block the second output's buffer is first set to the zero row and then left holding that row plus the
    biased block's column sums. -/
theorem out_A_3 (c : Dev nD) (i : grid1.Coords) (a1 : Memref sig .tc .vmem S5000x128 .f32) (h1 : a1.IsWhole)
    (a2 : Memref sig .tc .vmem S1x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : cond1_0 i) (x0 : Vec F S5000x128 .f32) (x1 : Vec F S1x128 .f32) :
    out1_A_3 c i a1 h1 a2 h2 a3 h3 a4 h4 a5 h5 hc x0 x1 = k1_pay4 x0 x1 k1_pay1 := by
  unfold out1_A_3
  rw [View.read_writes_eq_canon _ _ _ (cover1_A_3 c i a1 h1 a2 h2 a3 h3 a4 h4 a5 h5 hc x0 x1)]
  unfold kernelRun1_A
  dsimp only
  sl_unfold_words
  rw [View.canon_cons_unit_zero (S := S1x128) hz, View.readCov_unit_zero (S := S1x128) _ hz]
  simp only [View.readAt_eq_ld, h1.read_unread, h2.read_unread, View.ld_unit_zero (S := S5000x128) hz,
    View.ld_unit_zero (S := S1x128) hz]

/-- At the first block the third output's buffer is first set to the zero row and then left holding that row plus the
    column sums of the biased block's squares. -/
theorem out_A_4 (c : Dev nD) (i : grid1.Coords) (a1 : Memref sig .tc .vmem S5000x128 .f32) (h1 : a1.IsWhole)
    (a2 : Memref sig .tc .vmem S1x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : cond1_0 i) (x0 : Vec F S5000x128 .f32) (x1 : Vec F S1x128 .f32) :
    out1_A_4 c i a1 h1 a2 h2 a3 h3 a4 h4 a5 h5 hc x0 x1 = k1_pay5 x0 x1 k1_pay2 := by
  unfold out1_A_4
  rw [View.read_writes_eq_canon _ _ _ (cover1_A_4 c i a1 h1 a2 h2 a3 h3 a4 h4 a5 h5 hc x0 x1)]
  unfold kernelRun1_A
  dsimp only
  sl_unfold_words
  rw [View.canon_cons_unit_zero (S := S1x128) hz, View.readCov_unit_zero (S := S1x128) _ hz]
  simp only [View.readAt_eq_ld, h1.read_unread, h2.read_unread, View.ld_unit_zero (S := S5000x128) hz,
    View.ld_unit_zero (S := S1x128) hz]

end Pieces

/-! ## The body's arithmetic read at an entry, over the extended reals -/

section Reads

/-- The column sums of a [5000,128] block, kept as a [1,128] row, at column q. -/
theorem colrow_apply (v : FVec Ideal S5000x128 .f32) (h : S5000x128.Reduces [0] S128) (hφ : FKind.Formats .f32)
    (hacc : (0x00000000#32 : BitVec 32) = FKind.add.neutral .f32 hφ) (hc : S128.ShapeCasts S1x128) (q : Fin 128) :
    shapeCast S1x128 (multiReduction (F := Ideal) .add [0] S128 v 0x00000000#32 h hφ hacc) hc (ix2 (0 : Fin 1) q)
      = ∑ p : Fin 5000, v (ix2 p q) := by
  refine (shapeCast_a_1a_apply _ hc (0 : Fin 1) q).trans ?_
  refine (Ideal.multiReduction_add_single v 0x00000000#32 h hφ hacc (ix1 q)).trans ?_
  exact Finset.sum_congr rfl fun k _ => congrArg v (by funext a; apply Fin.ext; fin_cases a <;> rfl)

/-- The first store: entry (p, q) of the block plus the bias row's entry q. -/
theorem pay3_apply (x0 : Vec Ideal S5000x128 .f32) (x1 : Vec Ideal S1x128 .f32) (p : Fin 5000) (q : Fin 128) :
    k1_pay3 x0 x1 (ix2 p q) = x0 (ix2 p q) + x1 (ix2 (0 : Fin 1) q) := by
  unfold k1_pay3
  show (shapeCast S5000x128 x0 _) (ix2 p q) + (broadcastTo S5000x128 (shapeCast S1x128 x1 _) _) (ix2 p q) = _
  rw [shapeCast_self, shapeCast_self, broadcastTo_1b_ab_apply]

/-- The running column sums: the row held so far plus the column sums of the biased block. -/
theorem pay4_apply (x0 : Vec Ideal S5000x128 .f32) (x1 acc : Vec Ideal S1x128 .f32) (q : Fin 128) :
    k1_pay4 x0 x1 acc (ix2 (0 : Fin 1) q) = acc (ix2 (0 : Fin 1) q) + ∑ p : Fin 5000, k1_pay3 x0 x1 (ix2 p q) := by
  unfold k1_pay4
  exact congrArg₂ (· + ·) (congrFun (shapeCast_self acc _) (ix2 (0 : Fin 1) q)) (colrow_apply (k1_pay3 x0 x1) _ _ _ _ q)

/-- The running column sums of squares. -/
theorem pay5_apply (x0 : Vec Ideal S5000x128 .f32) (x1 acc : Vec Ideal S1x128 .f32) (q : Fin 128) :
    k1_pay5 x0 x1 acc (ix2 (0 : Fin 1) q)
      = acc (ix2 (0 : Fin 1) q) + ∑ p : Fin 5000, k1_pay3 x0 x1 (ix2 p q) * k1_pay3 x0 x1 (ix2 p q) := by
  unfold k1_pay5
  exact congrArg₂ (· + ·) (congrFun (shapeCast_self acc _) (ix2 (0 : Fin 1) q))
    (colrow_apply (mulf (k1_pay3 x0 x1) (k1_pay3 x0 x1)) _ _ _ _ q)

/-- The two rows stored at the first point are zero. -/
theorem pay1_apply (i : S1x128.Idx) : (k1_pay1 (F := Ideal)) i = 0 := Ideal.ofBits_zero_f32
theorem pay2_apply (i : S1x128.Idx) : (k1_pay2 (F := Ideal)) i = 0 := Ideal.ofBits_zero_f32

end Reads

/-! ## The three outputs as whole arrays -/

section Values
variable (V : (c : Dev nD) → (b : Ref sig .tc) → Buf (Elt Ideal) ((c : Thread nD τ).loc b))

/-- The region's input array, its bias row, and the biased array, as the region finds them. -/
abbrev Xin (c : Dev nD) : Cert.Spec.Mat 100000 128 := V c (Pipeline.arrRef spec1 0)
abbrev Bin (c : Dev nD) : Cert.Spec.Mat 1 128 := V c (Pipeline.arrRef spec1 1)
abbrev Hin (c : Dev nD) : Cert.Spec.Mat 100000 128 := Cert.Spec.addRow (Xin V c) (Bin V c)

/-- The windows' block indices at a point: the two [5000,128] windows sit on row block t, the three [1,128] windows
    on their one block. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- The grid has twenty points. -/
theorem lt20 (t : Fin cfg1.N) : t.val < 20 := lt_of_lt_of_eq t.isLt (show cfg1.N = 20 from N_1)

/-- Entry (p, q) of the input's block at point t is entry (5000 t + p, q) of the input. -/
theorem blk0_apply (c : Dev nD) (t : Fin cfg1.N) (p : Fin 5000) (q : Fin 128) (hr : 5000 * t.val + p.val < 100000) :
    (iblk1 V c 0 t : Vec Ideal S5000x128 .f32) (ix2 p q) = Xin V c (ix2 (⟨5000 * t.val + p.val, hr⟩ : Fin 100000) q) := by
  obtain ⟨e0, e1, -⟩ := idx_facts t
  show V c (Pipeline.arrRef spec1 0) (((cfg1.win 0).blk t).view.emb (ix2 p q)) = V c (Pipeline.arrRef spec1 0) _
  refine congrArg (V c (Pipeline.arrRef spec1 0)) ?_
  funext a; apply Fin.ext
  match a with
  | ⟨0, _⟩ => show win1_0.index t (0 : Fin 2) * 5000 + 1 * p.val = 5000 * t.val + p.val; rw [e0]; omega
  | ⟨1, _⟩ => show win1_0.index t (1 : Fin 2) * 128 + 1 * q.val = q.val; rw [e1]; omega

/-- The bias window's block at every point is the bias row. -/
theorem blk1_apply (c : Dev nD) (t : Fin cfg1.N) (q : Fin 128) :
    (iblk1 V c 1 t : Vec Ideal S1x128 .f32) (ix2 (0 : Fin 1) q) = Bin V c (ix2 (0 : Fin 1) q) := by
  obtain ⟨-, -, e0, e1, -⟩ := idx_facts t
  show V c (Pipeline.arrRef spec1 1) (((cfg1.win 1).blk t).view.emb (ix2 (0 : Fin 1) q)) = V c (Pipeline.arrRef spec1 1) _
  refine congrArg (V c (Pipeline.arrRef spec1 1)) ?_
  funext a; apply Fin.ext
  match a with
  | ⟨0, _⟩ => show win1_1.index t (0 : Fin 2) * 1 + 1 * (0 : Fin 1).val = (0 : Fin 1).val; rw [e0]; rfl
  | ⟨1, _⟩ => show win1_1.index t (1 : Fin 2) * 128 + 1 * q.val = q.val; rw [e1]; omega

/-- So the first store's block at point t is rows 5000 t … 5000 t + 4999 of the biased array. -/
theorem pay3_blk (c : Dev nD) (t : Fin cfg1.N) (p : Fin 5000) (q : Fin 128) (hr : 5000 * t.val + p.val < 100000) :
    k1_pay3 (iblk1 V c 0 t) (iblk1 V c 1 t) (ix2 p q) = Hin V c (ix2 (⟨5000 * t.val + p.val, hr⟩ : Fin 100000) q) := by
  refine (pay3_apply (iblk1 V c 0 t) (iblk1 V c 1 t) p q).trans ?_
  exact congrArg₂ (· + ·) (blk0_apply V c t p q hr) (blk1_apply V c t q)

/-- What the three buffers hold after the first point: the biased block, and the two rows started from zero. -/
theorem at_first (c : Dev nD) (t : Fin cfg1.N) (h0 : t.val % 20 = 0) :
    outsAt1 V c t.val t.isLt = (k1_pay3 (iblk1 V c 0 t) (iblk1 V c 1 t),
      k1_pay4 (iblk1 V c 0 t) (iblk1 V c 1 t) (k1_pay1 (F := Ideal)), k1_pay5 (iblk1 V c 0 t) (iblk1 V c 1 t) (k1_pay2 (F := Ideal))) :=
  (outsAt1_A V c t h0).trans (congrArg₂ Prod.mk
    (out_A_2 c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t))
    (congrArg₂ Prod.mk
      (out_A_3 c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t))
      (out_A_4 c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t))))

/-- … and after a later point: the biased block, and the two rows carried on from the point before. -/
theorem at_later (c : Dev nD) (t : Fin cfg1.N) (h0 : ¬t.val % 20 = 0) :
    outsAt1 V c t.val t.isLt = (k1_pay3 (iblk1 V c 0 t) (iblk1 V c 1 t),
      k1_pay4 (iblk1 V c 0 t) (iblk1 V c 1 t) (outsAt1 V c (t.val - 1) (Nat.lt_of_le_of_lt (Nat.sub_le _ _) t.isLt)).2.1,
      k1_pay5 (iblk1 V c 0 t) (iblk1 V c 1 t) (outsAt1 V c (t.val - 1) (Nat.lt_of_le_of_lt (Nat.sub_le _ _) t.isLt)).2.2) :=
  (outsAt1_B V c t h0).trans (congrArg₂ Prod.mk
    (out_B_2 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2)
    (congrArg₂ Prod.mk
      (out_B_3 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2)
      (out_B_4 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2)))

/-- At every point the first output's buffer holds the biased block. -/
theorem biased_at (c : Dev nD) (t : Fin cfg1.N) :
    (outsAt1 V c t.val t.isLt).1 = k1_pay3 (iblk1 V c 0 t) (iblk1 V c 1 t) := by
  by_cases h0 : t.val % 20 = 0
  · exact congrArg (fun x => x.1) (at_first V c t h0)
  · exact congrArg (fun x => x.1) (at_later V c t h0)

/-- Entry (r, q) of an array as a function of the row NUMBER r, zero past the last row. -/
def rowAt (H : Cert.Spec.Mat 100000 128) (r : ℕ) (q : Fin 128) : EReal :=
  if hr : r < 100000 then H (ix2 (⟨r, hr⟩ : Fin 100000) q) else 0

/-- Below the last row it is the array's entry. -/
theorem rowAt_of_lt (H : Cert.Spec.Mat 100000 128) (r : ℕ) (q : Fin 128) (hr : r < 100000) :
    rowAt H r q = H (ix2 (⟨r, hr⟩ : Fin 100000) q) := dif_pos hr

/-- The column sums of the block stored at point t: rows 5000 t … 5000 t + 4999 of the biased array. -/
theorem block_sum (c : Dev nD) (t : Fin cfg1.N) (q : Fin 128) :
    ∑ p : Fin 5000, k1_pay3 (iblk1 V c 0 t) (iblk1 V c 1 t) (ix2 p q)
      = ∑ x ∈ Finset.range 5000, rowAt (Hin V c) (5000 * t.val + x) q := by
  have hN := lt20 t
  rw [← Fin.sum_univ_eq_sum_range (fun x => rowAt (Hin V c) (5000 * t.val + x) q) 5000]
  refine Finset.sum_congr rfl fun p _ => ?_
  have hr : 5000 * t.val + p.val < 100000 := by have := p.isLt; omega
  exact (pay3_blk V c t p q hr).trans (rowAt_of_lt (Hin V c) _ q hr).symm

/-- … and of their squares. -/
theorem block_sumsq (c : Dev nD) (t : Fin cfg1.N) (q : Fin 128) :
    ∑ p : Fin 5000, k1_pay3 (iblk1 V c 0 t) (iblk1 V c 1 t) (ix2 p q) * k1_pay3 (iblk1 V c 0 t) (iblk1 V c 1 t) (ix2 p q)
      = ∑ x ∈ Finset.range 5000, rowAt (Hin V c) (5000 * t.val + x) q * rowAt (Hin V c) (5000 * t.val + x) q := by
  have hN := lt20 t
  rw [← Fin.sum_univ_eq_sum_range (fun x => rowAt (Hin V c) (5000 * t.val + x) q * rowAt (Hin V c) (5000 * t.val + x) q) 5000]
  refine Finset.sum_congr rfl fun p _ => ?_
  have hr : 5000 * t.val + p.val < 100000 := by have := p.isLt; omega
  have e := (pay3_blk V c t p q hr).trans (rowAt_of_lt (Hin V c) _ q hr).symm
  exact congrArg₂ (· * ·) e e

/-- THE RUNNING SUMS. After point n the two carried rows hold, at column q, the sum over the first 5000 (n + 1) rows
    of the biased array's column q, and of its squares: addition of extended reals is associative, so the sum taken
    block by block is the sum over the rows. -/
theorem sums_at (c : Dev nD) : ∀ (n : ℕ) (hn : n < cfg1.N) (q : Fin 128),
    (outsAt1 V c n hn).2.1 (ix2 (0 : Fin 1) q) = ∑ r ∈ Finset.range (5000 * (n + 1)), rowAt (Hin V c) r q
    ∧ (outsAt1 V c n hn).2.2 (ix2 (0 : Fin 1) q)
        = ∑ r ∈ Finset.range (5000 * (n + 1)), rowAt (Hin V c) r q * rowAt (Hin V c) r q
  | 0, hn, q => by
    have e := at_first V c ⟨0, hn⟩ rfl
    have hb := block_sum V c ⟨0, hn⟩ q
    have hs := block_sumsq V c ⟨0, hn⟩ q
    simp only [Nat.mul_zero, Nat.zero_add] at hb hs
    constructor
    · refine (congrFun (congrArg (fun x => x.2.1) e) (ix2 (0 : Fin 1) q)).trans ?_
      refine (pay4_apply (iblk1 V c 0 ⟨0, hn⟩) (iblk1 V c 1 ⟨0, hn⟩) (k1_pay1 (F := Ideal)) q).trans ?_
      rw [pay1_apply, zero_add]
      exact hb
    · refine (congrFun (congrArg (fun x => x.2.2) e) (ix2 (0 : Fin 1) q)).trans ?_
      refine (pay5_apply (iblk1 V c 0 ⟨0, hn⟩) (iblk1 V c 1 ⟨0, hn⟩) (k1_pay2 (F := Ideal)) q).trans ?_
      rw [pay2_apply, zero_add]
      exact hs
  | n + 1, hn, q => by
    have hN : n + 1 < 20 := lt20 ⟨n + 1, hn⟩
    have hB : ¬(⟨n + 1, hn⟩ : Fin cfg1.N).val % 20 = 0 := by dsimp only; omega
    have e := at_later V c ⟨n + 1, hn⟩ hB
    have ih := sums_at c n (Nat.lt_of_succ_lt hn) q
    have hb := block_sum V c ⟨n + 1, hn⟩ q
    have hs := block_sumsq V c ⟨n + 1, hn⟩ q
    have hsplit : 5000 * (n + 1 + 1) = 5000 * (n + 1) + 5000 := by omega
    constructor
    · refine (congrFun (congrArg (fun x => x.2.1) e) (ix2 (0 : Fin 1) q)).trans ?_
      refine (pay4_apply (iblk1 V c 0 ⟨n + 1, hn⟩) (iblk1 V c 1 ⟨n + 1, hn⟩) _ q).trans ?_
      rw [hsplit, Finset.sum_range_add]
      exact congrArg₂ (· + ·) ih.1 hb
    · refine (congrFun (congrArg (fun x => x.2.2) e) (ix2 (0 : Fin 1) q)).trans ?_
      refine (pay5_apply (iblk1 V c 0 ⟨n + 1, hn⟩) (iblk1 V c 1 ⟨n + 1, hn⟩) _ q).trans ?_
      rw [hsplit, Finset.sum_range_add]
      exact congrArg₂ (· + ·) ih.2 hs

/-- A sum over the first 100000 row numbers is the sum over the rows. -/
theorem sum_rows (f : Cert.Spec.Mat 100000 128) (g : EReal → EReal) (q : Fin 128) :
    ∑ r ∈ Finset.range 100000, g (rowAt f r q) = ∑ r : Fin 100000, g (f (ix2 r q)) := by
  rw [← Fin.sum_univ_eq_sum_range (fun r => g (rowAt f r q)) 100000]
  exact Finset.sum_congr rfl fun r _ => congrArg g (rowAt_of_lt f r.val q r.isLt)

/-- After the last point the first carried row is the column sums of the biased array … -/
theorem sum_last (c : Dev nD) (t : Fin cfg1.N) (h19 : t.val = 19) :
    (outsAt1 V c t.val t.isLt).2.1 = Cert.Spec.colSum (Hin V c) := by
  funext i
  obtain ⟨u, q, rfl⟩ : ∃ (u : Fin 1) (q : Fin 128), i = ix2 u q := ⟨i 0, i 1, eq_ix2 i⟩
  obtain rfl : u = 0 := Subsingleton.elim _ _
  refine ((sums_at V c t.val t.isLt q).1).trans ?_
  rw [h19]
  exact sum_rows (Hin V c) id q

/-- … and the column sums of squares. -/
theorem sumsq_last (c : Dev nD) (t : Fin cfg1.N) (h19 : t.val = 19) :
    (outsAt1 V c t.val t.isLt).2.2 = Cert.Spec.colSumSq (Hin V c) := by
  funext i
  obtain ⟨u, q, rfl⟩ : ∃ (u : Fin 1) (q : Fin 128), i = ix2 u q := ⟨i 0, i 1, eq_ix2 i⟩
  obtain rfl : u = 0 := Subsingleton.elim _ _
  refine ((sums_at V c t.val t.isLt q).2).trans ?_
  rw [h19]
  exact sum_rows (Hin V c) (fun x => x * x) q

/-! ## From the flushed blocks to the arrays -/

/-- The last point of the grid. -/
def tLast : Fin cfg1.N := ⟨19, by rw [show cfg1.N = 20 from N_1]; decide⟩

/-- WINDOW 2: what point t writes back is block t of the biased array. -/
theorem flushed2_eq (c : Dev nD) (t : Fin cfg1.N) (hf : (cfg1.win 2).flush t = true) :
    (dat1 (F := Ideal) V c).flushed 2 t = ((cfg1.win 2).blk t).view.read (Elt Ideal) (Hin V c) := by
  have hN := lt20 t
  obtain ⟨-, -, -, -, e0, e1, -⟩ := idx_facts t
  show (cfg1.win 2).cut (grid1.coords t) ((dat1 V c).after 2 t) = _
  rw [after1_2, biased_at V c t]
  funext j
  obtain ⟨p, q, rfl⟩ : ∃ (p : Fin 5000) (q : Fin 128), j = ix2 p q := ⟨j 0, j 1, eq_ix2 j⟩
  have hr : 5000 * t.val + p.val < 100000 := by have := p.isLt; omega
  refine (pay3_blk V c t p q hr).trans ?_
  show Hin V c (ix2 (⟨5000 * t.val + p.val, hr⟩ : Fin 100000) q) = Hin V c (((cfg1.win 2).blk t).view.emb (ix2 p q))
  refine congrArg (Hin V c) ?_
  funext a; apply Fin.ext
  match a with
  | ⟨0, _⟩ => show 5000 * t.val + p.val = win1_2.index t (0 : Fin 2) * 5000 + 1 * p.val; rw [e0]; omega
  | ⟨1, _⟩ => show q.val = win1_2.index t (1 : Fin 2) * 128 + 1 * q.val; rw [e1]; omega

/-- An entry of the [100000,128] array is in point t's block iff each coordinate is in the block's range. -/
theorem mem_blk2 (t : Fin cfg1.N) (i : S100000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v40_0).slice (win1_2.rect t)).set ↔ _
  rw [View.set_slice_whole, Rect.mem_set_unit]
  exact Iff.rfl

/-- The biased array: row r is written back by point r / 5000, and every point writes back. -/
theorem final_biased (c : Dev nD) :
    (dat1 (F := Ideal) V c).arrAt 2 cfg1.N = Cert.Spec.addRow (Xin V c) (Bin V c) :=
  (dat1 (F := Ideal) V c).arrAt_eq_of_cover 2 (Hin V c) (flushed2_eq V c) fun i => by
    have h0 : (i 0).val < 100000 := (i 0).isLt
    have h1 : (i 1).val < 128 := (i 1).isLt
    have hN : cfg1.N = 20 := N_1
    have ht : (i 0).val / 5000 < cfg1.N := by rw [hN]; omega
    obtain ⟨-, -, -, -, e0, e1, -⟩ := idx_facts ⟨(i 0).val / 5000, ht⟩
    refine ⟨⟨(i 0).val / 5000, ht⟩, flush1_2 _, ?_⟩
    rw [mem_blk2]
    intro a
    match a with
    | ⟨0, _⟩ =>
      show win1_2.index ⟨(i 0).val / 5000, ht⟩ (0 : Fin 2) * 5000 ≤ (i 0).val
        ∧ (i 0).val < win1_2.index ⟨(i 0).val / 5000, ht⟩ (0 : Fin 2) * 5000 + 5000
      rw [e0]; dsimp only; omega
    | ⟨1, _⟩ =>
      show win1_2.index ⟨(i 0).val / 5000, ht⟩ (1 : Fin 2) * 128 ≤ (i 1).val
        ∧ (i 1).val < win1_2.index ⟨(i 0).val / 5000, ht⟩ (1 : Fin 2) * 128 + 128
      rw [e1]; omega

/-- A [1,128] window's one block, read through its zero offsets, is the whole row. -/
theorem hz3 (t : Fin cfg1.N) : (fun a => win1_3.index t a * main_v40_1.ty.shape.size a) = fun _ => 0 := by
  obtain ⟨-, -, -, -, -, -, e0, e1, -⟩ := idx_facts t
  funext a
  match a with
  | ⟨0, _⟩ => show win1_3.index t (0 : Fin 2) * 1 = 0; rw [e0]
  | ⟨1, _⟩ => show win1_3.index t (1 : Fin 2) * 128 = 0; rw [e1]

/-- The same for the third output's window. -/
theorem hz4 (t : Fin cfg1.N) : (fun a => win1_4.index t a * main_v40_2.ty.shape.size a) = fun _ => 0 := by
  obtain ⟨-, -, -, -, -, -, -, -, e0, e1⟩ := idx_facts t
  funext a
  match a with
  | ⟨0, _⟩ => show win1_4.index t (0 : Fin 2) * 1 = 0; rw [e0]
  | ⟨1, _⟩ => show win1_4.index t (1 : Fin 2) * 128 = 0; rw [e1]

/-- WINDOW 3: the one write-back, after the last point, writes the column sums. -/
theorem flushed3_eq (c : Dev nD) (t : Fin cfg1.N) (hf : (cfg1.win 3).flush t = true) :
    (dat1 (F := Ideal) V c).flushed 3 t = ((cfg1.win 3).blk t).view.read (Elt Ideal) (Cert.Spec.colSum (Hin V c)) := by
  have hN := lt20 t
  have h19 : t.val = 19 := by have := (flush1_3 t).mp hf; omega
  show (cfg1.win 3).cut (grid1.coords t) ((dat1 V c).after 3 t) = _
  rw [after1_3, sum_last V c t h19]
  exact (Memref.read_access_unit_zero (Elt Ideal) main_v40_1 (hz3 t) (fun a => by rw [congrFun (hz3 t) a]; simp)
    (Cert.Spec.colSum (Hin V c))).symm

/-- WINDOW 4: likewise the column sums of squares. -/
theorem flushed4_eq (c : Dev nD) (t : Fin cfg1.N) (hf : (cfg1.win 4).flush t = true) :
    (dat1 (F := Ideal) V c).flushed 4 t = ((cfg1.win 4).blk t).view.read (Elt Ideal) (Cert.Spec.colSumSq (Hin V c)) := by
  have hN := lt20 t
  have h19 : t.val = 19 := by have := (flush1_4 t).mp hf; omega
  show (cfg1.win 4).cut (grid1.coords t) ((dat1 V c).after 4 t) = _
  rw [after1_4, sumsq_last V c t h19]
  exact (Memref.read_access_unit_zero (Elt Ideal) main_v40_2 (hz4 t) (fun a => by rw [congrFun (hz4 t) a]; simp)
    (Cert.Spec.colSumSq (Hin V c))).symm

/-- The last point's block of a [1,128] window is the whole row. -/
theorem cover3 (i : S1x128.Idx) : i ∈ ((cfg1.win 3).blk tLast).view.set := by
  obtain ⟨-, -, -, -, -, -, e0, e1, -⟩ := idx_facts tLast
  have h0 : (i 0).val < 1 := (i 0).isLt
  have h1 : (i 1).val < 128 := (i 1).isLt
  show i ∈ ((View.whole main_v40_1).slice (win1_3.rect tLast)).set
  rw [View.set_slice_whole, Rect.mem_set_unit]
  intro a
  match a with
  | ⟨0, _⟩ =>
    show win1_3.index tLast (0 : Fin 2) * 1 ≤ (i 0).val ∧ (i 0).val < win1_3.index tLast (0 : Fin 2) * 1 + 1
    rw [e0]; omega
  | ⟨1, _⟩ =>
    show win1_3.index tLast (1 : Fin 2) * 128 ≤ (i 1).val ∧ (i 1).val < win1_3.index tLast (1 : Fin 2) * 128 + 128
    rw [e1]; omega

/-- The same for the third output's window. -/
theorem cover4 (i : S1x128.Idx) : i ∈ ((cfg1.win 4).blk tLast).view.set := by
  obtain ⟨-, -, -, -, -, -, -, -, e0, e1⟩ := idx_facts tLast
  have h0 : (i 0).val < 1 := (i 0).isLt
  have h1 : (i 1).val < 128 := (i 1).isLt
  show i ∈ ((View.whole main_v40_2).slice (win1_4.rect tLast)).set
  rw [View.set_slice_whole, Rect.mem_set_unit]
  intro a
  match a with
  | ⟨0, _⟩ =>
    show win1_4.index tLast (0 : Fin 2) * 1 ≤ (i 0).val ∧ (i 0).val < win1_4.index tLast (0 : Fin 2) * 1 + 1
    rw [e0]; omega
  | ⟨1, _⟩ =>
    show win1_4.index tLast (1 : Fin 2) * 128 ≤ (i 1).val ∧ (i 1).val < win1_4.index tLast (1 : Fin 2) * 128 + 128
    rw [e1]; omega

/-- The column sums of the biased array. -/
theorem final_sum (c : Dev nD) :
    (dat1 (F := Ideal) V c).arrAt 3 cfg1.N = Cert.Spec.colSum (Cert.Spec.addRow (Xin V c) (Bin V c)) :=
  (dat1 (F := Ideal) V c).arrAt_eq_of_cover 3 (Cert.Spec.colSum (Hin V c)) (flushed3_eq V c) fun i =>
    ⟨tLast, (flush1_3 tLast).mpr rfl, cover3 i⟩

/-- The column sums of squares of the biased array. -/
theorem final_sumsq (c : Dev nD) :
    (dat1 (F := Ideal) V c).arrAt 4 cfg1.N = Cert.Spec.colSumSq (Cert.Spec.addRow (Xin V c) (Bin V c)) :=
  (dat1 (F := Ideal) V c).arrAt_eq_of_cover 4 (Cert.Spec.colSumSq (Hin V c)) (flushed4_eq V c) fun i =>
    ⟨tLast, (flush1_4 tLast).mpr rfl, cover4 i⟩

end Values

end Cert.KernelIdeal.Reg1

end
-- ==== Proof.RegStats4.lean ====
/-
  The bias-and-statistics stage after the second matrix product, as whole arrays of extended reals.

  The stage walks the 100000 rows of its input X in 20 blocks of 5000 rows. At each block it adds the bias row B to
  every row and writes the block of X + B back. It also keeps two [1,128] rows, set to zero at the first block, to
  which it adds at each block the block's column sums and the column sums of the block's squares; these two rows are
  written back once, after the last block. Over the extended reals addition is commutative and associative without
  exception and 0 + x = x, so the twenty partial sums added in block order are the sum over all 100000 rows: the three
  arrays end holding X + B, its column sums, and the column sums of its squares.
-/
import proofs.«104798_j89043261980674_1_alg».proof.Proof.Gen.KernelIdeal.Frame
import proofs.«104798_j89043261980674_1_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)
open Idealize.ShloMosaic.ValueIdx
open scoped BigOperators

namespace Cert.KernelIdeal.Reg4

open Cert.KernelIdeal Cert.KernelIdeal.Gen

/-! ## What each case of the body leaves in the three outputs' buffers -/

section Pieces
variable {F : FTy → Type} [FloatOps F]

/-- Zero offsets on both axes. -/
theorem hz : (![0, 0] : Fin 2 → Nat) = fun _ => 0 := funext fun a => by fin_cases a <;> rfl

/-- At a later block the first output's buffer is left holding the block plus the bias row. -/
theorem out_B_2 (c : Dev nD) (i : grid4.Coords) (a1 : Memref sig .tc .vmem S5000x128 .f32) (h1 : a1.IsWhole)
    (a2 : Memref sig .tc .vmem S1x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : ¬cond4_0 i) (x0 : Vec F S5000x128 .f32) (x1 : Vec F S1x128 .f32) (xo3 xo4 : Vec F S1x128 .f32) :
    out4_B_2 c i a1 h1 a2 h2 a3 h3 a4 h4 a5 h5 hc x0 x1 xo3 xo4 = k4_pay3 x0 x1 := by
  unfold out4_B_2
  rw [View.read_writes_eq_canon _ _ _ (cover4_B_2 c i a1 h1 a2 h2 a3 h3 a4 h4 a5 h5 hc x0 x1 xo3 xo4)]
  unfold kernelRun4_B
  dsimp only
  rw [View.canon_unit_zero hz]
  simp only [View.readAt_eq_ld, h1.read_unread, h2.read_unread, View.ld_unit_zero (S := S5000x128) hz,
    View.ld_unit_zero (S := S1x128) hz]

/-- At a later block the second output's buffer, which held the row `xo3`, is left holding `xo3` plus the biased block's
    column sums. -/
theorem out_B_3 (c : Dev nD) (i : grid4.Coords) (a1 : Memref sig .tc .vmem S5000x128 .f32) (h1 : a1.IsWhole)
    (a2 : Memref sig .tc .vmem S1x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : ¬cond4_0 i) (x0 : Vec F S5000x128 .f32) (x1 : Vec F S1x128 .f32) (xo3 xo4 : Vec F S1x128 .f32) :
    out4_B_3 c i a1 h1 a2 h2 a3 h3 a4 h4 a5 h5 hc x0 x1 xo3 xo4 = k4_pay4 x0 x1 xo3 := by
  unfold out4_B_3
  rw [View.read_writes_eq_canon _ _ _ (cover4_B_3 c i a1 h1 a2 h2 a3 h3 a4 h4 a5 h5 hc x0 x1 xo3 xo4)]
  unfold kernelRun4_B
  dsimp only
  rw [View.canon_unit_zero hz]
  simp only [View.readAt_eq_ld, h1.read_unread, h2.read_unread, h4.read_unread, View.ld_unit_zero (S := S5000x128) hz,
    View.ld_unit_zero (S := S1x128) hz]

/-- At a later block the third output's buffer, which held `xo4`, is left holding `xo4` plus the column sums of the biased
    block's squares. -/
theorem out_B_4 (c : Dev nD) (i : grid4.Coords) (a1 : Memref sig .tc .vmem S5000x128 .f32) (h1 : a1.IsWhole)
    (a2 : Memref sig .tc .vmem S1x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : ¬cond4_0 i) (x0 : Vec F S5000x128 .f32) (x1 : Vec F S1x128 .f32) (xo3 xo4 : Vec F S1x128 .f32) :
    out4_B_4 c i a1 h1 a2 h2 a3 h3 a4 h4 a5 h5 hc x0 x1 xo3 xo4 = k4_pay5 x0 x1 xo4 := by
  unfold out4_B_4
  rw [View.read_writes_eq_canon _ _ _ (cover4_B_4 c i a1 h1 a2 h2 a3 h3 a4 h4 a5 h5 hc x0 x1 xo3 xo4)]
  unfold kernelRun4_B
  dsimp only
  rw [View.canon_unit_zero hz]
  simp only [View.readAt_eq_ld, h1.read_unread, h2.read_unread, h5.read_unread, View.ld_unit_zero (S := S5000x128) hz,
    View.ld_unit_zero (S := S1x128) hz]

/-- At the first block the first output's buffer is left holding the block plus the bias row. -/
theorem out_A_2 (c : Dev nD) (i : grid4.Coords) (a1 : Memref sig .tc .vmem S5000x128 .f32) (h1 : a1.IsWhole)
    (a2 : Memref sig .tc .vmem S1x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : cond4_0 i) (x0 : Vec F S5000x128 .f32) (x1 : Vec F S1x128 .f32) :
    out4_A_2 c i a1 h1 a2 h2 a3 h3 a4 h4 a5 h5 hc x0 x1 = k4_pay3 x0 x1 := by
  unfold out4_A_2
  rw [View.read_writes_eq_canon _ _ _ (cover4_A_2 c i a1 h1 a2 h2 a3 h3 a4 h4 a5 h5 hc x0 x1)]
  unfold kernelRun4_A
  dsimp only
  rw [View.canon_unit_zero hz]
  simp only [View.readAt_eq_ld, h1.read_unread, h2.read_unread, View.ld_unit_zero (S := S5000x128) hz,
    View.ld_unit_zero (S := S1x128) hz]

/-- At the first block the second output's buffer is first set to the zero row and then left holding that row plus the
    biased block's column sums. -/
theorem out_A_3 (c : Dev nD) (i : grid4.Coords) (a1 : Memref sig .tc .vmem S5000x128 .f32) (h1 : a1.IsWhole)
    (a2 : Memref sig .tc .vmem S1x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : cond4_0 i) (x0 : Vec F S5000x128 .f32) (x1 : Vec F S1x128 .f32) :
    out4_A_3 c i a1 h1 a2 h2 a3 h3 a4 h4 a5 h5 hc x0 x1 = k4_pay4 x0 x1 k4_pay1 := by
  unfold out4_A_3
  rw [View.read_writes_eq_canon _ _ _ (cover4_A_3 c i a1 h1 a2 h2 a3 h3 a4 h4 a5 h5 hc x0 x1)]
  unfold kernelRun4_A
  dsimp only
  sl_unfold_words
  rw [View.canon_cons_unit_zero (S := S1x128) hz, View.readCov_unit_zero (S := S1x128) _ hz]
  simp only [View.readAt_eq_ld, h1.read_unread, h2.read_unread, View.ld_unit_zero (S := S5000x128) hz,
    View.ld_unit_zero (S := S1x128) hz]

/-- At the first block the third output's buffer is first set to the zero row and then left holding that row plus the
    column sums of the biased block's squares. -/
theorem out_A_4 (c : Dev nD) (i : grid4.Coords) (a1 : Memref sig .tc .vmem S5000x128 .f32) (h1 : a1.IsWhole)
    (a2 : Memref sig .tc .vmem S1x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : cond4_0 i) (x0 : Vec F S5000x128 .f32) (x1 : Vec F S1x128 .f32) :
    out4_A_4 c i a1 h1 a2 h2 a3 h3 a4 h4 a5 h5 hc x0 x1 = k4_pay5 x0 x1 k4_pay2 := by
  unfold out4_A_4
  rw [View.read_writes_eq_canon _ _ _ (cover4_A_4 c i a1 h1 a2 h2 a3 h3 a4 h4 a5 h5 hc x0 x1)]
  unfold kernelRun4_A
  dsimp only
  sl_unfold_words
  rw [View.canon_cons_unit_zero (S := S1x128) hz, View.readCov_unit_zero (S := S1x128) _ hz]
  simp only [View.readAt_eq_ld, h1.read_unread, h2.read_unread, View.ld_unit_zero (S := S5000x128) hz,
    View.ld_unit_zero (S := S1x128) hz]

end Pieces

/-! ## The body's arithmetic read at an entry, over the extended reals -/

section Reads

/-- The column sums of a [5000,128] block, kept as a [1,128] row, at column q. -/
theorem colrow_apply (v : FVec Ideal S5000x128 .f32) (h : S5000x128.Reduces [0] S128) (hφ : FKind.Formats .f32)
    (hacc : (0x00000000#32 : BitVec 32) = FKind.add.neutral .f32 hφ) (hc : S128.ShapeCasts S1x128) (q : Fin 128) :
    shapeCast S1x128 (multiReduction (F := Ideal) .add [0] S128 v 0x00000000#32 h hφ hacc) hc (ix2 (0 : Fin 1) q)
      = ∑ p : Fin 5000, v (ix2 p q) := by
  refine (shapeCast_a_1a_apply _ hc (0 : Fin 1) q).trans ?_
  refine (Ideal.multiReduction_add_single v 0x00000000#32 h hφ hacc (ix1 q)).trans ?_
  exact Finset.sum_congr rfl fun k _ => congrArg v (by funext a; apply Fin.ext; fin_cases a <;> rfl)

/-- The first store: entry (p, q) of the block plus the bias row's entry q. -/
theorem pay3_apply (x0 : Vec Ideal S5000x128 .f32) (x1 : Vec Ideal S1x128 .f32) (p : Fin 5000) (q : Fin 128) :
    k4_pay3 x0 x1 (ix2 p q) = x0 (ix2 p q) + x1 (ix2 (0 : Fin 1) q) := by
  unfold k4_pay3
  show (shapeCast S5000x128 x0 _) (ix2 p q) + (broadcastTo S5000x128 (shapeCast S1x128 x1 _) _) (ix2 p q) = _
  rw [shapeCast_self, shapeCast_self, broadcastTo_1b_ab_apply]

/-- The running column sums: the row held so far plus the column sums of the biased block. -/
theorem pay4_apply (x0 : Vec Ideal S5000x128 .f32) (x1 acc : Vec Ideal S1x128 .f32) (q : Fin 128) :
    k4_pay4 x0 x1 acc (ix2 (0 : Fin 1) q) = acc (ix2 (0 : Fin 1) q) + ∑ p : Fin 5000, k4_pay3 x0 x1 (ix2 p q) := by
  unfold k4_pay4
  exact congrArg₂ (· + ·) (congrFun (shapeCast_self acc _) (ix2 (0 : Fin 1) q)) (colrow_apply (k4_pay3 x0 x1) _ _ _ _ q)

/-- The running column sums of squares. -/
theorem pay5_apply (x0 : Vec Ideal S5000x128 .f32) (x1 acc : Vec Ideal S1x128 .f32) (q : Fin 128) :
    k4_pay5 x0 x1 acc (ix2 (0 : Fin 1) q)
      = acc (ix2 (0 : Fin 1) q) + ∑ p : Fin 5000, k4_pay3 x0 x1 (ix2 p q) * k4_pay3 x0 x1 (ix2 p q) := by
  unfold k4_pay5
  exact congrArg₂ (· + ·) (congrFun (shapeCast_self acc _) (ix2 (0 : Fin 1) q))
    (colrow_apply (mulf (k4_pay3 x0 x1) (k4_pay3 x0 x1)) _ _ _ _ q)

/-- The two rows stored at the first point are zero. -/
theorem pay1_apply (i : S1x128.Idx) : (k4_pay1 (F := Ideal)) i = 0 := Ideal.ofBits_zero_f32
theorem pay2_apply (i : S1x128.Idx) : (k4_pay2 (F := Ideal)) i = 0 := Ideal.ofBits_zero_f32

end Reads

/-! ## The three outputs as whole arrays -/

section Values
variable (V : (c : Dev nD) → (b : Ref sig .tc) → Buf (Elt Ideal) ((c : Thread nD τ).loc b))

/-- The region's input array, its bias row, and the biased array, as the region finds them. -/
abbrev Xin (c : Dev nD) : Cert.Spec.Mat 100000 128 := V c (Pipeline.arrRef spec4 0)
abbrev Bin (c : Dev nD) : Cert.Spec.Mat 1 128 := V c (Pipeline.arrRef spec4 1)
abbrev Hin (c : Dev nD) : Cert.Spec.Mat 100000 128 := Cert.Spec.addRow (Xin V c) (Bin V c)

/-- The windows' block indices at a point: the two [5000,128] windows sit on row block t, the three [1,128] windows
    on their one block. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0 :=
  (by decide +kernel : ∀ t : Fin grid4.N, _)

/-- The grid has twenty points. -/
theorem lt20 (t : Fin cfg4.N) : t.val < 20 := lt_of_lt_of_eq t.isLt (show cfg4.N = 20 from N_4)

/-- Entry (p, q) of the input's block at point t is entry (5000 t + p, q) of the input. -/
theorem blk0_apply (c : Dev nD) (t : Fin cfg4.N) (p : Fin 5000) (q : Fin 128) (hr : 5000 * t.val + p.val < 100000) :
    (iblk4 V c 0 t : Vec Ideal S5000x128 .f32) (ix2 p q) = Xin V c (ix2 (⟨5000 * t.val + p.val, hr⟩ : Fin 100000) q) := by
  obtain ⟨e0, e1, -⟩ := idx_facts t
  show V c (Pipeline.arrRef spec4 0) (((cfg4.win 0).blk t).view.emb (ix2 p q)) = V c (Pipeline.arrRef spec4 0) _
  refine congrArg (V c (Pipeline.arrRef spec4 0)) ?_
  funext a; apply Fin.ext
  match a with
  | ⟨0, _⟩ => show win4_0.index t (0 : Fin 2) * 5000 + 1 * p.val = 5000 * t.val + p.val; rw [e0]; omega
  | ⟨1, _⟩ => show win4_0.index t (1 : Fin 2) * 128 + 1 * q.val = q.val; rw [e1]; omega

/-- The bias window's block at every point is the bias row. -/
theorem blk1_apply (c : Dev nD) (t : Fin cfg4.N) (q : Fin 128) :
    (iblk4 V c 1 t : Vec Ideal S1x128 .f32) (ix2 (0 : Fin 1) q) = Bin V c (ix2 (0 : Fin 1) q) := by
  obtain ⟨-, -, e0, e1, -⟩ := idx_facts t
  show V c (Pipeline.arrRef spec4 1) (((cfg4.win 1).blk t).view.emb (ix2 (0 : Fin 1) q)) = V c (Pipeline.arrRef spec4 1) _
  refine congrArg (V c (Pipeline.arrRef spec4 1)) ?_
  funext a; apply Fin.ext
  match a with
  | ⟨0, _⟩ => show win4_1.index t (0 : Fin 2) * 1 + 1 * (0 : Fin 1).val = (0 : Fin 1).val; rw [e0]; rfl
  | ⟨1, _⟩ => show win4_1.index t (1 : Fin 2) * 128 + 1 * q.val = q.val; rw [e1]; omega

/-- So the first store's block at point t is rows 5000 t … 5000 t + 4999 of the biased array. -/
theorem pay3_blk (c : Dev nD) (t : Fin cfg4.N) (p : Fin 5000) (q : Fin 128) (hr : 5000 * t.val + p.val < 100000) :
    k4_pay3 (iblk4 V c 0 t) (iblk4 V c 1 t) (ix2 p q) = Hin V c (ix2 (⟨5000 * t.val + p.val, hr⟩ : Fin 100000) q) := by
  refine (pay3_apply (iblk4 V c 0 t) (iblk4 V c 1 t) p q).trans ?_
  exact congrArg₂ (· + ·) (blk0_apply V c t p q hr) (blk1_apply V c t q)

/-- What the three buffers hold after the first point: the biased block, and the two rows started from zero. -/
theorem at_first (c : Dev nD) (t : Fin cfg4.N) (h0 : t.val % 20 = 0) :
    outsAt4 V c t.val t.isLt = (k4_pay3 (iblk4 V c 0 t) (iblk4 V c 1 t),
      k4_pay4 (iblk4 V c 0 t) (iblk4 V c 1 t) (k4_pay1 (F := Ideal)), k4_pay5 (iblk4 V c 0 t) (iblk4 V c 1 t) (k4_pay2 (F := Ideal))) :=
  (outsAt4_A V c t h0).trans (congrArg₂ Prod.mk
    (out_A_2 c (grid4.coords t) (ms4_0 t) (hs4_0 t) (ms4_1 t) (hs4_1 t) (ms4_2 t) (hs4_2 t) (ms4_3 t) (hs4_3 t) (ms4_4 t) (hs4_4 t) ((hcond4_0 t).mpr h0) (iblk4 V c 0 t) (iblk4 V c 1 t))
    (congrArg₂ Prod.mk
      (out_A_3 c (grid4.coords t) (ms4_0 t) (hs4_0 t) (ms4_1 t) (hs4_1 t) (ms4_2 t) (hs4_2 t) (ms4_3 t) (hs4_3 t) (ms4_4 t) (hs4_4 t) ((hcond4_0 t).mpr h0) (iblk4 V c 0 t) (iblk4 V c 1 t))
      (out_A_4 c (grid4.coords t) (ms4_0 t) (hs4_0 t) (ms4_1 t) (hs4_1 t) (ms4_2 t) (hs4_2 t) (ms4_3 t) (hs4_3 t) (ms4_4 t) (hs4_4 t) ((hcond4_0 t).mpr h0) (iblk4 V c 0 t) (iblk4 V c 1 t))))

/-- … and after a later point: the biased block, and the two rows carried on from the point before. -/
theorem at_later (c : Dev nD) (t : Fin cfg4.N) (h0 : ¬t.val % 20 = 0) :
    outsAt4 V c t.val t.isLt = (k4_pay3 (iblk4 V c 0 t) (iblk4 V c 1 t),
      k4_pay4 (iblk4 V c 0 t) (iblk4 V c 1 t) (outsAt4 V c (t.val - 1) (Nat.lt_of_le_of_lt (Nat.sub_le _ _) t.isLt)).2.1,
      k4_pay5 (iblk4 V c 0 t) (iblk4 V c 1 t) (outsAt4 V c (t.val - 1) (Nat.lt_of_le_of_lt (Nat.sub_le _ _) t.isLt)).2.2) :=
  (outsAt4_B V c t h0).trans (congrArg₂ Prod.mk
    (out_B_2 c (grid4.coords t) (ms4_0 t) (hs4_0 t) (ms4_1 t) (hs4_1 t) (ms4_2 t) (hs4_2 t) (ms4_3 t) (hs4_3 t) (ms4_4 t) (hs4_4 t) (fun h => h0 ((hcond4_0 t).mp h)) (iblk4 V c 0 t) (iblk4 V c 1 t) (outsAt4 V c (t.val - 1) (Nat.lt_of_le_of_lt (Nat.sub_le _ _) t.isLt)).2.1 (outsAt4 V c (t.val - 1) (Nat.lt_of_le_of_lt (Nat.sub_le _ _) t.isLt)).2.2)
    (congrArg₂ Prod.mk
      (out_B_3 c (grid4.coords t) (ms4_0 t) (hs4_0 t) (ms4_1 t) (hs4_1 t) (ms4_2 t) (hs4_2 t) (ms4_3 t) (hs4_3 t) (ms4_4 t) (hs4_4 t) (fun h => h0 ((hcond4_0 t).mp h)) (iblk4 V c 0 t) (iblk4 V c 1 t) (outsAt4 V c (t.val - 1) (Nat.lt_of_le_of_lt (Nat.sub_le _ _) t.isLt)).2.1 (outsAt4 V c (t.val - 1) (Nat.lt_of_le_of_lt (Nat.sub_le _ _) t.isLt)).2.2)
      (out_B_4 c (grid4.coords t) (ms4_0 t) (hs4_0 t) (ms4_1 t) (hs4_1 t) (ms4_2 t) (hs4_2 t) (ms4_3 t) (hs4_3 t) (ms4_4 t) (hs4_4 t) (fun h => h0 ((hcond4_0 t).mp h)) (iblk4 V c 0 t) (iblk4 V c 1 t) (outsAt4 V c (t.val - 1) (Nat.lt_of_le_of_lt (Nat.sub_le _ _) t.isLt)).2.1 (outsAt4 V c (t.val - 1) (Nat.lt_of_le_of_lt (Nat.sub_le _ _) t.isLt)).2.2)))

/-- At every point the first output's buffer holds the biased block. -/
theorem biased_at (c : Dev nD) (t : Fin cfg4.N) :
    (outsAt4 V c t.val t.isLt).1 = k4_pay3 (iblk4 V c 0 t) (iblk4 V c 1 t) := by
  by_cases h0 : t.val % 20 = 0
  · exact congrArg (fun x => x.1) (at_first V c t h0)
  · exact congrArg (fun x => x.1) (at_later V c t h0)

/-- Entry (r, q) of an array as a function of the row NUMBER r, zero past the last row. -/
def rowAt (H : Cert.Spec.Mat 100000 128) (r : ℕ) (q : Fin 128) : EReal :=
  if hr : r < 100000 then H (ix2 (⟨r, hr⟩ : Fin 100000) q) else 0

/-- Below the last row it is the array's entry. -/
theorem rowAt_of_lt (H : Cert.Spec.Mat 100000 128) (r : ℕ) (q : Fin 128) (hr : r < 100000) :
    rowAt H r q = H (ix2 (⟨r, hr⟩ : Fin 100000) q) := dif_pos hr

/-- The column sums of the block stored at point t: rows 5000 t … 5000 t + 4999 of the biased array. -/
theorem block_sum (c : Dev nD) (t : Fin cfg4.N) (q : Fin 128) :
    ∑ p : Fin 5000, k4_pay3 (iblk4 V c 0 t) (iblk4 V c 1 t) (ix2 p q)
      = ∑ x ∈ Finset.range 5000, rowAt (Hin V c) (5000 * t.val + x) q := by
  have hN := lt20 t
  rw [← Fin.sum_univ_eq_sum_range (fun x => rowAt (Hin V c) (5000 * t.val + x) q) 5000]
  refine Finset.sum_congr rfl fun p _ => ?_
  have hr : 5000 * t.val + p.val < 100000 := by have := p.isLt; omega
  exact (pay3_blk V c t p q hr).trans (rowAt_of_lt (Hin V c) _ q hr).symm

/-- … and of their squares. -/
theorem block_sumsq (c : Dev nD) (t : Fin cfg4.N) (q : Fin 128) :
    ∑ p : Fin 5000, k4_pay3 (iblk4 V c 0 t) (iblk4 V c 1 t) (ix2 p q) * k4_pay3 (iblk4 V c 0 t) (iblk4 V c 1 t) (ix2 p q)
      = ∑ x ∈ Finset.range 5000, rowAt (Hin V c) (5000 * t.val + x) q * rowAt (Hin V c) (5000 * t.val + x) q := by
  have hN := lt20 t
  rw [← Fin.sum_univ_eq_sum_range (fun x => rowAt (Hin V c) (5000 * t.val + x) q * rowAt (Hin V c) (5000 * t.val + x) q) 5000]
  refine Finset.sum_congr rfl fun p _ => ?_
  have hr : 5000 * t.val + p.val < 100000 := by have := p.isLt; omega
  have e := (pay3_blk V c t p q hr).trans (rowAt_of_lt (Hin V c) _ q hr).symm
  exact congrArg₂ (· * ·) e e

/-- THE RUNNING SUMS. After point n the two carried rows hold, at column q, the sum over the first 5000 (n + 1) rows
    of the biased array's column q, and of its squares: addition of extended reals is associative, so the sum taken
    block by block is the sum over the rows. -/
theorem sums_at (c : Dev nD) : ∀ (n : ℕ) (hn : n < cfg4.N) (q : Fin 128),
    (outsAt4 V c n hn).2.1 (ix2 (0 : Fin 1) q) = ∑ r ∈ Finset.range (5000 * (n + 1)), rowAt (Hin V c) r q
    ∧ (outsAt4 V c n hn).2.2 (ix2 (0 : Fin 1) q)
        = ∑ r ∈ Finset.range (5000 * (n + 1)), rowAt (Hin V c) r q * rowAt (Hin V c) r q
  | 0, hn, q => by
    have e := at_first V c ⟨0, hn⟩ rfl
    have hb := block_sum V c ⟨0, hn⟩ q
    have hs := block_sumsq V c ⟨0, hn⟩ q
    simp only [Nat.mul_zero, Nat.zero_add] at hb hs
    constructor
    · refine (congrFun (congrArg (fun x => x.2.1) e) (ix2 (0 : Fin 1) q)).trans ?_
      refine (pay4_apply (iblk4 V c 0 ⟨0, hn⟩) (iblk4 V c 1 ⟨0, hn⟩) (k4_pay1 (F := Ideal)) q).trans ?_
      rw [pay1_apply, zero_add]
      exact hb
    · refine (congrFun (congrArg (fun x => x.2.2) e) (ix2 (0 : Fin 1) q)).trans ?_
      refine (pay5_apply (iblk4 V c 0 ⟨0, hn⟩) (iblk4 V c 1 ⟨0, hn⟩) (k4_pay2 (F := Ideal)) q).trans ?_
      rw [pay2_apply, zero_add]
      exact hs
  | n + 1, hn, q => by
    have hN : n + 1 < 20 := lt20 ⟨n + 1, hn⟩
    have hB : ¬(⟨n + 1, hn⟩ : Fin cfg4.N).val % 20 = 0 := by dsimp only; omega
    have e := at_later V c ⟨n + 1, hn⟩ hB
    have ih := sums_at c n (Nat.lt_of_succ_lt hn) q
    have hb := block_sum V c ⟨n + 1, hn⟩ q
    have hs := block_sumsq V c ⟨n + 1, hn⟩ q
    have hsplit : 5000 * (n + 1 + 1) = 5000 * (n + 1) + 5000 := by omega
    constructor
    · refine (congrFun (congrArg (fun x => x.2.1) e) (ix2 (0 : Fin 1) q)).trans ?_
      refine (pay4_apply (iblk4 V c 0 ⟨n + 1, hn⟩) (iblk4 V c 1 ⟨n + 1, hn⟩) _ q).trans ?_
      rw [hsplit, Finset.sum_range_add]
      exact congrArg₂ (· + ·) ih.1 hb
    · refine (congrFun (congrArg (fun x => x.2.2) e) (ix2 (0 : Fin 1) q)).trans ?_
      refine (pay5_apply (iblk4 V c 0 ⟨n + 1, hn⟩) (iblk4 V c 1 ⟨n + 1, hn⟩) _ q).trans ?_
      rw [hsplit, Finset.sum_range_add]
      exact congrArg₂ (· + ·) ih.2 hs

/-- A sum over the first 100000 row numbers is the sum over the rows. -/
theorem sum_rows (f : Cert.Spec.Mat 100000 128) (g : EReal → EReal) (q : Fin 128) :
    ∑ r ∈ Finset.range 100000, g (rowAt f r q) = ∑ r : Fin 100000, g (f (ix2 r q)) := by
  rw [← Fin.sum_univ_eq_sum_range (fun r => g (rowAt f r q)) 100000]
  exact Finset.sum_congr rfl fun r _ => congrArg g (rowAt_of_lt f r.val q r.isLt)

/-- After the last point the first carried row is the column sums of the biased array … -/
theorem sum_last (c : Dev nD) (t : Fin cfg4.N) (h19 : t.val = 19) :
    (outsAt4 V c t.val t.isLt).2.1 = Cert.Spec.colSum (Hin V c) := by
  funext i
  obtain ⟨u, q, rfl⟩ : ∃ (u : Fin 1) (q : Fin 128), i = ix2 u q := ⟨i 0, i 1, eq_ix2 i⟩
  obtain rfl : u = 0 := Subsingleton.elim _ _
  refine ((sums_at V c t.val t.isLt q).1).trans ?_
  rw [h19]
  exact sum_rows (Hin V c) id q

/-- … and the column sums of squares. -/
theorem sumsq_last (c : Dev nD) (t : Fin cfg4.N) (h19 : t.val = 19) :
    (outsAt4 V c t.val t.isLt).2.2 = Cert.Spec.colSumSq (Hin V c) := by
  funext i
  obtain ⟨u, q, rfl⟩ : ∃ (u : Fin 1) (q : Fin 128), i = ix2 u q := ⟨i 0, i 1, eq_ix2 i⟩
  obtain rfl : u = 0 := Subsingleton.elim _ _
  refine ((sums_at V c t.val t.isLt q).2).trans ?_
  rw [h19]
  exact sum_rows (Hin V c) (fun x => x * x) q

/-! ## From the flushed blocks to the arrays -/

/-- The last point of the grid. -/
def tLast : Fin cfg4.N := ⟨19, by rw [show cfg4.N = 20 from N_4]; decide⟩

/-- WINDOW 2: what point t writes back is block t of the biased array. -/
theorem flushed2_eq (c : Dev nD) (t : Fin cfg4.N) (hf : (cfg4.win 2).flush t = true) :
    (dat4 (F := Ideal) V c).flushed 2 t = ((cfg4.win 2).blk t).view.read (Elt Ideal) (Hin V c) := by
  have hN := lt20 t
  obtain ⟨-, -, -, -, e0, e1, -⟩ := idx_facts t
  show (cfg4.win 2).cut (grid4.coords t) ((dat4 V c).after 2 t) = _
  rw [after4_2, biased_at V c t]
  funext j
  obtain ⟨p, q, rfl⟩ : ∃ (p : Fin 5000) (q : Fin 128), j = ix2 p q := ⟨j 0, j 1, eq_ix2 j⟩
  have hr : 5000 * t.val + p.val < 100000 := by have := p.isLt; omega
  refine (pay3_blk V c t p q hr).trans ?_
  show Hin V c (ix2 (⟨5000 * t.val + p.val, hr⟩ : Fin 100000) q) = Hin V c (((cfg4.win 2).blk t).view.emb (ix2 p q))
  refine congrArg (Hin V c) ?_
  funext a; apply Fin.ext
  match a with
  | ⟨0, _⟩ => show 5000 * t.val + p.val = win4_2.index t (0 : Fin 2) * 5000 + 1 * p.val; rw [e0]; omega
  | ⟨1, _⟩ => show q.val = win4_2.index t (1 : Fin 2) * 128 + 1 * q.val; rw [e1]; omega

/-- An entry of the [100000,128] array is in point t's block iff each coordinate is in the block's range. -/
theorem mem_blk2 (t : Fin cfg4.N) (i : S100000x128.Idx) :
    i ∈ ((cfg4.win 2).blk t).view.set ↔ ∀ a : Fin 2, win4_2.index t a * S5000x128.size a ≤ (i a).val
      ∧ (i a).val < win4_2.index t a * S5000x128.size a + S5000x128.size a := by
  show i ∈ ((View.whole main_v65_0).slice (win4_2.rect t)).set ↔ _
  rw [View.set_slice_whole, Rect.mem_set_unit]
  exact Iff.rfl

/-- The biased array: row r is written back by point r / 5000, and every point writes back. -/
theorem final_biased (c : Dev nD) :
    (dat4 (F := Ideal) V c).arrAt 2 cfg4.N = Cert.Spec.addRow (Xin V c) (Bin V c) :=
  (dat4 (F := Ideal) V c).arrAt_eq_of_cover 2 (Hin V c) (flushed2_eq V c) fun i => by
    have h0 : (i 0).val < 100000 := (i 0).isLt
    have h1 : (i 1).val < 128 := (i 1).isLt
    have hN : cfg4.N = 20 := N_4
    have ht : (i 0).val / 5000 < cfg4.N := by rw [hN]; omega
    obtain ⟨-, -, -, -, e0, e1, -⟩ := idx_facts ⟨(i 0).val / 5000, ht⟩
    refine ⟨⟨(i 0).val / 5000, ht⟩, flush4_2 _, ?_⟩
    rw [mem_blk2]
    intro a
    match a with
    | ⟨0, _⟩ =>
      show win4_2.index ⟨(i 0).val / 5000, ht⟩ (0 : Fin 2) * 5000 ≤ (i 0).val
        ∧ (i 0).val < win4_2.index ⟨(i 0).val / 5000, ht⟩ (0 : Fin 2) * 5000 + 5000
      rw [e0]; dsimp only; omega
    | ⟨1, _⟩ =>
      show win4_2.index ⟨(i 0).val / 5000, ht⟩ (1 : Fin 2) * 128 ≤ (i 1).val
        ∧ (i 1).val < win4_2.index ⟨(i 0).val / 5000, ht⟩ (1 : Fin 2) * 128 + 128
      rw [e1]; omega

/-- A [1,128] window's one block, read through its zero offsets, is the whole row. -/
theorem hz3 (t : Fin cfg4.N) : (fun a => win4_3.index t a * main_v65_1.ty.shape.size a) = fun _ => 0 := by
  obtain ⟨-, -, -, -, -, -, e0, e1, -⟩ := idx_facts t
  funext a
  match a with
  | ⟨0, _⟩ => show win4_3.index t (0 : Fin 2) * 1 = 0; rw [e0]
  | ⟨1, _⟩ => show win4_3.index t (1 : Fin 2) * 128 = 0; rw [e1]

/-- The same for the third output's window. -/
theorem hz4 (t : Fin cfg4.N) : (fun a => win4_4.index t a * main_v65_2.ty.shape.size a) = fun _ => 0 := by
  obtain ⟨-, -, -, -, -, -, -, -, e0, e1⟩ := idx_facts t
  funext a
  match a with
  | ⟨0, _⟩ => show win4_4.index t (0 : Fin 2) * 1 = 0; rw [e0]
  | ⟨1, _⟩ => show win4_4.index t (1 : Fin 2) * 128 = 0; rw [e1]

/-- WINDOW 3: the one write-back, after the last point, writes the column sums. -/
theorem flushed3_eq (c : Dev nD) (t : Fin cfg4.N) (hf : (cfg4.win 3).flush t = true) :
    (dat4 (F := Ideal) V c).flushed 3 t = ((cfg4.win 3).blk t).view.read (Elt Ideal) (Cert.Spec.colSum (Hin V c)) := by
  have hN := lt20 t
  have h19 : t.val = 19 := by have := (flush4_3 t).mp hf; omega
  show (cfg4.win 3).cut (grid4.coords t) ((dat4 V c).after 3 t) = _
  rw [after4_3, sum_last V c t h19]
  exact (Memref.read_access_unit_zero (Elt Ideal) main_v65_1 (hz3 t) (fun a => by rw [congrFun (hz3 t) a]; simp)
    (Cert.Spec.colSum (Hin V c))).symm

/-- WINDOW 4: likewise the column sums of squares. -/
theorem flushed4_eq (c : Dev nD) (t : Fin cfg4.N) (hf : (cfg4.win 4).flush t = true) :
    (dat4 (F := Ideal) V c).flushed 4 t = ((cfg4.win 4).blk t).view.read (Elt Ideal) (Cert.Spec.colSumSq (Hin V c)) := by
  have hN := lt20 t
  have h19 : t.val = 19 := by have := (flush4_4 t).mp hf; omega
  show (cfg4.win 4).cut (grid4.coords t) ((dat4 V c).after 4 t) = _
  rw [after4_4, sumsq_last V c t h19]
  exact (Memref.read_access_unit_zero (Elt Ideal) main_v65_2 (hz4 t) (fun a => by rw [congrFun (hz4 t) a]; simp)
    (Cert.Spec.colSumSq (Hin V c))).symm

/-- The last point's block of a [1,128] window is the whole row. -/
theorem cover3 (i : S1x128.Idx) : i ∈ ((cfg4.win 3).blk tLast).view.set := by
  obtain ⟨-, -, -, -, -, -, e0, e1, -⟩ := idx_facts tLast
  have h0 : (i 0).val < 1 := (i 0).isLt
  have h1 : (i 1).val < 128 := (i 1).isLt
  show i ∈ ((View.whole main_v65_1).slice (win4_3.rect tLast)).set
  rw [View.set_slice_whole, Rect.mem_set_unit]
  intro a
  match a with
  | ⟨0, _⟩ =>
    show win4_3.index tLast (0 : Fin 2) * 1 ≤ (i 0).val ∧ (i 0).val < win4_3.index tLast (0 : Fin 2) * 1 + 1
    rw [e0]; omega
  | ⟨1, _⟩ =>
    show win4_3.index tLast (1 : Fin 2) * 128 ≤ (i 1).val ∧ (i 1).val < win4_3.index tLast (1 : Fin 2) * 128 + 128
    rw [e1]; omega

/-- The same for the third output's window. -/
theorem cover4 (i : S1x128.Idx) : i ∈ ((cfg4.win 4).blk tLast).view.set := by
  obtain ⟨-, -, -, -, -, -, -, -, e0, e1⟩ := idx_facts tLast
  have h0 : (i 0).val < 1 := (i 0).isLt
  have h1 : (i 1).val < 128 := (i 1).isLt
  show i ∈ ((View.whole main_v65_2).slice (win4_4.rect tLast)).set
  rw [View.set_slice_whole, Rect.mem_set_unit]
  intro a
  match a with
  | ⟨0, _⟩ =>
    show win4_4.index tLast (0 : Fin 2) * 1 ≤ (i 0).val ∧ (i 0).val < win4_4.index tLast (0 : Fin 2) * 1 + 1
    rw [e0]; omega
  | ⟨1, _⟩ =>
    show win4_4.index tLast (1 : Fin 2) * 128 ≤ (i 1).val ∧ (i 1).val < win4_4.index tLast (1 : Fin 2) * 128 + 128
    rw [e1]; omega

/-- The column sums of the biased array. -/
theorem final_sum (c : Dev nD) :
    (dat4 (F := Ideal) V c).arrAt 3 cfg4.N = Cert.Spec.colSum (Cert.Spec.addRow (Xin V c) (Bin V c)) :=
  (dat4 (F := Ideal) V c).arrAt_eq_of_cover 3 (Cert.Spec.colSum (Hin V c)) (flushed3_eq V c) fun i =>
    ⟨tLast, (flush4_3 tLast).mpr rfl, cover3 i⟩

/-- The column sums of squares of the biased array. -/
theorem final_sumsq (c : Dev nD) :
    (dat4 (F := Ideal) V c).arrAt 4 cfg4.N = Cert.Spec.colSumSq (Cert.Spec.addRow (Xin V c) (Bin V c)) :=
  (dat4 (F := Ideal) V c).arrAt_eq_of_cover 4 (Cert.Spec.colSumSq (Hin V c)) (flushed4_eq V c) fun i =>
    ⟨tLast, (flush4_4 tLast).mpr rfl, cover4 i⟩

end Values

end Cert.KernelIdeal.Reg4

end
-- ==== Proof.SpecSoftmax.lean ====
/-
  The row-wise log-softmax of an [n, c] array of extended reals, entry by entry.

  Each row is shifted by its maximum m = max_q h(p, q) (the maximum folded over the row from the least element −∞, so
  that the fold's starting value never shows: max(−∞, x) = x), and entry (p, q) of the result is
      (h(p, q) − m) − log Σ_q' exp(h(p, q') − m).
  This is the common meaning of the vector unit's spelling (a row block at a time, the row maximum and the row sum by
  reductions along the lanes) and of the host's spelling (whole arrays, reduce-max and reduce-add over the last axis).
-/
import proofs.«104798_j89043261980674_1_alg».proof.Proof.Spec

noncomputable section

open Idealize.ShloMosaic Idealize.ShloMosaic.ValueIdx
open scoped BigOperators

namespace Cert.Spec

variable {n c : ℕ}

/-- The float word of −∞ denotes the least extended real. -/
theorem ofBits_negInf : Ideal.ofBits .f32 0xFF800000#32 = (⊥ : EReal) := by simp [Ideal.ofBits, Ideal.ieee]

/-- The float word of +0 denotes zero. -/
theorem ofBits_zero : Ideal.ofBits .f32 0x00000000#32 = (0 : EReal) := by simp [Ideal.ofBits, Ideal.ieee]

/-- The maximum of row p: the fold of max along the row from −∞. -/
def rowMax (h : Mat n c) (p : Fin n) : EReal :=
  (Finset.univ : Finset (Fin c)).fold max (⊥ : EReal) (fun k => h (ix2 p k))

/-- The row-wise log-softmax: z − log Σ exp z, with z the row shifted by its maximum. -/
def logSoftmax (h : Mat n c) : Mat n c := fun i =>
  (h i - rowMax h (i 0)) - Ideal.log (∑ q : Fin c, Ideal.exp (h (ix2 (i 0) q) - rowMax h (i 0)))

/-- The log-softmax at explicit coordinates. -/
theorem logSoftmax_apply (h : Mat n c) (p : Fin n) (q : Fin c) :
    logSoftmax h (ix2 p q)
      = (h (ix2 p q) - rowMax h p) - Ideal.log (∑ q' : Fin c, Ideal.exp (h (ix2 p q') - rowMax h p)) := rfl

/-- The row maximum depends on the row's entries only. -/
theorem rowMax_congr {n' : ℕ} (h : Mat n c) (h' : Mat n' c) (p : Fin n) (p' : Fin n')
    (e : ∀ k, h (ix2 p k) = h' (ix2 p' k)) : rowMax h p = rowMax h' p' :=
  congrArg (fun f => Finset.fold max (⊥ : EReal) f (Finset.univ : Finset (Fin c))) (funext e)

end Cert.Spec

end
-- ==== Proof.LibRowReads.lean ====
/-
  Reductions along the LAST axis of a matrix, read at an index given by coordinates, over arbitrary extents and at the
  ideal values; and one layout read:
  • a `[1, 1, a]` array cast to `[a]`;
  • a `vector.multi_reduction` over axis 1 of an `[a, b]` matrix, at row `p`: for `add` the sum along the row, for
    `maximumf` the fold of `max` along the row from the accumulator's value.
  The column forms (axis 0) are in LibColumnReads; these are the row forms.
-/
import Idealize.ShloMosaic.Lib.ValueIdx
import Idealize.ShloMosaic.Lib.ValueLayout
import Idealize.ShloMosaic.Lib.Pipeline.Value
import Idealize.ShloMosaic.PureOps.Ideal.Laws

namespace Cert.LibRowReads

open Idealize.ShloMosaic Idealize.ShloMosaic.ValueIdx

variable {α : Type}

/-- A `[1, 1, a]` array cast to `[a]` reads, at `i`, the operand at `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    rw [Nat.zero_mul, Nat.zero_add])

/-- Row `p` of an `[a, b]` matrix with column `k` put back is `(p, k)`. -/
theorem lift_row {a b : ℕ} (h : (⟨2, ![a, b]⟩ : Shape).Reduces [1] (⟨1, ![a]⟩ : Shape)) (p : Fin a) (k : Fin b) :
    h.lift (ix1 p) k = ix2 p k := by
  funext c; apply Fin.ext
  fin_cases c <;> rfl

/-- A float sum along the rows' entries of an `[a, b]` matrix, at row `p`, is the sum of that row. -/
theorem rowSum_apply {φ : FTy} {a b : ℕ} (v : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (p : Fin a) :
    multiReduction (F := Ideal) .add [1] ⟨1, ![a]⟩ v acc h hφ hacc (ix1 p) = ∑ k : Fin b, v (ix2 p k) := by
  rw [Ideal.multiReduction_add_single]
  exact Finset.sum_congr rfl fun k _ => congrArg v (lift_row h p k)

/-- A float maximum along a row of an `[a, b]` matrix, at row `p`, is the fold of `max` along that row from the
    accumulator's value. -/
theorem rowMax_apply {φ : FTy} {a b : ℕ} (v : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (p : Fin a) :
    multiReduction (F := Ideal) .maximumf [1] ⟨1, ![a]⟩ v acc h hφ hacc (ix1 p)
      = (Finset.univ : Finset (Fin b)).fold max (Ideal.ofBits φ acc) (fun k => v (ix2 p k)) := by
  rw [Ideal.multiReduction_maximumf_single]
  exact congrArg (fun f => Finset.fold max (Ideal.ofBits φ acc) f (Finset.univ : Finset (Fin b)))
    (funext fun k => congrArg v (lift_row h p k))

end Cert.LibRowReads
-- ==== Proof.LibColumnReads.lean ====
/-
  Layout operations and reductions along the FIRST axis of a matrix, read at an index given by coordinates, over
  arbitrary extents and (for the reductions) at the ideal values:
  • a vector [a] cast to a column [a, 1], and a column [a, 1] broadcast to [a, b];
  • a `vector.multi_reduction` over axis 0 of an [a, b] matrix, at column `t`: for `add` the sum over the rows, for
    `maximumf` the fold of `max` over the rows from the accumulator's value;
  • the host's one-operand reduce with a maximum body over the MIDDLE axis of an [a, n, b] array, at (p, q): the fold of
    `max` over that axis from the initial value.
  The row forms ([a] to [1, a], [1, b] to [a, b]) are the library's (Lib/ValueLayout.lean); these are the column forms.
-/
import Idealize.ShloMosaic.Lib.ValueIdx
import Idealize.ShloMosaic.Lib.ValueLayout
import Idealize.ShloMosaic.Lib.Pipeline.Value
import Idealize.ShloMosaic.PureOps.Ideal.Laws

namespace Cert.LibColumnReads

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column `t` of an `[a, b]` matrix with row `k` put back is `(k, t)`. -/
theorem lift_ix1 {a b : ℕ} (h : (⟨2, ![a, b]⟩ : Shape).Reduces [0] (⟨1, ![b]⟩ : Shape)) (t : Fin b) (k : Fin a) :
    h.lift (ix1 t) k = ix2 k t := by
  funext c; apply Fin.ext
  fin_cases c <;> rfl

/-- A float sum over the rows of an `[a, b]` matrix, at column `t`, is the sum of that column. -/
theorem colSum_apply {φ : FTy} {a b : ℕ} (v : FVec Ideal ⟨2, ![a, b]⟩ φ) (acc : BitVec φ.bits)
    (h : (⟨2, ![a, b]⟩ : Shape).Reduces [0] (⟨1, ![b]⟩ : Shape)) (hφ : FKind.Formats φ) (hacc : acc = FKind.add.neutral φ hφ)
    (t : Fin b) :
    multiReduction (F := Ideal) .add [0] ⟨1, ![b]⟩ v acc h hφ hacc (ix1 t) = ∑ k : Fin a, v (ix2 k t) := by
  rw [Ideal.multiReduction_add_single]
  exact Finset.sum_congr rfl fun k _ => congrArg v (lift_ix1 h t k)

/-- A float maximum over the rows of an `[a, b]` matrix, at column `t`, is the fold of `max` down that column from the
    accumulator's value. -/
theorem colMax_apply {φ : FTy} {a b : ℕ} (v : FVec Ideal ⟨2, ![a, b]⟩ φ) (acc : BitVec φ.bits)
    (h : (⟨2, ![a, b]⟩ : Shape).Reduces [0] (⟨1, ![b]⟩ : Shape)) (hφ : FKind.Formats φ) (hacc : acc = FKind.maximumf.neutral φ hφ)
    (t : Fin b) :
    multiReduction (F := Ideal) .maximumf [0] ⟨1, ![b]⟩ v acc h hφ hacc (ix1 t)
      = (Finset.univ : Finset (Fin a)).fold max (Ideal.ofBits φ acc) (fun k => v (ix2 k t)) := by
  rw [Ideal.multiReduction_maximumf_single]
  exact congrArg (fun f => Finset.fold max (Ideal.ofBits φ acc) f (Finset.univ : Finset (Fin a)))
    (funext fun k => congrArg v (lift_ix1 h t k))

/-- Position `(p, q)` of an `[a, n, b]` array with middle coordinate `k` put back is `(p, k, q)`. -/
theorem lift_mid {a n b : ℕ} (h : (⟨3, ![a, n, b]⟩ : Shape).Reduces [1] (⟨2, ![a, b]⟩ : Shape)) (p : Fin a) (q : Fin b)
    (k : Fin n) : h.lift (ix2 p q) k = ix3 p k q := by
  funext c; apply Fin.ext
  fin_cases c <;> rfl

/-- The host's reduce with a maximum body over the middle axis of an `[a, n, b]` array, at `(p, q)`, is the fold of
    `max` over that axis from the initial value. -/
theorem hostMidMax_apply {φ : FTy} {a n b : ℕ} {u : Shape} (x : FVec Ideal ⟨3, ![a, n, b]⟩ φ) (init : FVec Ideal u φ)
    (h' : (⟨3, ![a, n, b]⟩ : Shape).ReducesTo [1] (⟨2, ![a, b]⟩ : Shape))
    (h : (⟨3, ![a, n, b]⟩ : Shape).Reduces [1] (⟨2, ![a, b]⟩ : Shape)) (hu : 0 < u.numel) (p : Fin a) (q : Fin b) :
    Host.reduce (FloatOps.maximumf (F := Ideal) (φ := φ)) x init h' hu (ix2 p q)
      = (Finset.univ : Finset (Fin n)).fold max (init (Shape.Idx.first hu)) (fun k => x (ix3 p k q)) := by
  rw [Host.reduce_eq_fold_single (FloatOps.maximumf (F := Ideal) (φ := φ)) x init h' h hu]
  exact congrArg (fun f => Finset.fold max (init (Shape.Idx.first hu)) f (Finset.univ : Finset (Fin n)))
    (funext fun k => congrArg x (lift_mid h p q k))

end Cert.LibColumnReads
-- ==== Proof.LibRowBlocks.lean ====
/-
  Row blocks of the layers of a row-wise network, read at an entry, at the ideal values and over arbitrary extents.

  A kernel that tiles the rows of an array computes each layer on a block of rows. For a matrix product the entry
  (p, q) of the block's product is the sum over k of x (row p, k) * w (k, q), which is the entry (row p, q) of the
  whole product: a row of a product depends on the same row of the left operand only. Rounding an operand to a
  narrower float format is the identity at the ideal values. For a bias the entry (p, q) of "block plus the one-row
  bias broadcast down the rows" is x (p, q) + b (0, q).
-/
import Idealize.ShloMosaic.PureOps.Ideal.Laws
import Idealize.ShloMosaic.Lib.ValueIdx
import Idealize.ShloMosaic.Lib.ValueLayout
import Idealize.ShloMosaic.Lib.Pipeline.Value
import proofs.«104798_j89043261980674_1_alg».proof.Proof.LibPlainDot

noncomputable section

namespace Cert.Lib.RowBlocks

open Idealize.ShloMosaic Idealize.ShloMosaic.ValueIdx

/-- The product of a block of rows (both operands first rounded to a narrower format, into a zero accumulator), at
    entry (p, q), is the whole product's entry (row p, q), when the block's row p is the array's row `row p`. -/
theorem matmul_rows_apply {B M K N : ℕ} {ψ : FTy} (h : ψ.bits < FTy.bits .f32)
    (x0 : FVec Ideal ⟨2, ![B, K]⟩ .f32) (x1 : FVec Ideal ⟨2, ![K, N]⟩ .f32) (X : FVec Ideal ⟨2, ![M, K]⟩ .f32)
    (W : FVec Ideal ⟨2, ![K, N]⟩ .f32) (row : Fin B → Fin M) (hx : ∀ p k, x0 (ix2 p k) = X (ix2 (row p) k))
    (hw : ∀ k q, x1 (ix2 k q) = W (ix2 k q)) (p : Fin B) (q : Fin N) :
    FloatOps.matmul (DotDims.plain B K N) none (truncf ψ x0 h) (truncf ψ x1 h)
        (constant ⟨2, ![B, N]⟩ .f32 0x00000000#32) (ix2 p q)
      = Host.dotGeneral (F := Ideal) (DotDims.plain M K N) none X W (ix2 (row p) q) := by
  rw [Cert.Lib.PlainDot.matmul_zero_apply]
  refine ((Cert.Lib.PlainDot.dotGeneral_apply M K N none .single X W (ix2 (row p) q)).trans ?_).symm
  refine Finset.sum_congr rfl fun k _ => ?_
  show X (ix2 (row p) k) * W (ix2 k q) = truncf ψ x0 h (ix2 p k) * truncf ψ x1 h (ix2 k q)
  rw [truncf_apply, truncf_apply, hx, hw]

/-- A block of rows plus a one-row bias broadcast down the rows, at entry (p, q). -/
theorem bias_rows_apply {B N : ℕ} (x0 : FVec Ideal ⟨2, ![B, N]⟩ .f32) (x1 : FVec Ideal ⟨2, ![1, N]⟩ .f32)
    (h0 : (⟨2, ![B, N]⟩ : Shape).ShapeCasts ⟨2, ![B, N]⟩) (h1 : (⟨2, ![1, N]⟩ : Shape).ShapeCasts ⟨2, ![1, N]⟩)
    (hb : (⟨2, ![1, N]⟩ : Shape).Broadcasts ⟨2, ![B, N]⟩) (p : Fin B) (q : Fin N) :
    addf (shapeCast ⟨2, ![B, N]⟩ x0 h0) (broadcastTo ⟨2, ![B, N]⟩ (shapeCast ⟨2, ![1, N]⟩ x1 h1) hb) (ix2 p q)
      = x0 (ix2 p q) + x1 (ix2 (0 : Fin 1) q) := by
  rw [addf_apply, shapeCast_self, shapeCast_self, broadcastTo_1b_ab_apply]

/-- The same followed by the maximum with a zero splat. -/
theorem bias_relu_rows_apply {B N : ℕ} (x0 : FVec Ideal ⟨2, ![B, N]⟩ .f32) (x1 : FVec Ideal ⟨2, ![1, N]⟩ .f32)
    (h0 : (⟨2, ![B, N]⟩ : Shape).ShapeCasts ⟨2, ![B, N]⟩) (h1 : (⟨2, ![1, N]⟩ : Shape).ShapeCasts ⟨2, ![1, N]⟩)
    (hb : (⟨2, ![1, N]⟩ : Shape).Broadcasts ⟨2, ![B, N]⟩) (z : Ideal .f32) (p : Fin B) (q : Fin N) :
    maximumf (addf (shapeCast ⟨2, ![B, N]⟩ x0 h0) (broadcastTo ⟨2, ![B, N]⟩ (shapeCast ⟨2, ![1, N]⟩ x1 h1) hb))
        (broadcast ⟨2, ![B, N]⟩ z) (ix2 p q)
      = max (x0 (ix2 p q) + x1 (ix2 (0 : Fin 1) q)) z := by
  rw [maximumf_apply, bias_rows_apply, broadcast_apply]

end Cert.Lib.RowBlocks

end
-- ==== Proof.RegSoftmax7.lean ====
/-
  The last region of the kernel as a whole-array value.

  The region walks the 20 row blocks of a [100000, 40] array X; at each block it adds the [1, 40] bias row B to every
  row, takes each row's maximum (a reduction along the lanes from −∞), subtracts it, exponentiates, sums each row (a
  reduction along the lanes from 0), takes the logarithm and subtracts it. Every step acts on one row at a time, so
  row p of block t of the result is the log-softmax of row 5000·t + p of X + B, whatever the other rows hold; the 20
  blocks tile the output array, which therefore ends as the log-softmax of X + B, row by row.
-/
import proofs.«104798_j89043261980674_1_alg».proof.Proof.Gen.KernelIdeal.Frame
import proofs.«104798_j89043261980674_1_alg».proof.Proof.SpecSoftmax
import proofs.«104798_j89043261980674_1_alg».proof.Proof.LibRowReads
import proofs.«104798_j89043261980674_1_alg».proof.Proof.LibColumnReads
import proofs.«104798_j89043261980674_1_alg».proof.Proof.LibRowBlocks
import Idealize.ShloMosaic.Lib.Pipeline.Value
import Idealize.ShloMosaic.Lib.Tactic

noncomputable section

open Idealize.ShloMosaic Idealize.ShloMosaic.TcCoe Idealize.ShloMosaic.ValueIdx Idealize.SL.Sem
open Idealize.ShloMosaic.Pipeline (Dat)
open scoped BigOperators

namespace Cert.KernelIdeal.Reg7

open Cert.KernelIdeal Cert.KernelIdeal.Gen

/-! ## One block: the body's arithmetic, entry by entry -/

/-- The logarithm of a vector, at an index. -/
theorem log_apply {s : Shape} {φ : FTy} (x : FVec Ideal s φ) (i : s.Idx) : log x i = Ideal.log (x i) := rfl

/-- The exponential of a vector, at an index. -/
theorem exp_apply {s : Shape} {φ : FTy} (x : FVec Ideal s φ) (i : s.Idx) : exp x i = Ideal.exp (x i) := rfl

/-- A block of rows shifted by its row maxima (the maxima reduced along the lanes from −∞, made a column and spread
    back along the rows): entry (p, q) less the maximum of row p. -/
theorem shift_apply {B N : ℕ} (v : FVec Ideal ⟨2, ![B, N]⟩ .f32)
    (hr : (⟨2, ![B, N]⟩ : Shape).Reduces [1] (⟨1, ![B]⟩ : Shape)) (hφ : FKind.Formats .f32)
    (hacc : (0xFF800000#32 : BitVec (FTy.bits .f32)) = FKind.maximumf.neutral .f32 hφ)
    (hc : (⟨1, ![B]⟩ : Shape).ShapeCasts ⟨2, ![B, 1]⟩) (hb : (⟨2, ![B, 1]⟩ : Shape).Broadcasts ⟨2, ![B, N]⟩)
    (p : Fin B) (q : Fin N) :
    subf v (broadcastTo ⟨2, ![B, N]⟩ (shapeCast ⟨2, ![B, 1]⟩
        (multiReduction (F := Ideal) .maximumf [1] ⟨1, ![B]⟩ v 0xFF800000#32 hr hφ hacc) hc) hb) (ix2 p q)
      = v (ix2 p q) - Cert.Spec.rowMax v p := by
  rw [subf_apply, Cert.LibColumnReads.broadcastTo_a1_ab_apply, Cert.LibColumnReads.shapeCast_a_a1_apply,
    Cert.LibRowReads.rowMax_apply, Cert.Spec.ofBits_negInf]
  rfl

/-- The log-softmax of a block of rows in the vector unit's spelling, entry by entry. -/
theorem block_apply {B N : ℕ} (v : FVec Ideal ⟨2, ![B, N]⟩ .f32)
    (hr : (⟨2, ![B, N]⟩ : Shape).Reduces [1] (⟨1, ![B]⟩ : Shape)) (hφ : FKind.Formats .f32)
    (hacc : (0xFF800000#32 : BitVec (FTy.bits .f32)) = FKind.maximumf.neutral .f32 hφ)
    (hacc0 : (0x00000000#32 : BitVec (FTy.bits .f32)) = FKind.add.neutral .f32 hφ)
    (hc : (⟨1, ![B]⟩ : Shape).ShapeCasts ⟨2, ![B, 1]⟩) (hb : (⟨2, ![B, 1]⟩ : Shape).Broadcasts ⟨2, ![B, N]⟩)
    (p : Fin B) (q : Fin N) :
    subf
        (subf v (broadcastTo ⟨2, ![B, N]⟩ (shapeCast ⟨2, ![B, 1]⟩
          (multiReduction (F := Ideal) .maximumf [1] ⟨1, ![B]⟩ v 0xFF800000#32 hr hφ hacc) hc) hb))
        (broadcastTo ⟨2, ![B, N]⟩ (log (shapeCast ⟨2, ![B, 1]⟩
          (multiReduction (F := Ideal) .add [1] ⟨1, ![B]⟩
            (exp (subf v (broadcastTo ⟨2, ![B, N]⟩ (shapeCast ⟨2, ![B, 1]⟩
              (multiReduction (F := Ideal) .maximumf [1] ⟨1, ![B]⟩ v 0xFF800000#32 hr hφ hacc) hc) hb)))
            0x00000000#32 hr hφ hacc0) hc)) hb) (ix2 p q)
      = Cert.Spec.logSoftmax v (ix2 p q) := by
  rw [subf_apply, shift_apply, Cert.LibColumnReads.broadcastTo_a1_ab_apply, log_apply,
    Cert.LibColumnReads.shapeCast_a_a1_apply, Cert.LibRowReads.rowSum_apply, Cert.Spec.logSoftmax_apply]
  refine congrArg (fun s => (v (ix2 p q) - Cert.Spec.rowMax v p) - Ideal.log s) ?_
  refine Finset.sum_congr rfl fun k _ => ?_
  rw [exp_apply, shift_apply]

/-- The body's stored value, entry by entry: the log-softmax of the block plus the bias row. -/
theorem pay_apply (x0 : Vec Ideal S5000x40 .f32) (x1 : Vec Ideal S1x40 .f32) (p : Fin 5000) (q : Fin 40) :
    k7_pay1 (F := Ideal) x0 x1 (ix2 p q) = Cert.Spec.logSoftmax (Cert.Spec.addRow x0 x1) (ix2 p q) := by
  have hv : addf (F := Ideal) (φ := .f32) (shapeCast S5000x40 x0 shapeCasts_S5000x40_S5000x40)
      (broadcastTo S5000x40 (shapeCast S1x40 x1 shapeCasts_S1x40_S1x40) broadcasts_S1x40_S5000x40)
        = Cert.Spec.addRow x0 x1 := by
    funext j
    obtain ⟨a, b, rfl⟩ : ∃ (a : Fin 5000) (b : Fin 40), j = ix2 a b := ⟨j 0, j 1, eq_ix2 j⟩
    exact Cert.Lib.RowBlocks.bias_rows_apply x0 x1 _ _ _ a b
  unfold k7_pay1
  dsimp only
  rw [hv]
  exact block_apply (Cert.Spec.addRow x0 x1) reduces_S5000x40_S5000 (.inl rfl) rfl rfl shapeCasts_S5000_S5000x1
    broadcasts_S5000x1_S5000x40 p q

/-! ## The rows of one block are rows of the array -/

/-- The log-softmax of a row depends on that row only. -/
theorem logSoftmax_row {n n' c : ℕ} (h : Cert.Spec.Mat n c) (h' : Cert.Spec.Mat n' c) (p : Fin n) (p' : Fin n')
    (e : ∀ k, h (ix2 p k) = h' (ix2 p' k)) (q : Fin c) :
    Cert.Spec.logSoftmax h (ix2 p q) = Cert.Spec.logSoftmax h' (ix2 p' q) := by
  rw [Cert.Spec.logSoftmax_apply, Cert.Spec.logSoftmax_apply, Cert.Spec.rowMax_congr h h' p p' e, e q]
  exact congrArg (fun s => (h' (ix2 p' q) - Cert.Spec.rowMax h' p') - Ideal.log s)
    (Finset.sum_congr rfl fun k _ => by rw [e k])

/-- What the body stores at entry j of a block whose row (j 0) is row (i 0) of an array A0 and whose bias block is
    the row A1: the log-softmax of A0 + A1 at the entry i of the same column. -/
theorem block_row (x0 : Vec Ideal S5000x40 .f32) (x1 : Vec Ideal S1x40 .f32)
    (A0 : Cert.Spec.Mat 100000 40) (A1 : Cert.Spec.Mat 1 40) (j : S5000x40.Idx) (i : S100000x40.Idx)
    (h0 : ∀ k : Fin 40, x0 (ix2 (j 0) k) = A0 (ix2 (i 0) k))
    (h1 : ∀ k : Fin 40, x1 (ix2 (0 : Fin 1) k) = A1 (ix2 (0 : Fin 1) k)) (hi : i 1 = j 1) :
    k7_pay1 (F := Ideal) x0 x1 j = Cert.Spec.logSoftmax (Cert.Spec.addRow A0 A1) i := by
  obtain ⟨p, q, rfl⟩ : ∃ (p : Fin 5000) (q : Fin 40), j = ix2 p q := ⟨j 0, j 1, eq_ix2 j⟩
  obtain ⟨r, s, rfl⟩ : ∃ (r : Fin 100000) (s : Fin 40), i = ix2 r s := ⟨i 0, i 1, eq_ix2 i⟩
  obtain rfl : s = q := hi
  rw [pay_apply]
  refine logSoftmax_row (Cert.Spec.addRow x0 x1) (Cert.Spec.addRow A0 A1) p r (fun k => ?_) s
  show x0 (ix2 p k) + x1 (ix2 (0 : Fin 1) k) = A0 (ix2 r k) + A1 (ix2 (0 : Fin 1) k)
  rw [h0 k, h1 k]

/-! ## From blocks to the array -/

theorem hz : (![0, 0] : Fin 2 → Nat) = fun _ => 0 := funext fun a => by fin_cases a <;> rfl

/-- The index maps over the 20 points: the input and the output move down the row blocks together, the bias row
    stays. -/
theorem idx_facts : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

variable (V : (c : Dev nD) → (b : Ref sig .tc) → Buf (Elt Ideal) ((c : Thread nD τ).loc b))

/-- The region's output array as one function of its two input arrays. -/
abbrev G (c : Dev nD) : S100000x40.Idx → Elt Ideal .f32 :=
  Cert.Spec.logSoftmax (Cert.Spec.addRow (V c (Pipeline.arrRef spec7 0)) (V c (Pipeline.arrRef spec7 1)))

/-- The input window's block at point t is rows 5000·t … 5000·t + 4999 of the input array. -/
theorem iblk0_apply (c : Dev nD) (t : Fin cfg7.N) (x : S5000x40.Idx) (i : S100000x40.Idx)
    (h0 : (i 0).val = t.val * 5000 + (x 0).val) (h1 : (i 1).val = (x 1).val) :
    (iblk7 V c 0 t : Vec Ideal S5000x40 .f32) x
      = (V c (Pipeline.arrRef spec7 0) : S100000x40.Idx → Elt Ideal .f32) i := by
  obtain ⟨e0, e1, -⟩ := idx_facts t
  unfold iblk7
  rw [View.read_apply]
  show V c (Pipeline.arrRef spec7 0) _ = V c (Pipeline.arrRef spec7 0) _
  congr 1
  funext a
  apply Fin.ext
  match a with
  | ⟨0, _⟩ => show win7_0.index t (0 : Fin 2) * 5000 + 1 * (x 0).val = (i 0).val; rw [e0, h0]; omega
  | ⟨1, _⟩ => show win7_0.index t (1 : Fin 2) * 40 + 1 * (x 1).val = (i 1).val; rw [e1, h1]; omega

/-- The bias window's block at every point is the whole bias row. -/
theorem iblk1_apply (c : Dev nD) (t : Fin cfg7.N) (x : S1x40.Idx) :
    (iblk7 V c 1 t : Vec Ideal S1x40 .f32) x = (V c (Pipeline.arrRef spec7 1) : S1x40.Idx → Elt Ideal .f32) x := by
  obtain ⟨-, -, e2, e3, -⟩ := idx_facts t
  unfold iblk7
  rw [View.read_apply]
  show V c (Pipeline.arrRef spec7 1) _ = V c (Pipeline.arrRef spec7 1) _
  congr 1
  funext a
  apply Fin.ext
  have hx0 : (x 0).val < 1 := (x 0).isLt
  match a with
  | ⟨0, _⟩ => show win7_1.index t (0 : Fin 2) * 1 + 1 * (x 0).val = (x 0).val; rw [e2]; omega
  | ⟨1, _⟩ => show win7_1.index t (1 : Fin 2) * 40 + 1 * (x 1).val = (x 1).val; rw [e3]; omega

/-- What the body leaves at point t, entry by entry. -/
theorem after_apply (c : Dev nD) (t : Fin cfg7.N) (j : S5000x40.Idx) :
    ((dat7 V c).after 2 t : Vec Ideal S5000x40 .f32) j = k7_pay1 (F := Ideal) (iblk7 V c 0 t) (iblk7 V c 1 t) j := by
  rw [after7_2]
  unfold out7_2
  rw [View.canon_unit_zero hz]
  simp only [View.ld_unit_zero (S := S5000x40) hz, View.ld_unit_zero (S := S1x40) hz]

/-- The body's result at point t is the log-softmax of the arrays' rows under the output's block. -/
theorem after_eq (c : Dev nD) (t : Fin cfg7.N) (j : S5000x40.Idx) (i : S100000x40.Idx)
    (h0 : (i 0).val = t.val * 5000 + (j 0).val) (h1 : i 1 = j 1) :
    ((dat7 V c).after 2 t : Vec Ideal S5000x40 .f32) j = G V c i := by
  rw [after_apply]
  refine block_row (iblk7 V c 0 t) (iblk7 V c 1 t) (V c (Pipeline.arrRef spec7 0)) (V c (Pipeline.arrRef spec7 1)) j i
    (fun k => iblk0_apply V c t (ix2 (j 0) k) (ix2 (i 0) k) h0 rfl) (fun k => iblk1_apply V c t (ix2 (0 : Fin 1) k)) h1

/-- What point t writes back is block t of G. -/
theorem flushed_eq (c : Dev nD) (t : Fin cfg7.N) :
    (dat7 V c).flushed 2 t = ((cfg7.win 2).blk t).view.read (Elt Ideal) (G V c) := by
  obtain ⟨-, -, -, -, e4, e5⟩ := idx_facts t
  funext j
  show ((dat7 V c).after 2 t : Vec Ideal S5000x40 .f32) j = G V c (((cfg7.win 2).blk t).view.emb j)
  refine after_eq V c t j (((cfg7.win 2).blk t).view.emb j) ?_ ?_
  · show win7_2.index t (0 : Fin 2) * 5000 + 1 * (j 0).val = t.val * 5000 + (j 0).val
    rw [e4]; omega
  · apply Fin.ext
    show win7_2.index t (1 : Fin 2) * 40 + 1 * (j 1).val = (j 1).val
    rw [e5]; omega

/-- An index of the array is in point t's block iff each coordinate is in the block's range on its axis. -/
theorem mem_blk (t : Fin cfg7.N) (i : S100000x40.Idx) :
    i ∈ ((cfg7.win 2).blk t).view.set ↔ ∀ a : Fin 2, win7_2.index t a * S5000x40.size a ≤ (i a).val
      ∧ (i a).val < win7_2.index t a * S5000x40.size a + S5000x40.size a := by
  show i ∈ ((View.whole main_v90).slice (win7_2.rect t)).set ↔ _
  rw [View.set_slice_whole, Rect.mem_set_unit]
  exact Iff.rfl

/-- Row r lies in the block of point r / 5000: the 20 blocks tile the array. -/
theorem cover (i : S100000x40.Idx) :
    ∃ t : Fin cfg7.N, (cfg7.win 2).flush t = true ∧ i ∈ ((cfg7.win 2).blk t).view.set := by
  have h0 : (i 0).val < 100000 := (i 0).isLt
  have h1 : (i 1).val < 40 := (i 1).isLt
  have hN : cfg7.N = 20 := N_7
  obtain ⟨t, ht⟩ : ∃ t : Fin cfg7.N, t.val = (i 0).val / 5000 := ⟨⟨(i 0).val / 5000, by rw [hN]; omega⟩, rfl⟩
  obtain ⟨e0, e1, e2, e3, e4, e5⟩ := idx_facts t
  refine ⟨t, flush7_2 t, ?_⟩
  rw [mem_blk]
  intro a
  match a with
  | ⟨0, _⟩ =>
    show win7_2.index t (0 : Fin 2) * 5000 ≤ (i 0).val ∧ (i 0).val < win7_2.index t (0 : Fin 2) * 5000 + 5000
    rw [e4, ht]; omega
  | ⟨1, _⟩ =>
    show win7_2.index t (1 : Fin 2) * 40 ≤ (i 1).val ∧ (i 1).val < win7_2.index t (1 : Fin 2) * 40 + 40
    rw [e5]; omega

/-- The region's output array after the run: the log-softmax of the input array plus the bias row. -/
theorem final (c : Dev nD) :
    (dat7 (F := Ideal) V c).arrAt 2 cfg7.N
      = Cert.Spec.logSoftmax (Cert.Spec.addRow (V c (Pipeline.arrRef spec7 0)) (V c (Pipeline.arrRef spec7 1))) :=
  (dat7 V c).arrAt_eq_of_cover 2 (G V c) (fun t _ => flushed_eq V c t) cover

end Cert.KernelIdeal.Reg7

end
-- ==== Proof.LibVarLaw.lean ====
/-
  The variance law over the extended reals.

  For finitely many REAL numbers x_i and n their count, the mean of the squared deviations from the mean,
  (∑ (x_i − (∑ x)/n)²)/n, is the mean of the squares minus the square of the mean, (∑ x_i²)/n − ((∑ x)/n)². Over the extended
  reals, with the ideal quotient, the same holds when every entry is a real number and the divisor is a real that is not
  zero (at an infinite entry the two sides differ: one is +∞, the other −∞). This is the step between a batch
  normalization that takes its variance textbook-wise and one that accumulates sums and sums of squares.
-/
import Idealize.ShloMosaic.PureOps.Ideal

noncomputable section

namespace Cert.Lib.VarLaw

open Idealize.ShloMosaic
open scoped BigOperators

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- In the reals: with `n` the number of terms, the mean of the squared deviations from the mean is the mean of the
    squares minus the square of the mean. -/
theorem var_real {ι : Type*} [Fintype ι] (f : ι → ℝ) (n : ℝ) (hn : n ≠ 0) (hcard : (Fintype.card ι : ℝ) = n) :
    (∑ i, (f i - (∑ k, f k) * (1 / n)) * (f i - (∑ k, f k) * (1 / n))) * (1 / n)
      = (∑ i, f i * f i) * (1 / n) - (∑ i, f i) * (1 / n) * ((∑ i, f i) * (1 / n)) := by
  have key : ∀ m : ℝ, ∑ i, (f i - m) * (f i - m)
      = (∑ i, f i * f i) - 2 * m * (∑ i, f i) + (Fintype.card ι : ℝ) * (m * m) := by
    intro m
    have e : ∀ i, (f i - m) * (f i - m) = f i * f i - 2 * m * f i + m * m := fun i => by ring
    simp only [e, Finset.sum_add_distrib, Finset.sum_sub_distrib, ← Finset.mul_sum, Finset.sum_const, Finset.card_univ,
      nsmul_eq_mul]
    ring
  rw [key, hcard]
  field_simp
  ring

/-- The same over the extended reals, for real entries and a real divisor that is not zero, with the ideal quotient. -/
theorem var_law {ι : Type*} [Fintype ι] (x : ι → EReal) (hx : ∀ i, ∃ r : ℝ, x i = (r : EReal)) (n : ℝ) (hn : n ≠ 0)
    (hcard : (Fintype.card ι : ℝ) = n) :
    Ideal.div (∑ i, (x i - Ideal.div (∑ k, x k) (n : EReal)) * (x i - Ideal.div (∑ k, x k) (n : EReal))) (n : EReal)
      = Ideal.div (∑ i, x i * x i) (n : EReal) - Ideal.div (∑ i, x i) (n : EReal) * Ideal.div (∑ i, x i) (n : EReal) := by
  choose f hf using hx
  obtain rfl : x = fun i => (f i : EReal) := funext hf
  simp only [Ideal.div_coe hn, ← coe_sum, ← EReal.coe_mul, ← EReal.coe_sub]
  exact congrArg _ (var_real f n hn hcard)

end Cert.Lib.VarLaw

end
-- ==== Proof.LibHostIndex.lean ====
/-
  THE HOST'S GATHER AND SCATTER-ADD READ AT AN INDEX, for the dimension numbers that row indexing of a matrix and
  cell indexing of a matrix lower to. General lemmas over the extents `N`, `M`, `R`, `C`: nothing here mentions a program.

  * Row scatter-add (a segment sum, `x.at[idx].add(upd)` on rows): operand `[N, C]`, scatter indices `[R, 1]`, updates
    `[R, C]`. Row `e` of the updates lands on row `idx[e, 0]` of the operand, the index read as a signed integer and NOT
    clamped, the column kept; a row whose index is outside `[0, N)` is dropped. So element `(i, c)` of the result is
    `x (i, c)` plus the sum of `upd (e, c)` over the rows `e` whose index is `i` (`scatterAdd_rows_apply`).
  * Cell scatter-add (`x.at[rows, cols].add(v)` on a matrix): operand `[N, M]`, scatter indices `[R, 2]`, updates `[R]`.
    Update `e` lands on cell `(idx[e, 0], idx[e, 1])`, both read signed and not clamped; so element `(i, j)` of the result is
    `x (i, j)` plus the sum of `upd e` over the `e` whose index pair is `(i, j)` (`scatterAdd_cells_apply`).
  * Vector scatter-add (`x.at[idx].add(v)` on a vector): operand `[N]`, scatter indices `[R, 1]`, updates `[R]`: element `i`
    of the result is `x i` plus the sum of `upd e` over the `e` whose signed index is `i` (`scatterAdd_vec_apply`).
  * Row gather (`x[idx]` on a matrix): operand `[N, C]`, start indices `[R, 1]`, result `[R, C]`. Row `e` of the result is
    the operand's row `idx[e, 0]`, the index read signed and CLAMPED into `[0, N − 1]` (`gather_rows_apply`); and the
    same for a vector operand `[N]` (`gather_vec_apply`).

  Each scatter lemma has the same two steps. First the landing place of one update index is computed coordinate by
  coordinate from the dimension numbers (the start is the signed index on the axis the map names, the window coordinate
  is the update's own coordinate on a window axis and zero on an inserted one), which says exactly when an update lands
  on a given element (`…_resultIdx_iff`). Then the sum over the update indices that land there is re-indexed by the
  update's row alone, the other coordinate being forced.
-/
import Idealize.ShloMosaic.PureOps.Ideal
import Idealize.ShloMosaic.Lib.ValueIdx

noncomputable section

open scoped BigOperators

namespace Cert.Lib.HostIndex

open Idealize.ShloMosaic Idealize.ShloMosaic.ValueIdx

/-! ## Row scatter-add: operand `[N, C]`, scatter indices `[R, 1]`, updates `[R, C]` -/

/-- The dimension numbers of a scatter of whole rows: the updates' axis 1 is the window axis (it goes to the operand's
    axis 1), the operand's axis 0 is inserted and is the one the scatter index names. Their conditions `wf` are decided
    on a program's literal shapes. -/
abbrev rowScatterDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section RowScatter
variable {N R C w : Nat} (wf : ScatterDims.WF ⟨2, ![N, C]⟩ ⟨2, ![R, 1]⟩ ⟨2, ![R, C]⟩ [1] [0] [0] 1)

/-- On the row axis the window of update `(e, c')` starts at the signed index `idx[e, 0]` … -/
theorem rowScatter_start0 (idx : IVec ⟨2, ![R, 1]⟩ w) (e : Fin R) (c' : Fin C) :
    (rowScatterDims N R C wf).start (ix2 e c') idx 0 = (idx (ix2 e 0)).toInt := by
  unfold ScatterDims.start
  rw [dif_pos (show (0 : Fin 2) ∈ (rowScatterDims N R C wf).scatterDimsToOperandDims from List.mem_singleton.mpr rfl)]
  have hsi : (rowScatterDims N R C wf).siIdx (ix2 e c') ⟨List.idxOf (0 : Fin 2) (rowScatterDims N R C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and on the column axis, which the map does not name, at `0`. -/
theorem rowScatter_start1 (idx : IVec ⟨2, ![R, 1]⟩ w) (e : Fin R) (c' : Fin C) :
    (rowScatterDims N R C wf).start (ix2 e c') idx 1 = 0 := by
  unfold ScatterDims.start
  rw [dif_neg (show (1 : Fin 2) ∉ ([0] : List (Fin 2)) by decide)]

/-- The row axis is inserted: the window coordinate there is `0` … -/
theorem rowScatter_window0 (e : Fin R) (c' : Fin C) :
    (rowScatterDims N R C wf).window (ix2 e c') 0 = 0 := by
  have h : (0 : Fin 2) ∉ (rowScatterDims N R C wf).sKept := by
    show (0 : Fin 2) ∉ (List.finRange 2).filter (· ∉ ([0] : List (Fin 2)))
    decide
  unfold ScatterDims.window
  rw [dif_neg h]

/-- … and on the column axis it is the update's own column. -/
theorem rowScatter_window1 (e : Fin R) (c' : Fin C) :
    (rowScatterDims N R C wf).window (ix2 e c') 1 = c'.val := by
  unfold ScatterDims.window
  have h : (1 : Fin 2) ∈ (rowScatterDims N R C wf).sKept := by
    show (1 : Fin 2) ∈ (List.finRange 2).filter (· ∉ ([0] : List (Fin 2)))
    decide
  rw [dif_pos h]
  rfl

/-- WHERE AN UPDATE LANDS: update `(e, c')` lands on element `(i, c)` exactly when its signed index is `i` and its
    column is `c`. (When the index is outside `[0, N)` the update lands nowhere, and the right side fails for every `i`.) -/
theorem rowScatter_resultIdx_iff (idx : IVec ⟨2, ![R, 1]⟩ w) (e : Fin R) (c' : Fin C) (i : Fin N) (c : Fin C) :
    (rowScatterDims N R C wf).resultIdx? (ix2 e c') idx = some (ix2 i c)
      ↔ (idx (ix2 e 0)).toInt = (i.val : Int) ∧ c' = c := by
  have hs0 := rowScatter_start0 wf idx e c'
  have hs1 := rowScatter_start1 wf idx e c'
  have hw0 := rowScatter_window0 wf e c'
  have hw1 := rowScatter_window1 wf e c'
  have hi : i.val < N := i.isLt
  have hc' : c'.val < C := c'.isLt
  unfold ScatterDims.resultIdx?
  split
  · rename_i h
    rw [Option.some.injEq]
    constructor
    · intro hf
      have h0 : ((rowScatterDims N R C wf).start (ix2 e c') idx 0 + ((rowScatterDims N R C wf).window (ix2 e c') 0 : Int)).toNat = i.val :=
        congrArg (fun f : (⟨2, ![N, C]⟩ : Shape).Idx => (f 0).val) hf
      have h1 : ((rowScatterDims N R C wf).start (ix2 e c') idx 1 + ((rowScatterDims N R C wf).window (ix2 e c') 1 : Int)).toNat = c.val :=
        congrArg (fun f : (⟨2, ![N, C]⟩ : Shape).Idx => (f 1).val) hf
      have g0 := (h 0).1
      rw [hs0, hw0] at h0 g0
      rw [hs1, hw1] at h1
      refine ⟨by omega, Fin.ext (by omega)⟩
    · rintro ⟨ht, rfl⟩
      funext a; refine Fin.ext ?_
      match a with
      | ⟨0, _⟩ =>
        show ((rowScatterDims N R C wf).start (ix2 e c') idx 0 + ((rowScatterDims N R C wf).window (ix2 e c') 0 : Int)).toNat = i.val
        rw [hs0, hw0]; omega
      | ⟨1, _⟩ =>
        show ((rowScatterDims N R C wf).start (ix2 e c') idx 1 + ((rowScatterDims N R C wf).window (ix2 e c') 1 : Int)).toNat = c'.val
        rw [hs1, hw1]; omega
  · rename_i h
    refine iff_of_false (by simp) ?_
    rintro ⟨ht, rfl⟩
    apply h
    intro a
    match a with
    | ⟨0, _⟩ =>
      show 0 ≤ (rowScatterDims N R C wf).start (ix2 e c') idx 0 + ((rowScatterDims N R C wf).window (ix2 e c') 0 : Int)
        ∧ (rowScatterDims N R C wf).start (ix2 e c') idx 0 + ((rowScatterDims N R C wf).window (ix2 e c') 0 : Int) < (N : Int)
      rw [hs0, hw0]; omega
    | ⟨1, _⟩ =>
      show 0 ≤ (rowScatterDims N R C wf).start (ix2 e c') idx 1 + ((rowScatterDims N R C wf).window (ix2 e c') 1 : Int)
        ∧ (rowScatterDims N R C wf).start (ix2 e c') idx 1 + ((rowScatterDims N R C wf).window (ix2 e c') 1 : Int) < (C : Int)
      rw [hs1, hw1]; omega

/-- THE ROW SCATTER-ADD READ AT `(i, c)`: the operand's element plus the sum of column `c` of the update rows whose index,
    read signed, is `i`. The sum over the update indices `(e, c')` that land on `(i, c)` is split by coordinates; for each
    row `e` the inner sum over `c'` has the one term `c' = c`, present exactly when the row's index is `i`. -/
theorem scatterAdd_rows_apply (x : (⟨2, ![N, C]⟩ : Shape).Idx → EReal) (idx : IVec ⟨2, ![R, 1]⟩ w)
    (upd : (⟨2, ![R, C]⟩ : Shape).Idx → EReal) (i : Fin N) (c : Fin C) :
    Ideal.hostScatterAdd (rowScatterDims N R C wf) x idx upd (ix2 i c)
      = x (ix2 i c) + ∑ e ∈ Finset.univ.filter (fun e : Fin R => (idx (ix2 e 0)).toInt = (i.val : Int)), upd (ix2 e c) := by
  unfold Ideal.hostScatterAdd
  congr 1
  rw [Finset.sum_filter, Finset.sum_filter, sum_idx2]
  refine Finset.sum_congr rfl fun e _ => ?_
  simp only [rowScatter_resultIdx_iff]
  by_cases hq : (idx (ix2 e 0)).toInt = (i.val : Int)
  · simp only [hq, true_and, if_true]
    rw [Finset.sum_ite_eq']
    simp
  · simp [hq]

end RowScatter

/-! ## Cell scatter-add: operand `[N, M]`, scatter indices `[R, 2]`, updates `[R]` -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-- The dimension numbers of a scatter of single cells: the updates have no window axis, both operand axes are
    inserted, and the scatter index's two components name the operand's axes 0 and 1 in order. Their conditions `wf`
    are decided on a program's literal shapes. -/
abbrev cellScatterDims (N M R : Nat)
    (wf : ScatterDims.WF ⟨2, ![N, M]⟩ ⟨2, ![R, 2]⟩ ⟨1, ![R]⟩ [] [0, 1] [0, 1] 1) :
    ScatterDims ⟨2, ![N, M]⟩ ⟨2, ![R, 2]⟩ ⟨1, ![R]⟩ where
  updateWindowDims := []
  insertedWindowDims := [0, 1]
  scatterDimsToOperandDims := [0, 1]
  indexVectorDim := 1
  wf := wf

section CellScatter
variable {N M R w : Nat} (wf : ScatterDims.WF ⟨2, ![N, M]⟩ ⟨2, ![R, 2]⟩ ⟨1, ![R]⟩ [] [0, 1] [0, 1] 1)

/-- On the row axis update `e` starts at the signed index `idx[e, 0]` … -/
theorem cellScatter_start0 (idx : IVec ⟨2, ![R, 2]⟩ w) (e : Fin R) :
    (cellScatterDims N M R wf).start (ix1 e) idx 0 = (idx (ix2 e 0)).toInt := by
  have hm : (0 : Fin 2) ∈ (cellScatterDims N M R wf).scatterDimsToOperandDims := by
    show (0 : Fin 2) ∈ ([0, 1] : List (Fin 2))
    decide
  unfold ScatterDims.start
  rw [dif_pos hm]
  have hsi : (cellScatterDims N M R wf).siIdx (ix1 e) ⟨List.idxOf (0 : Fin 2) (cellScatterDims N M R wf).scatterDimsToOperandDims,
      List.idxOf_lt_length_iff.2 hm⟩ = ix2 e 0 := by
    funext b; refine Fin.ext ?_
    match b with
    | ⟨0, _⟩ => rfl
    | ⟨1, _⟩ => rfl
  rw [hsi]

/-- … and on the column axis at the signed index `idx[e, 1]`. -/
theorem cellScatter_start1 (idx : IVec ⟨2, ![R, 2]⟩ w) (e : Fin R) :
    (cellScatterDims N M R wf).start (ix1 e) idx 1 = (idx (ix2 e 1)).toInt := by
  have hm : (1 : Fin 2) ∈ (cellScatterDims N M R wf).scatterDimsToOperandDims := by
    show (1 : Fin 2) ∈ ([0, 1] : List (Fin 2))
    decide
  unfold ScatterDims.start
  rw [dif_pos hm]
  have hsi : (cellScatterDims N M R wf).siIdx (ix1 e) ⟨List.idxOf (1 : Fin 2) (cellScatterDims N M R wf).scatterDimsToOperandDims,
      List.idxOf_lt_length_iff.2 hm⟩ = ix2 e 1 := by
    funext b; refine Fin.ext ?_
    match b with
    | ⟨0, _⟩ => rfl
    | ⟨1, _⟩ => rfl
  rw [hsi]

/-- Both operand axes are inserted: the window coordinate is `0` on each. -/
theorem cellScatter_window (e : Fin R) (a : Fin 2) :
    (cellScatterDims N M R wf).window (ix1 e) a = 0 := by
  have h : a ∉ (cellScatterDims N M R wf).sKept := by
    show a ∉ (List.finRange 2).filter (· ∉ ([0, 1] : List (Fin 2)))
    revert a; decide
  unfold ScatterDims.window
  rw [dif_neg h]

/-- WHERE AN UPDATE LANDS: update `e` lands on cell `(i, j)` exactly when its signed index pair is `(i, j)`. -/
theorem cellScatter_resultIdx_iff (idx : IVec ⟨2, ![R, 2]⟩ w) (e : Fin R) (i : Fin N) (j : Fin M) :
    (cellScatterDims N M R wf).resultIdx? (ix1 e) idx = some (ix2 i j)
      ↔ (idx (ix2 e 0)).toInt = (i.val : Int) ∧ (idx (ix2 e 1)).toInt = (j.val : Int) := by
  have hs0 := cellScatter_start0 wf idx e
  have hs1 := cellScatter_start1 wf idx e
  have hw0 := cellScatter_window wf e 0
  have hw1 := cellScatter_window wf e 1
  have hi : i.val < N := i.isLt
  have hj : j.val < M := j.isLt
  unfold ScatterDims.resultIdx?
  split
  · rename_i h
    rw [Option.some.injEq]
    constructor
    · intro hf
      have h0 : ((cellScatterDims N M R wf).start (ix1 e) idx 0 + ((cellScatterDims N M R wf).window (ix1 e) 0 : Int)).toNat = i.val :=
        congrArg (fun f : (⟨2, ![N, M]⟩ : Shape).Idx => (f 0).val) hf
      have h1 : ((cellScatterDims N M R wf).start (ix1 e) idx 1 + ((cellScatterDims N M R wf).window (ix1 e) 1 : Int)).toNat = j.val :=
        congrArg (fun f : (⟨2, ![N, M]⟩ : Shape).Idx => (f 1).val) hf
      have g0 := (h 0).1
      have g1 := (h 1).1
      rw [hs0, hw0] at h0 g0
      rw [hs1, hw1] at h1 g1
      exact ⟨by omega, by omega⟩
    · rintro ⟨ht0, ht1⟩
      funext a; refine Fin.ext ?_
      match a with
      | ⟨0, _⟩ =>
        show ((cellScatterDims N M R wf).start (ix1 e) idx 0 + ((cellScatterDims N M R wf).window (ix1 e) 0 : Int)).toNat = i.val
        rw [hs0, hw0]; omega
      | ⟨1, _⟩ =>
        show ((cellScatterDims N M R wf).start (ix1 e) idx 1 + ((cellScatterDims N M R wf).window (ix1 e) 1 : Int)).toNat = j.val
        rw [hs1, hw1]; omega
  · rename_i h
    refine iff_of_false (by simp) ?_
    rintro ⟨ht0, ht1⟩
    apply h
    intro a
    match a with
    | ⟨0, _⟩ =>
      show 0 ≤ (cellScatterDims N M R wf).start (ix1 e) idx 0 + ((cellScatterDims N M R wf).window (ix1 e) 0 : Int)
        ∧ (cellScatterDims N M R wf).start (ix1 e) idx 0 + ((cellScatterDims N M R wf).window (ix1 e) 0 : Int) < (N : Int)
      rw [hs0, hw0]; omega
    | ⟨1, _⟩ =>
      show 0 ≤ (cellScatterDims N M R wf).start (ix1 e) idx 1 + ((cellScatterDims N M R wf).window (ix1 e) 1 : Int)
        ∧ (cellScatterDims N M R wf).start (ix1 e) idx 1 + ((cellScatterDims N M R wf).window (ix1 e) 1 : Int) < (M : Int)
      rw [hs1, hw1]; omega

/-- THE CELL SCATTER-ADD READ AT `(i, j)`: the operand's element plus the sum of the updates whose index pair, read
    signed, is `(i, j)`. -/
theorem scatterAdd_cells_apply (x : (⟨2, ![N, M]⟩ : Shape).Idx → EReal) (idx : IVec ⟨2, ![R, 2]⟩ w)
    (upd : (⟨1, ![R]⟩ : Shape).Idx → EReal) (i : Fin N) (j : Fin M) :
    Ideal.hostScatterAdd (cellScatterDims N M R wf) x idx upd (ix2 i j)
      = x (ix2 i j) + ∑ e ∈ Finset.univ.filter (fun e : Fin R =>
          (idx (ix2 e 0)).toInt = (i.val : Int) ∧ (idx (ix2 e 1)).toInt = (j.val : Int)), upd (ix1 e) := by
  unfold Ideal.hostScatterAdd
  congr 1
  rw [Finset.sum_filter, Finset.sum_filter, sum_idx1]
  refine Finset.sum_congr rfl fun e _ => ?_
  simp only [cellScatter_resultIdx_iff]

end CellScatter

/-! ## Vector scatter-add: operand `[N]`, scatter indices `[R, 1]`, updates `[R]` -/

/-- The dimension numbers of `x.at[idx].add(v)` on a vector with the indices as a column: the updates have no window
    axis, the operand's one axis is inserted and named by the scatter index. -/
abbrev vecScatterDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

section VecScatter
variable {N R w : Nat} (wf : ScatterDims.WF ⟨1, ![N]⟩ ⟨2, ![R, 1]⟩ ⟨1, ![R]⟩ [] [0] [0] 1)

/-- Update `e` starts at the signed index `idx[e, 0]` … -/
theorem vecScatter_start (idx : IVec ⟨2, ![R, 1]⟩ w) (e : Fin R) :
    (vecScatterDims N R wf).start (ix1 e) idx 0 = (idx (ix2 e 0)).toInt := by
  unfold ScatterDims.start
  rw [dif_pos (show (0 : Fin 1) ∈ (vecScatterDims N R wf).scatterDimsToOperandDims from List.mem_singleton.mpr rfl)]
  have hsi : (vecScatterDims N R wf).siIdx (ix1 e) ⟨List.idxOf (0 : Fin 1) (vecScatterDims N R wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and, the axis being inserted, its window coordinate is `0`. -/
theorem vecScatter_window (e : Fin R) :
    (vecScatterDims N R wf).window (ix1 e) 0 = 0 := by
  have h : (0 : Fin 1) ∉ (vecScatterDims N R wf).sKept := by
    show (0 : Fin 1) ∉ (List.finRange 1).filter (· ∉ ([0] : List (Fin 1)))
    decide
  unfold ScatterDims.window
  rw [dif_neg h]

/-- WHERE AN UPDATE LANDS: update `e` lands on element `i` exactly when its signed index is `i`. -/
theorem vecScatter_resultIdx_iff (idx : IVec ⟨2, ![R, 1]⟩ w) (e : Fin R) (i : Fin N) :
    (vecScatterDims N R wf).resultIdx? (ix1 e) idx = some (ix1 i) ↔ (idx (ix2 e 0)).toInt = (i.val : Int) := by
  have hs0 := vecScatter_start wf idx e
  have hw0 := vecScatter_window wf e
  have hi : i.val < N := i.isLt
  unfold ScatterDims.resultIdx?
  split
  · rename_i h
    rw [Option.some.injEq]
    constructor
    · intro hf
      have h0 : ((vecScatterDims N R wf).start (ix1 e) idx 0 + ((vecScatterDims N R wf).window (ix1 e) 0 : Int)).toNat = i.val :=
        congrArg (fun f : (⟨1, ![N]⟩ : Shape).Idx => (f 0).val) hf
      have g0 := (h 0).1
      rw [hs0, hw0] at h0 g0
      omega
    · intro ht
      funext a; refine Fin.ext ?_
      match a with
      | ⟨0, _⟩ =>
        show ((vecScatterDims N R wf).start (ix1 e) idx 0 + ((vecScatterDims N R wf).window (ix1 e) 0 : Int)).toNat = i.val
        rw [hs0, hw0]; omega
  · rename_i h
    refine iff_of_false (by simp) ?_
    intro ht
    apply h
    intro a
    match a with
    | ⟨0, _⟩ =>
      show 0 ≤ (vecScatterDims N R wf).start (ix1 e) idx 0 + ((vecScatterDims N R wf).window (ix1 e) 0 : Int)
        ∧ (vecScatterDims N R wf).start (ix1 e) idx 0 + ((vecScatterDims N R wf).window (ix1 e) 0 : Int) < (N : Int)
      rw [hs0, hw0]; omega

/-- THE VECTOR SCATTER-ADD READ AT `i`: the operand's element plus the sum of the updates whose index, read signed,
    is `i`. -/
theorem scatterAdd_vec_apply (x : (⟨1, ![N]⟩ : Shape).Idx → EReal) (idx : IVec ⟨2, ![R, 1]⟩ w)
    (upd : (⟨1, ![R]⟩ : Shape).Idx → EReal) (i : Fin N) :
    Ideal.hostScatterAdd (vecScatterDims N R wf) x idx upd (ix1 i)
      = x (ix1 i) + ∑ e ∈ Finset.univ.filter (fun e : Fin R => (idx (ix2 e 0)).toInt = (i.val : Int)), upd (ix1 e) := by
  unfold Ideal.hostScatterAdd
  congr 1
  rw [Finset.sum_filter, Finset.sum_filter, sum_idx1]
  refine Finset.sum_congr rfl fun e _ => ?_
  simp only [vecScatter_resultIdx_iff]

end VecScatter

/-! ## Row gather: operand `[N, C]`, start indices `[R, 1]`, result `[R, C]` -/

/-- The dimension numbers of a gather of whole rows: the result's axis 1 is the offset axis (it reads the operand's
    axis 1, kept whole), the operand's axis 0 is collapsed and is the one the start index names. Their conditions `wf`
    are decided on a program's literal shapes. -/
abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

section RowGather
variable {α : Type} {N R C w : Nat}

/-- THE ROW GATHER READ AT `(e, c)`: the operand at row `idx[e, 0]`, read signed and clamped into `[0, N − 1]`, and
    column `c`. On the row axis the operand coordinate is the clamped start alone (the axis is collapsed: no offset); on
    the column axis the start is `0` (the map does not name it) and the offset is the result's own column. -/
theorem gather_rows_apply (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (c : Fin C) :
    Host.gather (rowGatherDims N R C wf) x idx (ix2 e c)
      = x (ix2 ⟨min (idx (ix2 e 0)).toInt.toNat (N - 1), by omega⟩ c) := by
  unfold Host.gather
  congr 1
  funext a
  refine Fin.ext ?_
  match a with
  | ⟨0, _⟩ =>
    show (rowGatherDims N R C wf).start (ix2 e c) idx 0 + (rowGatherDims N R C wf).batchCoord (ix2 e c) 0
      + (rowGatherDims N R C wf).offCoord (ix2 e c) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N R C wf).startIndexMap from List.mem_singleton.mpr rfl)]
    have hsi : (rowGatherDims N R C wf).siIdx (ix2 e c) ⟨List.idxOf (0 : Fin 2) (rowGatherDims N R C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N R C wf).start (ix2 e c) idx 1 + (rowGatherDims N R C wf).batchCoord (ix2 e c) 1
      + (rowGatherDims N R C wf).offCoord (ix2 e c) 1 = c.val
    rw [GatherDims.batchCoord_eq_zero _ _ _ List.not_mem_nil]
    have hs : (rowGatherDims N R C wf).start (ix2 e c) idx 1 = 0 := by
      unfold GatherDims.start
      rw [dif_neg (show (1 : Fin 2) ∉ ([0] : List (Fin 2)) by decide)]
    have hk : (1 : Fin 2) ∈ (rowGatherDims N R C wf).sKept := by
      show (1 : Fin 2) ∈ (List.finRange 2).filter (· ∉ (([0] : List (Fin 2)) ++ []))
      decide
    have ho : (rowGatherDims N R C wf).offCoord (ix2 e c) 1 = c.val := by
      unfold GatherDims.offCoord
      rw [dif_pos hk]
      rfl
    rw [hs, ho]
    omega

end RowGather

/-! ## Vector gather: operand `[N]`, start indices `[R, 1]`, result `[R]` -/

/-- The dimension numbers of `x[idx]` on a vector with the indices as a column: no offset axis, the operand's one axis
    collapsed and named by the start index. -/
abbrev vecGatherDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

section VecGather
variable {α : Type} {N R w : Nat}

/-- THE VECTOR GATHER READ AT `e`: the operand at `idx[e, 0]`, read signed and clamped into `[0, N − 1]`. -/
theorem gather_vec_apply (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (vecGatherDims N R wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (vecGatherDims N R wf).start (ix1 e) idx 0 + (vecGatherDims N R wf).batchCoord (ix1 e) 0
    + (vecGatherDims N R wf).offCoord (ix1 e) 0 = min (idx (ix2 e 0)).toInt.toNat (N - 1)
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N R wf).startIndexMap from List.mem_singleton.mpr rfl)]
  have hsi : (vecGatherDims N R wf).siIdx (ix1 e) ⟨List.idxOf (0 : Fin 1) (vecGatherDims N R wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end VecGather

end Cert.Lib.HostIndex

end
-- ==== Proof.LibGcnLaw.lean ====
/-
  The algebra that joins the two arrangements of a graph-convolution layer, over the extended reals.

  One arrangement scales a node's neighbour sum by the node's factor after summing; the other scales each summand by the
  product of the destination's and the source's factors before summing. A factor `c` with `0 ≤ c < ⊤` distributes over
  a finite sum of extended reals whatever the summands are (an infinite summand of either sign is kept by a positive
  finite factor and annihilated by zero on both sides), so the two arrangements agree with no finiteness asked of the
  features. The factor here is `1 / √deg` where the degree is positive and zero elsewhere, which always lies in
  `[0, ⊤)`: the reciprocal root of a positive real is a positive real, and that of `⊤` is `0`.

  Also: a 32-bit index word whose signed value is a row number `0 ≤ n < N` is left alone by the wrap that adds `N` to
  negative words, and clamping its value into `[0, N − 1]` gives `n` back.
-/
import Idealize.ShloMosaic.PureOps.Ideal

noncomputable section

open scoped BigOperators

namespace Cert.Gcn

open Idealize.ShloMosaic

/-- A nonnegative finite factor distributes over a finite sum of extended reals. -/
theorem mul_sum_of_nonneg_of_ne_top {ι : Type*} (s : Finset ι) (c : EReal) (h0 : 0 ≤ c) (hT : c ≠ ⊤) (f : ι → EReal) :
    c * ∑ e ∈ s, f e = ∑ e ∈ s, c * f e := by
  classical
  induction s using Finset.induction_on with
  | empty => simp
  | insert a s ha ih =>
    rw [Finset.sum_insert ha, Finset.sum_insert ha, EReal.left_distrib_of_nonneg_of_ne_top h0 hT, ih]

/-- THE LAYER LAW. Over the edges `s` into one node whose factor is `c`: scaling the sum of `h e · dsrc e` by `c`
    is summing `h e · (ddst e · dsrc e)`, when every edge of `s` has destination factor `c`. The sums start from
    a zero `z`. -/
theorem layer_law {ι : Type*} (s : Finset ι) (c z : EReal) (hz : z = 0) (h0 : 0 ≤ c) (hT : c ≠ ⊤)
    (h dsrc ddst : ι → EReal) (hd : ∀ e ∈ s, ddst e = c) :
    c * (z + ∑ e ∈ s, h e * dsrc e) = z + ∑ e ∈ s, h e * (ddst e * dsrc e) := by
  subst hz
  rw [zero_add, zero_add, mul_sum_of_nonneg_of_ne_top s c h0 hT]
  refine Finset.sum_congr rfl fun e he => ?_
  rw [hd e he, mul_left_comm]

/-- The reciprocal square root guarded by positivity lies in `[0, ⊤)`. -/
theorem guarded_rsqrt_range (y : EReal) :
    0 ≤ (if 0 < y then Ideal.rsqrt y else 0) ∧ (if 0 < y then Ideal.rsqrt y else 0) ≠ ⊤ := by
  induction y using EReal.rec with
  | bot => simp
  | top => simp
  | coe r =>
    by_cases hr : (0 : EReal) < (r : EReal)
    · have hr' : 0 < r := by exact_mod_cast hr
      rw [if_pos hr, Ideal.rsqrt_coe, if_neg (not_lt.mpr hr'.le), if_neg hr'.ne']
      exact ⟨by exact_mod_cast (inv_nonneg.mpr (Real.sqrt_nonneg r)), EReal.coe_ne_top _⟩
    · rw [if_neg hr]; exact ⟨le_refl _, EReal.zero_ne_top⟩

/-- A word whose signed value is a row number is not negative, so the wrap keeps it; clamped, it is that row. -/
theorem wrap_clamp_of_toInt_eq {N : ℕ} (hN : N < 2 ^ 31) (w : BitVec 32) (n : Fin N) (hw : w.toInt = (n.val : Int)) :
    min (Scalar.select (IntOp.cmpi .slt w 0#32) (IntOp.addi w (BitVec.ofNat 32 N)) w).toInt.toNat (N - 1) = n.val := by
  have hns : w.slt 0#32 = false := by
    rw [BitVec.slt_eq_decide]  -- the signed comparison is the comparison of the signed values
    simp [hw]
  have hsel : Scalar.select (IntOp.cmpi .slt w 0#32) (IntOp.addi w (BitVec.ofNat 32 N)) w = w := by
    unfold Scalar.select IntOp.cmpi
    simp [hns]
  rw [hsel, hw]
  have := n.isLt
  simp only [Int.toNat_natCast]
  omega

end Cert.Gcn

end
-- ==== Proof.LibScatterDims.lean ====
/-
  A scatter's dimension numbers are determined by their four data fields: a record over the row-scatter shapes whose
  update window axis is 1, whose inserted axis is 0, whose index component names operand axis 0 and whose index vector is
  axis 1 IS the row scatter's record (the remaining field is a proof). So a lemma about the row scatter applies to any
  record printed with those numbers, whatever proof it carries.

  Hence the host's accumulating row scatter, for ANY such record and any extents, read at an element: element `(i, c)`
  of the result is the operand's element plus the sum of column `c` of the update rows whose index word, read as a
  signed integer, is `i`; a row whose index is not a row of the operand contributes nothing.
-/
import proofs.«104798_j89043261980674_1_alg».proof.Proof.LibHostIndex

noncomputable section

open scoped BigOperators

namespace Cert.Lib.HostIndex

open Idealize.ShloMosaic Idealize.ShloMosaic.ValueIdx

theorem eq_rowScatterDims {N R C : Nat} (d : ScatterDims ⟨2, ![N, C]⟩ ⟨2, ![R, 1]⟩ ⟨2, ![R, C]⟩)
    (h1 : d.updateWindowDims = [1]) (h2 : d.insertedWindowDims = [0]) (h3 : d.scatterDimsToOperandDims = [0])
    (h4 : d.indexVectorDim = 1) : ∃ wf, d = rowScatterDims N R C wf := by
  obtain ⟨u, i, s, v, wf⟩ := d
  dsimp only at h1 h2 h3 h4
  subst h1 h2 h3 h4
  exact ⟨wf, rfl⟩

/-- THE HOST'S ROW SCATTER-ADD OF ANY RECORD WITH THE ROW NUMBERS, READ AT `(i, c)`: the operand's element plus the
    sum of column `c` of the update rows whose index, read signed, is `i` (rows indexed outside `[0, N)` land
    nowhere). -/
theorem hostScatterAdd_rows_apply {N R C w : Nat} (d : ScatterDims ⟨2, ![N, C]⟩ ⟨2, ![R, 1]⟩ ⟨2, ![R, C]⟩)
    (h1 : d.updateWindowDims = [1]) (h2 : d.insertedWindowDims = [0]) (h3 : d.scatterDimsToOperandDims = [0])
    (h4 : d.indexVectorDim = 1)
    (x : (⟨2, ![N, C]⟩ : Shape).Idx → EReal) (idx : IVec ⟨2, ![R, 1]⟩ w)
    (upd : (⟨2, ![R, C]⟩ : Shape).Idx → EReal) (i : Fin N) (c : Fin C) :
    Host.scatterAdd (F := Ideal) (φ := .f32) d x idx upd (ix2 i c)
      = x (ix2 i c) + ∑ e ∈ Finset.univ.filter (fun e : Fin R => (idx (ix2 e 0)).toInt = (i.val : Int)), upd (ix2 e c) := by
  obtain ⟨wf, rfl⟩ := eq_rowScatterDims d h1 h2 h3 h4
  exact scatterAdd_rows_apply wf x idx upd i c

end Cert.Lib.HostIndex

end
-- ==== Proof.LibSageMean.lean ====
/-
  THE MEAN OVER IN-NEIGHBOURS, TWO WAYS, over arbitrary extents (nothing here mentions a program).

  A segment sum `s` of shape `[N, C]` is turned into a mean by the in-degree of each row, the degree being itself a
  segment sum of ones over the same index column `D`, kept at least one. One program counts the degree as a vector
  `[N]`, takes the reciprocal `1 / max(deg, 1)`, makes it a column and multiplies; the other counts it as a column
  `[N, 1]` and divides by `max(deg, 1)`.

  The two counts agree because an edge lands on row `i` of either exactly when its signed index is `i`, and each
  landing edge contributes the same one. The two quotients agree on every extended real: the divisor `m = max(deg, 1)`
  is at least one, hence not zero, and off zero the quotient `x / m` is by definition `x * m⁻¹`; so
  `s * (1 / m) = s * (1 * m⁻¹) = s * m⁻¹ = s / m`, with no finiteness asked of `s`.
-/
import proofs.«104798_j89043261980674_1_alg».proof.Proof.LibScatterDims
import proofs.«104798_j89043261980674_1_alg».proof.Proof.LibEdgeReads
import Idealize.ShloMosaic.Lib.ValueIdx
import Idealize.ShloMosaic.PureOps.Ideal.Laws

noncomputable section

open scoped BigOperators

namespace Cert.Lib.MeanAgg

open Idealize.ShloMosaic Idealize.ShloMosaic.ValueIdx Cert.Lib.HostIndex Cert.Lib.EdgeReads

/-- A scatter record over the vector shapes with no window axis, the one operand axis inserted and named by the index,
    is the vector scatter's record (the remaining field is a proof). -/
theorem eq_vecScatterDims {N R : Nat} (d : ScatterDims ⟨1, ![N]⟩ ⟨2, ![R, 1]⟩ ⟨1, ![R]⟩)
    (h1 : d.updateWindowDims = []) (h2 : d.insertedWindowDims = [0]) (h3 : d.scatterDimsToOperandDims = [0])
    (h4 : d.indexVectorDim = 1) : ∃ wf, d = vecScatterDims N R wf := by
  obtain ⟨u, i, s, v, wf⟩ := d
  dsimp only at h1 h2 h3 h4
  subst h1 h2 h3 h4
  exact ⟨wf, rfl⟩

/-- THE HOST'S VECTOR SCATTER-ADD OF ANY RECORD WITH THE VECTOR NUMBERS, READ AT `i`: the operand's element plus the sum
    of the updates whose index, read signed, is `i`. -/
theorem hostScatterAdd_vec_apply {N R w : Nat} (d : ScatterDims ⟨1, ![N]⟩ ⟨2, ![R, 1]⟩ ⟨1, ![R]⟩)
    (h1 : d.updateWindowDims = []) (h2 : d.insertedWindowDims = [0]) (h3 : d.scatterDimsToOperandDims = [0])
    (h4 : d.indexVectorDim = 1)
    (x : (⟨1, ![N]⟩ : Shape).Idx → EReal) (idx : IVec ⟨2, ![R, 1]⟩ w)
    (upd : (⟨1, ![R]⟩ : Shape).Idx → EReal) (i : Fin N) :
    Host.scatterAdd (F := Ideal) (φ := .f32) d x idx upd (ix1 i)
      = x (ix1 i) + ∑ e ∈ Finset.univ.filter (fun e : Fin R => (idx (ix2 e 0)).toInt = (i.val : Int)), upd (ix1 e) := by
  obtain ⟨wf, rfl⟩ := eq_vecScatterDims d h1 h2 h3 h4
  exact scatterAdd_vec_apply wf x idx upd i

/-- The f32 word of 1.0 denotes the extended real one. -/
theorem ofBits_one_f32 : Ideal.ofBits .f32 0x3F800000#32 = 1 := by
  simp [Ideal.ofBits, Ideal.ieee, -EReal.coe_mul]; norm_num

/-- Multiplying by the reciprocal of a divisor that is at least one is dividing by it, on every extended real. -/
theorem mul_recip_eq_div (s d : EReal) : s * Ideal.div 1 (max d 1) = Ideal.div s (max d 1) := by
  have hm : max d 1 ≠ 0 := (lt_of_lt_of_le zero_lt_one (le_max_right d 1)).ne'
  unfold Ideal.div
  rw [if_neg hm, if_neg hm, one_mul]

/-- THE TWO MEANS ARE ONE ARRAY. `zv`, `zc` are the zero-filled operands of the two degree counts, `uv`, `uc` their
    all-ones updates, `ov`, `ov'`, `oc` the all-ones arrays of the reciprocal and of the two floors. -/
theorem mean_mul_recip_eq_div {N R C w : Nat}
    (dv : ScatterDims ⟨1, ![N]⟩ ⟨2, ![R, 1]⟩ ⟨1, ![R]⟩)
    (hv1 : dv.updateWindowDims = []) (hv2 : dv.insertedWindowDims = [0]) (hv3 : dv.scatterDimsToOperandDims = [0])
    (hv4 : dv.indexVectorDim = 1)
    (dc : ScatterDims ⟨2, ![N, 1]⟩ ⟨2, ![R, 1]⟩ ⟨2, ![R, 1]⟩)
    (hc1 : dc.updateWindowDims = [1]) (hc2 : dc.insertedWindowDims = [0]) (hc3 : dc.scatterDimsToOperandDims = [0])
    (hc4 : dc.indexVectorDim = 1)
    (s : (⟨2, ![N, C]⟩ : Shape).Idx → EReal) (D : IVec ⟨2, ![R, 1]⟩ w) (zero : EReal)
    (zv ov ov' : (⟨1, ![N]⟩ : Shape).Idx → EReal) (uv : (⟨1, ![R]⟩ : Shape).Idx → EReal)
    (zc oc : (⟨2, ![N, 1]⟩ : Shape).Idx → EReal) (uc : (⟨2, ![R, 1]⟩ : Shape).Idx → EReal)
    (hzv : ∀ i, zv i = zero) (hov : ∀ i, ov i = 1) (hov' : ∀ i, ov' i = 1) (huv : ∀ i, uv i = 1)
    (hzc : ∀ i, zc i = zero) (hoc : ∀ i, oc i = 1) (huc : ∀ i, uc i = 1)
    (hb1 : (⟨1, ![N]⟩ : Shape).BroadcastsInDim ⟨2, ![N, 1]⟩ ![0])
    (hb2 hb2' : (⟨2, ![N, 1]⟩ : Shape).BroadcastsInDim ⟨2, ![N, C]⟩ ![0, 1]) :
    mulf (F := Ideal) (φ := .f32) s (broadcastInDim ⟨2, ![N, C]⟩ ![0, 1] hb2 (broadcastInDim ⟨2, ![N, 1]⟩ ![0] hb1
        (Host.divf (F := Ideal) (φ := .f32) ov
          (maximumf (F := Ideal) (φ := .f32) (Host.scatterAdd (F := Ideal) (φ := .f32) dv zv D uv) ov'))))
      = Host.divf (F := Ideal) (φ := .f32) s (broadcastInDim ⟨2, ![N, C]⟩ ![0, 1] hb2'
          (maximumf (F := Ideal) (φ := .f32) (Host.scatterAdd (F := Ideal) (φ := .f32) dc zc D uc) oc)) := by
  funext j
  obtain ⟨r, c, rfl⟩ : ∃ (r : Fin N) (c : Fin C), j = ix2 r c := ⟨j 0, j 1, eq_ix2 j⟩
  show s (ix2 r c) * broadcastInDim (s := ⟨2, ![N, 1]⟩) ⟨2, ![N, C]⟩ ![0, 1] hb2 _ (ix2 r c)
      = Ideal.div (s (ix2 r c)) (broadcastInDim (s := ⟨2, ![N, 1]⟩) ⟨2, ![N, C]⟩ ![0, 1] hb2' _ (ix2 r c))
  rw [column_broadcast_apply, column_broadcast_apply, column_of_vector_apply]
  show s (ix2 r c) * Ideal.div (ov (ix1 r)) (max (Host.scatterAdd (F := Ideal) (φ := .f32) dv zv D uv (ix1 r)) (ov' (ix1 r)))
      = Ideal.div (s (ix2 r c)) (max (Host.scatterAdd (F := Ideal) (φ := .f32) dc zc D uc (ix2 r (0 : Fin 1))) (oc (ix2 r (0 : Fin 1))))
  rw [hostScatterAdd_vec_apply dv hv1 hv2 hv3 hv4, hostScatterAdd_rows_apply dc hc1 hc2 hc3 hc4, hov, hov', hoc, hzv, hzc,
    Finset.sum_congr rfl (fun e _ => huv (ix1 e)), Finset.sum_congr rfl (fun e _ => huc (ix2 e (0 : Fin 1)))]
  exact mul_recip_eq_div _ _

end Cert.Lib.MeanAgg

end
-- ==== Proof.LibMeanGcn.lean ====
/-
  THE MEAN-NORMALISED GRAPH-CONVOLUTION AGGREGATION, IN ITS TWO ARRANGEMENTS, over arbitrary extents: `N` nodes, `R`
  edges (self loops included), `C` features. Nothing here mentions a program.

  From a source word `s e` and a target word `t e` per edge (32-bit, read signed), the in-degree of node `n` is
  `deg n = 0 + Σ_{e : t e = n} 1`, the normaliser is `dinv n = 1 / √(deg n)` where the degree is positive and `0`
  elsewhere, and the divisor of the mean is `c n = max (deg n) 1`. A gather reads row `row v e`: the word `v e` with the
  extent added where it is negative, then clamped into the rows; a scatter-add lands edge `e` on the row its target
  word names, or nowhere. With `coef e = dinv (row s e) · dinv (row t e)`:

    one arrangement    agg (n, f) = 0 + Σ_{e : t e = n} h (row s e, f) · (coef e / c (row t e))
    the other          agg (n, f) = (0 + Σ_{e : t e = n} h (row s e, f) · coef e) / c n

  They are the same array on ALL extended reals. An edge that lands on `n` has a target word whose signed value is the
  row `n`, so the wrap keeps it and the clamp returns `n`: `c (row t e) = c n`. The divisor `c n` is at least one, so it
  is not zero and division by it is multiplication by its inverse `k`, with `0 ≤ k < ⊤` (the inverse of `⊤` is `0`);
  such a factor distributes over a finite sum of extended reals whatever the summands are.

  Also: when every entry of `h` is a real, every entry of the aggregate is. The degree is a count, hence a real; the
  guarded reciprocal root lies in `[0, ⊤)`, hence is a real; a finite sum of products of reals is a real; and a real
  divided by a real that is at least one is a real.
-/
import proofs.«104798_j89043261980674_1_alg».proof.Proof.LibHostIndex
import proofs.«104798_j89043261980674_1_alg».proof.Proof.LibGcnLaw
import proofs.«104798_j89043261980674_1_alg».proof.Proof.LibEdgeReads
import proofs.«104798_j89043261980674_1_alg».proof.Proof.LibSageMean
import Idealize.ShloMosaic.PureOps.Ideal.Laws
import Idealize.ShloMosaic.Lib.ValueIdx
import Idealize.ShloMosaic.Lib.Pipeline.Value

noncomputable section

open scoped BigOperators

namespace Cert.Lib.MeanGcn

open Idealize.ShloMosaic Idealize.ShloMosaic.ValueIdx Cert.Lib.HostIndex Cert.Lib.EdgeReads Cert.Lib.MeanAgg Cert.Gcn

/-! ## Reals among the extended reals -/

/-- An extended real that is a real. -/
def IsR (x : EReal) : Prop := ∃ r : ℝ, x = (r : EReal)

theorem IsR.zero : IsR 0 := ⟨0, rfl⟩
theorem IsR.one : IsR 1 := ⟨1, rfl⟩
theorem IsR.add {x y : EReal} (hx : IsR x) (hy : IsR y) : IsR (x + y) := by
  obtain ⟨a, rfl⟩ := hx; obtain ⟨b, rfl⟩ := hy; exact ⟨a + b, (EReal.coe_add a b).symm⟩
theorem IsR.mul {x y : EReal} (hx : IsR x) (hy : IsR y) : IsR (x * y) := by
  obtain ⟨a, rfl⟩ := hx; obtain ⟨b, rfl⟩ := hy; exact ⟨a * b, (EReal.coe_mul a b).symm⟩
theorem IsR.sum {ι : Type*} (S : Finset ι) (f : ι → EReal) (hf : ∀ e ∈ S, IsR (f e)) : IsR (∑ e ∈ S, f e) := by
  classical
  induction S using Finset.induction_on with
  | empty => simpa using IsR.zero
  | insert a S ha ih =>
    rw [Finset.sum_insert ha]
    exact (hf a (Finset.mem_insert_self a S)).add (ih fun e he => hf e (Finset.mem_insert_of_mem he))
/-- An extended real in `[0, ⊤)` is a real. -/
theorem IsR.of_range {x : EReal} (h0 : 0 ≤ x) (hT : x ≠ ⊤) : IsR x := by
  induction x using EReal.rec with
  | bot => exact absurd h0 (by simp)
  | top => exact absurd rfl hT
  | coe r => exact ⟨r, rfl⟩
/-- A real divided by a real that is at least one is a real. -/
theorem IsR.div_of_one_le {x c : EReal} (hx : IsR x) (hc : IsR c) (h1 : 1 ≤ c) : IsR (Ideal.div x c) := by
  obtain ⟨a, rfl⟩ := hx; obtain ⟨b, rfl⟩ := hc
  have hb : (1 : ℝ) ≤ b := by exact_mod_cast h1
  have hb0 : b ≠ 0 := by linarith
  rw [Ideal.div_coe hb0]
  exact ⟨a * (1 / b), (EReal.coe_mul a (1 / b)).symm⟩

/-! ## The algebra -/

/-- The inverse of an extended real that is at least one lies in `[0, ⊤)`. -/
theorem inv_range_of_one_le {c : EReal} (h1 : 1 ≤ c) : 0 ≤ c⁻¹ ∧ c⁻¹ ≠ ⊤ := by
  induction c using EReal.rec with
  | bot =>
    have hb : (⊥ : EReal) < 1 := by exact_mod_cast EReal.bot_lt_coe 1
    exact absurd h1 (not_le.mpr hb)
  | top => simp
  | coe r =>
    have hr : (1 : ℝ) ≤ r := by exact_mod_cast h1
    rw [← EReal.coe_inv]
    exact ⟨by exact_mod_cast inv_nonneg.mpr (by linarith), EReal.coe_ne_top _⟩

/-- Division by an extended real that is at least one is multiplication by its inverse. -/
theorem div_eq_mul_inv_of_one_le (x : EReal) {c : EReal} (h1 : 1 ≤ c) : Ideal.div x c = x * c⁻¹ := by
  have hc : c ≠ 0 := (lt_of_lt_of_le zero_lt_one h1).ne'
  unfold Ideal.div
  rw [if_neg hc]

/-- THE LAW. Over the edges `S` into one node whose divisor is `c ≥ 1`: dividing each summand's coefficient by the
    divisor read at the edge (which is `c` on `S`) is dividing the sum by `c`. The sums start from zero. -/
theorem sum_div_law {ι : Type*} (S : Finset ι) (c : EReal) (h1 : 1 ≤ c) (a b g : ι → EReal) (hg : ∀ e ∈ S, g e = c) :
    0 + ∑ e ∈ S, a e * Ideal.div (b e) (g e) = Ideal.div (0 + ∑ e ∈ S, a e * b e) c := by
  obtain ⟨k0, kT⟩ := inv_range_of_one_le h1
  rw [zero_add, zero_add, div_eq_mul_inv_of_one_le _ h1, mul_comm, mul_sum_of_nonneg_of_ne_top S _ k0 kT]
  refine Finset.sum_congr rfl fun e he => ?_
  rw [hg e he, div_eq_mul_inv_of_one_le _ h1, ← mul_assoc, mul_comm]

/-! ## The layer's operations, as the host spells them -/

/-- The shape facts the layer's layout operations cite. -/
structure Facts (N R C : ℕ) : Prop where
  bS_R : (⟨0, ![]⟩ : Shape).BroadcastsInDim ⟨1, ![R]⟩ (![] : Fin 0 → Fin 1)
  bS_N : (⟨0, ![]⟩ : Shape).BroadcastsInDim ⟨1, ![N]⟩ (![] : Fin 0 → Fin 1)
  bS_NC : (⟨0, ![]⟩ : Shape).BroadcastsInDim ⟨2, ![N, C]⟩ (![] : Fin 0 → Fin 2)
  bR_R1 : (⟨1, ![R]⟩ : Shape).BroadcastsInDim ⟨2, ![R, 1]⟩ (![0] : Fin 1 → Fin 2)
  bR1_RC : (⟨2, ![R, 1]⟩ : Shape).BroadcastsInDim ⟨2, ![R, C]⟩ (![0, 1] : Fin 2 → Fin 2)

section Defs

variable {N R C : ℕ} (fx : Facts N R C)
  (sdV : ScatterDims ⟨1, ![N]⟩ ⟨2, ![R, 1]⟩ ⟨1, ![R]⟩)
  (gdV : GatherDims ⟨1, ![N]⟩ ⟨2, ![R, 1]⟩ ⟨1, ![R]⟩)
  (gdM : GatherDims ⟨2, ![N, C]⟩ ⟨2, ![R, 1]⟩ ⟨2, ![R, C]⟩)
  (sdM : ScatterDims ⟨2, ![N, C]⟩ ⟨2, ![R, 1]⟩ ⟨2, ![R, C]⟩)

/-- A per-edge vector as a column. -/
def col {α : Type} (v : (⟨1, ![R]⟩ : Shape).Idx → α) : (⟨2, ![R, 1]⟩ : Shape).Idx → α :=
  broadcastInDim ⟨2, ![R, 1]⟩ ![0] fx.bR_R1 v

/-- The index wrap: the extent added where the word is negative. -/
def wrap (v : IVec ⟨1, ![R]⟩ 32) : IVec ⟨1, ![R]⟩ 32 :=
  select (cmpi .slt v (broadcastInDim ⟨1, ![R]⟩ ![] fx.bS_R (constantI ⟨0, ![]⟩ 32 0#32)))
    (addi v (broadcastInDim ⟨1, ![R]⟩ ![] fx.bS_R (constantI ⟨0, ![]⟩ 32 (BitVec.ofNat 32 N)))) v

/-- The in-degree: ones scatter-added at the target words into zeros. -/
def deg (t : IVec ⟨1, ![R]⟩ 32) : FVec Ideal ⟨1, ![N]⟩ .f32 :=
  Host.scatterAdd (F := Ideal) sdV
    (broadcastInDim ⟨1, ![N]⟩ ![] fx.bS_N (constant (F := Ideal) ⟨0, ![]⟩ .f32 0x00000000#32))
    (col fx t)
    (broadcastInDim ⟨1, ![R]⟩ ![] fx.bS_R (constant (F := Ideal) ⟨0, ![]⟩ .f32 0x3F800000#32))

/-- The normaliser: the reciprocal root of the degree where it is positive, zero elsewhere. -/
def dinv (d : FVec Ideal ⟨1, ![N]⟩ .f32) : FVec Ideal ⟨1, ![N]⟩ .f32 :=
  select (cmpf .ogt d (broadcastInDim ⟨1, ![N]⟩ ![] fx.bS_N (constant (F := Ideal) ⟨0, ![]⟩ .f32 0x00000000#32)))
    (Host.rsqrt d)
    (broadcastInDim ⟨1, ![N]⟩ ![] fx.bS_N (constant (F := Ideal) ⟨0, ![]⟩ .f32 0x00000000#32))

/-- The mean's divisor: the degree kept at least one. -/
def cmax (d : FVec Ideal ⟨1, ![N]⟩ .f32) : FVec Ideal ⟨1, ![N]⟩ .f32 :=
  maximumf d (broadcastInDim ⟨1, ![N]⟩ ![] fx.bS_N (constant (F := Ideal) ⟨0, ![]⟩ .f32 0x3F800000#32))

/-- The symmetric coefficient of an edge: the normalisers gathered at its two ends, multiplied. -/
def coef (dv : FVec Ideal ⟨1, ![N]⟩ .f32) (s t : IVec ⟨1, ![R]⟩ 32) : FVec Ideal ⟨1, ![R]⟩ .f32 :=
  mulf (Host.gather gdV dv (col fx (wrap fx s))) (Host.gather gdV dv (col fx (wrap fx t)))

/-- The coefficient divided by the divisor gathered at the target. -/
def coefK (dv cm : FVec Ideal ⟨1, ![N]⟩ .f32) (s t : IVec ⟨1, ![R]⟩ 32) : FVec Ideal ⟨1, ![R]⟩ .f32 :=
  Host.divf (coef fx gdV dv s t) (Host.gather gdV cm (col fx (wrap fx t)))

/-- The messages `h[src] · cf` scatter-added at the target words into zeros. -/
def aggOf (h : FVec Ideal ⟨2, ![N, C]⟩ .f32) (s t : IVec ⟨1, ![R]⟩ 32) (cf : FVec Ideal ⟨1, ![R]⟩ .f32) :
    FVec Ideal ⟨2, ![N, C]⟩ .f32 :=
  Host.scatterAdd (F := Ideal) sdM
    (broadcastInDim ⟨2, ![N, C]⟩ ![] fx.bS_NC (constant (F := Ideal) ⟨0, ![]⟩ .f32 0x00000000#32))
    (col fx t)
    (mulf (Host.gather gdM h (col fx (wrap fx s))) (broadcastInDim ⟨2, ![R, C]⟩ ![0, 1] fx.bR1_RC (col fx cf)))

/-- The arrangement that divides each edge's coefficient. -/
def kagg (h : FVec Ideal ⟨2, ![N, C]⟩ .f32) (s t : IVec ⟨1, ![R]⟩ 32) : FVec Ideal ⟨2, ![N, C]⟩ .f32 :=
  aggOf fx gdM sdM h s t (coefK fx gdV (dinv fx (deg fx sdV t)) (cmax fx (deg fx sdV t)) s t)

/-- The arrangement that divides the sum; the divisor is made a column and broadcast along the features. -/
def ragg (bN_N1 : (⟨1, ![N]⟩ : Shape).BroadcastsInDim ⟨2, ![N, 1]⟩ (![0] : Fin 1 → Fin 2))
    (bN1_NC : (⟨2, ![N, 1]⟩ : Shape).BroadcastsInDim ⟨2, ![N, C]⟩ (![0, 1] : Fin 2 → Fin 2))
    (h : FVec Ideal ⟨2, ![N, C]⟩ .f32) (s t : IVec ⟨1, ![R]⟩ 32) : FVec Ideal ⟨2, ![N, C]⟩ .f32 :=
  Host.divf (aggOf fx gdM sdM h s t (coef fx gdV (dinv fx (deg fx sdV t)) s t))
    (broadcastInDim ⟨2, ![N, C]⟩ ![0, 1] bN1_NC (broadcastInDim ⟨2, ![N, 1]⟩ ![0] bN_N1 (cmax fx (deg fx sdV t))))

end Defs

/-! ## The operations read at an index -/

section Reads

variable {N R C : ℕ} (fx : Facts N R C)

/-- A scalar broadcast reads the scalar. -/
theorem scalar_bcast_apply {α : Type} {t : Shape}
    (h : (⟨0, ![]⟩ : Shape).BroadcastsInDim t (![] : Fin 0 → Fin t.rank)) (y : (⟨0, ![]⟩ : Shape).Idx → α) (j : t.Idx) :
    broadcastInDim t ![] h y j = y (fun a => a.elim0) :=
  broadcastInDim_apply _ h y j (fun a => a.elim0) (fun a => a.elim0)

/-- The f32 word of 0.0 denotes zero. -/
theorem ofBits_zero_f32 : Ideal.ofBits .f32 0x00000000#32 = 0 := by
  simp [Ideal.ofBits, Ideal.ieee]

theorem col_apply {α : Type} (v : (⟨1, ![R]⟩ : Shape).Idx → α) (e : Fin R) (u : Fin 1) :
    col fx v (ix2 e u) = v (ix1 e) :=
  column_of_vector_apply v fx.bR_R1 e u

/-- The wrap of one word. -/
def wrapW (N : ℕ) (w : BitVec 32) : BitVec 32 :=
  Scalar.select (IntOp.cmpi .slt w 0#32) (IntOp.addi w (BitVec.ofNat 32 N)) w

theorem wrap_apply (v : IVec ⟨1, ![R]⟩ 32) (i : (⟨1, ![R]⟩ : Shape).Idx) : wrap fx v i = wrapW N (v i) := by
  show Scalar.select (IntOp.cmpi .slt (v i) (broadcastInDim ⟨1, ![R]⟩ ![] fx.bS_R (constantI ⟨0, ![]⟩ 32 0#32) i))
      (IntOp.addi (v i) (broadcastInDim ⟨1, ![R]⟩ ![] fx.bS_R (constantI ⟨0, ![]⟩ 32 (BitVec.ofNat 32 N)) i)) (v i) = _
  rw [scalar_bcast_apply, scalar_bcast_apply]
  rfl

/-- The row a gather through the wrap reads for edge `e`: the wrapped word, signed, clamped into the rows. -/
def rowOf (hN : 0 < N) (v : IVec ⟨1, ![R]⟩ 32) (e : Fin R) : Fin N :=
  ⟨min (wrapW N (v (ix1 e))).toInt.toNat (N - 1), by omega⟩

/-- An edge whose word names the row `n` reads row `n` through the wrap. -/
theorem rowOf_eq (hN : 0 < N) (hN' : N < 2 ^ 31) (v : IVec ⟨1, ![R]⟩ 32) (e : Fin R) (n : Fin N)
    (hw : (v (ix1 e)).toInt = (n.val : Int)) : rowOf hN v e = n :=
  Fin.ext (wrap_clamp_of_toInt_eq hN' (v (ix1 e)) n hw)

/-- The edges that land on node `n`. -/
def inTo (t : IVec ⟨1, ![R]⟩ 32) (n : Fin N) : Finset (Fin R) :=
  Finset.univ.filter fun e => (t (ix1 e)).toInt = (n.val : Int)

theorem eq_vecGatherDims (d : GatherDims ⟨1, ![N]⟩ ⟨2, ![R, 1]⟩ ⟨1, ![R]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1]) : ∃ wf, d = vecGatherDims N R wf := by
  obtain ⟨o, cs, ob, sb, sm, iv, ss, wf⟩ := d
  dsimp only at h1 h2 h3 h4 h5 h6 h7
  subst h1 h2 h3 h4 h5 h6 h7
  exact ⟨wf, rfl⟩

variable {sdV : ScatterDims ⟨1, ![N]⟩ ⟨2, ![R, 1]⟩ ⟨1, ![R]⟩}
  {gdV : GatherDims ⟨1, ![N]⟩ ⟨2, ![R, 1]⟩ ⟨1, ![R]⟩}
  {gdM : GatherDims ⟨2, ![N, C]⟩ ⟨2, ![R, 1]⟩ ⟨2, ![R, C]⟩}
  {sdM : ScatterDims ⟨2, ![N, C]⟩ ⟨2, ![R, 1]⟩ ⟨2, ![R, C]⟩}

/-- A vector gathered through the wrap, at edge `e`. -/
theorem gatherV_apply (hN : 0 < N) (hg : ∃ wf, gdV = vecGatherDims N R wf) {α : Type}
    (x : (⟨1, ![N]⟩ : Shape).Idx → α) (v : IVec ⟨1, ![R]⟩ 32) (e : Fin R) :
    Host.gather gdV x (col fx (wrap fx v)) (ix1 e) = x (ix1 (rowOf hN v e)) := by
  obtain ⟨wf, rfl⟩ := hg
  rw [gather_vec_apply hN wf]
  refine congrArg x (congrArg ix1 (Fin.ext ?_))
  show min (col fx (wrap fx v) (ix2 e 0)).toInt.toNat (N - 1) = min (wrapW N (v (ix1 e))).toInt.toNat (N - 1)
  rw [col_apply, wrap_apply]

/-- A matrix's rows gathered through the wrap, at `(e, f)`. -/
theorem gatherM_apply (hN : 0 < N) (hg : ∃ wf, gdM = rowGatherDims N R C wf) {α : Type}
    (x : (⟨2, ![N, C]⟩ : Shape).Idx → α) (v : IVec ⟨1, ![R]⟩ 32) (e : Fin R) (f : Fin C) :
    Host.gather gdM x (col fx (wrap fx v)) (ix2 e f) = x (ix2 (rowOf hN v e) f) := by
  obtain ⟨wf, rfl⟩ := hg
  rw [gather_rows_apply hN wf]
  refine congrArg x (congrArg (fun a => ix2 a f) (Fin.ext ?_))
  show min (col fx (wrap fx v) (ix2 e 0)).toInt.toNat (N - 1) = min (wrapW N (v (ix1 e))).toInt.toNat (N - 1)
  rw [col_apply, wrap_apply]

/-- The degree of node `n`, as a value. -/
def degV (t : IVec ⟨1, ![R]⟩ 32) (n : Fin N) : EReal := 0 + ∑ _e ∈ inTo t n, (1 : EReal)

theorem deg_apply (hs : ∃ wf, sdV = vecScatterDims N R wf) (t : IVec ⟨1, ![R]⟩ 32) (n : Fin N) :
    deg fx sdV t (ix1 n) = degV t n := by
  obtain ⟨wf, rfl⟩ := hs
  refine (scatterAdd_vec_apply wf _ _ _ n).trans ?_
  have hz : broadcastInDim ⟨1, ![N]⟩ ![] fx.bS_N (constant (F := Ideal) ⟨0, ![]⟩ .f32 0x00000000#32) (ix1 n) = 0 :=
    (scalar_bcast_apply _ _ _).trans ofBits_zero_f32
  have ho : ∀ e : Fin R,
      broadcastInDim ⟨1, ![R]⟩ ![] fx.bS_R (constant (F := Ideal) ⟨0, ![]⟩ .f32 0x3F800000#32) (ix1 e) = 1 :=
    fun e => (scalar_bcast_apply _ _ _).trans ofBits_one_f32
  rw [hz]
  simp only [ho, col_apply]
  rfl

/-- The normaliser of node `n`, as a value. -/
def dinvV (t : IVec ⟨1, ![R]⟩ 32) (n : Fin N) : EReal :=
  if 0 < degV t n then Ideal.rsqrt (degV t n) else 0

/-- The mean's divisor at node `n`, as a value. -/
def cmaxV (t : IVec ⟨1, ![R]⟩ 32) (n : Fin N) : EReal := max (degV t n) 1

theorem select_ogt_zero (y a b : EReal) : Scalar.select (Ideal.cmp .ogt y 0) a b = if 0 < y then a else b := by
  by_cases h : 0 < y <;> simp [Scalar.select, Ideal.cmp, h]

theorem dinv_apply (hs : ∃ wf, sdV = vecScatterDims N R wf) (t : IVec ⟨1, ![R]⟩ 32) (n : Fin N) :
    dinv fx (deg fx sdV t) (ix1 n) = dinvV t n := by
  show Scalar.select (Ideal.cmp .ogt (deg fx sdV t (ix1 n))
      (broadcastInDim ⟨1, ![N]⟩ ![] fx.bS_N (constant (F := Ideal) ⟨0, ![]⟩ .f32 0x00000000#32) (ix1 n)))
      (Ideal.rsqrt (deg fx sdV t (ix1 n)))
      (broadcastInDim ⟨1, ![N]⟩ ![] fx.bS_N (constant (F := Ideal) ⟨0, ![]⟩ .f32 0x00000000#32) (ix1 n)) = _
  have hz : broadcastInDim ⟨1, ![N]⟩ ![] fx.bS_N (constant (F := Ideal) ⟨0, ![]⟩ .f32 0x00000000#32) (ix1 n) = 0 :=
    (scalar_bcast_apply _ _ _).trans ofBits_zero_f32
  rw [hz, deg_apply fx hs, select_ogt_zero]
  rfl

theorem cmax_apply (hs : ∃ wf, sdV = vecScatterDims N R wf) (t : IVec ⟨1, ![R]⟩ 32) (n : Fin N) :
    cmax fx (deg fx sdV t) (ix1 n) = cmaxV t n := by
  show max (deg fx sdV t (ix1 n))
      (broadcastInDim ⟨1, ![N]⟩ ![] fx.bS_N (constant (F := Ideal) ⟨0, ![]⟩ .f32 0x3F800000#32) (ix1 n)) = _
  have ho : broadcastInDim ⟨1, ![N]⟩ ![] fx.bS_N (constant (F := Ideal) ⟨0, ![]⟩ .f32 0x3F800000#32) (ix1 n) = 1 :=
    (scalar_bcast_apply _ _ _).trans ofBits_one_f32
  rw [ho, deg_apply fx hs]
  rfl

/-- The symmetric coefficient of edge `e`, as a value. -/
def coefV (hN : 0 < N) (s t : IVec ⟨1, ![R]⟩ 32) (e : Fin R) : EReal :=
  dinvV t (rowOf hN s e) * dinvV t (rowOf hN t e)

theorem coef_apply (hN : 0 < N) (hs : ∃ wf, sdV = vecScatterDims N R wf) (hg : ∃ wf, gdV = vecGatherDims N R wf)
    (s t : IVec ⟨1, ![R]⟩ 32) (e : Fin R) :
    coef fx gdV (dinv fx (deg fx sdV t)) s t (ix1 e) = coefV hN s t e := by
  show Host.gather gdV (dinv fx (deg fx sdV t)) (col fx (wrap fx s)) (ix1 e)
      * Host.gather gdV (dinv fx (deg fx sdV t)) (col fx (wrap fx t)) (ix1 e) = _
  rw [gatherV_apply fx hN hg, gatherV_apply fx hN hg, dinv_apply fx hs, dinv_apply fx hs]
  rfl

theorem coefK_apply (hN : 0 < N) (hs : ∃ wf, sdV = vecScatterDims N R wf) (hg : ∃ wf, gdV = vecGatherDims N R wf)
    (s t : IVec ⟨1, ![R]⟩ 32) (e : Fin R) :
    coefK fx gdV (dinv fx (deg fx sdV t)) (cmax fx (deg fx sdV t)) s t (ix1 e)
      = Ideal.div (coefV hN s t e) (cmaxV t (rowOf hN t e)) := by
  show Ideal.div (coef fx gdV (dinv fx (deg fx sdV t)) s t (ix1 e))
      (Host.gather gdV (cmax fx (deg fx sdV t)) (col fx (wrap fx t)) (ix1 e)) = _
  rw [coef_apply fx hN hs hg, gatherV_apply fx hN hg, cmax_apply fx hs]

/-- The scatter-added messages at `(n, f)`: a sum over the edges that land on `n`. -/
theorem aggOf_apply (hN : 0 < N) (hg : ∃ wf, gdM = rowGatherDims N R C wf) (hs : ∃ wf, sdM = rowScatterDims N R C wf)
    (h : FVec Ideal ⟨2, ![N, C]⟩ .f32) (s t : IVec ⟨1, ![R]⟩ 32) (cf : FVec Ideal ⟨1, ![R]⟩ .f32) (n : Fin N) (f : Fin C) :
    aggOf fx gdM sdM h s t cf (ix2 n f) = 0 + ∑ e ∈ inTo t n, h (ix2 (rowOf hN s e) f) * cf (ix1 e) := by
  obtain ⟨wf, rfl⟩ := hs
  refine (scatterAdd_rows_apply wf _ _ _ n f).trans ?_
  have hz : broadcastInDim ⟨2, ![N, C]⟩ ![] fx.bS_NC (constant (F := Ideal) ⟨0, ![]⟩ .f32 0x00000000#32) (ix2 n f) = 0 :=
    (scalar_bcast_apply _ _ _).trans ofBits_zero_f32
  have hm : ∀ e : Fin R,
      mulf (F := Ideal) (φ := .f32) (Host.gather gdM h (col fx (wrap fx s)))
        (broadcastInDim ⟨2, ![R, C]⟩ ![0, 1] fx.bR1_RC (col fx cf)) (ix2 e f)
        = h (ix2 (rowOf hN s e) f) * cf (ix1 e) := fun e => by
    show Host.gather gdM h (col fx (wrap fx s)) (ix2 e f)
        * broadcastInDim ⟨2, ![R, C]⟩ ![0, 1] fx.bR1_RC (col fx cf) (ix2 e f) = _
    rw [gatherM_apply fx hN hg, column_broadcast_apply, col_apply]
  rw [hz]
  simp only [hm, col_apply]
  rfl

end Reads

/-! ## The two arrangements are one array; its entries are reals when the features' are -/

section Main

variable {N R C : ℕ}

/-- THE TWO ARRANGEMENTS AGREE, on all extended reals, whatever facts and records each side cites. -/
theorem kagg_eq_ragg (hN : 0 < N) (hN' : N < 2 ^ 31) (fx fx' : Facts N R C)
    (bN_N1 : (⟨1, ![N]⟩ : Shape).BroadcastsInDim ⟨2, ![N, 1]⟩ (![0] : Fin 1 → Fin 2))
    (bN1_NC : (⟨2, ![N, 1]⟩ : Shape).BroadcastsInDim ⟨2, ![N, C]⟩ (![0, 1] : Fin 2 → Fin 2))
    {sdV sdV' : ScatterDims ⟨1, ![N]⟩ ⟨2, ![R, 1]⟩ ⟨1, ![R]⟩}
    {gdV gdV' : GatherDims ⟨1, ![N]⟩ ⟨2, ![R, 1]⟩ ⟨1, ![R]⟩}
    {gdM gdM' : GatherDims ⟨2, ![N, C]⟩ ⟨2, ![R, 1]⟩ ⟨2, ![R, C]⟩}
    {sdM sdM' : ScatterDims ⟨2, ![N, C]⟩ ⟨2, ![R, 1]⟩ ⟨2, ![R, C]⟩}
    (hsV : ∃ wf, sdV = vecScatterDims N R wf) (hsV' : ∃ wf, sdV' = vecScatterDims N R wf)
    (hgV : ∃ wf, gdV = vecGatherDims N R wf) (hgV' : ∃ wf, gdV' = vecGatherDims N R wf)
    (hgM : ∃ wf, gdM = rowGatherDims N R C wf) (hgM' : ∃ wf, gdM' = rowGatherDims N R C wf)
    (hsM : ∃ wf, sdM = rowScatterDims N R C wf) (hsM' : ∃ wf, sdM' = rowScatterDims N R C wf)
    (h : FVec Ideal ⟨2, ![N, C]⟩ .f32) (s t : IVec ⟨1, ![R]⟩ 32) :
    kagg fx sdV gdV gdM sdM h s t = ragg fx' sdV' gdV' gdM' sdM' bN_N1 bN1_NC h s t := by
  funext i
  obtain ⟨n, f, rfl⟩ : ∃ (n : Fin N) (f : Fin C), i = ix2 n f := ⟨i 0, i 1, eq_ix2 i⟩
  show aggOf fx gdM sdM h s t (coefK fx gdV (dinv fx (deg fx sdV t)) (cmax fx (deg fx sdV t)) s t) (ix2 n f)
      = Ideal.div (aggOf fx' gdM' sdM' h s t (coef fx' gdV' (dinv fx' (deg fx' sdV' t)) s t) (ix2 n f))
          (broadcastInDim ⟨2, ![N, C]⟩ ![0, 1] bN1_NC
            (broadcastInDim ⟨2, ![N, 1]⟩ ![0] bN_N1 (cmax fx' (deg fx' sdV' t))) (ix2 n f))
  rw [aggOf_apply fx hN hgM hsM, aggOf_apply fx' hN hgM' hsM', column_broadcast_apply, column_of_vector_apply,
    cmax_apply fx' hsV']
  simp only [coefK_apply fx hN hsV hgV, coef_apply fx' hN hsV' hgV']
  refine sum_div_law (inTo t n) (cmaxV t n) (le_max_right _ _) _ _ (fun e => cmaxV t (rowOf hN t e)) fun e he => ?_
  rw [rowOf_eq hN hN' t e n (Finset.mem_filter.mp he).2]

/-- The degree is a count of ones: a real. -/
theorem degV_real (t : IVec ⟨1, ![R]⟩ 32) (n : Fin N) : IsR (degV t n) :=
  IsR.zero.add (IsR.sum _ _ fun _ _ => IsR.one)

theorem dinvV_real (t : IVec ⟨1, ![R]⟩ 32) (n : Fin N) : IsR (dinvV t n) :=
  IsR.of_range (guarded_rsqrt_range _).1 (guarded_rsqrt_range _).2

theorem cmaxV_real (t : IVec ⟨1, ![R]⟩ 32) (n : Fin N) : IsR (cmaxV t n) := by
  obtain ⟨r, hr⟩ := degV_real t n
  unfold cmaxV
  rw [hr, ← EReal.coe_one, ← EReal.coe_strictMono.monotone.map_max]
  exact ⟨_, rfl⟩

/-- The dividing-after arrangement at `(n, f)`, as a value. -/
theorem ragg_apply (hN : 0 < N) (fx : Facts N R C)
    (bN_N1 : (⟨1, ![N]⟩ : Shape).BroadcastsInDim ⟨2, ![N, 1]⟩ (![0] : Fin 1 → Fin 2))
    (bN1_NC : (⟨2, ![N, 1]⟩ : Shape).BroadcastsInDim ⟨2, ![N, C]⟩ (![0, 1] : Fin 2 → Fin 2))
    {sdV : ScatterDims ⟨1, ![N]⟩ ⟨2, ![R, 1]⟩ ⟨1, ![R]⟩} {gdV : GatherDims ⟨1, ![N]⟩ ⟨2, ![R, 1]⟩ ⟨1, ![R]⟩}
    {gdM : GatherDims ⟨2, ![N, C]⟩ ⟨2, ![R, 1]⟩ ⟨2, ![R, C]⟩} {sdM : ScatterDims ⟨2, ![N, C]⟩ ⟨2, ![R, 1]⟩ ⟨2, ![R, C]⟩}
    (hsV : ∃ wf, sdV = vecScatterDims N R wf) (hgV : ∃ wf, gdV = vecGatherDims N R wf)
    (hgM : ∃ wf, gdM = rowGatherDims N R C wf) (hsM : ∃ wf, sdM = rowScatterDims N R C wf)
    (h : FVec Ideal ⟨2, ![N, C]⟩ .f32) (s t : IVec ⟨1, ![R]⟩ 32) (n : Fin N) (f : Fin C) :
    ragg fx sdV gdV gdM sdM bN_N1 bN1_NC h s t (ix2 n f)
      = Ideal.div (0 + ∑ e ∈ inTo t n, h (ix2 (rowOf hN s e) f) * coefV hN s t e) (cmaxV t n) := by
  show Ideal.div (aggOf fx gdM sdM h s t (coef fx gdV (dinv fx (deg fx sdV t)) s t) (ix2 n f))
      (broadcastInDim ⟨2, ![N, C]⟩ ![0, 1] bN1_NC
        (broadcastInDim ⟨2, ![N, 1]⟩ ![0] bN_N1 (cmax fx (deg fx sdV t))) (ix2 n f)) = _
  rw [aggOf_apply fx hN hgM hsM, column_broadcast_apply, column_of_vector_apply, cmax_apply fx hsV]
  simp only [coef_apply fx hN hsV hgV]

/-- EVERY ENTRY OF THE AGGREGATE IS A REAL when every entry of the features is. -/
theorem ragg_real (hN : 0 < N) (fx : Facts N R C)
    (bN_N1 : (⟨1, ![N]⟩ : Shape).BroadcastsInDim ⟨2, ![N, 1]⟩ (![0] : Fin 1 → Fin 2))
    (bN1_NC : (⟨2, ![N, 1]⟩ : Shape).BroadcastsInDim ⟨2, ![N, C]⟩ (![0, 1] : Fin 2 → Fin 2))
    {sdV : ScatterDims ⟨1, ![N]⟩ ⟨2, ![R, 1]⟩ ⟨1, ![R]⟩} {gdV : GatherDims ⟨1, ![N]⟩ ⟨2, ![R, 1]⟩ ⟨1, ![R]⟩}
    {gdM : GatherDims ⟨2, ![N, C]⟩ ⟨2, ![R, 1]⟩ ⟨2, ![R, C]⟩} {sdM : ScatterDims ⟨2, ![N, C]⟩ ⟨2, ![R, 1]⟩ ⟨2, ![R, C]⟩}
    (hsV : ∃ wf, sdV = vecScatterDims N R wf) (hgV : ∃ wf, gdV = vecGatherDims N R wf)
    (hgM : ∃ wf, gdM = rowGatherDims N R C wf) (hsM : ∃ wf, sdM = rowScatterDims N R C wf)
    (h : FVec Ideal ⟨2, ![N, C]⟩ .f32) (s t : IVec ⟨1, ![R]⟩ 32) (hh : ∀ i, IsR (h i)) (i : (⟨2, ![N, C]⟩ : Shape).Idx) :
    IsR (ragg fx sdV gdV gdM sdM bN_N1 bN1_NC h s t i) := by
  obtain ⟨n, f, rfl⟩ : ∃ (n : Fin N) (f : Fin C), i = ix2 n f := ⟨i 0, i 1, eq_ix2 i⟩
  rw [ragg_apply hN fx bN_N1 bN1_NC hsV hgV hgM hsM]
  have hsum : IsR (0 + ∑ e ∈ inTo t n, h (ix2 (rowOf hN s e) f) * coefV hN s t e) :=
    IsR.zero.add (IsR.sum _ _ fun e _ => (hh _).mul ((dinvV_real t _).mul (dinvV_real t _)))
  exact IsR.div_of_one_le hsum (cmaxV_real t n) (le_max_right _ _)

/-- A contraction of two arrays of reals, started from zero, is an array of reals. -/
theorem matmul_real {sl sr so : Shape} (d : DotDims sl sr so) (l : sl.Idx → EReal) (r : sr.Idx → EReal)
    (hl : ∀ i, IsR (l i)) (hr : ∀ i, IsR (r i)) (j : so.Idx) : IsR (Ideal.matmul d l r (fun _ => 0) j) :=
  IsR.zero.add (IsR.sum _ _ fun k _ => (hl _).mul (hr _))

end Main

end Cert.Lib.MeanGcn

end
-- ==== Proof.Stats.lean ====
/-
  Real-valuedness of the layers, and the variance law that joins the two programs: for a column of real entries the
  mean of squares minus the squared mean equals the mean of squared deviations from the mean. On the extended reals the
  law needs every entry to be a real (at an infinity the two sides differ), so each layer is first shown to keep real
  entries real.
-/
import proofs.«104798_j89043261980674_1_alg».proof.Proof.Spec
import proofs.«104798_j89043261980674_1_alg».proof.Proof.LibVarLaw
import proofs.«104798_j89043261980674_1_alg».proof.Proof.LibMeanGcn

noncomputable section

open Idealize.ShloMosaic Idealize.ShloMosaic.ValueIdx Cert.Lib.MeanGcn
open scoped BigOperators

namespace Cert.Spec

variable {n k c : ℕ}

theorem isR_sub {x y : EReal} (hx : IsR x) (hy : IsR y) : IsR (x - y) := by
  obtain ⟨a, rfl⟩ := hx; obtain ⟨b, rfl⟩ := hy; exact ⟨a - b, (EReal.coe_sub a b).symm⟩

theorem isR_max {x y : EReal} (hx : IsR x) (hy : IsR y) : IsR (max x y) := by
  rcases le_total x y with h | h
  · rw [max_eq_right h]; exact hy
  · rw [max_eq_left h]; exact hx

theorem isR_div_real {x : EReal} (hx : IsR x) {d : ℝ} (hd : d ≠ 0) : IsR (Ideal.div x (d : EReal)) := by
  obtain ⟨r, rfl⟩ := hx
  rw [Ideal.div_coe hd]
  exact ⟨r * (1 / d), (EReal.coe_mul r (1 / d)).symm⟩

theorem isR_rsqrt_pos {r : ℝ} (hr : 0 < r) : IsR (Ideal.rsqrt (r : EReal)) := by
  rw [Ideal.rsqrt_coe, if_neg (not_lt.mpr hr.le), if_neg hr.ne']
  exact ⟨_, rfl⟩

/-- A product of real matrices is real. -/
theorem mm_real (x : Mat n k) (w : Mat k c) (hx : IsReal x) (hw : IsReal w) : IsReal (mm x w) :=
  fun _ => IsR.sum _ _ fun _ _ => IsR.mul (hx _) (hw _)

/-- Adding a real row keeps a real matrix real. -/
theorem addRow_real (h : Mat n c) (b : Mat 1 c) (hh : IsReal h) (hb : IsReal b) : IsReal (addRow h b) :=
  fun i => IsR.add (hh i) (hb _)

theorem colSum_real (h : Mat n c) (hh : IsReal h) : IsReal (colSum h) :=
  fun _ => IsR.sum _ _ fun _ _ => hh _

theorem rowDiv_real (s : Mat 1 c) (hs : IsReal s) {d : ℝ} (hd : d ≠ 0) : IsReal (rowDiv s (d : EReal)) :=
  fun i => isR_div_real (hs i) hd

/-- THE VARIANCE LAW on a matrix of real entries, column by column: E[x²] − E[x]² is the mean of the squared
    deviations from the mean. -/
theorem var_moments_eq_deviations (h : Mat n c) (hh : IsReal h) (hn : (n : ℝ) ≠ 0) :
    varOfMoments (colSumSq h) (rowDiv (colSum h) ((n : ℝ) : EReal)) ((n : ℝ) : EReal)
      = varOfDeviations h ((n : ℝ) : EReal) := by
  funext i
  unfold varOfMoments varOfDeviations colSumSq colSum rowDiv
  exact (Cert.Lib.VarLaw.var_law (fun p : Fin n => h (ix2 p (i 1))) (fun p => hh _) (n : ℝ) hn (by simp)).symm

/-- The variance of a column of reals is a nonnegative real. -/
theorem varOfDeviations_nonneg_real (h : Mat n c) (hh : IsReal h) (hn : (n : ℝ) ≠ 0) (hn0 : 0 < (n : ℝ))
    (i : (⟨2, ![1, c]⟩ : Shape).Idx) :
    ∃ v : ℝ, 0 ≤ v ∧ varOfDeviations h ((n : ℝ) : EReal) i = (v : EReal) := by
  choose f hf using hh
  refine ⟨(∑ p : Fin n, (f (ix2 p (i 1)) - (∑ r : Fin n, f (ix2 r (i 1))) * (1 / (n : ℝ)))
      * (f (ix2 p (i 1)) - (∑ r : Fin n, f (ix2 r (i 1))) * (1 / (n : ℝ)))) * (1 / (n : ℝ)), ?_, ?_⟩
  · refine mul_nonneg (Finset.sum_nonneg fun p _ => mul_self_nonneg _) (by positivity)
  · unfold varOfDeviations
    simp only [hf, Ideal.div_coe hn, ← Cert.Lib.VarLaw.coe_sum, ← EReal.coe_mul, ← EReal.coe_sub]

/-- Batch normalisation followed by the positive part keeps real entries real, when the variance row is a row of
    nonnegative reals and ε a positive real. -/
theorem bnRelu_real (h : Mat n c) (mean var g be : Mat 1 c) (eps : EReal) (hh : IsReal h) (hm : IsReal mean)
    (hv : ∀ i, ∃ v : ℝ, 0 ≤ v ∧ var i = (v : EReal)) (hg : IsReal g) (hb : IsReal be)
    (he : ∃ e : ℝ, 0 < e ∧ eps = (e : EReal)) : IsReal (bnRelu h mean var g be eps) := by
  intro i
  obtain ⟨v, hv0, hv⟩ := hv (ix2 (0 : Fin 1) (i 1))
  obtain ⟨e, he0, rfl⟩ := he
  unfold bnRelu
  rw [hv, ← EReal.coe_add]
  exact isR_max ((((isR_sub (hh i) (hm _)).mul (isR_rsqrt_pos (by linarith))).mul (hg _)).add (hb _)) IsR.zero

end Cert.Spec

end
-- ==== Proof.Model.lean ====
/-
  The whole model over extended reals, with the neighbour aggregation and the way the variance row is formed left as
  parameters: a hidden layer is batch-norm + relu of (aggregate (x · w) + b) with the batch's own column statistics;
  the model is two hidden layers and a log-softmax of a third convolution. The two programs form the variance row in
  two ways (from the moments, or from the deviations); on real inputs, with an aggregation that keeps real entries
  real, the two models are equal.
-/
import proofs.«104798_j89043261980674_1_alg».proof.Proof.Stats
import proofs.«104798_j89043261980674_1_alg».proof.Proof.SpecRows
import proofs.«104798_j89043261980674_1_alg».proof.Proof.SpecSoftmax

noncomputable section

open Idealize.ShloMosaic Idealize.ShloMosaic.ValueIdx
open scoped BigOperators

namespace Cert.Spec

variable {n k c c' : ℕ}

/-- The variance row from the two moments. -/
def varM (d : EReal) (B : Mat n c) : Mat 1 c := varOfMoments (colSumSq B) (rowDiv (colSum B) d) d

/-- The variance row from the deviations. -/
def varD (d : EReal) (B : Mat n c) : Mat 1 c := varOfDeviations B d

/-- The convolution before normalisation: aggregate (x · w), add the bias row. -/
def conv (agg : Mat n c → Mat n c) (x : Mat n k) (w : Mat k c) (b : Mat 1 c) : Mat n c := addRow (agg (mm x w)) b

/-- A hidden layer: batch-norm + relu of the convolution with the batch's own statistics. -/
def hidden (agg : Mat n c → Mat n c) (var : Mat n c → Mat 1 c) (d eps : EReal) (x : Mat n k) (w : Mat k c)
    (b g be : Mat 1 c) : Mat n c :=
  bnRelu (conv agg x w b) (rowDiv (colSum (conv agg x w b)) d) (var (conv agg x w b)) g be eps

/-- The model: two hidden layers, a third convolution, the row-wise log-softmax. -/
def model (agg : Mat n c → Mat n c) (agg' : Mat n c' → Mat n c') (var : Mat n c → Mat 1 c) (d eps : EReal)
    (x : Mat n k) (w1 : Mat k c) (b1 g1 be1 : Mat 1 c) (w2 : Mat c c) (b2 g2 be2 : Mat 1 c) (w3 : Mat c c')
    (b3 : Mat 1 c') : Mat n c' :=
  logSoftmax (conv agg' (hidden agg var d eps (hidden agg var d eps x w1 b1 g1 be1) w2 b2 g2 be2) w3 b3)

theorem conv_real (agg : Mat n c → Mat n c) (hagg : ∀ h, IsReal h → IsReal (agg h)) (x : Mat n k) (w : Mat k c)
    (b : Mat 1 c) (hx : IsReal x) (hw : IsReal w) (hb : IsReal b) : IsReal (conv agg x w b) :=
  addRow_real _ _ (hagg _ (mm_real x w hx hw)) hb

/-- On real inputs the two ways of forming the variance give one hidden layer. -/
theorem hidden_varM_eq_varD (agg : Mat n c → Mat n c) (hagg : ∀ h, IsReal h → IsReal (agg h)) (hn : (n : ℝ) ≠ 0)
    (eps : EReal) (x : Mat n k) (w : Mat k c) (b g be : Mat 1 c) (hx : IsReal x) (hw : IsReal w) (hb : IsReal b) :
    hidden agg (varM ((n : ℝ) : EReal)) ((n : ℝ) : EReal) eps x w b g be
      = hidden agg (varD ((n : ℝ) : EReal)) ((n : ℝ) : EReal) eps x w b g be := by
  unfold hidden varM varD
  rw [var_moments_eq_deviations _ (conv_real agg hagg x w b hx hw hb) hn]

/-- A hidden layer keeps real entries real. -/
theorem hidden_real (agg : Mat n c → Mat n c) (hagg : ∀ h, IsReal h → IsReal (agg h)) (hn : (n : ℝ) ≠ 0)
    (hn0 : 0 < (n : ℝ)) (eps : EReal) (he : ∃ e : ℝ, 0 < e ∧ eps = (e : EReal)) (x : Mat n k) (w : Mat k c)
    (b g be : Mat 1 c) (hx : IsReal x) (hw : IsReal w) (hb : IsReal b) (hg : IsReal g) (hbe : IsReal be) :
    IsReal (hidden agg (varD ((n : ℝ) : EReal)) ((n : ℝ) : EReal) eps x w b g be) := by
  have hB := conv_real agg hagg x w b hx hw hb
  exact bnRelu_real _ _ _ _ _ _ hB (rowDiv_real _ (colSum_real _ hB) hn)
    (fun i => varOfDeviations_nonneg_real _ hB hn hn0 i) hg hbe he

/-- On real inputs the two models are equal. -/
theorem model_varM_eq_varD (agg : Mat n c → Mat n c) (agg' : Mat n c' → Mat n c')
    (hagg : ∀ h, IsReal h → IsReal (agg h)) (hn : (n : ℝ) ≠ 0) (hn0 : 0 < (n : ℝ)) (eps : EReal)
    (he : ∃ e : ℝ, 0 < e ∧ eps = (e : EReal)) (x : Mat n k) (w1 : Mat k c) (b1 g1 be1 : Mat 1 c) (w2 : Mat c c)
    (b2 g2 be2 : Mat 1 c) (w3 : Mat c c') (b3 : Mat 1 c') (hx : IsReal x) (hw1 : IsReal w1) (hb1 : IsReal b1)
    (hg1 : IsReal g1) (hbe1 : IsReal be1) (hw2 : IsReal w2) (hb2 : IsReal b2) :
    model agg agg' (varM ((n : ℝ) : EReal)) ((n : ℝ) : EReal) eps x w1 b1 g1 be1 w2 b2 g2 be2 w3 b3
      = model agg agg' (varD ((n : ℝ) : EReal)) ((n : ℝ) : EReal) eps x w1 b1 g1 be1 w2 b2 g2 be2 w3 b3 := by
  unfold model
  rw [hidden_varM_eq_varD agg hagg hn eps x w1 b1 g1 be1 hx hw1 hb1,
    hidden_varM_eq_varD agg hagg hn eps _ w2 b2 g2 be2
      (hidden_real agg hagg hn hn0 eps he x w1 b1 g1 be1 hx hw1 hb1 hg1 hbe1) hw2 hb2]

end Cert.Spec

end
-- ==== Proof.KerOut.lean ====
/-
  The kernel program's result is the whole-array model with the program's own aggregation and the variance row formed
  from the two moments: the contents chain through the fourteen segments is followed from the result buffer back to
  the arguments, each region's final array being its layer of the arrays the region found.
-/
import proofs.«104798_j89043261980674_1_alg».proof.Proof.KerChain
import proofs.«104798_j89043261980674_1_alg».proof.Proof.KerReads
import proofs.«104798_j89043261980674_1_alg».proof.Proof.RegMm0
import proofs.«104798_j89043261980674_1_alg».proof.Proof.RegMm3
import proofs.«104798_j89043261980674_1_alg».proof.Proof.RegMm6
import proofs.«104798_j89043261980674_1_alg».proof.Proof.RegBn2
import proofs.«104798_j89043261980674_1_alg».proof.Proof.RegBn5
import proofs.«104798_j89043261980674_1_alg».proof.Proof.RegStats1
import proofs.«104798_j89043261980674_1_alg».proof.Proof.RegStats4
import proofs.«104798_j89043261980674_1_alg».proof.Proof.RegSoftmax7
import proofs.«104798_j89043261980674_1_alg».proof.Proof.Model

noncomputable section

namespace Cert.Ker

open Idealize.ShloMosaic Idealize.ShloMosaic.TcCoe
open Cert.KernelIdeal Cert.KernelIdeal.Gen Cert.Spec

variable (m : (ℓ : Loc nD τ sig) → Buf (Elt Ideal) ℓ) (ρ : Dev nD → PrngReg) (c : Dev nD)

/-- The aggregation at the program's two index lists, on 128 features. -/
abbrev aggK : Mat 100000 128 → Mat 100000 128 :=
  agg128 (F := Ideal) (sIdx (m ((c : Thread nD τ).loc main_arg1))) (tIdx (m ((c : Thread nD τ).loc main_arg2)))

/-- The aggregation at the program's two index lists, on 40 features. -/
abbrev aggK' : Mat 100000 40 → Mat 100000 40 :=
  agg40 (F := Ideal) (sIdx (m ((c : Thread nD τ).loc main_arg1))) (tIdx (m ((c : Thread nD τ).loc main_arg2)))

/-- The divisor 100000 and the float nearest 1e-5. -/
abbrev dK : EReal := ((100000 : ℝ) : EReal)
abbrev epsK : EReal := Ideal.ofBits .f32 0x3727C5AC#32

/-- The first hidden layer. -/
abbrev hid1 : Mat 100000 128 :=
  hidden (aggK m c) (varM dK) dK epsK (m ((c : Thread nD τ).loc main_arg0)) (m ((c : Thread nD τ).loc main_arg3)) (rowOf (m ((c : Thread nD τ).loc main_arg4))) (rowOf (m ((c : Thread nD τ).loc main_arg9))) (rowOf (m ((c : Thread nD τ).loc main_arg10)))

/-- The second hidden layer. -/
abbrev hid2 : Mat 100000 128 :=
  hidden (aggK m c) (varM dK) dK epsK (hid1 m c) (m ((c : Thread nD τ).loc main_arg5)) (rowOf (m ((c : Thread nD τ).loc main_arg6))) (rowOf (m ((c : Thread nD τ).loc main_arg11))) (rowOf (m ((c : Thread nD τ).loc main_arg12)))

theorem prod1 : (dat0 (F := Ideal) (V1 m ρ) c).arrAt 2 cfg0.N = mm (m ((c : Thread nD τ).loc main_arg0)) (m ((c : Thread nD τ).loc main_arg3)) := by
  rw [Cert.KernelIdeal.Reg0.final, entry0_x, entry0_w]

theorem conv1 : (dat1 (F := Ideal) (V3 m ρ) c).arrAt 2 cfg1.N
    = conv (aggK m c) (m ((c : Thread nD τ).loc main_arg0)) (m ((c : Thread nD τ).loc main_arg3)) (rowOf (m ((c : Thread nD τ).loc main_arg4))) := by
  rw [Cert.KernelIdeal.Reg1.final_biased]
  show addRow (V3 m ρ c (Pipeline.arrRef spec1 0)) (V3 m ρ c (Pipeline.arrRef spec1 1)) = _
  rw [entry1_x, entry1_b, prod1, reshapeRow128_eq]
  rfl

theorem sum1 : (dat1 (F := Ideal) (V3 m ρ) c).arrAt 3 cfg1.N
    = colSum (conv (aggK m c) (m ((c : Thread nD τ).loc main_arg0)) (m ((c : Thread nD τ).loc main_arg3)) (rowOf (m ((c : Thread nD τ).loc main_arg4)))) := by
  rw [Cert.KernelIdeal.Reg1.final_sum]
  show colSum (addRow (V3 m ρ c (Pipeline.arrRef spec1 0)) (V3 m ρ c (Pipeline.arrRef spec1 1))) = _
  rw [entry1_x, entry1_b, prod1, reshapeRow128_eq]
  rfl

theorem sumsq1 : (dat1 (F := Ideal) (V3 m ρ) c).arrAt 4 cfg1.N
    = colSumSq (conv (aggK m c) (m ((c : Thread nD τ).loc main_arg0)) (m ((c : Thread nD τ).loc main_arg3)) (rowOf (m ((c : Thread nD τ).loc main_arg4)))) := by
  rw [Cert.KernelIdeal.Reg1.final_sumsq]
  show colSumSq (addRow (V3 m ρ c (Pipeline.arrRef spec1 0)) (V3 m ρ c (Pipeline.arrRef spec1 1))) = _
  rw [entry1_x, entry1_b, prod1, reshapeRow128_eq]
  rfl

/-- Equal operands give equal layers. -/
theorem bnRelu_congr1 {h h' : Mat 100000 128} {mu mu' vr vr' g g' be be' : Mat 1 128} (eps : EReal) (e0 : h = h')
    (e1 : mu = mu') (e2 : vr = vr') (e3 : g = g') (e4 : be = be') :
    bnRelu h mu vr g be eps = bnRelu h' mu' vr' g' be' eps := by
  subst e0 e1 e2 e3 e4; rfl

theorem in1_x : V5 m ρ c (Pipeline.arrRef spec2 0) = conv (aggK m c) (m ((c : Thread nD τ).loc main_arg0)) (m ((c : Thread nD τ).loc main_arg3)) (rowOf (m ((c : Thread nD τ).loc main_arg4))) :=
  (entry2_x m ρ c).trans (conv1 m ρ c)

theorem in1_mean : V5 m ρ c (Pipeline.arrRef spec2 1)
    = rowDiv (colSum (conv (aggK m c) (m ((c : Thread nD τ).loc main_arg0)) (m ((c : Thread nD τ).loc main_arg3)) (rowOf (m ((c : Thread nD τ).loc main_arg4))))) dK :=
  (entry2_mean m ρ c).trans ((congrArg (meanRow (F := Ideal)) (sum1 m ρ c)).trans (meanRow_eq _))

theorem in1_var : V5 m ρ c (Pipeline.arrRef spec2 2)
    = varM dK (conv (aggK m c) (m ((c : Thread nD τ).loc main_arg0)) (m ((c : Thread nD τ).loc main_arg3)) (rowOf (m ((c : Thread nD τ).loc main_arg4)))) :=
  (entry2_var m ρ c).trans
    ((congrArg (fun q => varRow (F := Ideal) q (meanRow (F := Ideal) ((dat1 (F := Ideal) (V3 m ρ) c).arrAt 3 cfg1.N)))
        (sumsq1 m ρ c)).trans
      ((congrArg (fun s => varRow (F := Ideal) (colSumSq (conv (aggK m c) (m ((c : Thread nD τ).loc main_arg0)) (m ((c : Thread nD τ).loc main_arg3)) (rowOf (m ((c : Thread nD τ).loc main_arg4))))) (meanRow (F := Ideal) s))
          (sum1 m ρ c)).trans
        ((congrArg (varRow (F := Ideal) (colSumSq (conv (aggK m c) (m ((c : Thread nD τ).loc main_arg0)) (m ((c : Thread nD τ).loc main_arg3)) (rowOf (m ((c : Thread nD τ).loc main_arg4)))))) (meanRow_eq _)).trans
          (varRow_eq _ _))))

theorem in1_g : V5 m ρ c (Pipeline.arrRef spec2 3) = rowOf (m ((c : Thread nD τ).loc main_arg9)) :=
  (entry2_g m ρ c).trans (reshapeRow128_eq _)

theorem in1_be : V5 m ρ c (Pipeline.arrRef spec2 4) = rowOf (m ((c : Thread nD τ).loc main_arg10)) :=
  (entry2_be m ρ c).trans (reshapeRow128_eq _)

theorem hidden1 : (dat2 (F := Ideal) (V5 m ρ) c).arrAt 5 cfg2.N = hid1 m c :=
  (Cert.KernelIdeal.Reg2.final (V5 m ρ) c).trans
    (bnRelu_congr1 epsK (in1_x m ρ c) (in1_mean m ρ c) (in1_var m ρ c) (in1_g m ρ c) (in1_be m ρ c))

theorem prod2 : (dat3 (F := Ideal) (V6 m ρ) c).arrAt 2 cfg3.N = mm (hid1 m c) (m ((c : Thread nD τ).loc main_arg5)) := by
  rw [Cert.KernelIdeal.Reg3.final, entry3_x, entry3_w, hidden1]

theorem conv2 : (dat4 (F := Ideal) (V8 m ρ) c).arrAt 2 cfg4.N
    = conv (aggK m c) (hid1 m c) (m ((c : Thread nD τ).loc main_arg5)) (rowOf (m ((c : Thread nD τ).loc main_arg6))) := by
  rw [Cert.KernelIdeal.Reg4.final_biased]
  show addRow (V8 m ρ c (Pipeline.arrRef spec4 0)) (V8 m ρ c (Pipeline.arrRef spec4 1)) = _
  rw [entry4_x, entry4_b, prod2, reshapeRow128_eq]
  rfl

theorem sum2 : (dat4 (F := Ideal) (V8 m ρ) c).arrAt 3 cfg4.N
    = colSum (conv (aggK m c) (hid1 m c) (m ((c : Thread nD τ).loc main_arg5)) (rowOf (m ((c : Thread nD τ).loc main_arg6)))) := by
  rw [Cert.KernelIdeal.Reg4.final_sum]
  show colSum (addRow (V8 m ρ c (Pipeline.arrRef spec4 0)) (V8 m ρ c (Pipeline.arrRef spec4 1))) = _
  rw [entry4_x, entry4_b, prod2, reshapeRow128_eq]
  rfl

theorem sumsq2 : (dat4 (F := Ideal) (V8 m ρ) c).arrAt 4 cfg4.N
    = colSumSq (conv (aggK m c) (hid1 m c) (m ((c : Thread nD τ).loc main_arg5)) (rowOf (m ((c : Thread nD τ).loc main_arg6)))) := by
  rw [Cert.KernelIdeal.Reg4.final_sumsq]
  show colSumSq (addRow (V8 m ρ c (Pipeline.arrRef spec4 0)) (V8 m ρ c (Pipeline.arrRef spec4 1))) = _
  rw [entry4_x, entry4_b, prod2, reshapeRow128_eq]
  rfl

/-- Equal operands give equal layers. -/
theorem bnRelu_congr2 {h h' : Mat 100000 128} {mu mu' vr vr' g g' be be' : Mat 1 128} (eps : EReal) (e0 : h = h')
    (e1 : mu = mu') (e2 : vr = vr') (e3 : g = g') (e4 : be = be') :
    bnRelu h mu vr g be eps = bnRelu h' mu' vr' g' be' eps := by
  subst e0 e1 e2 e3 e4; rfl

theorem in2_x : V10 m ρ c (Pipeline.arrRef spec5 0) = conv (aggK m c) (hid1 m c) (m ((c : Thread nD τ).loc main_arg5)) (rowOf (m ((c : Thread nD τ).loc main_arg6))) :=
  (entry5_x m ρ c).trans (conv2 m ρ c)

theorem in2_mean : V10 m ρ c (Pipeline.arrRef spec5 1)
    = rowDiv (colSum (conv (aggK m c) (hid1 m c) (m ((c : Thread nD τ).loc main_arg5)) (rowOf (m ((c : Thread nD τ).loc main_arg6))))) dK :=
  (entry5_mean m ρ c).trans ((congrArg (meanRow (F := Ideal)) (sum2 m ρ c)).trans (meanRow_eq _))

theorem in2_var : V10 m ρ c (Pipeline.arrRef spec5 2)
    = varM dK (conv (aggK m c) (hid1 m c) (m ((c : Thread nD τ).loc main_arg5)) (rowOf (m ((c : Thread nD τ).loc main_arg6)))) :=
  (entry5_var m ρ c).trans
    ((congrArg (fun q => varRow (F := Ideal) q (meanRow (F := Ideal) ((dat4 (F := Ideal) (V8 m ρ) c).arrAt 3 cfg4.N)))
        (sumsq2 m ρ c)).trans
      ((congrArg (fun s => varRow (F := Ideal) (colSumSq (conv (aggK m c) (hid1 m c) (m ((c : Thread nD τ).loc main_arg5)) (rowOf (m ((c : Thread nD τ).loc main_arg6))))) (meanRow (F := Ideal) s))
          (sum2 m ρ c)).trans
        ((congrArg (varRow (F := Ideal) (colSumSq (conv (aggK m c) (hid1 m c) (m ((c : Thread nD τ).loc main_arg5)) (rowOf (m ((c : Thread nD τ).loc main_arg6)))))) (meanRow_eq _)).trans
          (varRow_eq _ _))))

theorem in2_g : V10 m ρ c (Pipeline.arrRef spec5 3) = rowOf (m ((c : Thread nD τ).loc main_arg11)) :=
  (entry5_g m ρ c).trans (reshapeRow128_eq _)

theorem in2_be : V10 m ρ c (Pipeline.arrRef spec5 4) = rowOf (m ((c : Thread nD τ).loc main_arg12)) :=
  (entry5_be m ρ c).trans (reshapeRow128_eq _)

theorem hidden2 : (dat5 (F := Ideal) (V10 m ρ) c).arrAt 5 cfg5.N = hid2 m c :=
  (Cert.KernelIdeal.Reg5.final (V10 m ρ) c).trans
    (bnRelu_congr2 epsK (in2_x m ρ c) (in2_mean m ρ c) (in2_var m ρ c) (in2_g m ρ c) (in2_be m ρ c))

theorem prod3 : (dat6 (F := Ideal) (V11 m ρ) c).arrAt 2 cfg6.N = mm (hid2 m c) (m ((c : Thread nD τ).loc main_arg7)) := by
  rw [Cert.KernelIdeal.Reg6.final, entry6_x, entry6_w, hidden2]

/-- The kernel program's result buffer ends at the model of the arguments. -/
theorem out_eq : W14 (F := Ideal) m ρ c (Proc.devRef .tc main_v90)
    = model (aggK m c) (aggK' m c) (varM dK) dK epsK (m ((c : Thread nD τ).loc main_arg0)) (m ((c : Thread nD τ).loc main_arg3)) (rowOf (m ((c : Thread nD τ).loc main_arg4))) (rowOf (m ((c : Thread nD τ).loc main_arg9))) (rowOf (m ((c : Thread nD τ).loc main_arg10)))
        (m ((c : Thread nD τ).loc main_arg5)) (rowOf (m ((c : Thread nD τ).loc main_arg6))) (rowOf (m ((c : Thread nD τ).loc main_arg11))) (rowOf (m ((c : Thread nD τ).loc main_arg12))) (m ((c : Thread nD τ).loc main_arg7)) (rowOf (m ((c : Thread nD τ).loc main_arg8))) := by
  rw [result, Cert.KernelIdeal.Reg7.final, entry7_x, entry7_b, prod3, reshapeRow40_eq]
  rfl

end Cert.Ker

end
-- ==== Proof.LibHostColSum.lean ====
/-
  The host's float sum over the FIRST axis of a matrix, read at a column, over arbitrary extents and at the ideal
  values: the sum over axis 0 of an `[a, b]` matrix from an initial value reads, at column `q`, the initial value plus
  the sum of the column's `a` entries. The column companion of the row sum. (Nothing here mentions a program.)
-/
import Idealize.ShloMosaic.Lib.ValueIdx
import Idealize.ShloMosaic.Lib.IdealHost
import Idealize.ShloMosaic.PureOps.Ideal.Laws

noncomputable section

open scoped BigOperators

namespace Cert.Lib.HostColSum

open Idealize.ShloMosaic Idealize.ShloMosaic.ValueIdx

/-- Column `q` of an `[a, b]` matrix with row `k` put back is `(k, q)`. -/
theorem lift_col_eq {a b : ℕ} (h : (⟨2, ![a, b]⟩ : Shape).Reduces [0] (⟨1, ![b]⟩ : Shape)) (q : Fin b) (k : Fin a) :
    h.lift (ix1 q) k = ix2 k q := by
  funext c; apply Fin.ext
  fin_cases c <;> rfl

/-- The host's sum of each column of an `[a, b]` matrix: at `q` the initial value plus the sum of the column's entries. -/
theorem hostReduceAdd_cols_apply {φ : FTy} {a b : ℕ} {u : Shape} (x : FVec Ideal ⟨2, ![a, b]⟩ φ) (init : u.Idx → Ideal φ)
    (h' : (⟨2, ![a, b]⟩ : Shape).ReducesTo [0] ⟨1, ![b]⟩) (hu : 0 < u.numel) (q : Fin b) :
    Host.reduceAdd x init h' hu (ix1 q) = init (Shape.Idx.first hu) + ∑ k : Fin a, x (ix2 k q) := by
  have h : (⟨2, ![a, b]⟩ : Shape).Reduces [0] ⟨1, ![b]⟩ := ⟨h'.1, Nat.one_pos, h'.2⟩
  rw [hostReduceAdd_apply, Ideal.hostReduceAdd_single h' h]
  show init (Shape.Idx.first hu) + ∑ k : Fin a, x (h.lift (ix1 q) k) = _
  exact congrArg (init (Shape.Idx.first hu) + ·) (Finset.sum_congr rfl fun k _ => congrArg x (lift_col_eq h q k))

end Cert.Lib.HostColSum

end
-- ==== Proof.LibRowBroadcastInDim.lean ====
/-
  A one-row array spread over many rows by the host's broadcast along both axes, read at an index, over arbitrary
  extents: a `[1, b]` row broadcast to `[a, b]` reads, at `(e, c)`, the row at `(0, c)`. (The column form, an `[a, 1]`
  column broadcast to `[a, b]`, is in LibEdgeReads; the kernel's `vector.broadcast` of a row is the library's.)
-/
import Idealize.ShloMosaic.Lib.Pipeline.Value
import Idealize.ShloMosaic.Lib.ValueIdx

namespace Cert.Lib.RowBroadcastInDim

open Idealize.ShloMosaic Idealize.ShloMosaic.ValueIdx

variable {α : Type}

/-- A row broadcast down the rows: at `(e, c)` the row at `(0, c)`. -/
theorem row_broadcast_apply {a b : ℕ} (x : (⟨2, ![1, b]⟩ : Shape).Idx → α)
    (h : (⟨2, ![1, b]⟩ : Shape).BroadcastsInDim ⟨2, ![a, b]⟩ ![0, 1]) (e : Fin a) (c : Fin b) :
    broadcastInDim ⟨2, ![a, b]⟩ ![0, 1] h x (ix2 e c) = x (ix2 (0 : Fin 1) c) :=
  broadcastInDim_apply _ h x _ _ fun d => by
    match d with
    | ⟨0, _⟩ =>
      show (0 : ℕ) = if (1 : ℕ) = 1 then 0 else e.val
      rw [if_pos rfl]
    | ⟨1, _⟩ =>
      show c.val = if b = 1 then 0 else c.val
      split
      · have := c.isLt; omega
      · rfl

end Cert.Lib.RowBroadcastInDim
-- ==== Proof.RefReadStats.lean ====
/-
  The reference's bias addition and batch statistics read entry by entry: a vector repeated down the rows, the column
  means as column sums over 100000, and the column variances as the mean of squared deviations from the column mean
  (the divisor 100000 − 0 is positive, so the guard of the variance keeps its value).
-/
import proofs.«104798_j89043261980674_1_alg».proof.Proof.RefStages
import proofs.«104798_j89043261980674_1_alg».proof.Proof.SpecRows
import proofs.«104798_j89043261980674_1_alg».proof.Proof.Consts
import proofs.«104798_j89043261980674_1_alg».proof.Proof.LibHostColSum
import proofs.«104798_j89043261980674_1_alg».proof.Proof.LibRowBroadcastInDim
import proofs.«104798_j89043261980674_1_alg».proof.Proof.LibReshapeBroadcast
import Idealize.ShloMosaic.Lib.IdealHost
import Idealize.ShloMosaic.Lib.ValueIdx

noncomputable section

open Idealize.ShloMosaic Idealize.ShloMosaic.ValueIdx
open scoped BigOperators

namespace Cert.Ref

open Cert.ReferenceIdeal Cert.ReferenceIdeal.Gen
open Cert.Lib.RowBroadcastInDim Cert.Lib.ReshapeBroadcast Cert.Lib.HostColSum

/-- A length-128 vector repeated down the rows reads, at (p, q), the vector's entry q. -/
theorem rows128_apply (v : FVec Ideal S128 .f32) (p : Fin 100000) (q : Fin 128) :
    rows128 (F := Ideal) v (ix2 p q) = v (ix1 q) := by
  unfold rows128
  exact (row_broadcast_apply _ _ p q).trans (row_of_vector_apply _ _ 0 q)

/-- Adding the repeated vector is adding the row to every row. -/
theorem add_rows128_eq (a : FVec Ideal S100000x128 .f32) (b : FVec Ideal S128 .f32) :
    addf a (rows128 (F := Ideal) b) = Cert.Spec.addRow a (Cert.Spec.rowOf b) := by
  funext i
  obtain ⟨p, q, rfl⟩ : ∃ (p : Fin 100000) (q : Fin 128), i = ix2 p q := ⟨i 0, i 1, eq_ix2 i⟩
  show a (ix2 p q) + rows128 (F := Ideal) b (ix2 p q) = a (ix2 p q) + b (ix1 q)
  rw [rows128_apply]

/-- The column mean at q: the column's sum over 100000. -/
theorem mean_apply (h : FVec Ideal S100000x128 .f32) (q : Fin 128) :
    mean (F := Ideal) h (ix1 q) = Ideal.div (∑ p : Fin 100000, h (ix2 p q)) ((100000 : ℝ) : EReal) := by
  unfold mean
  rw [hostDivf_apply, hostReduceAdd_cols_apply, splat_apply, Cert.Consts.ofBits_1e5]
  show Ideal.div (Ideal.ofBits .f32 0x00000000#32 + _) _ = _
  rw [Cert.Consts.ofBits_zero, zero_add]

theorem rowOf_mean_eq (h : FVec Ideal S100000x128 .f32) :
    Cert.Spec.rowOf (mean (F := Ideal) h) = Cert.Spec.rowDiv (Cert.Spec.colSum h) ((100000 : ℝ) : EReal) := by
  funext i
  exact mean_apply h (i 1)

/-- The divisor of the variance is 100000 − 0. -/
theorem varDivisor_eq (j : S_.Idx) : varDivisor (F := Ideal) j = ((100000 : ℝ) : EReal) := by
  show Ideal.ofBits .f32 0x47C35000#32 - (((0#32 : BitVec 32).toInt : ℝ) : EReal) = _
  rw [Cert.Consts.ofBits_1e5]
  simp

/-- A squared difference of two arrays, entry by entry. -/
theorem sq_dev_apply {s : Shape} (h M : FVec Ideal s .f32) (i : s.Idx) :
    mulf (subf h M) (subf h M) i = (h i - M i) * (h i - M i) := rfl

/-- The column variance at q: the mean of the squared deviations from the column mean. -/
theorem var_apply (h : FVec Ideal S100000x128 .f32) (q : Fin 128) :
    var (F := Ideal) h (ix1 q)
      = Ideal.div (∑ p : Fin 100000,
          (h (ix2 p q) - Ideal.div (∑ r : Fin 100000, h (ix2 r q)) ((100000 : ℝ) : EReal))
            * (h (ix2 p q) - Ideal.div (∑ r : Fin 100000, h (ix2 r q)) ((100000 : ℝ) : EReal)))
          ((100000 : ℝ) : EReal) := by
  have hc : (broadcastInDim S128 ![] bcast_S_S128
      (cmpf (F := Ideal) .ogt (varDivisor (F := Ideal)) (constant (F := Ideal) S_ .f32 0x00000000#32))) (ix1 q) = 1#1 := by
    rw [broadcastInDim_scalar_apply]
    show Ideal.cmp .ogt (varDivisor (F := Ideal) _) (Ideal.ofBits .f32 0x00000000#32) = 1#1
    rw [varDivisor_eq, Cert.Consts.ofBits_zero]
    simp [Ideal.cmp]
  have hm : ∀ p : Fin 100000,
      (broadcastInDim S100000x128 ![0, 1] bcast_S1x128_S100000x128_0_1
        (Host.divf
          (broadcastInDim S1x128 ![1] bcast_S128_S1x128_1
            (Host.reduceAdd h (constant (F := Ideal) S_ .f32 0x00000000#32) reducesTo_S100000x128_S128_d0 h_S_))
          (broadcastInDim S1x128 ![] bcast_S_S1x128 (constant (F := Ideal) S_ .f32 0x47C35000#32)))) (ix2 p q)
        = Ideal.div (∑ r : Fin 100000, h (ix2 r q)) ((100000 : ℝ) : EReal) := by
    intro p
    rw [row_broadcast_apply, hostDivf_apply, row_of_vector_apply, hostReduceAdd_cols_apply, splat_apply,
      Cert.Consts.ofBits_1e5]
    show Ideal.div (Ideal.ofBits .f32 0x00000000#32 + _) _ = _
    rw [Cert.Consts.ofBits_zero, zero_add]
  unfold var
  rw [ValueIdx.select_apply, hc, ValueIdx.select_one, hostDivf_apply, hostReduceAdd_cols_apply,
    broadcastInDim_scalar_apply, varDivisor_eq]
  show Ideal.div (Ideal.ofBits .f32 0x00000000#32 + ∑ k : Fin 100000, _) _ = _
  rw [Cert.Consts.ofBits_zero, zero_add]
  simp only [sq_dev_apply, hm]

theorem rowOf_var_eq (h : FVec Ideal S100000x128 .f32) :
    Cert.Spec.rowOf (var (F := Ideal) h) = Cert.Spec.varOfDeviations h ((100000 : ℝ) : EReal) := by
  funext i
  exact var_apply h (i 1)

end Cert.Ref

end
-- ==== Proof.RefReadA.lean ====
/-
  The reference's dense layers, read as whole-array functions at the ideal values.

  The host's contraction of a [100000, 128] array with a [128, c] weight over the shared axis is, entry by entry, the
  sum Σ_k x(r, k) · w(k, q): the matrix product. The host's batch normalisation with given statistics spreads each
  length-128 vector (mean, variance, scale, shift) along the rows, so at entry (r, q) it reads the vectors at q; the
  reciprocal square root is taken of the variance plus ε entry by entry before spreading, which is the same as after;
  and the positive part is the maximum with a zero splat. Entry by entry this is
  max (((h − mean_q) · rsqrt (var_q + ε)) · g_q + be_q) 0 with the four vectors seen as [1, 128] rows.
-/
import proofs.«104798_j89043261980674_1_alg».proof.Proof.RefStages
import proofs.«104798_j89043261980674_1_alg».proof.Proof.Spec
import proofs.«104798_j89043261980674_1_alg».proof.Proof.LibPlainDot
import proofs.«104798_j89043261980674_1_alg».proof.Proof.LibReshapeBroadcast
import proofs.«104798_j89043261980674_1_alg».proof.Proof.RefReadStats
import Idealize.ShloMosaic.PureOps.Ideal.Laws
import Idealize.ShloMosaic.Lib.ValueIdx

noncomputable section

namespace Cert.Ref

open Idealize.ShloMosaic Idealize.ShloMosaic.ValueIdx Cert.ReferenceIdeal Cert.ReferenceIdeal.Gen
open scoped BigOperators

/-- A length-128 vector as a [1, 128] row: the row's entry (0, q) is the vector's entry q. -/
def row (v : (⟨1, ![128]⟩ : Shape).Idx → EReal) : Cert.Spec.Mat 1 128 := fun i => v (ValueIdx.ix1 (i 1))

/-- The row at (0, q) is the vector at q. -/
theorem row_apply (v : (⟨1, ![128]⟩ : Shape).Idx → EReal) (u : Fin 1) (q : Fin 128) : row v (ix2 u q) = v (ix1 q) := rfl

/-- The host's reciprocal square root of an array, at an index. -/
theorem hostRsqrt_apply {s : Shape} {φ : FTy} (x : FVec Ideal s φ) (i : s.Idx) :
    Host.rsqrt x i = Ideal.rsqrt (x i) := rfl

/-- The host's product with a [128, 128] weight is the matrix product. -/
theorem dot128_eq (x : Cert.Spec.Mat 100000 128) (w : Cert.Spec.Mat 128 128) :
    dot128 (F := Ideal) x w = Cert.Spec.mm x w := by
  funext i
  exact Cert.Lib.PlainDot.dotGeneral_apply 100000 128 128 none .single x w i

/-- The host's product with a [128, 40] weight is the matrix product. -/
theorem dot40_eq (x : Cert.Spec.Mat 100000 128) (w : Cert.Spec.Mat 128 40) :
    dot40 (F := Ideal) x w = Cert.Spec.mm x w := by
  funext i
  exact Cert.Lib.PlainDot.dotGeneral_apply 100000 128 40 none .single x w i

/-- The host's batch normalisation with given statistics followed by the positive part, entry by entry. -/
theorem relu_bnWith_eq (h : Cert.Spec.Mat 100000 128) (mu vr g be : (⟨1, ![128]⟩ : Shape).Idx → EReal) :
    relu (F := Ideal) (bnWith (F := Ideal) h mu vr g be)
      = Cert.Spec.bnRelu h (row mu) (row vr) (row g) (row be) (Ideal.ofBits .f32 0x3727C5AC#32) := by
  funext i
  obtain ⟨e, c, rfl⟩ : ∃ (e : Fin 100000) (c : Fin 128), i = ix2 e c := ⟨i 0, i 1, eq_ix2 i⟩
  unfold relu bnWith
  rw [maximumf_apply, addf_apply, mulf_apply, mulf_apply, subf_apply, rows128_apply, rows128_apply, rows128_apply,
    rows128_apply, hostRsqrt_apply, addf_apply, Cert.Lib.ReshapeBroadcast.splat_apply,
    Cert.Lib.ReshapeBroadcast.splat_apply, Ideal.ofBits_zero_f32]
  rfl

end Cert.Ref

end
-- ==== Proof.LibLastAxisMax.lean ====
/-
  The host's one-operand reduce with a maximum body over the LAST axis, read at an index given by coordinates, over
  arbitrary extents and at the ideal values:
  • of an `[a, b, n]` array at `(p, q)`, and
  • of an `[a, n]` matrix at `p`:
  the fold of `max` along that axis from the initial value. (The middle-axis form is in LibColumnReads; the kernel-side
  row maximum in LibRowReads.)
-/
import Idealize.ShloMosaic.Lib.ValueIdx
import Idealize.ShloMosaic.PureOps.Ideal.Laws

namespace Cert.LibLastAxisMax

open Idealize.ShloMosaic Idealize.ShloMosaic.ValueIdx

/-- Position `(p, q)` of an `[a, b, n]` array with last coordinate `k` put back is `(p, q, k)`. -/
theorem lift_last3 {a b n : ℕ} (h : (⟨3, ![a, b, n]⟩ : Shape).Reduces [2] (⟨2, ![a, b]⟩ : Shape)) (p : Fin a) (q : Fin b)
    (k : Fin n) : h.lift (ix2 p q) k = ix3 p q k := by
  funext c; apply Fin.ext
  fin_cases c <;> rfl

/-- Row `p` of an `[a, n]` matrix with column `k` put back is `(p, k)`. -/
theorem lift_last2 {a n : ℕ} (h : (⟨2, ![a, n]⟩ : Shape).Reduces [1] (⟨1, ![a]⟩ : Shape)) (p : Fin a) (k : Fin n) :
    h.lift (ix1 p) k = ix2 p k := by
  funext c; apply Fin.ext
  fin_cases c <;> rfl

/-- The host's reduce with a maximum body over the last axis of an `[a, b, n]` array, at `(p, q)`, is the fold of
    `max` over that axis from the initial value. -/
theorem hostLastMax3_apply {φ : FTy} {a b n : ℕ} {u : Shape} (x : FVec Ideal ⟨3, ![a, b, n]⟩ φ) (init : FVec Ideal u φ)
    (h' : (⟨3, ![a, b, n]⟩ : Shape).ReducesTo [2] (⟨2, ![a, b]⟩ : Shape))
    (h : (⟨3, ![a, b, n]⟩ : Shape).Reduces [2] (⟨2, ![a, b]⟩ : Shape)) (hu : 0 < u.numel) (p : Fin a) (q : Fin b) :
    Host.reduce (FloatOps.maximumf (F := Ideal) (φ := φ)) x init h' hu (ix2 p q)
      = (Finset.univ : Finset (Fin n)).fold max (init (Shape.Idx.first hu)) (fun k => x (ix3 p q k)) := by
  rw [Host.reduce_eq_fold_single (FloatOps.maximumf (F := Ideal) (φ := φ)) x init h' h hu]
  exact congrArg (fun f => Finset.fold max (init (Shape.Idx.first hu)) f (Finset.univ : Finset (Fin n)))
    (funext fun k => congrArg x (lift_last3 h p q k))

/-- The host's reduce with a maximum body over the last axis of an `[a, n]` matrix, at `p`, is the fold of `max`
    along row `p` from the initial value. -/
theorem hostLastMax2_apply {φ : FTy} {a n : ℕ} {u : Shape} (x : FVec Ideal ⟨2, ![a, n]⟩ φ) (init : FVec Ideal u φ)
    (h' : (⟨2, ![a, n]⟩ : Shape).ReducesTo [1] (⟨1, ![a]⟩ : Shape))
    (h : (⟨2, ![a, n]⟩ : Shape).Reduces [1] (⟨1, ![a]⟩ : Shape)) (hu : 0 < u.numel) (p : Fin a) :
    Host.reduce (FloatOps.maximumf (F := Ideal) (φ := φ)) x init h' hu (ix1 p)
      = (Finset.univ : Finset (Fin n)).fold max (init (Shape.Idx.first hu)) (fun k => x (ix2 p k)) := by
  rw [Host.reduce_eq_fold_single (FloatOps.maximumf (F := Ideal) (φ := φ)) x init h' h hu]
  exact congrArg (fun f => Finset.fold max (init (Shape.Idx.first hu)) f (Finset.univ : Finset (Fin n)))
    (funext fun k => congrArg x (lift_last2 h p k))

end Cert.LibLastAxisMax
-- ==== Proof.LibHostRowSum.lean ====
/-
  The host's float sum over the second axis of a matrix, read at a row, over arbitrary extents and at the ideal values:
  the sum over axis 1 of an `[a, b]` matrix from an initial value reads, at row `e`, the initial value plus the sum of
  the row's `b` entries. (Nothing here mentions a program.)
-/
import Idealize.ShloMosaic.Lib.ValueIdx
import Idealize.ShloMosaic.Lib.IdealHost
import Idealize.ShloMosaic.PureOps.Ideal.Laws

noncomputable section

open scoped BigOperators

namespace Cert.Lib.HostRowSum

open Idealize.ShloMosaic Idealize.ShloMosaic.ValueIdx

/-- Row `e` of an `[a, b]` matrix with column `k` put back is `(e, k)`. -/
theorem lift_row_eq {a b : ℕ} (h : (⟨2, ![a, b]⟩ : Shape).Reduces [1] (⟨1, ![a]⟩ : Shape)) (e : Fin a) (k : Fin b) :
    h.lift (ix1 e) k = ix2 e k := by
  funext c; apply Fin.ext
  fin_cases c <;> rfl

/-- The host's sum of each row of an `[a, b]` matrix: at `e` the initial value plus the sum of the row's entries. -/
theorem hostReduceAdd_rows_apply {φ : FTy} {a b : ℕ} {u : Shape} (x : FVec Ideal ⟨2, ![a, b]⟩ φ) (init : u.Idx → Ideal φ)
    (h' : (⟨2, ![a, b]⟩ : Shape).ReducesTo [1] ⟨1, ![a]⟩) (hu : 0 < u.numel) (e : Fin a) :
    Host.reduceAdd x init h' hu (ix1 e) = init (Shape.Idx.first hu) + ∑ k : Fin b, x (ix2 e k) := by
  have h : (⟨2, ![a, b]⟩ : Shape).Reduces [1] ⟨1, ![a]⟩ := ⟨h'.1, Nat.one_pos, h'.2⟩
  rw [hostReduceAdd_apply, Ideal.hostReduceAdd_single h' h]
  show init (Shape.Idx.first hu) + ∑ k : Fin b, x (h.lift (ix1 e) k) = _
  exact congrArg (init (Shape.Idx.first hu) + ·) (Finset.sum_congr rfl fun k _ => congrArg x (lift_row_eq h e k))

end Cert.Lib.HostRowSum

end
-- ==== Proof.RefReadSoftmax.lean ====
/-
  The host's spelling of the last layer's tail read entry by entry at the ideal values.

  The reference computes the row-wise log-softmax of a [100000, 40] array with whole-array operations: the row maxima
  by a reduce with a maximum body over the last axis from −∞ (and one more maximum with −∞, which changes nothing), the
  maxima spread back along the rows as a column, the shifted rows, their exponentials, the row sums by a reduce-add
  over axis 1 from 0, the logarithm of the sums as a column, and the final difference. Entry (p, q) of each stage
  depends on row p only, and the composition is the log-softmax of the specification. The bias of the last
  convolution is a length-40 vector made a [1, 40] row and repeated down the rows: adding it is adding a row to every
  row.
-/
import proofs.«104798_j89043261980674_1_alg».proof.Proof.RefStages
import proofs.«104798_j89043261980674_1_alg».proof.Proof.SpecSoftmax
import proofs.«104798_j89043261980674_1_alg».proof.Proof.LibLastAxisMax
import proofs.«104798_j89043261980674_1_alg».proof.Proof.LibHostRowSum
import proofs.«104798_j89043261980674_1_alg».proof.Proof.LibEdgeReads
import proofs.«104798_j89043261980674_1_alg».proof.Proof.LibRowBroadcastInDim
import proofs.«104798_j89043261980674_1_alg».proof.Proof.LibReshapeBroadcast
import Idealize.ShloMosaic.Lib.IdealHost

noncomputable section

open Idealize.ShloMosaic Idealize.ShloMosaic.ValueIdx Cert.ReferenceIdeal Cert.ReferenceIdeal.Gen
open scoped BigOperators

namespace Cert.Ref

/-- The host's logarithm of an array, at an index. -/
theorem hostLog_apply {s : Shape} {φ : FTy} (x : FVec Ideal s φ) (i : s.Idx) : Host.log x i = Ideal.log (x i) := rfl

/-- The host's exponential of an array, at an index. -/
theorem hostExp_apply {s : Shape} {φ : FTy} (x : FVec Ideal s φ) (i : s.Idx) : Host.exp x i = Ideal.exp (x i) := rfl

/-- The host's row maxima are the specification's: the reduce is the fold of max along the row from −∞, and the
    further maximum with −∞ is the identity. -/
theorem rowMax40_apply (h : Cert.Spec.Mat 100000 40) (p : Fin 100000) :
    rowMax40 (F := Ideal) h (ix1 p) = Cert.Spec.rowMax h p := by
  unfold rowMax40
  rw [maximumf_apply, Cert.Lib.ReshapeBroadcast.splat_apply,
    Cert.LibLastAxisMax.hostLastMax2_apply h _ reducesTo_S100000x40_S100000_d1
      ⟨reducesTo_S100000x40_S100000_d1.1, Nat.one_pos, reducesTo_S100000x40_S100000_d1.2⟩ h_S_ p,
    constant_apply, Cert.Spec.ofBits_negInf, max_bot_left]
  rfl

/-- A length-100000 vector spread along the 40 columns reads, at (p, q), the vector at p. -/
theorem cols40_apply (v : (⟨1, ![100000]⟩ : Shape).Idx → EReal) (p : Fin 100000) (q : Fin 40) :
    cols40 (F := Ideal) v (ix2 p q) = v (ix1 p) := by
  unfold cols40
  rw [Cert.Lib.EdgeReads.column_broadcast_apply, Cert.Lib.EdgeReads.column_of_vector_apply]

/-- The shifted rows: entry (p, q) less the maximum of row p. -/
theorem shifted40_apply (h : Cert.Spec.Mat 100000 40) (p : Fin 100000) (q : Fin 40) :
    shifted40 (F := Ideal) h (ix2 p q) = h (ix2 p q) - Cert.Spec.rowMax h p := by
  unfold shifted40
  rw [subf_apply, cols40_apply, rowMax40_apply]

/-- The host's row-wise log-softmax is the specification's. -/
theorem logSoftmax_eq (h : Cert.Spec.Mat 100000 40) :
    Cert.Ref.logSoftmax (F := Ideal) h = Cert.Spec.logSoftmax h := by
  funext i
  obtain ⟨p, q, rfl⟩ : ∃ (p : Fin 100000) (q : Fin 40), i = ix2 p q := ⟨i 0, i 1, eq_ix2 i⟩
  unfold Cert.Ref.logSoftmax
  rw [subf_apply, Cert.Lib.EdgeReads.column_broadcast_apply, hostLog_apply, Cert.Lib.EdgeReads.column_of_vector_apply,
    Cert.Lib.HostRowSum.hostReduceAdd_rows_apply, constant_apply, Cert.Spec.ofBits_zero, zero_add, shifted40_apply,
    Cert.Spec.logSoftmax_apply]
  refine congrArg (fun s => (h (ix2 p q) - Cert.Spec.rowMax h p) - Ideal.log s) ?_
  refine Finset.sum_congr rfl fun k _ => ?_
  rw [hostExp_apply, shifted40_apply]

/-- Adding the bias vector, made a row and repeated down the rows, is adding a [1, 40] row to every row. -/
theorem addRows40_eq (a : Cert.Spec.Mat 100000 40) (b : (⟨1, ![40]⟩ : Shape).Idx → EReal) :
    addf (F := Ideal) (φ := .f32) a (Cert.Ref.rows40 (F := Ideal) b) = Cert.Spec.addRow a (fun i => b (ValueIdx.ix1 (i 1))) := by
  funext i
  obtain ⟨p, q, rfl⟩ : ∃ (p : Fin 100000) (q : Fin 40), i = ix2 p q := ⟨i 0, i 1, eq_ix2 i⟩
  rw [addf_apply]
  unfold Cert.Ref.rows40
  rw [Cert.Lib.RowBroadcastInDim.row_broadcast_apply, Cert.Lib.ReshapeBroadcast.row_of_vector_apply]
  rfl

end Cert.Ref

end
-- ==== Proof.RefOut.lean ====
/-
  The reference model is the whole-array model with the host's aggregation and the variance row formed from the
  deviations: each stage of the reference's spelling is read entry by entry and recognised as the model's layer.
-/
import proofs.«104798_j89043261980674_1_alg».proof.Proof.RefReadStats
import proofs.«104798_j89043261980674_1_alg».proof.Proof.RefReadA
import proofs.«104798_j89043261980674_1_alg».proof.Proof.RefReadSoftmax
import proofs.«104798_j89043261980674_1_alg».proof.Proof.Model

noncomputable section

open Idealize.ShloMosaic Idealize.ShloMosaic.ValueIdx

namespace Cert.Ref

open Cert.ReferenceIdeal Cert.ReferenceIdeal.Gen

/-- The reference's view of a vector as a row is the model's. -/
theorem row_eq_rowOf (v : (⟨1, ![128]⟩ : Shape).Idx → EReal) : Cert.Ref.row v = Cert.Spec.rowOf v := rfl

/-- A hidden layer of the reference is the model's hidden layer. -/
theorem hidden_eq (s t : IVec S740000 32) (x : FVec Ideal S100000x128 .f32) (w : FVec Ideal S128x128 .f32)
    (b g be : FVec Ideal S128 .f32) :
    relu (F := Ideal) (bn (conv128 s t x w b) g be)
      = Cert.Spec.hidden (agg128 (F := Ideal) s t) (Cert.Spec.varD ((100000 : ℝ) : EReal)) ((100000 : ℝ) : EReal)
          (Ideal.ofBits .f32 0x3727C5AC#32) x w (Cert.Spec.rowOf b) (Cert.Spec.rowOf g) (Cert.Spec.rowOf be) := by
  unfold bn
  rw [relu_bnWith_eq, row_eq_rowOf, row_eq_rowOf, row_eq_rowOf, row_eq_rowOf, rowOf_mean_eq, rowOf_var_eq]
  unfold conv128
  rw [add_rows128_eq, dot128_eq]
  rfl

/-- The reference's result is the model's. -/
theorem out_eq (x : FVec Ideal S100000x128 .f32) (a1 a2 : IVec S640000 32) (w1 : FVec Ideal S128x128 .f32)
    (b1 : FVec Ideal S128 .f32) (w2 : FVec Ideal S128x128 .f32) (b2 : FVec Ideal S128 .f32)
    (w3 : FVec Ideal S128x40 .f32) (b3 : FVec Ideal S40 .f32) (g1 be1 g2 be2 : FVec Ideal S128 .f32) :
    out (F := Ideal) x a1 a2 w1 b1 w2 b2 w3 b3 g1 be1 g2 be2
      = Cert.Spec.model (agg128 (F := Ideal) (sIdx a1) (tIdx a2)) (agg40 (F := Ideal) (sIdx a1) (tIdx a2))
          (Cert.Spec.varD ((100000 : ℝ) : EReal)) ((100000 : ℝ) : EReal) (Ideal.ofBits .f32 0x3727C5AC#32)
          x w1 (Cert.Spec.rowOf b1) (Cert.Spec.rowOf g1) (Cert.Spec.rowOf be1)
          w2 (Cert.Spec.rowOf b2) (Cert.Spec.rowOf g2) (Cert.Spec.rowOf be2) w3 (Cert.Spec.rowOf b3) := by
  unfold out
  rw [hidden_eq, hidden_eq, logSoftmax_eq]
  unfold conv40
  rw [addRows40_eq, dot40_eq]
  rfl

end Cert.Ref

end
-- ==== Proof.LibGlueEntries.lean ====
/-
  WHICH HOST OPERATIONS KEEP A PROPERTY OF THE ENTRIES, whatever their dimension numbers and whatever the index array
  (nothing here mentions a program).

  Every entry of a gather's result is an entry of its operand, and so is every entry of a broadcast's result: a property
  that all entries of the operand have, all entries of the result have. An index out of range only changes WHICH entry a
  gather reads (the start is clamped); it never produces a new value.

  An entry of an accumulating scatter's result is the operand's entry plus a finite sum of update entries (the updates
  whose landing place is that entry; an update whose index is out of range lands nowhere). So the result's entries are
  reals when the operand's and the updates' are, and they are nonnegative when the operand's and the updates' are.

  Also: the reciprocal square root of `max x 1`, for `x` a real, is a real, because `max x 1` is a real that is at
  least one, hence positive; and the entrywise reciprocal square root, maximum and product read at an entry.
-/
import proofs.«104798_j89043261980674_1_alg».proof.Proof.LibMeanGcn
import Idealize.ShloMosaic.PureOps.Ideal
import Idealize.ShloMosaic.PureOps.Ideal.Laws

noncomputable section

open scoped BigOperators

namespace Cert.Lib.GlueEntries

open Idealize.ShloMosaic Cert.Lib.MeanGcn

/-- A gather's entries are entries of its operand. -/
theorem gather_entries {α : Type} {s si t : Shape} {w : ℕ} (P : α → Prop) (d : GatherDims s si t) (x : s.Idx → α)
    (idx : IVec si w) (hx : ∀ i, P (x i)) (j : t.Idx) : P (Host.gather d x idx j) :=
  hx _

/-- A broadcast's entries are entries of its operand. -/
theorem broadcast_entries {α : Type} {s t : Shape} (P : α → Prop) (dims : Fin s.rank → Fin t.rank)
    (h : s.BroadcastsInDim t dims) (x : s.Idx → α) (hx : ∀ i, P (x i)) (j : t.Idx) :
    P (broadcastInDim t dims h x j) :=
  hx _

/-- An accumulating scatter of reals into reals has real entries. -/
theorem scatterAdd_real {φ : FTy} {s si u : Shape} {w : ℕ} (d : ScatterDims s si u) (x : s.Idx → EReal)
    (idx : IVec si w) (upd : u.Idx → EReal) (hx : ∀ i, IsR (x i)) (hu : ∀ j, IsR (upd j)) (i : s.Idx) :
    IsR (Host.scatterAdd (F := Ideal) (φ := φ) d x idx upd i) := by
  show IsR (Ideal.hostScatterAdd d x idx upd i)
  unfold Ideal.hostScatterAdd
  exact (hx i).add (IsR.sum _ _ fun j _ => hu j)

/-- An accumulating scatter of nonnegative updates into nonnegative entries has nonnegative entries. -/
theorem scatterAdd_nonneg {φ : FTy} {s si u : Shape} {w : ℕ} (d : ScatterDims s si u) (x : s.Idx → EReal)
    (idx : IVec si w) (upd : u.Idx → EReal) (hx : ∀ i, 0 ≤ x i) (hu : ∀ j, 0 ≤ upd j) (i : s.Idx) :
    0 ≤ Host.scatterAdd (F := Ideal) (φ := φ) d x idx upd i := by
  show 0 ≤ Ideal.hostScatterAdd d x idx upd i
  unfold Ideal.hostScatterAdd
  exact add_nonneg (hx i) (Finset.sum_nonneg fun j _ => hu j)

/-- The host's entrywise reciprocal square root, at an entry. -/
theorem hostRsqrt_apply {s : Shape} {φ : FTy} (x : FVec Ideal s φ) (i : s.Idx) :
    Host.rsqrt x i = Ideal.rsqrt (x i) :=
  rfl

/-- The entrywise maximum, at an entry. -/
theorem maximumf_apply {s : Shape} {φ : FTy} (x y : FVec Ideal s φ) (i : s.Idx) :
    maximumf x y i = max (x i) (y i) :=
  rfl

/-- The entrywise product, at an entry. -/
theorem mulf_apply {s : Shape} {φ : FTy} (x y : FVec Ideal s φ) (i : s.Idx) :
    mulf x y i = x i * y i :=
  rfl

/-- The reciprocal square root of a real floored at one is a real. -/
theorem rsqrt_max_one_real {x : EReal} (hx : IsR x) : IsR (Ideal.rsqrt (max x 1)) := by
  obtain ⟨r, rfl⟩ := hx
  have h1 : (1 : ℝ) ≤ max r 1 := le_max_right r 1
  have hm : max (r : EReal) 1 = ((max r 1 : ℝ) : EReal) := by
    rw [← EReal.coe_one]
    exact (EReal.coe_strictMono.monotone.map_max).symm
  rw [hm, Ideal.rsqrt_coe, if_neg (by linarith), if_neg (by linarith)]
  exact ⟨_, rfl⟩

end Cert.Lib.GlueEntries

end
-- ==== Proof.GlueReal.lean ====
/-
  THE SHARED GRAPH GLUE KEEPS REAL ENTRIES REAL, for every pair of index lists.

  The in-degree is a scatter-add of ones into zeros: each entry is zero plus a finite sum of ones, whichever updates
  land there, so it is a nonnegative real. The normaliser is the reciprocal square root of the degree floored at one:
  a real at least one has a real reciprocal root. The edge coefficient is a product of two gathered normalisers, and a
  gathered entry is an entry of the gathered array wherever the index points. The aggregation scatter-adds, into
  zeros, products of a gathered feature entry and a broadcast edge coefficient: each entry is zero plus a finite sum
  of products of reals.

  Nothing is asked of the index words: an out-of-range source is clamped by the gather and an out-of-range
  destination is dropped by the scatter, and neither produces a value that was not already there.
-/
import proofs.«104798_j89043261980674_1_alg».proof.Proof.RefStages
import proofs.«104798_j89043261980674_1_alg».proof.Proof.Spec
import proofs.«104798_j89043261980674_1_alg».proof.Proof.LibSageMean
import proofs.«104798_j89043261980674_1_alg».proof.Proof.LibMeanGcn
import proofs.«104798_j89043261980674_1_alg».proof.Proof.LibGlueEntries

noncomputable section

namespace Cert.Ref

open Idealize.ShloMosaic Cert.ReferenceIdeal Cert.ReferenceIdeal.Gen
open Cert.Lib.MeanGcn Cert.Lib.MeanAgg Cert.Lib.GlueEntries

/-- The array filled with the f32 word of 0.0 has the entry zero everywhere. -/
theorem zeros_apply {t : Shape} (h : S_.BroadcastsInDim t (![] : Fin 0 → Fin t.rank)) (j : t.Idx) :
    broadcastInDim t ![] h (constant (F := Ideal) S_ .f32 0x00000000#32) j = 0 :=
  ofBits_zero_f32

/-- The array filled with the f32 word of 1.0 has the entry one everywhere. -/
theorem ones_apply {t : Shape} (h : S_.BroadcastsInDim t (![] : Fin 0 → Fin t.rank)) (j : t.Idx) :
    broadcastInDim t ![] h (constant (F := Ideal) S_ .f32 0x3F800000#32) j = 1 :=
  ofBits_one_f32

/-- The degree's entries are reals. -/
theorem deg_real (t : (⟨S740000, .i32⟩ : BufTy).Contents (Elt Ideal)) : Cert.Spec.IsReal (deg (F := Ideal) t) := by
  intro i
  unfold deg
  exact scatterAdd_real _ _ _ _ (fun j => by rw [zeros_apply]; exact IsR.zero)
    (fun j => by rw [ones_apply]; exact IsR.one) i

/-- The degree's entries are nonnegative. -/
theorem deg_nonneg (t : (⟨S740000, .i32⟩ : BufTy).Contents (Elt Ideal)) (i : S100000.Idx) :
    0 ≤ deg (F := Ideal) t i := by
  unfold deg
  exact scatterAdd_nonneg _ _ _ _ (fun j => (zeros_apply _ j).ge) (fun j => by rw [ones_apply]; exact zero_le_one) i

/-- The normaliser's entries are reals. -/
theorem dinv_real (t : (⟨S740000, .i32⟩ : BufTy).Contents (Elt Ideal)) : Cert.Spec.IsReal (dinv (F := Ideal) t) := by
  intro i
  unfold dinv
  rw [hostRsqrt_apply, maximumf_apply, ones_apply]
  exact rsqrt_max_one_real (deg_real t i)

/-- The edge coefficient's entries are reals. -/
theorem norm_real (s t : (⟨S740000, .i32⟩ : BufTy).Contents (Elt Ideal)) :
    Cert.Spec.IsReal (norm (F := Ideal) s t) := by
  intro i
  unfold norm
  rw [mulf_apply]
  exact IsR.mul (gather_entries IsR _ _ _ (dinv_real t) i) (gather_entries IsR _ _ _ (dinv_real t) i)

/-- The aggregate of a [100000,128] array of reals has real entries. -/
theorem agg128_real (s t : (⟨S740000, .i32⟩ : BufTy).Contents (Elt Ideal))
    (h : (⟨S100000x128, .f32⟩ : BufTy).Contents (Elt Ideal)) (hh : Cert.Spec.IsReal h) :
    Cert.Spec.IsReal (agg128 (F := Ideal) s t h) := by
  intro i
  unfold agg128
  refine scatterAdd_real _ _ _ _ (fun j => by rw [zeros_apply]; exact IsR.zero) (fun j => ?_) i
  rw [mulf_apply]
  exact IsR.mul (gather_entries IsR _ _ _ hh j)
    (broadcast_entries IsR _ _ _ (broadcast_entries IsR _ _ _ (norm_real s t)) j)

/-- The aggregate of a [100000,40] array of reals has real entries. -/
theorem agg40_real (s t : (⟨S740000, .i32⟩ : BufTy).Contents (Elt Ideal))
    (h : (⟨S100000x40, .f32⟩ : BufTy).Contents (Elt Ideal)) (hh : Cert.Spec.IsReal h) :
    Cert.Spec.IsReal (agg40 (F := Ideal) s t h) := by
  intro i
  unfold agg40
  refine scatterAdd_real _ _ _ _ (fun j => by rw [zeros_apply]; exact IsR.zero) (fun j => ?_) i
  rw [mulf_apply]
  exact IsR.mul (gather_entries IsR _ _ _ hh j)
    (broadcast_entries IsR _ _ _ (broadcast_entries IsR _ _ _ (norm_real s t)) j)

end Cert.Ref

end
-- ==== Proof.Finite.lean ====
/-
  The precondition read back: each float argument is tested entrywise for |x| < +∞ and the tests are joined by
  'and' down to one bit; that bit being 1 says every entry of every float argument is a real number.
-/
import proofs.«104798_j89043261980674_1_alg».proof.Pre_finite_inputs
import proofs.«104798_j89043261980674_1_alg».proof.Proof.Spec
import Idealize.ShloMosaic.Lib.ReduceAll
import Idealize.ShloMosaic.Lib.ValueIdx

noncomputable section

namespace Cert.Finite

open Idealize.ShloMosaic Cert.Pre_finite_inputs

instance : Subsingleton S_.Idx := ⟨fun _ _ => funext fun d => d.elim0⟩

/-- The word of +∞ denotes the top element. -/
theorem ofBits_inf : Ideal.ofBits .f32 0x7F800000#32 = ⊤ := by
  simp [Ideal.ofBits, Ideal.ieee]

/-- An extended real whose absolute value is below +∞ is a real. -/
theorem real_of_abs_lt_top (x : EReal) (h : Ideal.cmp .olt (max x (-x)) ⊤ = 1#1) : ∃ r : ℝ, x = (r : EReal) := by
  induction x using EReal.rec with
  | bot => simp [Ideal.cmp] at h
  | top => simp [Ideal.cmp] at h
  | coe r => exact ⟨r, rfl⟩

/-- The entrywise test |v| < +∞ being 1 everywhere says every entry of v is a real. -/
theorem real_of_flags {s : Shape} (hb : S_.BroadcastsInDim s ![]) (v : FVec Ideal s .f32)
    (h : ∀ i, cmpf .olt (Host.absf v) (broadcastInDim s ![] hb (constant S_ .f32 0x7F800000#32)) i = 1#1) :
    Cert.Spec.IsReal v := by
  intro i
  have hi := h i
  refine real_of_abs_lt_top (v i) ?_
  rw [← ofBits_inf]
  exact hi

variable [Cert.Pre_finite_inputs.Facts]

/-- All eleven float arguments are arrays of reals when the precondition's bit is 1. -/
theorem args_real (x : FVec Ideal S100000x128 .f32) (a1 a2 : IVec S640000 32) (w1 : FVec Ideal S128x128 .f32)
    (b1 : FVec Ideal S128 .f32) (w2 : FVec Ideal S128x128 .f32) (b2 : FVec Ideal S128 .f32)
    (w3 : FVec Ideal S128x40 .f32) (b3 : FVec Ideal S40 .f32) (g1 be1 g2 be2 : FVec Ideal S128 .f32)
    (h : fn (F := Ideal) x a1 a2 w1 b1 w2 b2 w3 b3 g1 be1 g2 be2 = fun _ => 1#1) :
    Cert.Spec.IsReal x ∧ Cert.Spec.IsReal w1 ∧ Cert.Spec.IsReal b1 ∧ Cert.Spec.IsReal w2 ∧ Cert.Spec.IsReal b2
      ∧ Cert.Spec.IsReal w3 ∧ Cert.Spec.IsReal b3 ∧ Cert.Spec.IsReal g1 ∧ Cert.Spec.IsReal be1
      ∧ Cert.Spec.IsReal g2 ∧ Cert.Spec.IsReal be2 := by
  have h0 := congrFun h ValueIdx.ix0
  dsimp only [fn, fn_part1, fn_part2, fn_part3] at h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨e0, e3⟩ := IntOp.andi_eq_one.1 h0
  exact ⟨real_of_flags _ x (Host.reduce_andi_all _ _ _ _ _ e0), real_of_flags _ w1 (Host.reduce_andi_all _ _ _ _ _ e3),
    real_of_flags _ b1 (Host.reduce_andi_all _ _ _ _ _ e4), real_of_flags _ w2 (Host.reduce_andi_all _ _ _ _ _ e5),
    real_of_flags _ b2 (Host.reduce_andi_all _ _ _ _ _ e6), real_of_flags _ w3 (Host.reduce_andi_all _ _ _ _ _ e7),
    real_of_flags _ b3 (Host.reduce_andi_all _ _ _ _ _ e8), real_of_flags _ g1 (Host.reduce_andi_all _ _ _ _ _ e9),
    real_of_flags _ be1 (Host.reduce_andi_all _ _ _ _ _ e10), real_of_flags _ g2 (Host.reduce_andi_all _ _ _ _ _ e11),
    real_of_flags _ be2 (Host.reduce_andi_all _ _ _ _ _ e12)⟩

end Cert.Finite

end
-- ==== Proof.Bridge.lean ====
/-
  The two programs' results are equal under the precondition: both are the whole-array model; the aggregations are
  the same host operations; the variance rows agree by the variance law, which needs every entry that enters a
  batch statistic to be a real — that follows from the finiteness of the inputs, because products, gathers,
  scatter-adds and the normalisation by a positive variance plus ε keep real entries real.
-/
import proofs.«104798_j89043261980674_1_alg».proof.Proof.KerOut
import proofs.«104798_j89043261980674_1_alg».proof.Proof.RefOut
import proofs.«104798_j89043261980674_1_alg».proof.Proof.GlueReal
import proofs.«104798_j89043261980674_1_alg».proof.Proof.Finite
import proofs.«104798_j89043261980674_1_alg».proof.Proof.Consts

noncomputable section

namespace Cert.Bridge

open Idealize.ShloMosaic Idealize.ShloMosaic.TcCoe
open Cert.KernelIdeal Cert.KernelIdeal.Gen Cert.Spec

variable [Cert.Pre_finite_inputs.Facts]

/-- Under the precondition the kernel program's result buffer ends at the reference model of the arguments. -/
theorem ker_eq_ref (m : (ℓ : Loc nD τ sig) → Buf (Elt Ideal) ℓ) (ρ : Dev nD → PrngReg) (c : Dev nD)
    (hpre : Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) = fun _ => 1#1) :
    W14 (F := Ideal) m ρ c (Proc.devRef .tc main_v90) = Cert.Ref.out (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  obtain ⟨hx, hw1, hb1, hw2, hb2, hw3, hb3, hg1, hbe1, hg2, hbe2⟩ :=
    Cert.Finite.args_real _ _ _ _ _ _ _ _ _ _ _ _ _ hpre
  have hagg : Cert.Ker.aggK m c
      = Cert.Ref.agg128 (F := Ideal) (Cert.Ref.sIdx (m ((c : Thread nD τ).loc main_arg1))) (Cert.Ref.tIdx (m ((c : Thread nD τ).loc main_arg2))) := by
    funext h
    show Cert.Ker.agg128 (F := Ideal) _ _ h = _
    rw [Cert.Ker.agg128_eq, Cert.Ker.sIdx_eq, Cert.Ker.tIdx_eq]
  have hagg' : Cert.Ker.aggK' m c
      = Cert.Ref.agg40 (F := Ideal) (Cert.Ref.sIdx (m ((c : Thread nD τ).loc main_arg1))) (Cert.Ref.tIdx (m ((c : Thread nD τ).loc main_arg2))) := by
    funext h
    show Cert.Ker.agg40 (F := Ideal) _ _ h = _
    rw [Cert.Ker.agg40_eq, Cert.Ker.sIdx_eq, Cert.Ker.tIdx_eq]
  have key := model_varM_eq_varD (n := 100000) (k := 128) (c := 128) (c' := 40)
    (Cert.Ref.agg128 (F := Ideal) (Cert.Ref.sIdx (m ((c : Thread nD τ).loc main_arg1))) (Cert.Ref.tIdx (m ((c : Thread nD τ).loc main_arg2))))
    (Cert.Ref.agg40 (F := Ideal) (Cert.Ref.sIdx (m ((c : Thread nD τ).loc main_arg1))) (Cert.Ref.tIdx (m ((c : Thread nD τ).loc main_arg2))))
    (fun h hh => Cert.Ref.agg128_real _ _ h hh) (by norm_num) (by norm_num)
    (Ideal.ofBits .f32 0x3727C5AC#32) Cert.Consts.ofBits_eps
    (m ((c : Thread nD τ).loc main_arg0)) (m ((c : Thread nD τ).loc main_arg3)) (rowOf (m ((c : Thread nD τ).loc main_arg4))) (rowOf (m ((c : Thread nD τ).loc main_arg9))) (rowOf (m ((c : Thread nD τ).loc main_arg10)))
    (m ((c : Thread nD τ).loc main_arg5)) (rowOf (m ((c : Thread nD τ).loc main_arg6))) (rowOf (m ((c : Thread nD τ).loc main_arg11))) (rowOf (m ((c : Thread nD τ).loc main_arg12))) (m ((c : Thread nD τ).loc main_arg7)) (rowOf (m ((c : Thread nD τ).loc main_arg8)))
    hx hw1 (rowOf_real _ hb1) (rowOf_real _ hg1) (rowOf_real _ hbe1) hw2 (rowOf_real _ hb2)
  simp only [Nat.cast_ofNat] at key
  rw [Cert.Ker.out_eq, Cert.Ref.out_eq, hagg, hagg']
  exact key

end Cert.Bridge

end
-- ==== Proof.lean ====
/-
  A three-layer graph-convolution network — X ↦ log-softmax(Â·relu(BN(Â·relu(BN(Â·X·W₁ + b₁))·W₂ + b₂))·W₃ + b₃) with
  Â the symmetrically normalised adjacency with self loops and BN the batch normalisation over the 100000 nodes —
  computed by eight tiled kernels among host gathers and scatter-adds, against the plain whole-array model.

  Both programs aggregate with the same host operations, and every dense layer means the same entry-by-entry function
  of whole arrays in its tiled spelling and in its whole-array spelling (a product rounded to a narrower format is the
  product at the ideal values; a sum taken block by block is the sum). The one difference is the variance of a column:
  the kernels form E[x²] − E[x]² from running sums, the model the mean of squared deviations. On real entries these are
  equal; on the extended reals the law fails at an infinity, so the finiteness of the inputs is used: products, gathers,
  scatter-adds of reals, and the normalisation by a positive variance plus ε keep every entry a real through both
  hidden layers.
-/
import proofs.«104798_j89043261980674_1_alg».proof.Defs
import proofs.«104798_j89043261980674_1_alg».proof.Proof.Gen.Kernel
import proofs.«104798_j89043261980674_1_alg».proof.Proof.Gen.Kernel.Frame
import proofs.«104798_j89043261980674_1_alg».proof.Proof.Gen.KernelIdeal
import proofs.«104798_j89043261980674_1_alg».proof.Proof.Gen.KernelIdeal.Frame
import proofs.«104798_j89043261980674_1_alg».proof.Proof.Gen.ReferenceIdeal
import proofs.«104798_j89043261980674_1_alg».proof.Proof.Gen.Pre_finite_inputs
import proofs.«104798_j89043261980674_1_alg».proof.Proof.KerRun
import proofs.«104798_j89043261980674_1_alg».proof.Proof.RefRun
import proofs.«104798_j89043261980674_1_alg».proof.Proof.Bridge
import Idealize.ShloMosaic.Adequacy
import Idealize.ShloMosaic.Init

noncomputable section

namespace Cert.Proof

open Idealize.ShloMosaic Idealize.SL.Sem

/-- The word-level kernel program runs and keeps its arguments. -/
theorem frame_kernel : @Cert.frame_Kernel Cert.Kernel.Gen.facts Cert.Pre_finite_inputs.Gen.facts :=
  fun m ρ _ => Cert.Kernel.Gen.frame m ρ

/-- The idealized kernel program runs and keeps its arguments. -/
theorem frame_kernelIdeal : @Cert.frame_KernelIdeal Cert.KernelIdeal.Gen.facts Cert.Pre_finite_inputs.Gen.facts :=
  fun m ρ _ => Cert.KernelIdeal.Gen.frame m ρ

/-- The reference runs and keeps its arguments: its run with the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2) (Cert.Ref.run m ρ)

/-- From memories agreeing on the arguments both idealized programs end, with the model's result. -/
theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨fun c => Cert.Ref.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun _ h c => ⟨(h c).1.trans (Cert.Bridge.ker_eq_ref m ρ c (hpre c)), (h c).2⟩) (Cert.Ker.run (F := Ideal) m ρ)
  · refine (θ_run Cert.ReferenceIdeal.defs _ _).mono (fun _ h c => ⟨(h c).1.trans ?_, (h c).2⟩) (Cert.Ref.run m' ρ')
    rw [(hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2.1,
      (hagree c).2.2.2.2.2.2.2.2.2.1, (hagree c).2.2.2.2.2.2.2.2.2.2.1, (hagree c).2.2.2.2.2.2.2.2.2.2.2.1,
      (hagree c).2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
